-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S256x784 .f32
  ∧ IdealRules.sign_bit.Statement Cert.KernelIdeal.S256x4096 .f32
  ∧ IdealRules.sign_bit.Statement Cert.KernelIdeal.S256x4096 .f32
  ∧ IdealRules.sign_bit.Statement Cert.KernelIdeal.S10x4096 .f32
  ∧ IdealRules.sign_bit.Statement Cert.KernelIdeal.S256x4096 .f32
  ∧ IdealRules.sign_bit.Statement Cert.KernelIdeal.S256x4096 .f32
  ∧ IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S10x4096 : S_.BroadcastsInDim S10x4096 (![] : Fin 0 → Fin S10x4096.rank)
  reducesTo_S10x4096_S_d0_1 : S10x4096.ReducesTo [0, 1] S_
  bcast_S_S4096 : S_.BroadcastsInDim S4096 (![] : Fin 0 → Fin S4096.rank)
  reducesTo_S4096_S_d0 : S4096.ReducesTo [0] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_arg12 : FVec F S10 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S4096 .f32) (main_arg8 : FVec F S4096 .f32) (main_arg9 : FVec F S4096 .f32) (main_arg10 : FVec F S4096 .f32) (main_arg11 : FVec F S10 .f32) (main_arg12 : FVec F S10 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S10x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S10 .f32) (main_arg12 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S10x4096 .f32 := Host.absf main_arg4
  let main_cst_6 : FVec F S_ .f32 := constant S_ .f32 0x7F800000#32
  let main_v20 : FVec F S10x4096 .f32 := broadcastInDim S10x4096 ![] bcast_S_S10x4096 main_cst_6
  let main_v21 : IVec S10x4096 1 := cmpf .olt main_v19 main_v20
  let main_c_7 : IVec S_ 1 := constantI S_ 1 1#1
  let main_v22 : IVec S_ 1 := (fun x v => Host.reduce IntOp.andi x v reducesTo_S10x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x784 .f32) (main_arg1 : FVec F S4096x784 .f32) (main_arg2 : FVec F S4096x4096 .f32) (main_arg3 : FVec F S4096x4096 .f32) (main_arg4 : FVec F S10x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S10 .f32) (main_arg12 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S256x784 : Shape := ⟨2, ![256, 784]⟩
abbrev S256x4096 : Shape := ⟨2, ![256, 4096]⟩
abbrev S8192x4096 : Shape := ⟨2, ![8192, 4096]⟩
abbrev S1x4096 : Shape := ⟨2, ![1, 4096]⟩
abbrev S1024x784 : Shape := ⟨2, ![1024, 784]⟩
abbrev S256x1024 : Shape := ⟨2, ![256, 1024]⟩
abbrev S1x1024 : Shape := ⟨2, ![1, 1024]⟩
abbrev S1024 : Shape := ⟨1, ![1024]⟩
abbrev S1024x4096 : Shape := ⟨2, ![1024, 4096]⟩
abbrev S8192x10 : Shape := ⟨2, ![8192, 10]⟩
abbrev S1x10 : Shape := ⟨2, ![1, 10]⟩
abbrev S256x10 : Shape := ⟨2, ![256, 10]⟩
abbrev S1024x10 : Shape := ⟨2, ![1024, 10]⟩

abbrev nBuf : Space → Nat
  | .hbm => 38
  | .vmem => 71
  | .smem => 0
  | _ => 0

abbrev bufTy : (tb : Table) → Fin (tcTables nBuf tb) → BufTy
  | .hbm, ⟨0, _⟩ => ⟨S8192x784, .f32⟩
  | .hbm, ⟨1, _⟩ => ⟨S4096x784, .f32⟩
  | .hbm, ⟨2, _⟩ => ⟨S4096x4096, .f32⟩
  | .hbm, ⟨3, _⟩ => ⟨S4096x4096, .f32⟩
  | .hbm, ⟨4, _⟩ => ⟨S10x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S10, .f32⟩
  | .hbm, ⟨12, _⟩ => ⟨S10, .f32⟩
  | .hbm, ⟨13, _⟩ => ⟨S4096x784, .bf16⟩
  | .hbm, ⟨14, _⟩ => ⟨S4096x4096, .bf16⟩
  | .hbm, ⟨15, _⟩ => ⟨S4096x4096, .bf16⟩
  | .hbm, ⟨16, _⟩ => ⟨S10x4096, .bf16⟩
  | .hbm, ⟨17, _⟩ => ⟨S8192x4096, .bf16⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S8192x4096, .bf16⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S8192x4096, .bf16⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S8192x10, .f32⟩
  | .hbm, ⟨33, _⟩ => ⟨S1x10, .f32⟩
  | .hbm, ⟨34, _⟩ => ⟨S1x10, .f32⟩
  | .hbm, ⟨35, _⟩ => ⟨S1x10, .f32⟩
  | .hbm, ⟨36, _⟩ => ⟨S1x10, .f32⟩
  | .hbm, ⟨37, _⟩ => ⟨S8192x10, .f32⟩
  | .local _ .vmem, ⟨0, _⟩ => ⟨S256x784, .f32⟩
  | .local _ .vmem, ⟨1, _⟩ => ⟨S256x784, .f32⟩
  | .local _ .vmem, ⟨2, _⟩ => ⟨S256x784, .bf16⟩
  | .local _ .vmem, ⟨3, _⟩ => ⟨S256x784, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S10x4096, .f32⟩
  | .local _ .vmem, ⟨13, _⟩ => ⟨S10x4096, .bf16⟩
  | .local _ .vmem, ⟨14, _⟩ => ⟨S256x784, .f32⟩
  | .local _ .vmem, ⟨15, _⟩ => ⟨S256x784, .f32⟩
  | .local _ .vmem, ⟨16, _⟩ => ⟨S1024x784, .bf16⟩
  | .local _ .vmem, ⟨17, _⟩ => ⟨S1024x784, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S256x4096, .bf16⟩
  | .local _ .vmem, ⟨25, _⟩ => ⟨S256x4096, .bf16⟩
  | .local _ .vmem, ⟨26, _⟩ => ⟨S1x4096, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .vmem, ⟨30, _⟩ => ⟨S1024x4096, .bf16⟩
  | .local _ .vmem, ⟨31, _⟩ => ⟨S1024x4096, .bf16⟩
  | .local _ .vmem, ⟨32, _⟩ => ⟨S256x1024, .bf16⟩
  | .local _ .vmem, ⟨33, _⟩ => ⟨S256x1024, .bf16⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S256x4096, .bf16⟩
  | .local _ .vmem, ⟨39, _⟩ => ⟨S256x4096, .bf16⟩
  | .local _ .vmem, ⟨40, _⟩ => ⟨S1x4096, .f32⟩
  | .local _ .vmem, ⟨41, _⟩ => ⟨S1x4096, .f32⟩
  | .local _ .vmem, ⟨42, _⟩ => ⟨S1x4096, .f32⟩
  | .local _ .vmem, ⟨43, _⟩ => ⟨S1x4096, .f32⟩
  | .local _ .vmem, ⟨44, _⟩ => ⟨S1024x4096, .bf16⟩
  | .local _ .vmem, ⟨45, _⟩ => ⟨S1024x4096, .bf16⟩
  | .local _ .vmem, ⟨46, _⟩ => ⟨S256x1024, .bf16⟩
  | .local _ .vmem, ⟨47, _⟩ => ⟨S256x1024, .bf16⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S256x4096, .bf16⟩
  | .local _ .vmem, ⟨53, _⟩ => ⟨S256x4096, .bf16⟩
  | .local _ .vmem, ⟨54, _⟩ => ⟨S1x4096, .f32⟩
  | .local _ .vmem, ⟨55, _⟩ => ⟨S1x4096, .f32⟩
  | .local _ .vmem, ⟨56, _⟩ => ⟨S1x4096, .f32⟩
  | .local _ .vmem, ⟨57, _⟩ => ⟨S1x4096, .f32⟩
  | .local _ .vmem, ⟨58, _⟩ => ⟨S10x4096, .bf16⟩
  | .local _ .vmem, ⟨59, _⟩ => ⟨S256x10, .f32⟩
  | .local _ .vmem, ⟨60, _⟩ => ⟨S256x10, .f32⟩
  | .local _ .vmem, ⟨61, _⟩ => ⟨S1x10, .f32⟩
  | .local _ .vmem, ⟨62, _⟩ => ⟨S1x10, .f32⟩
  | .local _ .vmem, ⟨63, _⟩ => ⟨S1024x10, .f32⟩
  | .local _ .vmem, ⟨64, _⟩ => ⟨S1024x10, .f32⟩
  | .local _ .vmem, ⟨65, _⟩ => ⟨S1x10, .f32⟩
  | .local _ .vmem, ⟨66, _⟩ => ⟨S1x10, .f32⟩
  | .local _ .vmem, ⟨67, _⟩ => ⟨S1x10, .f32⟩
  | .local _ .vmem, ⟨68, _⟩ => ⟨S1x10, .f32⟩
  | .local _ .vmem, ⟨69, _⟩ => ⟨S1024x10, .f32⟩
  | .local _ .vmem, ⟨70, _⟩ => ⟨S1024x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg1_0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg1_1 : Ref sig .tc := ⟨.vmem, 17, rfl⟩
abbrev cc4_stg2_0 : Ref sig .tc := ⟨.vmem, 18, rfl⟩
abbrev cc4_stg2_1 : Ref sig .tc := ⟨.vmem, 19, rfl⟩
abbrev cc4_stg3_0 : Ref sig .tc := ⟨.vmem, 20, rfl⟩
abbrev cc4_stg3_1 : Ref sig .tc := ⟨.vmem, 21, rfl⟩
abbrev cc4_stg4_0 : Ref sig .tc := ⟨.vmem, 22, rfl⟩
abbrev cc4_stg4_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg4_0 : Ref sig .tc := ⟨.vmem, 29, rfl⟩
abbrev cc5_stg5_0 : Ref sig .tc := ⟨.vmem, 30, rfl⟩
abbrev cc5_stg5_1 : Ref sig .tc := ⟨.vmem, 31, rfl⟩
abbrev cc5_stg6_0 : Ref sig .tc := ⟨.vmem, 32, rfl⟩
abbrev cc5_stg6_1 : Ref sig .tc := ⟨.vmem, 33, rfl⟩
abbrev cc5_stg7_0 : Ref sig .tc := ⟨.vmem, 34, rfl⟩
abbrev cc5_stg7_1 : Ref sig .tc := ⟨.vmem, 35, rfl⟩
abbrev cc5_stg8_0 : Ref sig .tc := ⟨.vmem, 36, rfl⟩
abbrev cc5_stg8_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg5_0 : Ref sig .tc := ⟨.vmem, 44, rfl⟩
abbrev cc6_stg5_1 : Ref sig .tc := ⟨.vmem, 45, rfl⟩
abbrev cc6_stg6_0 : Ref sig .tc := ⟨.vmem, 46, rfl⟩
abbrev cc6_stg6_1 : Ref sig .tc := ⟨.vmem, 47, rfl⟩
abbrev cc6_stg7_0 : Ref sig .tc := ⟨.vmem, 48, rfl⟩
abbrev cc6_stg7_1 : Ref sig .tc := ⟨.vmem, 49, rfl⟩
abbrev cc6_stg8_0 : Ref sig .tc := ⟨.vmem, 50, rfl⟩
abbrev cc6_stg8_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg6_0 : Ref sig .tc := ⟨.vmem, 59, rfl⟩
abbrev cc7_stg6_1 : Ref sig .tc := ⟨.vmem, 60, rfl⟩
abbrev cc7_stg7_0 : Ref sig .tc := ⟨.vmem, 61, rfl⟩
abbrev cc7_stg8_0 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg5_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem1_0 : DmaSem sig := 13
abbrev cc4_sem0_0 : DmaSem sig := 14
abbrev cc4_sem0_1 : DmaSem sig := 15
abbrev cc4_sem1_0 : DmaSem sig := 16
abbrev cc4_sem1_1 : DmaSem sig := 17
abbrev cc4_sem2_0 : DmaSem sig := 18
abbrev cc4_sem2_1 : DmaSem sig := 19
abbrev cc4_sem3_0 : DmaSem sig := 20
abbrev cc4_sem3_1 : DmaSem sig := 21
abbrev cc4_sem4_0 : DmaSem sig := 22
abbrev cc4_sem4_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30
abbrev cc5_sem5_1 : DmaSem sig := 31
abbrev cc5_sem6_0 : DmaSem sig := 32
abbrev cc5_sem6_1 : DmaSem sig := 33
abbrev cc5_sem7_0 : DmaSem sig := 34
abbrev cc5_sem7_1 : DmaSem sig := 35
abbrev cc5_sem8_0 : DmaSem sig := 36
abbrev cc5_sem8_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem4_0 : DmaSem sig := 43
abbrev cc6_sem5_0 : DmaSem sig := 44
abbrev cc6_sem5_1 : DmaSem sig := 45
abbrev cc6_sem6_0 : DmaSem sig := 46
abbrev cc6_sem6_1 : DmaSem sig := 47
abbrev cc6_sem7_0 : DmaSem sig := 48
abbrev cc6_sem7_1 : DmaSem sig := 49
abbrev cc6_sem8_0 : DmaSem sig := 50
abbrev cc6_sem8_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem6_0 : DmaSem sig := 59
abbrev cc7_sem6_1 : DmaSem sig := 60
abbrev cc7_sem7_0 : DmaSem sig := 61
abbrev cc7_sem8_0 : DmaSem sig := 62
abbrev cc8_sem0_0 : DmaSem sig := 63
abbrev cc8_sem0_1 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem5_1 : DmaSem sig := 70

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S10x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev grid4 : Pipeline.Grid := ⟨2, ![4, 32], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S256x784 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x784 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![4, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x4096 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1024x4096 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S256x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S1x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev grid6 : Pipeline.Grid := ⟨2, ![4, 32], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S256x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x4096 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x4096 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x4096 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 2 → Memref sig .tc .vmem S1024x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev stage6_6 : Fin 2 → Memref sig .tc .vmem S256x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev stage6_8 : Fin 2 → Memref sig .tc .vmem S1x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev grid7 : Pipeline.Grid := ⟨2, ![1, 32], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S256x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S1x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x4096 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x4096 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x4096 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S10x4096 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true, false]

abbrev stage7_6 : Fin 2 → Memref sig .tc .vmem S256x10 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 1 → Memref sig .tc .vmem S1x10 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true, false]

abbrev stage7_8 : Fin 1 → Memref sig .tc .vmem S1x10 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x10 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x10 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  inb_S256x784_S256x784_0_0 : ∀ a, (![0, 0] : Fin 2 → Nat) a + S256x784.size a ≤ S256x784.size a
  h_S256x784 : 0 < S256x784.numel
  bitsLt_bf16_f32 : FTy.bits .bf16 < FTy.bits .f32
  packedbf16_S256x784_S256x784_0_0 : (Rect.unit (s := S256x784) ![0, 0] S256x784.size inb_S256x784_S256x784_0_0).PackedRows (EltTy.packing .bf16)
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S10x4096_S10x4096_0_0 : ∀ a, (![0, 0] : Fin 2 → Nat) a + S10x4096.size a ≤ S10x4096.size a
  h_S10x4096 : 0 < S10x4096.numel
  packedbf16_S10x4096_S10x4096_0_0 : (Rect.unit (s := S10x4096) ![0, 0] S10x4096.size inb_S10x4096_S10x4096_0_0).PackedRows (EltTy.packing .bf16)
  inb_S1x1024_S1x1024_0_0 : ∀ a, (![0, 0] : Fin 2 → Nat) a + S1x1024.size a ≤ S1x1024.size a
  h_S1x1024 : 0 < S1x1024.numel
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  shapeCasts_S1x1024_S1x1024 : S1x1024.ShapeCasts S1x1024
  reduces_S256x1024_S1024 : S256x1024.Reduces [0] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S256x4096_S256x4096 : S256x4096.ShapeCasts S256x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x10_S1x10_0_0 : ∀ a, (![0, 0] : Fin 2 → Nat) a + S1x10.size a ≤ S1x10.size a
  h_S1x10 : 0 < S1x10.numel
  shapeCasts_S10x4096_S10x4096 : S10x4096.ShapeCasts S10x4096
  shapeCasts_S1x10_S1x10 : S1x10.ShapeCasts S1x10
  reduces_S256x10_S10 : S256x10.Reduces [0] S10
  shapeCasts_S10_S1x10 : S10.ShapeCasts S1x10
  inb_S256x10_S256x10_0_0 : ∀ a, (![0, 0] : Fin 2 → Nat) a + S256x10.size a ≤ S256x10.size a
  h_S256x10 : 0 < S256x10.numel
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  broadcasts_S1x10_S1024x10 : S1x10.Broadcasts S1024x10
  dot_S256x784_S1024x784_S256x1024_1_1_0_0_n_n_wf : DotDims.WF S256x784 S1024x784 S256x1024 [1] [1] [0] [0] [] []
  dot_S256x4096_S1024x4096_S256x1024_1_1_0_0_n_n_wf : DotDims.WF S256x4096 S1024x4096 S256x1024 [1] [1] [0] [0] [] []
  dot_S256x4096_S10x4096_S256x10_1_1_0_0_n_n_wf : DotDims.WF S256x4096 S10x4096 S256x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S4096x784.size a
  hwx0_0 : ∀ i : grid0.Coords, EltTy.bits .f32 = 32 ∨ (Rect.block (s := S4096x784) S256x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x784.size a ≤ S4096x784.size a
  hwx0_1 : ∀ i : grid0.Coords, EltTy.bits .bf16 = 32 ∨ (Rect.block (s := S4096x784) S256x784.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .bf16 = 32 ∨ (Rect.block (s := S4096x4096) S256x4096.size (cc2_transform_1 i) (hinb2_1 i)).WholeWords (EltTy.packing .bf16)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S10x4096.size a ≤ S10x4096.size a
  hwx3_0 : ∀ i : grid3.Coords, EltTy.bits .f32 = 32 ∨ (Rect.block (s := S10x4096) S10x4096.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S10x4096.size a ≤ S10x4096.size a
  hwx3_1 : ∀ i : grid3.Coords, EltTy.bits .bf16 = 32 ∨ (Rect.block (s := S10x4096) S10x4096.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x784.size a ≤ S8192x784.size a
  hwx4_0 : ∀ i : grid4.Coords, EltTy.bits .f32 = 32 ∨ (Rect.block (s := S8192x784) S256x784.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x784.size a ≤ S4096x784.size a
  hwx4_1 : ∀ i : grid4.Coords, EltTy.bits .bf16 = 32 ∨ (Rect.block (s := S4096x784) S1024x784.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x1024.size a ≤ S8192x4096.size a
  hwx4_2 : ∀ i : grid4.Coords, EltTy.bits .bf16 = 32 ∨ (Rect.block (s := S8192x4096) S256x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x4096.size a
  hwx4_3 : ∀ i : grid4.Coords, EltTy.bits .f32 = 32 ∨ (Rect.block (s := S1x4096) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x4096.size a
  hwx4_4 : ∀ i : grid4.Coords, EltTy.bits .f32 = 32 ∨ (Rect.block (s := S1x4096) S1x1024.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x4096.size a ≤ S8192x4096.size a
  hwx5_0 : ∀ i : grid5.Coords, EltTy.bits .bf16 = 32 ∨ (Rect.block (s := S8192x4096) S256x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x4096.size a ≤ S1x4096.size a
  hwx5_1 : ∀ i : grid5.Coords, EltTy.bits .f32 = 32 ∨ (Rect.block (s := S1x4096) S1x4096.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x4096.size a ≤ S1x4096.size a
  hwx5_2 : ∀ i : grid5.Coords, EltTy.bits .f32 = 32 ∨ (Rect.block (s := S1x4096) S1x4096.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x4096.size a ≤ S1x4096.size a
  hwx5_3 : ∀ i : grid5.Coords, EltTy.bits .f32 = 32 ∨ (Rect.block (s := S1x4096) S1x4096.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x4096.size a ≤ S1x4096.size a
  hwx5_4 : ∀ i : grid5.Coords, EltTy.bits .f32 = 32 ∨ (Rect.block (s := S1x4096) S1x4096.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x4096.size a ≤ S4096x4096.size a
  hwx5_5 : ∀ i : grid5.Coords, EltTy.bits .bf16 = 32 ∨ (Rect.block (s := S4096x4096) S1024x4096.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S256x1024.size a ≤ S8192x4096.size a
  hwx5_6 : ∀ i : grid5.Coords, EltTy.bits .bf16 = 32 ∨ (Rect.block (s := S8192x4096) S256x1024.size (cc5_transform_6 i) (hinb5_6 i)).WholeWords (EltTy.packing .bf16)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x1024.size a ≤ S1x4096.size a
  hwx5_7 : ∀ i : grid5.Coords, EltTy.bits .f32 = 32 ∨ (Rect.block (s := S1x4096) S1x1024.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x1024.size a ≤ S1x4096.size a
  hwx5_8 : ∀ i : grid5.Coords, EltTy.bits .f32 = 32 ∨ (Rect.block (s := S1x4096) S1x1024.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x4096.size a ≤ S8192x4096.size a
  hwx6_0 : ∀ i : grid6.Coords, EltTy.bits .bf16 = 32 ∨ (Rect.block (s := S8192x4096) S256x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x4096.size a ≤ S1x4096.size a
  hwx6_1 : ∀ i : grid6.Coords, EltTy.bits .f32 = 32 ∨ (Rect.block (s := S1x4096) S1x4096.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x4096.size a ≤ S1x4096.size a
  hwx6_2 : ∀ i : grid6.Coords, EltTy.bits .f32 = 32 ∨ (Rect.block (s := S1x4096) S1x4096.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x4096.size a ≤ S1x4096.size a
  hwx6_3 : ∀ i : grid6.Coords, EltTy.bits .f32 = 32 ∨ (Rect.block (s := S1x4096) S1x4096.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x4096.size a ≤ S1x4096.size a
  hwx6_4 : ∀ i : grid6.Coords, EltTy.bits .f32 = 32 ∨ (Rect.block (s := S1x4096) S1x4096.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x4096.size a ≤ S4096x4096.size a
  hwx6_5 : ∀ i : grid6.Coords, EltTy.bits .bf16 = 32 ∨ (Rect.block (s := S4096x4096) S1024x4096.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S256x1024.size a ≤ S8192x4096.size a
  hwx6_6 : ∀ i : grid6.Coords, EltTy.bits .bf16 = 32 ∨ (Rect.block (s := S8192x4096) S256x1024.size (cc6_transform_6 i) (hinb6_6 i)).WholeWords (EltTy.packing .bf16)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x1024.size a ≤ S1x4096.size a
  hwx6_7 : ∀ i : grid6.Coords, EltTy.bits .f32 = 32 ∨ (Rect.block (s := S1x4096) S1x1024.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x1024.size a ≤ S1x4096.size a
  hwx6_8 : ∀ i : grid6.Coords, EltTy.bits .f32 = 32 ∨ (Rect.block (s := S1x4096) S1x1024.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x4096.size a ≤ S8192x4096.size a
  hwx7_0 : ∀ i : grid7.Coords, EltTy.bits .bf16 = 32 ∨ (Rect.block (s := S8192x4096) S256x4096.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x4096.size a ≤ S1x4096.size a
  hwx7_1 : ∀ i : grid7.Coords, EltTy.bits .f32 = 32 ∨ (Rect.block (s := S1x4096) S1x4096.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4096.size a ≤ S1x4096.size a
  hwx7_2 : ∀ i : grid7.Coords, EltTy.bits .f32 = 32 ∨ (Rect.block (s := S1x4096) S1x4096.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x4096.size a ≤ S1x4096.size a
  hwx7_3 : ∀ i : grid7.Coords, EltTy.bits .f32 = 32 ∨ (Rect.block (s := S1x4096) S1x4096.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x4096.size a ≤ S1x4096.size a
  hwx7_4 : ∀ i : grid7.Coords, EltTy.bits .f32 = 32 ∨ (Rect.block (s := S1x4096) S1x4096.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S10x4096.size a ≤ S10x4096.size a
  hwx7_5 : ∀ i : grid7.Coords, EltTy.bits .bf16 = 32 ∨ (Rect.block (s := S10x4096) S10x4096.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S256x10.size a ≤ S8192x10.size a
  hwx7_6 : ∀ i : grid7.Coords, EltTy.bits .f32 = 32 ∨ (Rect.block (s := S8192x10) S256x10.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S1x10.size a ≤ S1x10.size a
  hwx7_7 : ∀ i : grid7.Coords, EltTy.bits .f32 = 32 ∨ (Rect.block (s := S1x10) S1x10.size (cc7_transform_7 i) (hinb7_7 i)).WholeWords (EltTy.packing .f32)
  hstage7_8 : ∀ j, (stage7_8 j).IsWhole
  nbuf7_8 : grid7.bufCount reads7_8 false = 1
  hreads7_8 : ∀ i i' : grid7.Coords, (∀ a, reads7_8 a = true → i a = i' a) → cc7_transform_8 i = cc7_transform_8 i'
  hinb7_8 : ∀ (i : grid7.Coords) a, (cc7_transform_8 i a + 1) * S1x10.size a ≤ S1x10.size a
  hwx7_8 : ∀ i : grid7.Coords, EltTy.bits .f32 = 32 ∨ (Rect.block (s := S1x10) S1x10.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x10.size a ≤ S8192x10.size a
  hwx8_0 : ∀ i : grid8.Coords, EltTy.bits .f32 = 32 ∨ (Rect.block (s := S8192x10) S1024x10.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x10.size a ≤ S1x10.size a
  hwx8_1 : ∀ i : grid8.Coords, EltTy.bits .f32 = 32 ∨ (Rect.block (s := S1x10) S1x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x10.size a ≤ S1x10.size a
  hwx8_3 : ∀ i : grid8.Coords, EltTy.bits .f32 = 32 ∨ (Rect.block (s := S1x10) S1x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x10.size a ≤ S8192x10.size a
  hwx8_5 : ∀ i : grid8.Coords, EltTy.bits .f32 = 32 ∨ (Rect.block (s := S8192x10) S1024x10.size (cc8_transform_5 i) (hinb8_5 i)).WholeWords (EltTy.packing .f32)

variable [Facts₀]

def dot_S256x784_S1024x784_S256x1024_1_1_0_0_n_n : DotDims S256x784 S1024x784 S256x1024 where
  lhsContracting := [1]
  rhsContracting := [1]
  lhsNonContracting := [0]
  rhsNonContracting := [0]
  lhsBatch := []
  rhsBatch := []
  wf := dot_S256x784_S1024x784_S256x1024_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x4096_S10x4096_S256x10_1_1_0_0_n_n : DotDims S256x4096 S10x4096 S256x10 where
  lhsContracting := [1]
  rhsContracting := [1]
  lhsNonContracting := [0]
  rhsNonContracting := [0]
  lhsBatch := []
  rhsBatch := []
  wf := dot_S256x4096_S10x4096_S256x10_1_1_0_0_n_n_wf

abbrev win0_0 : Pipeline.Window sig grid0 :=
  Pipeline.Window.ofSpec (Memref.whole main_arg1) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x784.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg3) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x4096.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg4) S10x4096.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10x4096.size cc3_transform_1 reads3_1 true false 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg0) S256x784.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x784.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4_0) S256x1024.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4_1) S1x1024.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4_2) S1x1024.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v4_0) S256x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4_1) S1x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4_2) S1x4096.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S1x4096.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x4096.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v1) S1024x4096.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v7_0) S256x1024.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v7_1) S1x1024.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v7_2) S1x1024.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v7_0) S256x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7_1) S1x4096.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v7_2) S1x4096.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S1x4096.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v9) S1x4096.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v2) S1024x4096.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v10_0) S256x1024.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v10_1) S1x1024.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v10_2) S1x1024.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v10_0) S256x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10_1) S1x4096.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v10_2) S1x4096.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v11) S1x4096.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v12) S1x4096.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v3) S10x4096.size cc7_transform_5 reads7_5 false false 1 stage7_5 sem7_5
    hrank7 hreads7_5 hinb7_5 nbuf7_5 (Memref.isWhole_whole _) hwx7_5 hstage7_5

abbrev win7_6 : Pipeline.Window sig grid7 :=
  Pipeline.Window.ofSpec (Memref.whole main_v13_0) S256x10.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v13_1) S1x10.size cc7_transform_7 reads7_7 true false 1 stage7_7 sem7_7
    hrank7 hreads7_7 hinb7_7 nbuf7_7 (Memref.isWhole_whole _) hwx7_7 hstage7_7

abbrev win7_8 : Pipeline.Window sig grid7 :=
  Pipeline.Window.ofSpec (Memref.whole main_v13_2) S1x10.size cc7_transform_8 reads7_8 true false 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v13_0) S1024x10.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13_1) S1x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v13_2) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v14) S1x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v15) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v16) S1024x10.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S8192x784 : Shape := ⟨2, ![8192, 784]⟩
abbrev S4096x784 : Shape := ⟨2, ![4096, 784]⟩
abbrev S4096x4096 : Shape := ⟨2, ![4096, 4096]⟩
abbrev S10x4096 : Shape := ⟨2, ![10, 4096]⟩
abbrev S4096 : Shape := ⟨1, ![4096]⟩
abbrev S10 : Shape := ⟨1, ![10]⟩
abbrev S784x4096 : Shape := ⟨2, ![784, 4096]⟩
abbrev S8192x4096 : Shape := ⟨2, ![8192, 4096]⟩
abbrev S_ : Shape := ⟨0, ![]⟩
abbrev S1x4096 : Shape := ⟨2, ![1, 4096]⟩
abbrev S4096x10 : Shape := ⟨2, ![4096, 10]⟩
abbrev S8192x10 : Shape := ⟨2, ![8192, 10]⟩
abbrev S1x10 : Shape := ⟨2, ![1, 10]⟩

abbrev nBuf : Space → Nat
  | .hbm => 221
  | .vmem => 0
  | .smem => 0
  | _ => 0

abbrev hbmTy0_0 (i : Nat) : BufTy := match i % 128 with
  | 0 => ⟨S8192x784, .f32⟩
  | 1 => ⟨S4096x784, .f32⟩
  | 2 => ⟨S4096x4096, .f32⟩
  | 3 => ⟨S4096x4096, .f32⟩
  | 4 => ⟨S10x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S10, .f32⟩
  | 12 => ⟨S10, .f32⟩
  | 13 => ⟨S4096x784, .f32⟩
  | 14 => ⟨S4096x784, .f32⟩
  | 15 => ⟨S4096x784, .f32⟩
  | 16 => ⟨S784x4096, .f32⟩
  | 17 => ⟨S8192x4096, .f32⟩
  | 18 => ⟨S_, .f32⟩
  | 19 => ⟨S4096, .f32⟩
  | 20 => ⟨S_, .f32⟩
  | 21 => ⟨S4096, .f32⟩
  | 22 => ⟨S4096, .f32⟩
  | 23 => ⟨S_, .i32⟩
  | 24 => ⟨S_, .f32⟩
  | 25 => ⟨S4096, .f32⟩
  | 26 => ⟨S1x4096, .f32⟩
  | 27 => ⟨S_, .f32⟩
  | 28 => ⟨S1x4096, .f32⟩
  | 29 => ⟨S1x4096, .f32⟩
  | 30 => ⟨S8192x4096, .f32⟩
  | 31 => ⟨S8192x4096, .f32⟩
  | 32 => ⟨S8192x4096, .f32⟩
  | 33 => ⟨S_, .f32⟩
  | 34 => ⟨S_, .f32⟩
  | 35 => ⟨S_, .f32⟩
  | 36 => ⟨S_, .f32⟩
  | 37 => ⟨S4096, .f32⟩
  | 38 => ⟨S4096, .f32⟩
  | 39 => ⟨S4096, .f32⟩
  | 40 => ⟨S_, .f32⟩
  | 41 => ⟨S_, .i1⟩
  | 42 => ⟨S_, .f32⟩
  | 43 => ⟨S_, .f32⟩
  | 44 => ⟨S4096, .f32⟩
  | 45 => ⟨S4096, .f32⟩
  | 46 => ⟨S1x4096, .f32⟩
  | 47 => ⟨S8192x4096, .f32⟩
  | 48 => ⟨S8192x4096, .f32⟩
  | 49 => ⟨S_, .f32⟩
  | 50 => ⟨S4096, .f32⟩
  | 51 => ⟨S4096, .f32⟩
  | 52 => ⟨S4096, .f32⟩
  | 53 => ⟨S1x4096, .f32⟩
  | 54 => ⟨S8192x4096, .f32⟩
  | 55 => ⟨S8192x4096, .f32⟩
  | 56 => ⟨S1x4096, .f32⟩
  | 57 => ⟨S8192x4096, .f32⟩
  | 58 => ⟨S8192x4096, .f32⟩
  | 59 => ⟨S1x4096, .f32⟩
  | 60 => ⟨S8192x4096, .f32⟩
  | 61 => ⟨S8192x4096, .f32⟩
  | 62 => ⟨S8192x4096, .f32⟩
  | 63 => ⟨S8192x4096, .f32⟩
  | 64 => ⟨S8192x4096, .f32⟩
  | 65 => ⟨S8192x4096, .f32⟩
  | 66 => ⟨S4096x4096, .f32⟩
  | 67 => ⟨S4096x4096, .f32⟩
  | 68 => ⟨S4096x4096, .f32⟩
  | 69 => ⟨S4096x4096, .f32⟩
  | 70 => ⟨S8192x4096, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .i32⟩
  | 77 => ⟨S_, .f32⟩
  | 78 => ⟨S4096, .f32⟩
  | 79 => ⟨S1x4096, .f32⟩
  | 80 => ⟨S_, .f32⟩
  | 81 => ⟨S1x4096, .f32⟩
  | 82 => ⟨S1x4096, .f32⟩
  | 83 => ⟨S8192x4096, .f32⟩
  | 84 => ⟨S8192x4096, .f32⟩
  | 85 => ⟨S8192x4096, .f32⟩
  | 86 => ⟨S_, .f32⟩
  | 87 => ⟨S_, .f32⟩
  | 88 => ⟨S_, .f32⟩
  | 89 => ⟨S_, .f32⟩
  | 90 => ⟨S4096, .f32⟩
  | 91 => ⟨S4096, .f32⟩
  | 92 => ⟨S4096, .f32⟩
  | 93 => ⟨S_, .f32⟩
  | 94 => ⟨S_, .i1⟩
  | 95 => ⟨S_, .f32⟩
  | 96 => ⟨S_, .f32⟩
  | 97 => ⟨S4096, .f32⟩
  | 98 => ⟨S4096, .f32⟩
  | 99 => ⟨S1x4096, .f32⟩
  | 100 => ⟨S8192x4096, .f32⟩
  | 101 => ⟨S8192x4096, .f32⟩
  | 102 => ⟨S_, .f32⟩
  | 103 => ⟨S4096, .f32⟩
  | 104 => ⟨S4096, .f32⟩
  | 105 => ⟨S4096, .f32⟩
  | 106 => ⟨S1x4096, .f32⟩
  | 107 => ⟨S8192x4096, .f32⟩
  | 108 => ⟨S8192x4096, .f32⟩
  | 109 => ⟨S1x4096, .f32⟩
  | 110 => ⟨S8192x4096, .f32⟩
  | 111 => ⟨S8192x4096, .f32⟩
  | 112 => ⟨S1x4096, .f32⟩
  | 113 => ⟨S8192x4096, .f32⟩
  | 114 => ⟨S8192x4096, .f32⟩
  | 115 => ⟨S8192x4096, .f32⟩
  | 116 => ⟨S8192x4096, .f32⟩
  | 117 => ⟨S8192x4096, .f32⟩
  | 118 => ⟨S8192x4096, .f32⟩
  | 119 => ⟨S4096x4096, .f32⟩
  | 120 => ⟨S4096x4096, .f32⟩
  | 121 => ⟨S4096x4096, .f32⟩
  | 122 => ⟨S4096x4096, .f32⟩
  | 123 => ⟨S8192x4096, .f32⟩
  | 124 => ⟨S_, .f32⟩
  | 125 => ⟨S4096, .f32⟩
  | 126 => ⟨S_, .f32⟩
  | 127 => ⟨S4096, .f32⟩
  | _ => ⟨S8192x784, .f32⟩

abbrev hbmTy0_1 (i : Nat) : BufTy := match i % 128 with
  | 0 => ⟨S4096, .f32⟩
  | 1 => ⟨S_, .i32⟩
  | 2 => ⟨S_, .f32⟩
  | 3 => ⟨S4096, .f32⟩
  | 4 => ⟨S1x4096, .f32⟩
  | 5 => ⟨S_, .f32⟩
  | 6 => ⟨S1x4096, .f32⟩
  | 7 => ⟨S1x4096, .f32⟩
  | 8 => ⟨S8192x4096, .f32⟩
  | 9 => ⟨S8192x4096, .f32⟩
  | 10 => ⟨S8192x4096, .f32⟩
  | 11 => ⟨S_, .f32⟩
  | 12 => ⟨S_, .f32⟩
  | 13 => ⟨S_, .f32⟩
  | 14 => ⟨S_, .f32⟩
  | 15 => ⟨S4096, .f32⟩
  | 16 => ⟨S4096, .f32⟩
  | 17 => ⟨S4096, .f32⟩
  | 18 => ⟨S_, .f32⟩
  | 19 => ⟨S_, .i1⟩
  | 20 => ⟨S_, .f32⟩
  | 21 => ⟨S_, .f32⟩
  | 22 => ⟨S4096, .f32⟩
  | 23 => ⟨S4096, .f32⟩
  | 24 => ⟨S1x4096, .f32⟩
  | 25 => ⟨S8192x4096, .f32⟩
  | 26 => ⟨S8192x4096, .f32⟩
  | 27 => ⟨S_, .f32⟩
  | 28 => ⟨S4096, .f32⟩
  | 29 => ⟨S4096, .f32⟩
  | 30 => ⟨S4096, .f32⟩
  | 31 => ⟨S1x4096, .f32⟩
  | 32 => ⟨S8192x4096, .f32⟩
  | 33 => ⟨S8192x4096, .f32⟩
  | 34 => ⟨S1x4096, .f32⟩
  | 35 => ⟨S8192x4096, .f32⟩
  | 36 => ⟨S8192x4096, .f32⟩
  | 37 => ⟨S1x4096, .f32⟩
  | 38 => ⟨S8192x4096, .f32⟩
  | 39 => ⟨S8192x4096, .f32⟩
  | 40 => ⟨S8192x4096, .f32⟩
  | 41 => ⟨S8192x4096, .f32⟩
  | 42 => ⟨S8192x4096, .f32⟩
  | 43 => ⟨S8192x4096, .f32⟩
  | 44 => ⟨S10x4096, .f32⟩
  | 45 => ⟨S10x4096, .f32⟩
  | 46 => ⟨S10x4096, .f32⟩
  | 47 => ⟨S4096x10, .f32⟩
  | 48 => ⟨S8192x10, .f32⟩
  | 49 => ⟨S_, .f32⟩
  | 50 => ⟨S10, .f32⟩
  | 51 => ⟨S_, .f32⟩
  | 52 => ⟨S10, .f32⟩
  | 53 => ⟨S10, .f32⟩
  | 54 => ⟨S_, .i32⟩
  | 55 => ⟨S_, .f32⟩
  | 56 => ⟨S10, .f32⟩
  | 57 => ⟨S1x10, .f32⟩
  | 58 => ⟨S_, .f32⟩
  | 59 => ⟨S1x10, .f32⟩
  | 60 => ⟨S1x10, .f32⟩
  | 61 => ⟨S8192x10, .f32⟩
  | 62 => ⟨S8192x10, .f32⟩
  | 63 => ⟨S8192x10, .f32⟩
  | 64 => ⟨S_, .f32⟩
  | 65 => ⟨S_, .f32⟩
  | 66 => ⟨S_, .f32⟩
  | 67 => ⟨S_, .f32⟩
  | 68 => ⟨S10, .f32⟩
  | 69 => ⟨S10, .f32⟩
  | 70 => ⟨S10, .f32⟩
  | 71 => ⟨S_, .f32⟩
  | 72 => ⟨S_, .i1⟩
  | 73 => ⟨S_, .f32⟩
  | 74 => ⟨S_, .f32⟩
  | 75 => ⟨S10, .f32⟩
  | 76 => ⟨S10, .f32⟩
  | 77 => ⟨S1x10, .f32⟩
  | 78 => ⟨S8192x10, .f32⟩
  | 79 => ⟨S8192x10, .f32⟩
  | 80 => ⟨S_, .f32⟩
  | 81 => ⟨S10, .f32⟩
  | 82 => ⟨S10, .f32⟩
  | 83 => ⟨S10, .f32⟩
  | 84 => ⟨S1x10, .f32⟩
  | 85 => ⟨S8192x10, .f32⟩
  | 86 => ⟨S8192x10, .f32⟩
  | 87 => ⟨S1x10, .f32⟩
  | 88 => ⟨S8192x10, .f32⟩
  | 89 => ⟨S8192x10, .f32⟩
  | 90 => ⟨S1x10, .f32⟩
  | 91 => ⟨S8192x10, .f32⟩
  | 92 => ⟨S8192x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_2 : Ref sig .tc := ⟨.hbm, 71, rfl⟩
abbrev main_v33 : Ref sig .tc := ⟨.hbm, 72, rfl⟩
abbrev main_cst_3 : Ref sig .tc := ⟨.hbm, 73, rfl⟩
abbrev main_v34 : Ref sig .tc := ⟨.hbm, 74, rfl⟩
abbrev main_v35 : Ref sig .tc := ⟨.hbm, 75, rfl⟩
abbrev main_c_4 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_5 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_6 : Ref sig .tc := ⟨.hbm, 124, rfl⟩
abbrev main_v61 : Ref sig .tc := ⟨.hbm, 125, rfl⟩
abbrev main_cst_7 : Ref sig .tc := ⟨.hbm, 126, rfl⟩
abbrev main_v62 : Ref sig .tc := ⟨.hbm, 127, rfl⟩
abbrev main_v63 : Ref sig .tc := ⟨.hbm, 128, rfl⟩
abbrev main_c_8 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_cst_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_cst_1 : Ref sig .tc := ⟨.hbm, 140, rfl⟩
abbrev main_call2_v8 : Ref sig .tc := ⟨.hbm, 141, rfl⟩
abbrev main_call2_cst_2 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_cst_3 : Ref sig .tc := ⟨.hbm, 146, rfl⟩
abbrev main_call2_v12 : Ref sig .tc := ⟨.hbm, 147, rfl⟩
abbrev main_call2_cst_4 : Ref sig .tc := ⟨.hbm, 148, rfl⟩
abbrev main_call2_call0_v0 : Ref sig .tc := ⟨.hbm, 149, rfl⟩
abbrev main_call2_call0_v1 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_cst_9 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_10 : Ref sig .tc := ⟨.hbm, 177, rfl⟩
abbrev main_v89 : Ref sig .tc := ⟨.hbm, 178, rfl⟩
abbrev main_cst_11 : Ref sig .tc := ⟨.hbm, 179, rfl⟩
abbrev main_v90 : Ref sig .tc := ⟨.hbm, 180, rfl⟩
abbrev main_v91 : Ref sig .tc := ⟨.hbm, 181, rfl⟩
abbrev main_c_12 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_cst_3 : Ref sig .tc := ⟨.hbm, 199, rfl⟩
abbrev main_call3_v12 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_cst_13 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩

abbrev nD : Nat := 1
abbrev τ : Topo := Topo.v7x

variable {F : FTy → Type} [FloatOps F]

class Facts₀ : Prop where
  transposes_S4096x784_S784x4096_1_0 : S4096x784.Transposes [1, 0] S784x4096
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S8192x4096_0_1 : S1x4096.BroadcastsInDim S8192x4096 (![0, 1] : Fin 2 → Fin S8192x4096.rank)
  transposes_S4096x4096_S4096x4096_1_0 : S4096x4096.Transposes [1, 0] S4096x4096
  transposes_S10x4096_S4096x10_1_0 : S10x4096.Transposes [1, 0] S4096x10
  reducesTo_S8192x10_S10_d0 : S8192x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S8192x10_0_1 : S1x10.BroadcastsInDim S8192x10 (![0, 1] : Fin 2 → Fin S8192x10.rank)
  dot_S8192x784_S784x4096_S8192x4096_1_0_0_1_n_n_wf : DotDims.WF S8192x784 S784x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x10_S8192x10_1_0_0_1_n_n_wf : DotDims.WF S8192x4096 S4096x10 S8192x10 [1] [0] [0] [1] [] []

variable [Facts₀]

def dot_S8192x784_S784x4096_S8192x4096_1_0_0_1_n_n : DotDims S8192x784 S784x4096 S8192x4096 where
  lhsContracting := [1]
  rhsContracting := [0]
  lhsNonContracting := [0]
  rhsNonContracting := [1]
  lhsBatch := []
  rhsBatch := []
  wf := dot_S8192x784_S784x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x10_S8192x10_1_0_0_1_n_n : DotDims S8192x4096 S4096x10 S8192x10 where
  lhsContracting := [1]
  rhsContracting := [0]
  lhsNonContracting := [0]
  rhsNonContracting := [1]
  lhsBatch := []
  rhsBatch := []
  wf := dot_S8192x4096_S4096x10_S8192x10_1_0_0_1_n_n_wf

class Facts : Prop extends Facts₀ where

variable [Facts]
-- ==== Proof.KRun.lean ====
/-
  The idealized kernel's run with its result buffer named: every weakly fair execution of @main terminates, nothing
  faulting, with the result array at the contents the last region's write-backs leave and the thirteen argument
  arrays as launched. The contents at each segment boundary are the fold W0 … W13 of the regions' write-backs and
  the reshapes between them; the final thread state holds the result buffer at the last boundary's contents.
-/
import proofs.«144054_j58213986730442_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v16) = W13 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v16 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.KVal

end
-- ==== Proof.KChain.lean ====
/-
  The chain between the regions of the kernel program: what each region's input arrays hold when the region is
  entered. The program is nine regions in a row with four pairs of reshapes between them. A region rewrites only its own
  output arrays, a reshape only its own result; so an array read by a later region is traced back, boundary by
  boundary, to the region that wrote it (it then holds what that region's write-backs left) or, for an argument, to the
  launch memory. A [1, n] row read by a region is the reshape of an [n] argument: its entry (0, j) is the argument's
  entry j.
-/
import proofs.«144054_j58213986730442_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The two reshapes before region 5 write only their own results: any other buffer is as region 4 left it. -/
theorem keep5 (c : Dev nD) (b : Ref sig .tc) (h1 : b ≠ main_v5) (h2 : b ≠ main_v6) :
    W6 m ρ c (Proc.devRef .tc b) = W5 m ρ c (Proc.devRef .tc b) :=
  StableHlo.after_of_forall_not_mem (b := Proc.devRef .tc b) _ _ (List.forall_iff_forall_mem.mp (by
    simp only [hostOps5, List.Forall, StableHlo.reshape_writes, Finset.mem_singleton]
    exact ⟨StableHlo.devRef_ne_of_ne h1, StableHlo.devRef_ne_of_ne h2⟩))

/-- The two reshapes before region 6 write only their own results: any other buffer is as region 5 left it. -/
theorem keep6 (c : Dev nD) (b : Ref sig .tc) (h1 : b ≠ main_v8) (h2 : b ≠ main_v9) :
    W8 m ρ c (Proc.devRef .tc b) = W7 m ρ c (Proc.devRef .tc b) :=
  StableHlo.after_of_forall_not_mem (b := Proc.devRef .tc b) _ _ (List.forall_iff_forall_mem.mp (by
    simp only [hostOps6, List.Forall, StableHlo.reshape_writes, Finset.mem_singleton]
    exact ⟨StableHlo.devRef_ne_of_ne h1, StableHlo.devRef_ne_of_ne h2⟩))

/-- The two reshapes before region 7 write only their own results: any other buffer is as region 6 left it. -/
theorem keep7 (c : Dev nD) (b : Ref sig .tc) (h1 : b ≠ main_v11) (h2 : b ≠ main_v12) :
    W10 m ρ c (Proc.devRef .tc b) = W9 m ρ c (Proc.devRef .tc b) :=
  StableHlo.after_of_forall_not_mem (b := Proc.devRef .tc b) _ _ (List.forall_iff_forall_mem.mp (by
    simp only [hostOps7, List.Forall, StableHlo.reshape_writes, Finset.mem_singleton]
    exact ⟨StableHlo.devRef_ne_of_ne h1, StableHlo.devRef_ne_of_ne h2⟩))

/-- The two reshapes before region 8 write only their own results: any other buffer is as region 7 left it. -/
theorem keep8 (c : Dev nD) (b : Ref sig .tc) (h1 : b ≠ main_v14) (h2 : b ≠ main_v15) :
    W12 m ρ c (Proc.devRef .tc b) = W11 m ρ c (Proc.devRef .tc b) :=
  StableHlo.after_of_forall_not_mem (b := Proc.devRef .tc b) _ _ (List.forall_iff_forall_mem.mp (by
    simp only [hostOps8, List.Forall, StableHlo.reshape_writes, Finset.mem_singleton]
    exact ⟨StableHlo.devRef_ne_of_ne h1, StableHlo.devRef_ne_of_ne h2⟩))

/-- A buffer none of regions 0 … 4 has among its arrays holds, after region 4, its launch contents. -/
theorem back5 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b) :
    W5 m ρ c (Proc.devRef .tc b) = m ((c : Thread nD τ).loc b) :=
  calc W5 m ρ c (Proc.devRef .tc b)
    _ = W4 m ρ c (Proc.devRef .tc b) := W5_of_ne m ρ c b h4
    _ = W3 m ρ c (Proc.devRef .tc b) := W4_of_ne m ρ c b h3
    _ = W2 m ρ c (Proc.devRef .tc b) := W3_of_ne m ρ c b h2
    _ = W1 m ρ c (Proc.devRef .tc b) := W2_of_ne m ρ c b h1
    _ = W0 m ρ c (Proc.devRef .tc b) := W1_of_ne m ρ c b h0
    _ = m ((c : Thread nD τ).loc b) := rfl

/-- … and likewise after region 5, when neither the reshapes before it nor region 5 write it. -/
theorem back7 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b)
    (ha : b ≠ main_v5) (hb : b ≠ main_v6) (h5 : ∀ w, Pipeline.arrRef spec5 w ≠ b) :
    W7 m ρ c (Proc.devRef .tc b) = m ((c : Thread nD τ).loc b) :=
  calc W7 m ρ c (Proc.devRef .tc b)
    _ = W6 m ρ c (Proc.devRef .tc b) := W7_of_ne m ρ c b h5
    _ = W5 m ρ c (Proc.devRef .tc b) := keep5 m ρ c b ha hb
    _ = m ((c : Thread nD τ).loc b) := back5 m ρ c b h0 h1 h2 h3 h4

/-- … after region 6. -/
theorem back9 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b)
    (ha : b ≠ main_v5) (hb : b ≠ main_v6) (h5 : ∀ w, Pipeline.arrRef spec5 w ≠ b)
    (ha' : b ≠ main_v8) (hb' : b ≠ main_v9) (h6 : ∀ w, Pipeline.arrRef spec6 w ≠ b) :
    W9 m ρ c (Proc.devRef .tc b) = m ((c : Thread nD τ).loc b) :=
  calc W9 m ρ c (Proc.devRef .tc b)
    _ = W8 m ρ c (Proc.devRef .tc b) := W9_of_ne m ρ c b h6
    _ = W7 m ρ c (Proc.devRef .tc b) := keep6 m ρ c b ha' hb'
    _ = m ((c : Thread nD τ).loc b) := back7 m ρ c b h0 h1 h2 h3 h4 ha hb h5

/-- … after region 7. -/
theorem back11 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b)
    (ha : b ≠ main_v5) (hb : b ≠ main_v6) (h5 : ∀ w, Pipeline.arrRef spec5 w ≠ b)
    (ha' : b ≠ main_v8) (hb' : b ≠ main_v9) (h6 : ∀ w, Pipeline.arrRef spec6 w ≠ b)
    (ha'' : b ≠ main_v11) (hb'' : b ≠ main_v12) (h7 : ∀ w, Pipeline.arrRef spec7 w ≠ b) :
    W11 m ρ c (Proc.devRef .tc b) = m ((c : Thread nD τ).loc b) :=
  calc W11 m ρ c (Proc.devRef .tc b)
    _ = W10 m ρ c (Proc.devRef .tc b) := W11_of_ne m ρ c b h7
    _ = W9 m ρ c (Proc.devRef .tc b) := keep7 m ρ c b ha'' hb''
    _ = m ((c : Thread nD τ).loc b) := back9 m ρ c b h0 h1 h2 h3 h4 ha hb h5 ha' hb' h6

/-! ## Regions 0 … 3: each reads its weight matrix as launched -/

theorem in0_0 (c : Dev nD) : V0 m ρ c (Pipeline.arrRef spec0 0) = m ((c : Thread nD τ).loc main_arg1) := rfl

theorem in1_0 (c : Dev nD) : V1 m ρ c (Pipeline.arrRef spec1 0) = m ((c : Thread nD τ).loc main_arg2) :=
  calc W1 m ρ c (Proc.devRef .tc main_arg2)
    _ = W0 m ρ c (Proc.devRef .tc main_arg2) := W1_of_ne m ρ c main_arg2 (by decide)
    _ = m ((c : Thread nD τ).loc main_arg2) := rfl

theorem in2_0 (c : Dev nD) : V2 m ρ c (Pipeline.arrRef spec2 0) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem in3_0 (c : Dev nD) : V3 m ρ c (Pipeline.arrRef spec3 0) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-! ## Region 4: the input batch as launched, and the signs of W1 as region 0 left them -/

theorem in4_0 (c : Dev nD) : V4 m ρ c (Pipeline.arrRef spec4 0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem in4_1 (c : Dev nD) : V4 m ρ c (Pipeline.arrRef spec4 1) = (dat0 (V0 m ρ) c).arrAt 1 cfg0.N :=
  calc W4 m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1

/-! ## Region 5: the products and running sums region 4 left, the scale and shift rows, the signs region 1 left -/

theorem in5_0 (c : Dev nD) : V6 m ρ c (Pipeline.arrRef spec5 0) = (dat4 (V4 m ρ) c).arrAt 2 cfg4.N :=
  calc W6 m ρ c (Proc.devRef .tc main_v4_0)
    _ = W5 m ρ c (Proc.devRef .tc main_v4_0) := keep5 m ρ c main_v4_0 (by decide) (by decide)
    _ = (dat4 (V4 m ρ) c).arrAt 2 cfg4.N := W5_arr m ρ c 2

theorem in5_1 (c : Dev nD) : V6 m ρ c (Pipeline.arrRef spec5 1) = (dat4 (V4 m ρ) c).arrAt 3 cfg4.N :=
  calc W6 m ρ c (Proc.devRef .tc main_v4_1)
    _ = W5 m ρ c (Proc.devRef .tc main_v4_1) := keep5 m ρ c main_v4_1 (by decide) (by decide)
    _ = (dat4 (V4 m ρ) c).arrAt 3 cfg4.N := W5_arr m ρ c 3

theorem in5_2 (c : Dev nD) : V6 m ρ c (Pipeline.arrRef spec5 2) = (dat4 (V4 m ρ) c).arrAt 4 cfg4.N :=
  calc W6 m ρ c (Proc.devRef .tc main_v4_2)
    _ = W5 m ρ c (Proc.devRef .tc main_v4_2) := keep5 m ρ c main_v4_2 (by decide) (by decide)
    _ = (dat4 (V4 m ρ) c).arrAt 4 cfg4.N := W5_arr m ρ c 4

/-- The row is the reshape of its argument as region 4 left it. -/
theorem row5_3 (c : Dev nD) : (W6 m ρ c (Proc.devRef .tc main_v5) : S1x4096.Idx → Elt F .f32)
    = shapeCast S1x4096 (W5 m ρ c (Proc.devRef .tc main_arg5)) shapeCasts_S4096_S1x4096 := by
  show StableHlo.after hostOps5 (W5 m ρ c) (Proc.devRef .tc main_v5) = _
  after_results; rfl

theorem in5_3 (c : Dev nD) (j : Fin 4096) :
    V6 m ρ c (Pipeline.arrRef spec5 3) (ix2 0 j) = m ((c : Thread nD τ).loc main_arg5) (ix1 j) := by
  show (W6 m ρ c (Proc.devRef .tc main_v5) : S1x4096.Idx → Elt F .f32) (ix2 0 j) = _
  rw [row5_3, shapeCast_a_1a_apply, back5 m ρ c main_arg5 (by decide) (by decide) (by decide) (by decide) (by decide)]

/-- The row is the reshape of its argument as region 4 left it. -/
theorem row5_4 (c : Dev nD) : (W6 m ρ c (Proc.devRef .tc main_v6) : S1x4096.Idx → Elt F .f32)
    = shapeCast S1x4096 (W5 m ρ c (Proc.devRef .tc main_arg6)) shapeCasts_S4096_S1x4096 := by
  show StableHlo.after hostOps5 (W5 m ρ c) (Proc.devRef .tc main_v6) = _
  after_results; rfl

theorem in5_4 (c : Dev nD) (j : Fin 4096) :
    V6 m ρ c (Pipeline.arrRef spec5 4) (ix2 0 j) = m ((c : Thread nD τ).loc main_arg6) (ix1 j) := by
  show (W6 m ρ c (Proc.devRef .tc main_v6) : S1x4096.Idx → Elt F .f32) (ix2 0 j) = _
  rw [row5_4, shapeCast_a_1a_apply, back5 m ρ c main_arg6 (by decide) (by decide) (by decide) (by decide) (by decide)]

theorem in5_5 (c : Dev nD) : V6 m ρ c (Pipeline.arrRef spec5 5) = (dat1 (V1 m ρ) c).arrAt 1 cfg1.N :=
  calc W6 m ρ c (Proc.devRef .tc main_v1)
    _ = W5 m ρ c (Proc.devRef .tc main_v1) := keep5 m ρ c main_v1 (by decide) (by decide)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 1 cfg1.N := W2_arr m ρ c 1

/-! ## Region 6: the products and running sums region 5 left, the scale and shift rows, the signs region 2 left -/

theorem in6_0 (c : Dev nD) : V8 m ρ c (Pipeline.arrRef spec6 0) = (dat5 (V6 m ρ) c).arrAt 6 cfg5.N :=
  calc W8 m ρ c (Proc.devRef .tc main_v7_0)
    _ = W7 m ρ c (Proc.devRef .tc main_v7_0) := keep6 m ρ c main_v7_0 (by decide) (by decide)
    _ = (dat5 (V6 m ρ) c).arrAt 6 cfg5.N := W7_arr m ρ c 6

theorem in6_1 (c : Dev nD) : V8 m ρ c (Pipeline.arrRef spec6 1) = (dat5 (V6 m ρ) c).arrAt 7 cfg5.N :=
  calc W8 m ρ c (Proc.devRef .tc main_v7_1)
    _ = W7 m ρ c (Proc.devRef .tc main_v7_1) := keep6 m ρ c main_v7_1 (by decide) (by decide)
    _ = (dat5 (V6 m ρ) c).arrAt 7 cfg5.N := W7_arr m ρ c 7

theorem in6_2 (c : Dev nD) : V8 m ρ c (Pipeline.arrRef spec6 2) = (dat5 (V6 m ρ) c).arrAt 8 cfg5.N :=
  calc W8 m ρ c (Proc.devRef .tc main_v7_2)
    _ = W7 m ρ c (Proc.devRef .tc main_v7_2) := keep6 m ρ c main_v7_2 (by decide) (by decide)
    _ = (dat5 (V6 m ρ) c).arrAt 8 cfg5.N := W7_arr m ρ c 8

/-- The row is the reshape of its argument as region 5 left it. -/
theorem row6_3 (c : Dev nD) : (W8 m ρ c (Proc.devRef .tc main_v8) : S1x4096.Idx → Elt F .f32)
    = shapeCast S1x4096 (W7 m ρ c (Proc.devRef .tc main_arg7)) shapeCasts_S4096_S1x4096 := by
  show StableHlo.after hostOps6 (W7 m ρ c) (Proc.devRef .tc main_v8) = _
  after_results; rfl

theorem in6_3 (c : Dev nD) (j : Fin 4096) :
    V8 m ρ c (Pipeline.arrRef spec6 3) (ix2 0 j) = m ((c : Thread nD τ).loc main_arg7) (ix1 j) := by
  show (W8 m ρ c (Proc.devRef .tc main_v8) : S1x4096.Idx → Elt F .f32) (ix2 0 j) = _
  rw [row6_3, shapeCast_a_1a_apply, back7 m ρ c main_arg7 (by decide) (by decide) (by decide) (by decide) (by decide) (by decide) (by decide) (by decide)]

/-- The row is the reshape of its argument as region 5 left it. -/
theorem row6_4 (c : Dev nD) : (W8 m ρ c (Proc.devRef .tc main_v9) : S1x4096.Idx → Elt F .f32)
    = shapeCast S1x4096 (W7 m ρ c (Proc.devRef .tc main_arg8)) shapeCasts_S4096_S1x4096 := by
  show StableHlo.after hostOps6 (W7 m ρ c) (Proc.devRef .tc main_v9) = _
  after_results; rfl

theorem in6_4 (c : Dev nD) (j : Fin 4096) :
    V8 m ρ c (Pipeline.arrRef spec6 4) (ix2 0 j) = m ((c : Thread nD τ).loc main_arg8) (ix1 j) := by
  show (W8 m ρ c (Proc.devRef .tc main_v9) : S1x4096.Idx → Elt F .f32) (ix2 0 j) = _
  rw [row6_4, shapeCast_a_1a_apply, back7 m ρ c main_arg8 (by decide) (by decide) (by decide) (by decide) (by decide) (by decide) (by decide) (by decide)]

theorem in6_5 (c : Dev nD) : V8 m ρ c (Pipeline.arrRef spec6 5) = (dat2 (V2 m ρ) c).arrAt 1 cfg2.N :=
  calc W8 m ρ c (Proc.devRef .tc main_v2)
    _ = W7 m ρ c (Proc.devRef .tc main_v2) := keep6 m ρ c main_v2 (by decide) (by decide)
    _ = W6 m ρ c (Proc.devRef .tc main_v2) := W7_of_ne m ρ c main_v2 (by decide)
    _ = W5 m ρ c (Proc.devRef .tc main_v2) := keep5 m ρ c main_v2 (by decide) (by decide)
    _ = W4 m ρ c (Proc.devRef .tc main_v2) := W5_of_ne m ρ c main_v2 (by decide)
    _ = W3 m ρ c (Proc.devRef .tc main_v2) := W4_of_ne m ρ c main_v2 (by decide)
    _ = (dat2 (V2 m ρ) c).arrAt 1 cfg2.N := W3_arr m ρ c 1

/-! ## Region 7: the products and running sums region 6 left, the scale and shift rows, the signs region 3 left -/

theorem in7_0 (c : Dev nD) : V10 m ρ c (Pipeline.arrRef spec7 0) = (dat6 (V8 m ρ) c).arrAt 6 cfg6.N :=
  calc W10 m ρ c (Proc.devRef .tc main_v10_0)
    _ = W9 m ρ c (Proc.devRef .tc main_v10_0) := keep7 m ρ c main_v10_0 (by decide) (by decide)
    _ = (dat6 (V8 m ρ) c).arrAt 6 cfg6.N := W9_arr m ρ c 6

theorem in7_1 (c : Dev nD) : V10 m ρ c (Pipeline.arrRef spec7 1) = (dat6 (V8 m ρ) c).arrAt 7 cfg6.N :=
  calc W10 m ρ c (Proc.devRef .tc main_v10_1)
    _ = W9 m ρ c (Proc.devRef .tc main_v10_1) := keep7 m ρ c main_v10_1 (by decide) (by decide)
    _ = (dat6 (V8 m ρ) c).arrAt 7 cfg6.N := W9_arr m ρ c 7

theorem in7_2 (c : Dev nD) : V10 m ρ c (Pipeline.arrRef spec7 2) = (dat6 (V8 m ρ) c).arrAt 8 cfg6.N :=
  calc W10 m ρ c (Proc.devRef .tc main_v10_2)
    _ = W9 m ρ c (Proc.devRef .tc main_v10_2) := keep7 m ρ c main_v10_2 (by decide) (by decide)
    _ = (dat6 (V8 m ρ) c).arrAt 8 cfg6.N := W9_arr m ρ c 8

/-- The row is the reshape of its argument as region 6 left it. -/
theorem row7_3 (c : Dev nD) : (W10 m ρ c (Proc.devRef .tc main_v11) : S1x4096.Idx → Elt F .f32)
    = shapeCast S1x4096 (W9 m ρ c (Proc.devRef .tc main_arg9)) shapeCasts_S4096_S1x4096 := by
  show StableHlo.after hostOps7 (W9 m ρ c) (Proc.devRef .tc main_v11) = _
  after_results; rfl

theorem in7_3 (c : Dev nD) (j : Fin 4096) :
    V10 m ρ c (Pipeline.arrRef spec7 3) (ix2 0 j) = m ((c : Thread nD τ).loc main_arg9) (ix1 j) := by
  show (W10 m ρ c (Proc.devRef .tc main_v11) : S1x4096.Idx → Elt F .f32) (ix2 0 j) = _
  rw [row7_3, shapeCast_a_1a_apply, back9 m ρ c main_arg9 (by decide) (by decide) (by decide) (by decide) (by decide) (by decide) (by decide) (by decide) (by decide) (by decide) (by decide)]

/-- The row is the reshape of its argument as region 6 left it. -/
theorem row7_4 (c : Dev nD) : (W10 m ρ c (Proc.devRef .tc main_v12) : S1x4096.Idx → Elt F .f32)
    = shapeCast S1x4096 (W9 m ρ c (Proc.devRef .tc main_arg10)) shapeCasts_S4096_S1x4096 := by
  show StableHlo.after hostOps7 (W9 m ρ c) (Proc.devRef .tc main_v12) = _
  after_results; rfl

theorem in7_4 (c : Dev nD) (j : Fin 4096) :
    V10 m ρ c (Pipeline.arrRef spec7 4) (ix2 0 j) = m ((c : Thread nD τ).loc main_arg10) (ix1 j) := by
  show (W10 m ρ c (Proc.devRef .tc main_v12) : S1x4096.Idx → Elt F .f32) (ix2 0 j) = _
  rw [row7_4, shapeCast_a_1a_apply, back9 m ρ c main_arg10 (by decide) (by decide) (by decide) (by decide) (by decide) (by decide) (by decide) (by decide) (by decide) (by decide) (by decide)]

theorem in7_5 (c : Dev nD) : V10 m ρ c (Pipeline.arrRef spec7 5) = (dat3 (V3 m ρ) c).arrAt 1 cfg3.N :=
  calc W10 m ρ c (Proc.devRef .tc main_v3)
    _ = W9 m ρ c (Proc.devRef .tc main_v3) := keep7 m ρ c main_v3 (by decide) (by decide)
    _ = W8 m ρ c (Proc.devRef .tc main_v3) := W9_of_ne m ρ c main_v3 (by decide)
    _ = W7 m ρ c (Proc.devRef .tc main_v3) := keep6 m ρ c main_v3 (by decide) (by decide)
    _ = W6 m ρ c (Proc.devRef .tc main_v3) := W7_of_ne m ρ c main_v3 (by decide)
    _ = W5 m ρ c (Proc.devRef .tc main_v3) := keep5 m ρ c main_v3 (by decide) (by decide)
    _ = W4 m ρ c (Proc.devRef .tc main_v3) := W5_of_ne m ρ c main_v3 (by decide)
    _ = (dat3 (V3 m ρ) c).arrAt 1 cfg3.N := W4_arr m ρ c 1

/-! ## Region 8: the products and running sums region 7 left, the scale and shift rows -/

theorem in8_0 (c : Dev nD) : V12 m ρ c (Pipeline.arrRef spec8 0) = (dat7 (V10 m ρ) c).arrAt 6 cfg7.N :=
  calc W12 m ρ c (Proc.devRef .tc main_v13_0)
    _ = W11 m ρ c (Proc.devRef .tc main_v13_0) := keep8 m ρ c main_v13_0 (by decide) (by decide)
    _ = (dat7 (V10 m ρ) c).arrAt 6 cfg7.N := W11_arr m ρ c 6

theorem in8_1 (c : Dev nD) : V12 m ρ c (Pipeline.arrRef spec8 1) = (dat7 (V10 m ρ) c).arrAt 7 cfg7.N :=
  calc W12 m ρ c (Proc.devRef .tc main_v13_1)
    _ = W11 m ρ c (Proc.devRef .tc main_v13_1) := keep8 m ρ c main_v13_1 (by decide) (by decide)
    _ = (dat7 (V10 m ρ) c).arrAt 7 cfg7.N := W11_arr m ρ c 7

theorem in8_2 (c : Dev nD) : V12 m ρ c (Pipeline.arrRef spec8 2) = (dat7 (V10 m ρ) c).arrAt 8 cfg7.N :=
  calc W12 m ρ c (Proc.devRef .tc main_v13_2)
    _ = W11 m ρ c (Proc.devRef .tc main_v13_2) := keep8 m ρ c main_v13_2 (by decide) (by decide)
    _ = (dat7 (V10 m ρ) c).arrAt 8 cfg7.N := W11_arr m ρ c 8

/-- The row is the reshape of its argument as region 7 left it. -/
theorem row8_3 (c : Dev nD) : (W12 m ρ c (Proc.devRef .tc main_v14) : S1x10.Idx → Elt F .f32)
    = shapeCast S1x10 (W11 m ρ c (Proc.devRef .tc main_arg11)) shapeCasts_S10_S1x10 := by
  show StableHlo.after hostOps8 (W11 m ρ c) (Proc.devRef .tc main_v14) = _
  after_results; rfl

theorem in8_3 (c : Dev nD) (j : Fin 10) :
    V12 m ρ c (Pipeline.arrRef spec8 3) (ix2 0 j) = m ((c : Thread nD τ).loc main_arg11) (ix1 j) := by
  show (W12 m ρ c (Proc.devRef .tc main_v14) : S1x10.Idx → Elt F .f32) (ix2 0 j) = _
  rw [row8_3, shapeCast_a_1a_apply, back11 m ρ c main_arg11 (by decide) (by decide) (by decide) (by decide) (by decide) (by decide) (by decide) (by decide) (by decide) (by decide) (by decide) (by decide) (by decide) (by decide)]

/-- The row is the reshape of its argument as region 7 left it. -/
theorem row8_4 (c : Dev nD) : (W12 m ρ c (Proc.devRef .tc main_v15) : S1x10.Idx → Elt F .f32)
    = shapeCast S1x10 (W11 m ρ c (Proc.devRef .tc main_arg12)) shapeCasts_S10_S1x10 := by
  show StableHlo.after hostOps8 (W11 m ρ c) (Proc.devRef .tc main_v15) = _
  after_results; rfl

theorem in8_4 (c : Dev nD) (j : Fin 10) :
    V12 m ρ c (Pipeline.arrRef spec8 4) (ix2 0 j) = m ((c : Thread nD τ).loc main_arg12) (ix1 j) := by
  show (W12 m ρ c (Proc.devRef .tc main_v15) : S1x10.Idx → Elt F .f32) (ix2 0 j) = _
  rw [row8_4, shapeCast_a_1a_apply, back11 m ρ c main_arg12 (by decide) (by decide) (by decide) (by decide) (by decide) (by decide) (by decide) (by decide) (by decide) (by decide) (by decide) (by decide) (by decide) (by decide)]

/-! ## The result -/

theorem out_v16 (c : Dev nD) : W13 m ρ c (Proc.devRef .tc main_v16) = (dat8 (V12 m ρ) c).arrAt 5 cfg8.N :=
  W13_arr m ρ c 5

end Cert.KernelIdeal.KVal

end
-- ==== Proof.Spec.lean ====
/-
  The network both programs compute, as functions on the extended reals, written twice: once the way the kernel
  arranges it (weights binarised by the order test, batch statistics from running column sums, variance as
  mean of squares minus square of mean, cut at zero) and once the way the reference arranges it (weights and
  activations binarised through h + (sign h − h), variance as the mean of squared deviations, selected against
  a positive count). Sizes are parameters; every array is a function of plain coordinates.
-/
import Idealize.ShloMosaic.PureOps.Ideal

noncomputable section

namespace Cert.Bnn

open Idealize.ShloMosaic

/-- The f32 words the two programs spell, read at the extended reals: 0, 1, −1, 2⁻¹³, 8192, the variance floor
    offset ε (the same word on both sides, never evaluated), and the reference's unused quiet-NaN filler. -/
abbrev w0 : EReal := Ideal.ofBits .f32 0x00000000#32
abbrev w1 : EReal := Ideal.ofBits .f32 0x3F800000#32
abbrev wm1 : EReal := Ideal.ofBits .f32 0xBF800000#32
abbrev wInvN : EReal := Ideal.ofBits .f32 0x39000000#32
abbrev wN : EReal := Ideal.ofBits .f32 0x46000000#32
abbrev wEps : EReal := Ideal.ofBits .f32 0x3727C5AC#32
abbrev wNan : EReal := Ideal.ofBits .f32 0x7FC00000#32

/-- The kernel's sign: where |z| > 0 it is −1 or 1 by the test z < 0, elsewhere z itself. -/
def sgnK (z : EReal) : EReal :=
  Scalar.select (Ideal.cmp .ogt (max z (-z)) w0) (Scalar.select (Ideal.cmp .olt z w0) wm1 w1) z

/-- The reference's straight-through binarisation h + (sign h − h). -/
def ste (h : EReal) : EReal := h + (Ideal.sign h - h)

/-- Rows against rows: (a · wᵀ)(p, j) = ∑ₖ a(p,k) · w(j,k). -/
def mm {B K N : Nat} (a : Fin B → Fin K → EReal) (w : Fin N → Fin K → EReal) : Fin B → Fin N → EReal :=
  fun p j => ∑ k, a p k * w j k

/-- Column sums and column sums of squares over the batch axis. -/
def colSum {B N : Nat} (y : Fin B → Fin N → EReal) : Fin N → EReal := fun j => ∑ p, y p j
def colSumSq {B N : Nat} (y : Fin B → Fin N → EReal) : Fin N → EReal := fun j => ∑ p, y p j * y p j

/-- The kernel's batch normalisation from the two running sums s and q:
    (y − s·2⁻¹³) · rsqrt(max(q·2⁻¹³ − (s·2⁻¹³)², 0) + ε) · g + b. -/
def bnK {B N : Nat} (y : Fin B → Fin N → EReal) (s q g b : Fin N → EReal) : Fin B → Fin N → EReal := fun p j =>
  (y p j - s j * wInvN) * Ideal.rsqrt (max (q j * wInvN - (s j * wInvN) * (s j * wInvN)) w0 + wEps) * g j + b j

/-- One hidden transition of the kernel: normalise the previous product, take signs. -/
def actK {B N : Nat} (y : Fin B → Fin N → EReal) (g b : Fin N → EReal) : Fin B → Fin N → EReal := fun p j =>
  sgnK (bnK y (colSum y) (colSumSq y) g b p j)

/-- The whole network as the kernel arranges it. -/
def kernelOut {B D0 D1 D2 D3 D4 : Nat}
    (x : Fin B → Fin D0 → EReal) (W1 : Fin D1 → Fin D0 → EReal) (W2 : Fin D2 → Fin D1 → EReal)
    (W3 : Fin D3 → Fin D2 → EReal) (W4 : Fin D4 → Fin D3 → EReal)
    (g1 b1 : Fin D1 → EReal) (g2 b2 : Fin D2 → EReal) (g3 b3 : Fin D3 → EReal) (g4 b4 : Fin D4 → EReal) :
    Fin B → Fin D4 → EReal :=
  let y0 := mm x (fun j k => sgnK (W1 j k))
  let y1 := mm (actK y0 g1 b1) (fun j k => sgnK (W2 j k))
  let y2 := mm (actK y1 g2 b2) (fun j k => sgnK (W3 j k))
  let y3 := mm (actK y2 g3 b3) (fun j k => sgnK (W4 j k))
  bnK y3 (colSum y3) (colSumSq y3) g4 b4

/-- The reference's column mean: (0 + ∑ₚ y(p,j)) / 8192. -/
def meanR {B N : Nat} (y : Fin B → Fin N → EReal) : Fin N → EReal := fun j => Ideal.div (w0 + ∑ p, y p j) wN

/-- The reference's column variance: the mean of squared deviations over the count 8192 − d (d the converted
    degrees-of-freedom word, here 0), kept where that count is positive, the filler word elsewhere. -/
def varR {B N : Nat} (d : EReal) (y : Fin B → Fin N → EReal) : Fin N → EReal := fun j =>
  Scalar.select (Ideal.cmp .ogt (wN - d) w0)
    (Ideal.div (w0 + ∑ p, (y p j - meanR y j) * (y p j - meanR y j)) (wN - d)) wNan

/-- The reference's batch normalisation (y − mean) · rsqrt(var + ε) · g + b. -/
def bnR {B N : Nat} (d : EReal) (y : Fin B → Fin N → EReal) (g b : Fin N → EReal) : Fin B → Fin N → EReal := fun p j =>
  (y p j - meanR y j) * Ideal.rsqrt (varR d y j + wEps) * g j + b j

/-- One hidden transition of the reference: normalise, sign, then the straight-through binarisation of that sign. -/
def actR {B N : Nat} (d : EReal) (y : Fin B → Fin N → EReal) (g b : Fin N → EReal) : Fin B → Fin N → EReal := fun p j =>
  ste (Ideal.sign (bnR d y g b p j))

/-- The whole network as the reference arranges it (d: the converted degrees-of-freedom word). -/
def refOut {B D0 D1 D2 D3 D4 : Nat} (d : EReal)
    (x : Fin B → Fin D0 → EReal) (W1 : Fin D1 → Fin D0 → EReal) (W2 : Fin D2 → Fin D1 → EReal)
    (W3 : Fin D3 → Fin D2 → EReal) (W4 : Fin D4 → Fin D3 → EReal)
    (g1 b1 : Fin D1 → EReal) (g2 b2 : Fin D2 → EReal) (g3 b3 : Fin D3 → EReal) (g4 b4 : Fin D4 → EReal) :
    Fin B → Fin D4 → EReal :=
  let y0 := mm x (fun j k => ste (W1 j k))
  let y1 := mm (actR d y0 g1 b1) (fun j k => ste (W2 j k))
  let y2 := mm (actR d y1 g2 b2) (fun j k => ste (W3 j k))
  let y3 := mm (actR d y2 g3 b3) (fun j k => ste (W4 j k))
  bnR d y3 g4 b4

end Cert.Bnn

end
-- ==== Proof.KBin.lean ====
/-
  The four weight-sign regions of the kernel program, read as values. Region K (K = 0 … 3) walks its weight
  matrix in row blocks, one grid point per block; at a point it loads the block, takes the sign of every
  entry (−1 or 1 by the order test where the entry's absolute value exceeds zero, the entry itself elsewhere),
  and stores the block of signs at the same rows of its output array. So every point writes back its rows of
  ONE whole-array function, the entrywise sign of the array the region found; the row blocks tile the array
  (row r belongs to point r / block height), hence the output array after the region is that function everywhere.
-/
import proofs.«144054_j58213986730442_2_alg».proof.Proof.Gen.KernelIdeal.Frame
import proofs.«144054_j58213986730442_2_alg».proof.Proof.Spec
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-! ## Region 0: the sign of W1, [4096, 784] in 16 row blocks of 256 -/

/-- The stored block, entry by entry, is the sign of the loaded block's entry. -/
theorem binPay0_apply (x0 : Vec Ideal S256x784 .f32) (j : S256x784.Idx) : k0_pay1 x0 j = Cert.Bnn.sgnK (x0 j) := rfl

/-- Both windows of region 0 sit on row block t, column block 0. -/
theorem maps0 : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point t writes back is rows 256·t … 256·t + 255 of the sign of the whole input array. -/
theorem wrote0 (c : Dev nD) (t : Fin cfg0.N) :
    (dat0 V c).flushed 1 t = ((cfg0.win 1).blk t).view.read (Elt Ideal) (fun i => Cert.Bnn.sgnK (V c main_arg1 i)) := by
  show (cfg0.win 1).cut (grid0.coords t) ((dat0 V c).after 1 t) = _
  rw [after0_1]
  unfold out0_1
  rw [View.canon_unit_zero zeros2]
  simp only [View.ld_unit_zero (S := S256x784) zeros2]
  obtain ⟨e0, e1, e2, e3⟩ := maps0 t
  funext j
  show Cert.Bnn.sgnK (V c main_arg1 (((cfg0.win 0).blk t).view.emb j)) = Cert.Bnn.sgnK (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 784 + 1 * (j 1).val = win0_1.index t (1 : Fin 2) * 784 + 1 * (j 1).val; omega
  rw [h0]

/-- An entry is in point t's output block iff each coordinate is in the block's range on its axis. -/
theorem mem_blk0 (t : Fin cfg0.N) (i : S4096x784.Idx) :
    i ∈ ((cfg0.win 1).blk t).view.set ↔ ∀ a : Fin 2, win0_1.index t a * S256x784.size a ≤ (i a).val ∧ (i a).val < win0_1.index t a * S256x784.size a + S256x784.size a := by
  show i ∈ ((View.whole main_v0).slice (win0_1.rect t)).set ↔ _
  rw [View.set_slice_whole, Rect.mem_set_unit]
  exact Iff.rfl

/-- Row r is written by point r / 256. -/
theorem cover0 (i : S4096x784.Idx) : ∃ t : Fin cfg0.N, (cfg0.win 1).flush t = true ∧ i ∈ ((cfg0.win 1).blk t).view.set := by
  have hi0 : (i 0).val < 4096 := (i 0).isLt
  have hi1 : (i 1).val < 784 := (i 1).isLt
  have hN : (i 0).val / 256 < cfg0.N := by show _ < grid0.N; rw [N_0]; omega
  refine ⟨⟨(i 0).val / 256, hN⟩, flush0_1 _, ?_⟩
  rw [mem_blk0]
  obtain ⟨e0, e1, e2, e3⟩ := maps0 ⟨(i 0).val / 256, hN⟩
  intro a
  match a with
  | ⟨0, _⟩ => show win0_1.index ⟨(i 0).val / 256, hN⟩ (0 : Fin 2) * 256 ≤ (i 0).val ∧ (i 0).val < win0_1.index ⟨(i 0).val / 256, hN⟩ (0 : Fin 2) * 256 + 256; rw [e2]; show (i 0).val / 256 * 256 ≤ (i 0).val ∧ (i 0).val < (i 0).val / 256 * 256 + 256; omega
  | ⟨1, _⟩ => show win0_1.index ⟨(i 0).val / 256, hN⟩ (1 : Fin 2) * 784 ≤ (i 1).val ∧ (i 1).val < win0_1.index ⟨(i 0).val / 256, hN⟩ (1 : Fin 2) * 784 + 784; rw [e3]; omega

/-- After region 0 its output array is the sign of W1 as the region found it, entry by entry. -/
theorem bin0_val (c : Dev nD) (j : Fin 4096) (k : Fin 784) :
    (dat0 V c).arrAt 1 cfg0.N (ix2 j k) = Cert.Bnn.sgnK (V c (Pipeline.arrRef spec0 0) (ix2 j k)) :=
  congrFun ((dat0 V c).arrAt_eq_of_cover 1 (fun i => Cert.Bnn.sgnK (V c main_arg1 i)) (fun t _ => wrote0 V c t) cover0) (ix2 j k)

/-! ## Region 1: the sign of W2, [4096, 4096] in 16 row blocks of 256 -/

/-- The stored block, entry by entry, is the sign of the loaded block's entry. -/
theorem binPay1_apply (x0 : Vec Ideal S256x4096 .f32) (j : S256x4096.Idx) : k1_pay1 x0 j = Cert.Bnn.sgnK (x0 j) := rfl

/-- Both windows of region 1 sit on row block t, column block 0. -/
theorem maps1 : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point t writes back is rows 256·t … 256·t + 255 of the sign of the whole input array. -/
theorem wrote1 (c : Dev nD) (t : Fin cfg1.N) :
    (dat1 V c).flushed 1 t = ((cfg1.win 1).blk t).view.read (Elt Ideal) (fun i => Cert.Bnn.sgnK (V c main_arg2 i)) := by
  show (cfg1.win 1).cut (grid1.coords t) ((dat1 V c).after 1 t) = _
  rw [after1_1]
  unfold out1_1
  rw [View.canon_unit_zero zeros2]
  simp only [View.ld_unit_zero (S := S256x4096) zeros2]
  obtain ⟨e0, e1, e2, e3⟩ := maps1 t
  funext j
  show Cert.Bnn.sgnK (V c main_arg2 (((cfg1.win 0).blk t).view.emb j)) = Cert.Bnn.sgnK (V c main_arg2 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 256 + 1 * (j 0).val = win1_1.index t (0 : Fin 2) * 256 + 1 * (j 0).val; omega
    | ⟨1, _⟩ => show win1_0.index t (1 : Fin 2) * 4096 + 1 * (j 1).val = win1_1.index t (1 : Fin 2) * 4096 + 1 * (j 1).val; omega
  rw [h0]

/-- An entry is in point t's output block iff each coordinate is in the block's range on its axis. -/
theorem mem_blk1 (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v1).slice (win1_1.rect t)).set ↔ _
  rw [View.set_slice_whole, Rect.mem_set_unit]
  exact Iff.rfl

/-- Row r is written by point r / 256. -/
theorem cover1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : (i 0).val / 256 < cfg1.N := by show _ < grid1.N; rw [N_1]; omega
  refine ⟨⟨(i 0).val / 256, hN⟩, flush1_1 _, ?_⟩
  rw [mem_blk1]
  obtain ⟨e0, e1, e2, e3⟩ := maps1 ⟨(i 0).val / 256, hN⟩
  intro a
  match a with
  | ⟨0, _⟩ => show win1_1.index ⟨(i 0).val / 256, hN⟩ (0 : Fin 2) * 256 ≤ (i 0).val ∧ (i 0).val < win1_1.index ⟨(i 0).val / 256, hN⟩ (0 : Fin 2) * 256 + 256; rw [e2]; show (i 0).val / 256 * 256 ≤ (i 0).val ∧ (i 0).val < (i 0).val / 256 * 256 + 256; omega
  | ⟨1, _⟩ => show win1_1.index ⟨(i 0).val / 256, hN⟩ (1 : Fin 2) * 4096 ≤ (i 1).val ∧ (i 1).val < win1_1.index ⟨(i 0).val / 256, hN⟩ (1 : Fin 2) * 4096 + 4096; rw [e3]; omega

/-- After region 1 its output array is the sign of W2 as the region found it, entry by entry. -/
theorem bin1_val (c : Dev nD) (j : Fin 4096) (k : Fin 4096) :
    (dat1 V c).arrAt 1 cfg1.N (ix2 j k) = Cert.Bnn.sgnK (V c (Pipeline.arrRef spec1 0) (ix2 j k)) :=
  congrFun ((dat1 V c).arrAt_eq_of_cover 1 (fun i => Cert.Bnn.sgnK (V c main_arg2 i)) (fun t _ => wrote1 V c t) cover1) (ix2 j k)

/-! ## Region 2: the sign of W3, [4096, 4096] in 16 row blocks of 256 -/

/-- The stored block, entry by entry, is the sign of the loaded block's entry. -/
theorem binPay2_apply (x0 : Vec Ideal S256x4096 .f32) (j : S256x4096.Idx) : k2_pay1 x0 j = Cert.Bnn.sgnK (x0 j) := rfl

/-- Both windows of region 2 sit on row block t, column block 0. -/
theorem maps2 : ∀ t : Fin cfg2.N, win2_0.index t (0 : Fin 2) = win2_1.index t (0 : Fin 2)
    ∧ win2_0.index t (1 : Fin 2) = win2_1.index t (1 : Fin 2)
    ∧ win2_1.index t (0 : Fin 2) = t.val ∧ win2_1.index t (1 : Fin 2) = 0 :=
  (by decide +kernel : ∀ t : Fin grid2.N, _)

/-- What point t writes back is rows 256·t … 256·t + 255 of the sign of the whole input array. -/
theorem wrote2 (c : Dev nD) (t : Fin cfg2.N) :
    (dat2 V c).flushed 1 t = ((cfg2.win 1).blk t).view.read (Elt Ideal) (fun i => Cert.Bnn.sgnK (V c main_arg3 i)) := by
  show (cfg2.win 1).cut (grid2.coords t) ((dat2 V c).after 1 t) = _
  rw [after2_1]
  unfold out2_1
  rw [View.canon_unit_zero zeros2]
  simp only [View.ld_unit_zero (S := S256x4096) zeros2]
  obtain ⟨e0, e1, e2, e3⟩ := maps2 t
  funext j
  show Cert.Bnn.sgnK (V c main_arg3 (((cfg2.win 0).blk t).view.emb j)) = Cert.Bnn.sgnK (V c main_arg3 (((cfg2.win 1).blk t).view.emb j))
  have h0 : ((cfg2.win 0).blk t).view.emb j = ((cfg2.win 1).blk t).view.emb j := by
    funext a; apply Fin.ext
    match a with
    | ⟨0, _⟩ => show win2_0.index t (0 : Fin 2) * 256 + 1 * (j 0).val = win2_1.index t (0 : Fin 2) * 256 + 1 * (j 0).val; omega
    | ⟨1, _⟩ => show win2_0.index t (1 : Fin 2) * 4096 + 1 * (j 1).val = win2_1.index t (1 : Fin 2) * 4096 + 1 * (j 1).val; omega
  rw [h0]

/-- An entry is in point t's output block iff each coordinate is in the block's range on its axis. -/
theorem mem_blk2 (t : Fin cfg2.N) (i : S4096x4096.Idx) :
    i ∈ ((cfg2.win 1).blk t).view.set ↔ ∀ a : Fin 2, win2_1.index t a * S256x4096.size a ≤ (i a).val ∧ (i a).val < win2_1.index t a * S256x4096.size a + S256x4096.size a := by
  show i ∈ ((View.whole main_v2).slice (win2_1.rect t)).set ↔ _
  rw [View.set_slice_whole, Rect.mem_set_unit]
  exact Iff.rfl

/-- Row r is written by point r / 256. -/
theorem cover2 (i : S4096x4096.Idx) : ∃ t : Fin cfg2.N, (cfg2.win 1).flush t = true ∧ i ∈ ((cfg2.win 1).blk t).view.set := by
  have hi0 : (i 0).val < 4096 := (i 0).isLt
  have hi1 : (i 1).val < 4096 := (i 1).isLt
  have hN : (i 0).val / 256 < cfg2.N := by show _ < grid2.N; rw [N_2]; omega
  refine ⟨⟨(i 0).val / 256, hN⟩, flush2_1 _, ?_⟩
  rw [mem_blk2]
  obtain ⟨e0, e1, e2, e3⟩ := maps2 ⟨(i 0).val / 256, hN⟩
  intro a
  match a with
  | ⟨0, _⟩ => show win2_1.index ⟨(i 0).val / 256, hN⟩ (0 : Fin 2) * 256 ≤ (i 0).val ∧ (i 0).val < win2_1.index ⟨(i 0).val / 256, hN⟩ (0 : Fin 2) * 256 + 256; rw [e2]; show (i 0).val / 256 * 256 ≤ (i 0).val ∧ (i 0).val < (i 0).val / 256 * 256 + 256; omega
  | ⟨1, _⟩ => show win2_1.index ⟨(i 0).val / 256, hN⟩ (1 : Fin 2) * 4096 ≤ (i 1).val ∧ (i 1).val < win2_1.index ⟨(i 0).val / 256, hN⟩ (1 : Fin 2) * 4096 + 4096; rw [e3]; omega

/-- After region 2 its output array is the sign of W3 as the region found it, entry by entry. -/
theorem bin2_val (c : Dev nD) (j : Fin 4096) (k : Fin 4096) :
    (dat2 V c).arrAt 1 cfg2.N (ix2 j k) = Cert.Bnn.sgnK (V c (Pipeline.arrRef spec2 0) (ix2 j k)) :=
  congrFun ((dat2 V c).arrAt_eq_of_cover 1 (fun i => Cert.Bnn.sgnK (V c main_arg3 i)) (fun t _ => wrote2 V c t) cover2) (ix2 j k)

/-! ## Region 3: the sign of W4, [10, 4096] in 1 row block of 10 -/

/-- The stored block, entry by entry, is the sign of the loaded block's entry. -/
theorem binPay3_apply (x0 : Vec Ideal S10x4096 .f32) (j : S10x4096.Idx) : k3_pay1 x0 j = Cert.Bnn.sgnK (x0 j) := rfl

/-- Both windows of region 3 sit on row block t, column block 0. -/
theorem maps3 : ∀ t : Fin cfg3.N, win3_0.index t (0 : Fin 2) = win3_1.index t (0 : Fin 2)
    ∧ win3_0.index t (1 : Fin 2) = win3_1.index t (1 : Fin 2)
    ∧ win3_1.index t (0 : Fin 2) = t.val ∧ win3_1.index t (1 : Fin 2) = 0 :=
  (by decide +kernel : ∀ t : Fin grid3.N, _)

/-- What point t writes back is rows 10·t … 10·t + 9 of the sign of the whole input array. -/
theorem wrote3 (c : Dev nD) (t : Fin cfg3.N) :
    (dat3 V c).flushed 1 t = ((cfg3.win 1).blk t).view.read (Elt Ideal) (fun i => Cert.Bnn.sgnK (V c main_arg4 i)) := by
  show (cfg3.win 1).cut (grid3.coords t) ((dat3 V c).after 1 t) = _
  rw [after3_1]
  unfold out3_1
  rw [View.canon_unit_zero zeros2]
  simp only [View.ld_unit_zero (S := S10x4096) zeros2]
  obtain ⟨e0, e1, e2, e3⟩ := maps3 t
  funext j
  show Cert.Bnn.sgnK (V c main_arg4 (((cfg3.win 0).blk t).view.emb j)) = Cert.Bnn.sgnK (V c main_arg4 (((cfg3.win 1).blk t).view.emb j))
  have h0 : ((cfg3.win 0).blk t).view.emb j = ((cfg3.win 1).blk t).view.emb j := by
    funext a; apply Fin.ext
    match a with
    | ⟨0, _⟩ => show win3_0.index t (0 : Fin 2) * 10 + 1 * (j 0).val = win3_1.index t (0 : Fin 2) * 10 + 1 * (j 0).val; omega
    | ⟨1, _⟩ => show win3_0.index t (1 : Fin 2) * 4096 + 1 * (j 1).val = win3_1.index t (1 : Fin 2) * 4096 + 1 * (j 1).val; omega
  rw [h0]

/-- An entry is in point t's output block iff each coordinate is in the block's range on its axis. -/
theorem mem_blk3 (t : Fin cfg3.N) (i : S10x4096.Idx) :
    i ∈ ((cfg3.win 1).blk t).view.set ↔ ∀ a : Fin 2, win3_1.index t a * S10x4096.size a ≤ (i a).val ∧ (i a).val < win3_1.index t a * S10x4096.size a + S10x4096.size a := by
  show i ∈ ((View.whole main_v3).slice (win3_1.rect t)).set ↔ _
  rw [View.set_slice_whole, Rect.mem_set_unit]
  exact Iff.rfl

/-- Row r is written by point r / 10. -/
theorem cover3 (i : S10x4096.Idx) : ∃ t : Fin cfg3.N, (cfg3.win 1).flush t = true ∧ i ∈ ((cfg3.win 1).blk t).view.set := by
  have hi0 : (i 0).val < 10 := (i 0).isLt
  have hi1 : (i 1).val < 4096 := (i 1).isLt
  have hN : (i 0).val / 10 < cfg3.N := by show _ < grid3.N; rw [N_3]; omega
  refine ⟨⟨(i 0).val / 10, hN⟩, flush3_1 _, ?_⟩
  rw [mem_blk3]
  obtain ⟨e0, e1, e2, e3⟩ := maps3 ⟨(i 0).val / 10, hN⟩
  intro a
  match a with
  | ⟨0, _⟩ => show win3_1.index ⟨(i 0).val / 10, hN⟩ (0 : Fin 2) * 10 ≤ (i 0).val ∧ (i 0).val < win3_1.index ⟨(i 0).val / 10, hN⟩ (0 : Fin 2) * 10 + 10; rw [e2]; show (i 0).val / 10 * 10 ≤ (i 0).val ∧ (i 0).val < (i 0).val / 10 * 10 + 10; omega
  | ⟨1, _⟩ => show win3_1.index ⟨(i 0).val / 10, hN⟩ (1 : Fin 2) * 4096 ≤ (i 1).val ∧ (i 1).val < win3_1.index ⟨(i 0).val / 10, hN⟩ (1 : Fin 2) * 4096 + 4096; rw [e3]; omega

/-- After region 3 its output array is the sign of W4 as the region found it, entry by entry. -/
theorem bin3_val (c : Dev nD) (j : Fin 10) (k : Fin 4096) :
    (dat3 V c).arrAt 1 cfg3.N (ix2 j k) = Cert.Bnn.sgnK (V c (Pipeline.arrRef spec3 0) (ix2 j k)) :=
  congrFun ((dat3 V c).arrAt_eq_of_cover 1 (fun i => Cert.Bnn.sgnK (V c main_arg4 i)) (fun t _ => wrote3 V c t) cover3) (ix2 j k)

end Cert.KernelIdeal.KVal

end
-- ==== Proof.KFinal.lean ====
/-
  The last region of the kernel program, read as a value. It walks the [8192, 10] array of final products in
  eight row blocks of 1024; at every point it also holds the four [1, 10] rows — the column sums s, the column
  sums of squares q, the scale g and the shift b — whole. At a point it forms, per column j, the mean s·2⁻¹³ and the
  variance max(q·2⁻¹³ − (s·2⁻¹³)², 0), and writes ((y − mean) · rsqrt(variance + ε)) · g + b over its rows. So every
  point writes back its rows of ONE whole-array function, the normalisation of the arrays the region found; the
  row blocks tile the output (row r belongs to point r / 1024), hence the output array after the region is that
  function everywhere.
-/
import proofs.«144054_j58213986730442_2_alg».proof.Proof.Gen.KernelIdeal.Frame
import proofs.«144054_j58213986730442_2_alg».proof.Proof.Spec
import Idealize.ShloMosaic.Lib.Pipeline.Value
import Idealize.ShloMosaic.Lib.ValueIdx
import Idealize.ShloMosaic.Lib.ValueLayout

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The normalisation from the two running sums, as one function of the whole arrays: the [8192,10] products y,
    and the four [1,10] rows s, q, g, b. -/
abbrev normOf (y : S8192x10.Idx → EReal) (s q g b : S1x10.Idx → EReal) : S8192x10.Idx → EReal := fun i =>
  Cert.Bnn.bnK (B := 8192) (N := 10) (fun p j => y (ix2 p j)) (fun j => s (ix2 0 j)) (fun j => q (ix2 0 j))
    (fun j => g (ix2 0 j)) (fun j => b (ix2 0 j)) (i 0) (i 1)

/-- The zero offsets of a whole-buffer access, as a constant function. -/
theorem zeroOffsets : (![0, 0] : Fin 2 → Nat) = fun _ => 0 := funext fun a => by fin_cases a <;> rfl

/-- The reciprocal square root of a vector, entry by entry. -/
theorem rsqrt_at {s : Shape} {φ : FTy} (a : FVec Ideal s φ) (i : s.Idx) : rsqrt a i = Ideal.rsqrt (a i) := rfl

/-- The stored block at row p, column j, from the loaded blocks. -/
theorem finPay_apply (s q : Vec Ideal S1x10 .f32) (y : Vec Ideal S1024x10 .f32) (g b : Vec Ideal S1x10 .f32) (p : Fin 1024) (j : Fin 10) :
    k8_pay1 s q y g b (ix2 p j)
      = (y (ix2 p j) - s (ix2 0 j) * Cert.Bnn.wInvN)
          * Ideal.rsqrt (max (q (ix2 0 j) * Cert.Bnn.wInvN - (s (ix2 0 j) * Cert.Bnn.wInvN) * (s (ix2 0 j) * Cert.Bnn.wInvN)) Cert.Bnn.w0 + Cert.Bnn.wEps)
          * g (ix2 0 j) + b (ix2 0 j) := by
  simp only [k8_pay1, addf_apply, mulf_apply, subf_apply, maximumf_apply, rsqrt_at, broadcast_apply, shapeCast_self, broadcastTo_1b_ab_apply]
  rfl

/-- The product window and the output window sit on row block t, column block 0; the four row windows on block (0, 0). -/
theorem maps8 : ∀ t : Fin cfg8.N, win8_0.index t (0 : Fin 2) = win8_5.index t (0 : Fin 2)
    ∧ win8_0.index t (1 : Fin 2) = win8_5.index t (1 : Fin 2)
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- What point t writes back is rows 1024·t … 1024·t + 1023 of the normalisation of the whole arrays. -/
theorem wrote8 (c : Dev nD) (t : Fin cfg8.N) :
    (dat8 V c).flushed 5 t = ((cfg8.win 5).blk t).view.read (Elt Ideal)
      (normOf (V c main_v13_0) (V c main_v13_1) (V c main_v13_2) (V c main_v14) (V c main_v15)) := by
  show (cfg8.win 5).cut (grid8.coords t) ((dat8 V c).after 5 t) = _
  rw [after8_5]
  unfold out8_5
  rw [View.canon_unit_zero zeroOffsets]
  simp only [View.ld_unit_zero (S := S1024x10) zeroOffsets, View.ld_unit_zero (S := S1x10) zeroOffsets]
  obtain ⟨e0, e1, e2, e3, a0, a1, b0, b1, c0, c1, d0, d1⟩ := maps8 t
  funext x
  obtain ⟨p, j, rfl⟩ : ∃ (p : Fin 1024) (j : Fin 10), x = ix2 p j := ⟨x 0, x 1, eq_ix2 x⟩
  refine (finPay_apply _ _ _ _ _ p j).trans ?_
  have hy : iblk8 V c 0 t (ix2 p j) = V c main_v13_0 (ix2 ((((cfg8.win 5).blk t).view.emb (ix2 p j)) 0) ((((cfg8.win 5).blk t).view.emb (ix2 p j)) 1)) := by
    show V c main_v13_0 (((cfg8.win 0).blk t).view.emb (ix2 p j)) = _
    refine congrArg _ (funext fun a => Fin.ext ?_)
    match a with
    | ⟨0, _⟩ => show win8_0.index t (0 : Fin 2) * 1024 + 1 * p.val = win8_5.index t (0 : Fin 2) * 1024 + 1 * p.val; omega
    | ⟨1, _⟩ => show win8_0.index t (1 : Fin 2) * 10 + 1 * j.val = win8_5.index t (1 : Fin 2) * 10 + 1 * j.val; omega
  have hs : iblk8 V c 1 t (ix2 0 j) = V c main_v13_1 (ix2 0 ((((cfg8.win 5).blk t).view.emb (ix2 p j)) 1)) := by
    show V c main_v13_1 (((cfg8.win 1).blk t).view.emb (ix2 0 j)) = _
    refine congrArg _ (funext fun a => Fin.ext ?_)
    match a with
    | ⟨0, _⟩ => show win8_1.index t (0 : Fin 2) * 1 + 1 * 0 = 0; omega
    | ⟨1, _⟩ => show win8_1.index t (1 : Fin 2) * 10 + 1 * j.val = win8_5.index t (1 : Fin 2) * 10 + 1 * j.val; omega
  have hq : iblk8 V c 2 t (ix2 0 j) = V c main_v13_2 (ix2 0 ((((cfg8.win 5).blk t).view.emb (ix2 p j)) 1)) := by
    show V c main_v13_2 (((cfg8.win 2).blk t).view.emb (ix2 0 j)) = _
    refine congrArg _ (funext fun a => Fin.ext ?_)
    match a with
    | ⟨0, _⟩ => show win8_2.index t (0 : Fin 2) * 1 + 1 * 0 = 0; omega
    | ⟨1, _⟩ => show win8_2.index t (1 : Fin 2) * 10 + 1 * j.val = win8_5.index t (1 : Fin 2) * 10 + 1 * j.val; omega
  have hg : iblk8 V c 3 t (ix2 0 j) = V c main_v14 (ix2 0 ((((cfg8.win 5).blk t).view.emb (ix2 p j)) 1)) := by
    show V c main_v14 (((cfg8.win 3).blk t).view.emb (ix2 0 j)) = _
    refine congrArg _ (funext fun a => Fin.ext ?_)
    match a with
    | ⟨0, _⟩ => show win8_3.index t (0 : Fin 2) * 1 + 1 * 0 = 0; omega
    | ⟨1, _⟩ => show win8_3.index t (1 : Fin 2) * 10 + 1 * j.val = win8_5.index t (1 : Fin 2) * 10 + 1 * j.val; omega
  have hb : iblk8 V c 4 t (ix2 0 j) = V c main_v15 (ix2 0 ((((cfg8.win 5).blk t).view.emb (ix2 p j)) 1)) := by
    show V c main_v15 (((cfg8.win 4).blk t).view.emb (ix2 0 j)) = _
    refine congrArg _ (funext fun a => Fin.ext ?_)
    match a with
    | ⟨0, _⟩ => show win8_4.index t (0 : Fin 2) * 1 + 1 * 0 = 0; omega
    | ⟨1, _⟩ => show win8_4.index t (1 : Fin 2) * 10 + 1 * j.val = win8_5.index t (1 : Fin 2) * 10 + 1 * j.val; omega
  rw [hy, hs, hq, hg, hb]
  rfl

/-- An entry is in point t's output block iff each coordinate is in the block's range on its axis. -/
theorem mem_blk8 (t : Fin cfg8.N) (i : S8192x10.Idx) :
    i ∈ ((cfg8.win 5).blk t).view.set ↔ ∀ a : Fin 2, win8_5.index t a * S1024x10.size a ≤ (i a).val ∧ (i a).val < win8_5.index t a * S1024x10.size a + S1024x10.size a := by
  show i ∈ ((View.whole main_v16).slice (win8_5.rect t)).set ↔ _
  rw [View.set_slice_whole, Rect.mem_set_unit]
  exact Iff.rfl

/-- Row r is written by point r / 1024. -/
theorem cover8 (i : S8192x10.Idx) : ∃ t : Fin cfg8.N, (cfg8.win 5).flush t = true ∧ i ∈ ((cfg8.win 5).blk t).view.set := by
  have hi0 : (i 0).val < 8192 := (i 0).isLt
  have hi1 : (i 1).val < 10 := (i 1).isLt
  have hN : (i 0).val / 1024 < cfg8.N := by show _ < grid8.N; rw [N_8]; omega
  refine ⟨⟨(i 0).val / 1024, hN⟩, flush8_5 _, ?_⟩
  rw [mem_blk8]
  obtain ⟨e0, e1, e2, e3, -⟩ := maps8 ⟨(i 0).val / 1024, hN⟩
  intro a
  match a with
  | ⟨0, _⟩ => show win8_5.index ⟨(i 0).val / 1024, hN⟩ (0 : Fin 2) * 1024 ≤ (i 0).val ∧ (i 0).val < win8_5.index ⟨(i 0).val / 1024, hN⟩ (0 : Fin 2) * 1024 + 1024; rw [e2]; show (i 0).val / 1024 * 1024 ≤ (i 0).val ∧ (i 0).val < (i 0).val / 1024 * 1024 + 1024; omega
  | ⟨1, _⟩ => show win8_5.index ⟨(i 0).val / 1024, hN⟩ (1 : Fin 2) * 10 ≤ (i 1).val ∧ (i 1).val < win8_5.index ⟨(i 0).val / 1024, hN⟩ (1 : Fin 2) * 10 + 10; rw [e3]; omega

/-- After region 8 its output array is the normalisation of the arrays the region found, entry by entry. -/
theorem final_val (c : Dev nD) (p : Fin 8192) (j : Fin 10) :
    (dat8 V c).arrAt 5 cfg8.N (ix2 p j)
      = Cert.Bnn.bnK (fun p j => V c (Pipeline.arrRef spec8 0) (ix2 p j)) (fun j => V c (Pipeline.arrRef spec8 1) (ix2 0 j))
          (fun j => V c (Pipeline.arrRef spec8 2) (ix2 0 j)) (fun j => V c (Pipeline.arrRef spec8 3) (ix2 0 j))
          (fun j => V c (Pipeline.arrRef spec8 4) (ix2 0 j)) p j :=
  congrFun ((dat8 V c).arrAt_eq_of_cover 5 (normOf (V c main_v13_0) (V c main_v13_1) (V c main_v13_2) (V c main_v14) (V c main_v15))
    (fun t _ => wrote8 V c t) cover8) (ix2 p j)

end Cert.KernelIdeal.KVal

end
-- ==== Proof.KL0a.lean ====
/-
  Layer 0's body, read as values: what each of the two control cases leaves in the three output staging buffers,
  as the body's pure terms of the input blocks — the product block, and the two running column sums (from the zero
  block at the first row tile of a column tile, from what the previous row tile left elsewhere).
-/
import proofs.«144054_j58213986730442_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl

/-- Elsewhere than at the first row tile: the product block. -/
theorem out4_B_2_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : ¬cond4_0 i) (x0 : Vec F S256x784 .f32) (x1 : Vec F S1024x784 .bf16) (xo3 xo4 : Vec F S1x1024 .f32) :
    out4_B_2 c i a2 h2 a3 h3 a4 h4 a5 h5 a6 h6 hc x0 x1 xo3 xo4 = k4_pay6 x0 x1 := by
  unfold out4_B_2
  rw [View.read_writes_eq_canon _ _ _ (cover4_B_2 c i a2 h2 a3 h3 a4 h4 a5 h5 a6 h6 hc x0 x1 xo3 xo4)]
  unfold kernelRun4_B
  dsimp only
  rw [View.canon_unit_zero hz2]
  simp only [View.readAt_eq_ld, h2.read_unread, h3.read_unread, View.ld_unit_zero (S := S256x784) hz2, View.ld_unit_zero (S := S1024x784) hz2]

/-- Elsewhere than at the first row tile: the running sum plus this tile's column sums. -/
theorem out4_B_3_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : ¬cond4_0 i) (x0 : Vec F S256x784 .f32) (x1 : Vec F S1024x784 .bf16) (xo3 xo4 : Vec F S1x1024 .f32) :
    out4_B_3 c i a2 h2 a3 h3 a4 h4 a5 h5 a6 h6 hc x0 x1 xo3 xo4 = k4_pay4 x0 x1 xo3 := by
  unfold out4_B_3
  rw [View.read_writes_eq_canon _ _ _ (cover4_B_3 c i a2 h2 a3 h3 a4 h4 a5 h5 a6 h6 hc x0 x1 xo3 xo4)]
  unfold kernelRun4_B
  dsimp only
  rw [View.canon_unit_zero hz2]
  simp only [View.readAt_eq_ld, h2.read_unread, h3.read_unread, h5.read_unread, View.ld_unit_zero (S := S256x784) hz2, View.ld_unit_zero (S := S1024x784) hz2, View.ld_unit_zero (S := S1x1024) hz2]

/-- Elsewhere than at the first row tile: the running sum of squares plus this tile's. -/
theorem out4_B_4_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : ¬cond4_0 i) (x0 : Vec F S256x784 .f32) (x1 : Vec F S1024x784 .bf16) (xo3 xo4 : Vec F S1x1024 .f32) :
    out4_B_4 c i a2 h2 a3 h3 a4 h4 a5 h5 a6 h6 hc x0 x1 xo3 xo4 = k4_pay5 x0 x1 xo4 := by
  unfold out4_B_4
  rw [View.read_writes_eq_canon _ _ _ (cover4_B_4 c i a2 h2 a3 h3 a4 h4 a5 h5 a6 h6 hc x0 x1 xo3 xo4)]
  unfold kernelRun4_B
  dsimp only
  rw [View.canon_unit_zero hz2]
  simp only [View.readAt_eq_ld, h2.read_unread, h3.read_unread, h6.read_unread, View.ld_unit_zero (S := S256x784) hz2, View.ld_unit_zero (S := S1024x784) hz2, View.ld_unit_zero (S := S1x1024) hz2]

/-- At the first row tile: the product block. -/
theorem out4_A_2_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : cond4_0 i) (x0 : Vec F S256x784 .f32) (x1 : Vec F S1024x784 .bf16) :
    out4_A_2 c i a2 h2 a3 h3 a4 h4 a5 h5 a6 h6 hc x0 x1 = k4_pay6 x0 x1 := by
  unfold out4_A_2
  rw [View.read_writes_eq_canon _ _ _ (cover4_A_2 c i a2 h2 a3 h3 a4 h4 a5 h5 a6 h6 hc x0 x1)]
  unfold kernelRun4_A
  dsimp only
  rw [View.canon_unit_zero hz2]
  simp only [View.readAt_eq_ld, h2.read_unread, h3.read_unread, View.ld_unit_zero (S := S256x784) hz2, View.ld_unit_zero (S := S1024x784) hz2]

/-- At the first row tile: the zero block is stored, read back, and this tile's column sums added. -/
theorem out4_A_3_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : cond4_0 i) (x0 : Vec F S256x784 .f32) (x1 : Vec F S1024x784 .bf16) :
    out4_A_3 c i a2 h2 a3 h3 a4 h4 a5 h5 a6 h6 hc x0 x1 = k4_pay4 x0 x1 k4_pay1 := by
  unfold out4_A_3
  rw [View.read_writes_eq_canon _ _ _ (cover4_A_3 c i a2 h2 a3 h3 a4 h4 a5 h5 a6 h6 hc x0 x1)]
  unfold kernelRun4_A
  dsimp only
  sl_unfold_words
  rw [View.canon_cons_unit_zero (S := S1x1024) hz2, View.readCov_unit_zero (S := S1x1024) _ hz2]
  simp only [View.readAt_eq_ld, h2.read_unread, h3.read_unread, View.ld_unit_zero (S := S256x784) hz2, View.ld_unit_zero (S := S1024x784) hz2, View.ld_unit_zero (S := S1x1024) hz2]

/-- At the first row tile: the same for the sums of squares. -/
theorem out4_A_4_eq (c : Dev nD) (i : grid4.Coords) (a2 : Memref sig .tc .vmem S256x784 .f32) (h2 : a2.IsWhole) (a3 : Memref sig .tc .vmem S1024x784 .bf16) (h3 : a3.IsWhole) (a4 : Memref sig .tc .vmem S256x1024 .bf16) (h4 : a4.IsWhole) (a5 : Memref sig .tc .vmem S1x1024 .f32) (h5 : a5.IsWhole) (a6 : Memref sig .tc .vmem S1x1024 .f32) (h6 : a6.IsWhole) (hc : cond4_0 i) (x0 : Vec F S256x784 .f32) (x1 : Vec F S1024x784 .bf16) :
    out4_A_4 c i a2 h2 a3 h3 a4 h4 a5 h5 a6 h6 hc x0 x1 = k4_pay5 x0 x1 k4_pay2 := by
  unfold out4_A_4
  rw [View.read_writes_eq_canon _ _ _ (cover4_A_4 c i a2 h2 a3 h3 a4 h4 a5 h5 a6 h6 hc x0 x1)]
  unfold kernelRun4_A
  dsimp only
  sl_unfold_words
  rw [View.canon_cons_unit_zero (S := S1x1024) hz2, View.readCov_unit_zero (S := S1x1024) _ hz2]
  simp only [View.readAt_eq_ld, h2.read_unread, h3.read_unread, View.ld_unit_zero (S := S256x784) hz2, View.ld_unit_zero (S := S1024x784) hz2, View.ld_unit_zero (S := S1x1024) hz2]

end Cert.KernelIdeal.KVal
end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColSums.lean ====
/-
  General lemmas for kernels that keep a per-column number as a [1, b] row, read at the exact (extended-real) instance.

  * `colSum_apply`: a sum of an [a, b] array along its FIRST axis is, at q, the plain sum over k of the array at (k, q).
  * `keepdimsColSum_apply`: that sum kept as a [1, b] row reads, at (u, q), the same sum.
  * `broadcast_keepdimsColSum_apply`: the row repeated down the rows of an [m, b] array reads, at (p, q), the same sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ColSums

open Idealize.ShloMosaic Idealize.ShloMosaic.ValueIdx

/-- The sum of an [a, b] array along its first axis, at q, is the sum over k of the array at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum kept as a [1, b] row: at (u, q) the sum over k of the array at (k, q). -/
theorem keepdimsColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (u : Fin 1) (q : Fin b) :
    shapeCast ⟨2, ![1, b]⟩ (multiReduction .add [0] ⟨1, ![b]⟩ src acc h hφ hacc) hs (ix2 u q) = ∑ k : Fin a, src (ix2 k q) :=
  (shapeCast_a_1a_apply _ hs u q).trans (colSum_apply src acc h hφ hacc q)

/-- The row of column sums repeated down the rows of an [m, b] array: at (p, q) the sum over k of the array at (k, q). -/
theorem broadcast_keepdimsColSum_apply {a b m : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![m, b]⟩) (p : Fin m) (q : Fin b) :
    broadcastTo ⟨2, ![m, b]⟩ (shapeCast ⟨2, ![1, b]⟩ (multiReduction .add [0] ⟨1, ![b]⟩ src acc h hφ hacc) hs) hb (ix2 p q)
      = ∑ k : Fin a, src (ix2 k q) :=
  (broadcastTo_1b_ab_apply _ hb p q).trans (keepdimsColSum_apply src acc h hφ hacc hs 0 q)

end Cert.ColSums

end
-- ==== Proof.KL0b.lean ====
/-
  Layer 0's body at an entry, on the extended reals: the product block is the plain sum over the contracted axis,
  and the two running rows are the carried row plus the block's column sums (of the products, of their squares).
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.LibDenseRows
import proofs.«144054_j58213986730442_2_alg».proof.Proof.LibColSums
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

theorem dot4_eq : dot_S256x784_S1024x784_S256x1024_1_1_0_0_n_n = DotDims.transposedRhs 256 784 1024 := rfl

/-- The product block at (p, j): ∑ₖ a(p,k) · w(j,k). -/
theorem pay3_apply (x0 : Vec Ideal S256x784 .f32) (x1 : Vec Ideal S1024x784 .bf16) (p : Fin 256) (j : Fin 1024) :
    k4_pay3 x0 x1 (ix2 p j) = ∑ k : Fin 784, x0 (ix2 p k) * x1 (ix2 j k) := by
  unfold k4_pay3
  rw [dot4_eq, shapeCast_self]
  exact Cert.DenseRows.matmulT_zero_apply none (truncf .bf16 x0 bitsLt_bf16_f32) x1 p j

/-- The running row of column sums after the body, at column j: the carried entry plus ∑ₚ of the product block. -/
theorem pay4_apply (x0 : Vec Ideal S256x784 .f32) (x1 : Vec Ideal S1024x784 .bf16) (xo : Vec Ideal S1x1024 .f32) (j : Fin 1024) :
    k4_pay4 x0 x1 xo (ix2 0 j) = xo (ix2 0 j) + ∑ p : Fin 256, ∑ k : Fin 784, x0 (ix2 p k) * x1 (ix2 j k) := by
  unfold k4_pay4
  rw [addf_apply, shapeCast_self]
  refine congrArg (xo (ix2 0 j) + ·) ?_
  refine (Cert.ColSums.keepdimsColSum_apply (k4_pay3 x0 x1) _ _ _ _ _ 0 j).trans ?_
  exact Finset.sum_congr rfl fun p _ => pay3_apply x0 x1 p j

/-- The running row of column sums of squares after the body, at column j. -/
theorem pay5_apply (x0 : Vec Ideal S256x784 .f32) (x1 : Vec Ideal S1024x784 .bf16) (xo : Vec Ideal S1x1024 .f32) (j : Fin 1024) :
    k4_pay5 x0 x1 xo (ix2 0 j) = xo (ix2 0 j) + ∑ p : Fin 256, (∑ k : Fin 784, x0 (ix2 p k) * x1 (ix2 j k)) * (∑ k : Fin 784, x0 (ix2 p k) * x1 (ix2 j k)) := by
  unfold k4_pay5
  rw [addf_apply, shapeCast_self]
  refine congrArg (xo (ix2 0 j) + ·) ?_
  refine (Cert.ColSums.keepdimsColSum_apply (mulf (k4_pay3 x0 x1) (k4_pay3 x0 x1)) _ _ _ _ _ 0 j).trans ?_
  refine Finset.sum_congr rfl fun p _ => ?_
  rw [mulf_apply, pay3_apply]

/-- The stored product block is the product block (the change of format is the identity here). -/
theorem pay6_apply (x0 : Vec Ideal S256x784 .f32) (x1 : Vec Ideal S1024x784 .bf16) (p : Fin 256) (j : Fin 1024) :
    k4_pay6 x0 x1 (ix2 p j) = ∑ k : Fin 784, x0 (ix2 p k) * x1 (ix2 j k) := by
  unfold k4_pay6
  exact pay3_apply x0 x1 p j

/-- The zero block the first row tile stores is zero. -/
theorem pay1_apply (j : Fin 1024) : (k4_pay1 (F := Ideal)) (ix2 0 j) = 0 := by
  unfold k4_pay1
  exact Ideal.ofBits_zero_f32
theorem pay2_apply (j : Fin 1024) : (k4_pay2 (F := Ideal)) (ix2 0 j) = 0 := by
  unfold k4_pay2
  exact Ideal.ofBits_zero_f32

end Cert.KernelIdeal.KVal
end
-- ==== Proof.LibRegroup.lean ====
/-
  Regrouping finite sums in a commutative additive monoid.

  * `sum_nest`: a sum over `A * B * (R * L)` consecutive positions is the four-fold nested sum over a group `i < A`, a
    step `j < B` inside the group, a row `r < R` inside the step and a lane `l < L` inside the row, the position of
    `(i, j, r, l)` being `((B * i + j) * R + r) * L + l`.
  * `acc_eq`: a running total that is reset to `0 + (the term)` at every position divisible by `B` and otherwise adds
    the position's term to the total before it holds, at position `B * i + j` with `j < B`, the sum of the terms of
    positions `B * i, …, B * i + j`.

  Only commutativity and associativity of addition are used, so both hold on the extended reals at the infinities too.
-/
import Mathlib.Algebra.BigOperators.Fin
import Mathlib.Logic.Equiv.Fin.Basic
import Mathlib.Tactic.Ring

namespace Cert.Regroup

variable {M : Type*} [AddCommMonoid M]

/-- A sum over `A * B * (R * L)` positions as a four-fold nested sum; `pos i j r l` is any spelling of position
    `((B * i + j) * R + r) * L + l`. -/
theorem sum_nest (A B R L N : ℕ) (hN : N = A * B * (R * L)) (T : Fin N → M)
    (pos : Fin A → Fin B → Fin R → Fin L → Fin N)
    (hpos : ∀ i j r l, (pos i j r l).val = ((B * i.val + j.val) * R + r.val) * L + l.val) :
    ∑ n, T n = ∑ i, ∑ j, ∑ r, ∑ l, T (pos i j r l) := by
  subst hN
  rw [← Equiv.sum_comp finProdFinEquiv T, Fintype.sum_prod_type,
    ← Equiv.sum_comp finProdFinEquiv (fun c : Fin (A * B) => ∑ q : Fin (R * L), T (finProdFinEquiv (c, q))),
    Fintype.sum_prod_type]
  refine Finset.sum_congr rfl fun i _ => Finset.sum_congr rfl fun j _ => ?_
  rw [← Equiv.sum_comp finProdFinEquiv (fun q : Fin (R * L) => T (finProdFinEquiv (finProdFinEquiv (i, j), q))),
    Fintype.sum_prod_type]
  refine Finset.sum_congr rfl fun r _ => Finset.sum_congr rfl fun l _ => congrArg T (Fin.ext ?_)
  rw [hpos]
  simp only [finProdFinEquiv_apply_val]
  ring

/-- The running total with resets: at position `B * i + j`, `j < B`, it is the sum of the terms from the last reset on. -/
theorem acc_eq (B K : ℕ) (bs acc : ℕ → M)
    (h0 : ∀ n, n < K → n % B = 0 → acc n = 0 + bs n)
    (hs : ∀ n, n + 1 < K → (n + 1) % B ≠ 0 → acc (n + 1) = acc n + bs (n + 1)) (i : ℕ) :
    ∀ j, j < B → B * i + j < K → acc (B * i + j) = ∑ k ∈ Finset.range (j + 1), bs (B * i + k)
  | 0, _, hK => by
    rw [h0 _ hK (by rw [Nat.add_zero]; exact Nat.mul_mod_right B i), zero_add, Finset.sum_range_one]
  | j + 1, hj, hK => by
    have hne : (B * i + j + 1) % B ≠ 0 := by
      rw [Nat.add_assoc, Nat.mul_add_mod, Nat.mod_eq_of_lt hj]
      exact Nat.succ_ne_zero j
    rw [show B * i + (j + 1) = B * i + j + 1 from rfl, hs (B * i + j) hK hne, acc_eq B K bs acc h0 hs i j (by omega) (by omega),
      Finset.sum_range_succ _ (j + 1)]
    rfl

/-- The total at the last position of group `i`: the sum of the group's `B` terms. -/
theorem acc_last (B K : ℕ) (hB : 0 < B) (bs acc : ℕ → M)
    (h0 : ∀ n, n < K → n % B = 0 → acc n = 0 + bs n)
    (hs : ∀ n, n + 1 < K → (n + 1) % B ≠ 0 → acc (n + 1) = acc n + bs (n + 1)) (i : ℕ) (hK : B * i + (B - 1) < K) :
    acc (B * i + (B - 1)) = ∑ j : Fin B, bs (B * i + j.val) := by
  rw [acc_eq B K bs acc h0 hs i (B - 1) (by omega) hK, show B - 1 + 1 = B from by omega, Finset.sum_range]

end Cert.Regroup
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.KL0c.lean ====
/-
  Layer 0's region, read as values at the contents V it is entered with: a window's block at grid point t
  (column tile t / 32, row tile t % 32) is the array at the block's rows and columns; after the body at t the product
  staging buffer holds the products of that row tile by that column tile, and the two running rows hold the column
  sums (of products, of their squares) over the row tiles met since the column tile began.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL0a
import proofs.«144054_j58213986730442_2_alg».proof.Proof.KL0b
import proofs.«144054_j58213986730442_2_alg».proof.Proof.LibRegroup
import proofs.«144054_j58213986730442_2_alg».proof.Proof.LibChunkSum
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The printed index maps over the grid: point t is row tile t % 32 of column tile t / 32. -/
theorem idx4 : ∀ t : Fin cfg4.N,
    win4_0.index t (0 : Fin 2) = t.val % 32 ∧ win4_0.index t (1 : Fin 2) = 0
    ∧ win4_1.index t (0 : Fin 2) = t.val / 32 ∧ win4_1.index t (1 : Fin 2) = 0
    ∧ win4_2.index t (0 : Fin 2) = t.val % 32 ∧ win4_2.index t (1 : Fin 2) = t.val / 32
    ∧ win4_3.index t (0 : Fin 2) = 0 ∧ win4_3.index t (1 : Fin 2) = t.val / 32
    ∧ win4_4.index t (0 : Fin 2) = 0 ∧ win4_4.index t (1 : Fin 2) = t.val / 32 :=
  (by decide +kernel : ∀ t : Fin grid4.N, _)

/-- The two input blocks at point t, as arrays of the block's literal shape. -/
abbrev blk4a (c : Dev nD) (t : Fin cfg4.N) : Vec Ideal S256x784 .f32 := iblk4 V c 0 t
abbrev blk4w (c : Dev nD) (t : Fin cfg4.N) : Vec Ideal S1024x784 .bf16 := iblk4 V c 1 t

/-- The activation block at point t reads rows 256·(t % 32) + p of the activations. -/
theorem iblk4_0_apply (c : Dev nD) (t : Fin cfg4.N) (p : Fin 256) (k : Fin 784) (P : Fin 8192)
    (hP : P.val = 256 * (t.val % 32) + p.val) :
    blk4a V c t (ix2 p k) = V c (Pipeline.arrRef spec4 0) (ix2 P k) := by
  unfold blk4a iblk4
  rw [View.read_apply]
  refine congrArg (V c (Pipeline.arrRef spec4 0)) (funext fun a => Fin.ext ?_)
  match a with
  | ⟨0, _⟩ => show win4_0.index t (0 : Fin 2) * 256 + 1 * p.val = P.val; rw [(idx4 t).1, hP]; omega
  | ⟨1, _⟩ => show win4_0.index t (1 : Fin 2) * 784 + 1 * k.val = k.val; rw [(idx4 t).2.1]; omega

/-- The weight block at point t reads rows 1024·(t / 32) + j of the binarised weights. -/
theorem iblk4_1_apply (c : Dev nD) (t : Fin cfg4.N) (j : Fin 1024) (k : Fin 784) (J : Fin 4096)
    (hJ : J.val = 1024 * (t.val / 32) + j.val) :
    blk4w V c t (ix2 j k) = V c (Pipeline.arrRef spec4 1) (ix2 J k) := by
  unfold blk4w iblk4
  rw [View.read_apply]
  refine congrArg (V c (Pipeline.arrRef spec4 1)) (funext fun a => Fin.ext ?_)
  match a with
  | ⟨0, _⟩ => show win4_1.index t (0 : Fin 2) * 1024 + 1 * j.val = J.val; rw [(idx4 t).2.2.1, hJ]; omega
  | ⟨1, _⟩ => show win4_1.index t (1 : Fin 2) * 784 + 1 * k.val = k.val; rw [(idx4 t).2.2.2.1]; omega

/-- After the body at point t the product buffer holds, at (p, j), the product of activation row 256·(t % 32) + p with
    weight row 1024·(t / 32) + j. -/
theorem outs4_prod (c : Dev nD) (t : Fin cfg4.N) (p : Fin 256) (j : Fin 1024) :
    (outsAt4 V c t.val t.isLt).1 (ix2 p j)
      = ∑ k : Fin 784, blk4a V c t (ix2 p k) * blk4w V c t (ix2 j k) := by
  by_cases h0 : t.val % 32 = 0
  · rw [outsAt4_A V c t h0]
    dsimp only
    refine (congrFun (out4_A_2_eq c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) (ix2 p j)).trans ?_
    exact pay6_apply (iblk4 V c 0 t) (iblk4 V c 1 t) p j
  · rw [outsAt4_B V c t h0]
    dsimp only
    refine (congrFun (out4_B_2_eq c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) _ _) (ix2 p j)).trans ?_
    exact pay6_apply (iblk4 V c 0 t) (iblk4 V c 1 t) p j

end Cert.KernelIdeal.KVal
end
-- ==== Proof.KL0d.lean ====
/-
  Layer 0's two running rows: at local column j, after the body at point n the sum row holds the sum, over the row
  tiles met since the column tile began, of each tile's column sum; at the last row tile of a column tile that is the
  whole column's sum over the batch. The same for the squares.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL0c
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

theorem N4 : cfg4.N = 128 := N_4

/-- One row tile's column sum of products (of squared products), at local column j of point n. -/
def tile4 (c : Dev nD) (j : Fin 1024) (n : ℕ) : EReal :=
  if h : n < cfg4.N then ∑ p : Fin 256, ∑ k : Fin 784, blk4a V c ⟨n, h⟩ (ix2 p k) * blk4w V c ⟨n, h⟩ (ix2 j k) else 0
def tileSq4 (c : Dev nD) (j : Fin 1024) (n : ℕ) : EReal :=
  if h : n < cfg4.N then ∑ p : Fin 256, (∑ k : Fin 784, blk4a V c ⟨n, h⟩ (ix2 p k) * blk4w V c ⟨n, h⟩ (ix2 j k)) * (∑ k : Fin 784, blk4a V c ⟨n, h⟩ (ix2 p k) * blk4w V c ⟨n, h⟩ (ix2 j k)) else 0

/-- The two running rows after the body at point n, at local column j. -/
def acc4s (c : Dev nD) (j : Fin 1024) (n : ℕ) : EReal :=
  if h : n < cfg4.N then ((outsAt4 V c n h).2.1 : Vec Ideal S1x1024 .f32) (ix2 0 j) else 0
def acc4q (c : Dev nD) (j : Fin 1024) (n : ℕ) : EReal :=
  if h : n < cfg4.N then ((outsAt4 V c n h).2.2 : Vec Ideal S1x1024 .f32) (ix2 0 j) else 0

theorem acc4s_zero (c : Dev nD) (j : Fin 1024) (n : ℕ) (hn : n < 128) (h0 : n % 32 = 0) :
    acc4s V c j n = 0 + tile4 V c j n := by
  have hn' : n < cfg4.N := by rw [N4]; exact hn
  unfold acc4s tile4
  rw [dif_pos hn', dif_pos hn', outsAt4_A V c ⟨n, hn'⟩ h0]
  dsimp only
  refine (congrFun (out4_A_3_eq c (grid4.coords ⟨n, hn'⟩) (ms4_0 ⟨n, hn'⟩) (hs4_0 ⟨n, hn'⟩) (ms4_1 ⟨n, hn'⟩) (hs4_1 ⟨n, hn'⟩) (ms4_2 ⟨n, hn'⟩) (hs4_2 ⟨n, hn'⟩) (ms4_3 ⟨n, hn'⟩) (hs4_3 ⟨n, hn'⟩) (ms4_4 ⟨n, hn'⟩) (hs4_4 ⟨n, hn'⟩) ((hcond4_0 ⟨n, hn'⟩).mpr h0) (iblk4 V c 0 ⟨n, hn'⟩) (iblk4 V c 1 ⟨n, hn'⟩)) (ix2 0 j)).trans ?_
  refine (pay4_apply (iblk4 V c 0 ⟨n, hn'⟩) (iblk4 V c 1 ⟨n, hn'⟩) (k4_pay1 (F := Ideal)) j).trans ?_
  rw [pay1_apply]

theorem acc4q_zero (c : Dev nD) (j : Fin 1024) (n : ℕ) (hn : n < 128) (h0 : n % 32 = 0) :
    acc4q V c j n = 0 + tileSq4 V c j n := by
  have hn' : n < cfg4.N := by rw [N4]; exact hn
  unfold acc4q tileSq4
  rw [dif_pos hn', dif_pos hn', outsAt4_A V c ⟨n, hn'⟩ h0]
  dsimp only
  refine (congrFun (out4_A_4_eq c (grid4.coords ⟨n, hn'⟩) (ms4_0 ⟨n, hn'⟩) (hs4_0 ⟨n, hn'⟩) (ms4_1 ⟨n, hn'⟩) (hs4_1 ⟨n, hn'⟩) (ms4_2 ⟨n, hn'⟩) (hs4_2 ⟨n, hn'⟩) (ms4_3 ⟨n, hn'⟩) (hs4_3 ⟨n, hn'⟩) (ms4_4 ⟨n, hn'⟩) (hs4_4 ⟨n, hn'⟩) ((hcond4_0 ⟨n, hn'⟩).mpr h0) (iblk4 V c 0 ⟨n, hn'⟩) (iblk4 V c 1 ⟨n, hn'⟩)) (ix2 0 j)).trans ?_
  refine (pay5_apply (iblk4 V c 0 ⟨n, hn'⟩) (iblk4 V c 1 ⟨n, hn'⟩) (k4_pay2 (F := Ideal)) j).trans ?_
  rw [pay2_apply]

theorem acc4s_succ (c : Dev nD) (j : Fin 1024) (n : ℕ) (hn : n + 1 < 128) (hne : (n + 1) % 32 ≠ 0) :
    acc4s V c j (n + 1) = acc4s V c j n + tile4 V c j (n + 1) := by
  have hn' : n + 1 < cfg4.N := by rw [N4]; exact hn
  have hn0 : n < cfg4.N := Nat.lt_of_succ_lt hn'
  unfold acc4s tile4
  rw [dif_pos hn', dif_pos hn0, dif_pos hn', outsAt4_B V c ⟨n + 1, hn'⟩ hne]
  dsimp only
  refine (congrFun (out4_B_3_eq c (grid4.coords ⟨n + 1, hn'⟩) (ms4_0 ⟨n + 1, hn'⟩) (hs4_0 ⟨n + 1, hn'⟩) (ms4_1 ⟨n + 1, hn'⟩) (hs4_1 ⟨n + 1, hn'⟩) (ms4_2 ⟨n + 1, hn'⟩) (hs4_2 ⟨n + 1, hn'⟩) (ms4_3 ⟨n + 1, hn'⟩) (hs4_3 ⟨n + 1, hn'⟩) (ms4_4 ⟨n + 1, hn'⟩) (hs4_4 ⟨n + 1, hn'⟩) (fun h => hne ((hcond4_0 ⟨n + 1, hn'⟩).mp h)) (iblk4 V c 0 ⟨n + 1, hn'⟩) (iblk4 V c 1 ⟨n + 1, hn'⟩) _ _) (ix2 0 j)).trans ?_
  exact pay4_apply (iblk4 V c 0 ⟨n + 1, hn'⟩) (iblk4 V c 1 ⟨n + 1, hn'⟩) _ j

theorem acc4q_succ (c : Dev nD) (j : Fin 1024) (n : ℕ) (hn : n + 1 < 128) (hne : (n + 1) % 32 ≠ 0) :
    acc4q V c j (n + 1) = acc4q V c j n + tileSq4 V c j (n + 1) := by
  have hn' : n + 1 < cfg4.N := by rw [N4]; exact hn
  have hn0 : n < cfg4.N := Nat.lt_of_succ_lt hn'
  unfold acc4q tileSq4
  rw [dif_pos hn', dif_pos hn0, dif_pos hn', outsAt4_B V c ⟨n + 1, hn'⟩ hne]
  dsimp only
  refine (congrFun (out4_B_4_eq c (grid4.coords ⟨n + 1, hn'⟩) (ms4_0 ⟨n + 1, hn'⟩) (hs4_0 ⟨n + 1, hn'⟩) (ms4_1 ⟨n + 1, hn'⟩) (hs4_1 ⟨n + 1, hn'⟩) (ms4_2 ⟨n + 1, hn'⟩) (hs4_2 ⟨n + 1, hn'⟩) (ms4_3 ⟨n + 1, hn'⟩) (hs4_3 ⟨n + 1, hn'⟩) (ms4_4 ⟨n + 1, hn'⟩) (hs4_4 ⟨n + 1, hn'⟩) (fun h => hne ((hcond4_0 ⟨n + 1, hn'⟩).mp h)) (iblk4 V c 0 ⟨n + 1, hn'⟩) (iblk4 V c 1 ⟨n + 1, hn'⟩) _ _) (ix2 0 j)).trans ?_
  exact pay5_apply (iblk4 V c 0 ⟨n + 1, hn'⟩) (iblk4 V c 1 ⟨n + 1, hn'⟩) _ j

/-- At the last row tile of column tile a the rows hold the sums over all thirty-two row tiles. -/
theorem acc4s_last (c : Dev nD) (j : Fin 1024) (a : ℕ) (ha : a < 4) :
    acc4s V c j (32 * a + 31) = ∑ b : Fin 32, tile4 V c j (32 * a + b.val) :=
  Cert.Regroup.acc_last 32 128 (by decide) (tile4 V c j) (acc4s V c j) (acc4s_zero V c j) (acc4s_succ V c j) a (by omega)
theorem acc4q_last (c : Dev nD) (j : Fin 1024) (a : ℕ) (ha : a < 4) :
    acc4q V c j (32 * a + 31) = ∑ b : Fin 32, tileSq4 V c j (32 * a + b.val) :=
  Cert.Regroup.acc_last 32 128 (by decide) (tileSq4 V c j) (acc4q V c j) (acc4q_zero V c j) (acc4q_succ V c j) a (by omega)

end Cert.KernelIdeal.KVal
end
-- ==== Proof.KL0e.lean ====
/-
  Layer 0's region as whole arrays: the product array is activations times binarised weights (rows against rows), and
  the two statistics rows are its column sums and column sums of squares over the whole batch — each output block is
  written back by exactly the points the schedule says, and those blocks tile the arrays.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL0d
import proofs.«144054_j58213986730442_2_alg».proof.Proof.Spec
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The activations and binarised weights the region finds, by coordinates, and their product. -/
def X4 (c : Dev nD) : Fin 8192 → Fin 784 → EReal := fun p k => V c (Pipeline.arrRef spec4 0) (ix2 p k)
def B4 (c : Dev nD) : Fin 4096 → Fin 784 → EReal := fun j k => V c (Pipeline.arrRef spec4 1) (ix2 j k)
def Y4 (c : Dev nD) : Fin 8192 → Fin 4096 → EReal := Cert.Bnn.mm (X4 V c) (B4 V c)

/-- The three arrays the region leaves. -/
def G4y (c : Dev nD) : Buf (Elt Ideal) ((c : Thread nD τ).loc main_v4_0) := fun i => Y4 V c (i 0) (i 1)
def G4s (c : Dev nD) : Buf (Elt Ideal) ((c : Thread nD τ).loc main_v4_1) := fun i => Cert.Bnn.colSum (Y4 V c) (i 1)
def G4q (c : Dev nD) : Buf (Elt Ideal) ((c : Thread nD τ).loc main_v4_2) := fun i => Cert.Bnn.colSumSq (Y4 V c) (i 1)

theorem lt4 (t : Fin cfg4.N) : t.val < 128 := Nat.lt_of_lt_of_eq t.isLt N4

/-- The products of row tile t % 32 by column tile t / 32, in the arrays' own coordinates. -/
theorem prod4_global (c : Dev nD) (t : Fin cfg4.N) (p : Fin 256) (j : Fin 1024) (P : Fin 8192) (J : Fin 4096)
    (hP : P.val = 256 * (t.val % 32) + p.val) (hJ : J.val = 1024 * (t.val / 32) + j.val) :
    (∑ k : Fin 784, blk4a V c t (ix2 p k) * blk4w V c t (ix2 j k)) = Y4 V c P J := by
  unfold Y4 Cert.Bnn.mm X4 B4
  exact Finset.sum_congr rfl fun k _ => by rw [iblk4_0_apply V c t p k P hP, iblk4_1_apply V c t j k J hJ]

/-- What point t writes back of the product array is the product array read through the point's block. -/
theorem flushed4_2_eq (c : Dev nD) (t : Fin cfg4.N) :
    (dat4 V c).flushed 2 t = ((cfg4.win 2).blk t).view.read (Elt Ideal) (G4y V c) := by
  show (cfg4.win 2).cut (grid4.coords t) ((dat4 V c).after 2 t) = _
  rw [after4_2]
  funext y
  obtain ⟨p, j, rfl⟩ : ∃ (p : Fin 256) (j : Fin 1024), y = ix2 p j := ⟨y 0, y 1, eq_ix2 y⟩
  have ht := lt4 t
  have hp := p.isLt
  have hj := j.isLt
  show ((outsAt4 V c t.val t.isLt).1 : Vec Ideal S256x1024 .bf16) (ix2 p j) = G4y V c (((cfg4.win 2).blk t).view.emb (ix2 p j))
  rw [outs4_prod V c t p j]
  refine (prod4_global V c t p j ⟨256 * (t.val % 32) + p.val, by omega⟩ ⟨1024 * (t.val / 32) + j.val, by omega⟩ rfl rfl).trans ?_
  unfold G4y
  congr 1 <;> apply Fin.ext
  · show 256 * (t.val % 32) + p.val = win4_2.index t (0 : Fin 2) * 256 + 1 * p.val
    rw [(idx4 t).2.2.2.2.1]; omega
  · show 1024 * (t.val / 32) + j.val = win4_2.index t (1 : Fin 2) * 1024 + 1 * j.val
    rw [(idx4 t).2.2.2.2.2.1]; omega

/-- An index of the product array is in point t's block iff each coordinate is in the block's range. -/
theorem mem_blk4_2 (t : Fin cfg4.N) (i : S8192x4096.Idx) :
    i ∈ ((cfg4.win 2).blk t).view.set ↔ ∀ a : Fin 2, win4_2.index t a * S256x1024.size a ≤ (i a).val ∧ (i a).val < win4_2.index t a * S256x1024.size a + S256x1024.size a := by
  show i ∈ ((View.whole main_v4_0).slice (win4_2.rect t)).set ↔ _
  rw [View.set_slice_whole, Rect.mem_set_unit]
  exact Iff.rfl

/-- The product array after the region. -/
theorem final4_y (c : Dev nD) : (dat4 V c).arrAt 2 cfg4.N = G4y V c :=
  (dat4 V c).arrAt_eq_of_cover 2 (G4y V c) (fun t _ => flushed4_2_eq V c t) fun i => by
    have h0 : (i 0).val < 8192 := (i 0).isLt
    have h1 : (i 1).val < 4096 := (i 1).isLt
    refine ⟨⟨32 * ((i 1).val / 1024) + (i 0).val / 256, by rw [N4]; omega⟩, flush4_2 _, ?_⟩
    rw [mem_blk4_2]
    intro a
    match a with
    | ⟨0, _⟩ =>
      show win4_2.index _ (0 : Fin 2) * 256 ≤ (i 0).val ∧ (i 0).val < win4_2.index _ (0 : Fin 2) * 256 + 256
      rw [(idx4 _).2.2.2.2.1]; dsimp only; omega
    | ⟨1, _⟩ =>
      show win4_2.index _ (1 : Fin 2) * 1024 ≤ (i 1).val ∧ (i 1).val < win4_2.index _ (1 : Fin 2) * 1024 + 1024
      rw [(idx4 _).2.2.2.2.2.1]; dsimp only; omega

end Cert.KernelIdeal.KVal
end
-- ==== Proof.KL0f.lean ====
/-
  Layer 0's two statistics rows as whole arrays: the row a column tile's last row tile writes back is the column
  sums (of products, of their squares) over the whole batch, the thirty-two row tiles' sums regrouped into one sum
  over the 8192 rows.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL0e
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- One row tile's column sums in the product array's own coordinates. -/
theorem tile4_global (c : Dev nD) (j : Fin 1024) (a b : ℕ) (ha : a < 4) (hb : b < 32) (J : Fin 4096)
    (hJ : J.val = 1024 * a + j.val) :
    tile4 V c j (32 * a + b) = ∑ p : Fin 256, Y4 V c ⟨256 * b + p.val, by have := p.isLt; omega⟩ J := by
  have hn : 32 * a + b < cfg4.N := by rw [N4]; omega
  unfold tile4
  rw [dif_pos hn]
  refine Finset.sum_congr rfl fun p _ => ?_
  exact prod4_global V c ⟨32 * a + b, hn⟩ p j _ J (by show 256 * b + p.val = 256 * ((32 * a + b) % 32) + p.val; omega)
    (by show J.val = 1024 * ((32 * a + b) / 32) + j.val; omega)
theorem tileSq4_global (c : Dev nD) (j : Fin 1024) (a b : ℕ) (ha : a < 4) (hb : b < 32) (J : Fin 4096)
    (hJ : J.val = 1024 * a + j.val) :
    tileSq4 V c j (32 * a + b) = ∑ p : Fin 256, Y4 V c ⟨256 * b + p.val, by have := p.isLt; omega⟩ J * Y4 V c ⟨256 * b + p.val, by have := p.isLt; omega⟩ J := by
  have hn : 32 * a + b < cfg4.N := by rw [N4]; omega
  unfold tileSq4
  rw [dif_pos hn]
  refine Finset.sum_congr rfl fun p _ => ?_
  rw [prod4_global V c ⟨32 * a + b, hn⟩ p j ⟨256 * b + p.val, by have := p.isLt; omega⟩ J (by show 256 * b + p.val = 256 * ((32 * a + b) % 32) + p.val; omega)
    (by show J.val = 1024 * ((32 * a + b) / 32) + j.val; omega)]

/-- The thirty-two row tiles of a column make up the whole column. -/
theorem tile4_col (c : Dev nD) (j : Fin 1024) (a : ℕ) (ha : a < 4) (J : Fin 4096) (hJ : J.val = 1024 * a + j.val) :
    ∑ b : Fin 32, tile4 V c j (32 * a + b.val) = Cert.Bnn.colSum (Y4 V c) J := by
  unfold Cert.Bnn.colSum
  show _ = ∑ P : Fin (32 * 256), Y4 V c P J
  rw [Cert.LibChunkSum.sum_chunks 32 256 (fun P : Fin (32 * 256) => Y4 V c P J)
    (fun cc jj => ⟨256 * cc.val + jj.val, by have := cc.isLt; have := jj.isLt; omega⟩) (fun _ _ => rfl)]
  exact Finset.sum_congr rfl fun b _ => tile4_global V c j a b.val ha b.isLt J hJ
theorem tileSq4_col (c : Dev nD) (j : Fin 1024) (a : ℕ) (ha : a < 4) (J : Fin 4096) (hJ : J.val = 1024 * a + j.val) :
    ∑ b : Fin 32, tileSq4 V c j (32 * a + b.val) = Cert.Bnn.colSumSq (Y4 V c) J := by
  unfold Cert.Bnn.colSumSq
  show _ = ∑ P : Fin (32 * 256), Y4 V c P J * Y4 V c P J
  rw [Cert.LibChunkSum.sum_chunks 32 256 (fun P : Fin (32 * 256) => Y4 V c P J * Y4 V c P J)
    (fun cc jj => ⟨256 * cc.val + jj.val, by have := cc.isLt; have := jj.isLt; omega⟩) (fun _ _ => rfl)]
  exact Finset.sum_congr rfl fun b _ => tileSq4_global V c j a b.val ha b.isLt J hJ

/-- What the last row tile of a column tile writes back of the sums row is that row read through the point's block. -/
theorem flushed4_3_eq (c : Dev nD) (t : Fin cfg4.N) (hf : (cfg4.win 3).flush t = true) :
    (dat4 V c).flushed 3 t = ((cfg4.win 3).blk t).view.read (Elt Ideal) (G4s V c) := by
  have h31 : t.val % 32 = 31 := (flush4_3 t).mp hf
  have ht := lt4 t
  show (cfg4.win 3).cut (grid4.coords t) ((dat4 V c).after 3 t) = _
  rw [after4_3]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt4 V c t.val t.isLt).2.1 : Vec Ideal S1x1024 .f32) (ix2 0 j) = G4s V c (((cfg4.win 3).blk t).view.emb (ix2 0 j))
  have e : ((outsAt4 V c t.val t.isLt).2.1 : Vec Ideal S1x1024 .f32) (ix2 0 j) = acc4s V c j t.val := by
    unfold acc4s; rw [dif_pos t.isLt]
  have hacc := acc4s_last V c j (t.val / 32) (by omega)
  rw [show 32 * (t.val / 32) + 31 = t.val from by omega] at hacc
  rw [e, hacc]
  unfold G4s
  refine tile4_col V c j (t.val / 32) (by omega) _ ?_
  show win4_3.index t (1 : Fin 2) * 1024 + 1 * j.val = 1024 * (t.val / 32) + j.val
  rw [(idx4 t).2.2.2.2.2.2.2.1]; omega

theorem mem_blk4_3 (t : Fin cfg4.N) (i : S1x4096.Idx) :
    i ∈ ((cfg4.win 3).blk t).view.set ↔ ∀ a : Fin 2, win4_3.index t a * S1x1024.size a ≤ (i a).val ∧ (i a).val < win4_3.index t a * S1x1024.size a + S1x1024.size a := by
  show i ∈ ((View.whole main_v4_1).slice (win4_3.rect t)).set ↔ _
  rw [View.set_slice_whole, Rect.mem_set_unit]
  exact Iff.rfl

/-- The row after the region. -/
theorem final4_3 (c : Dev nD) : (dat4 V c).arrAt 3 cfg4.N = G4s V c :=
  (dat4 V c).arrAt_eq_of_cover 3 (G4s V c) (flushed4_3_eq V c) fun i => by
    have h0 : (i 0).val < 1 := (i 0).isLt
    have h1 : (i 1).val < 4096 := (i 1).isLt
    refine ⟨⟨32 * ((i 1).val / 1024) + 31, by rw [N4]; omega⟩, (flush4_3 _).mpr (by dsimp only; omega), ?_⟩
    rw [mem_blk4_3]
    intro a
    match a with
    | ⟨0, _⟩ =>
      show win4_3.index _ (0 : Fin 2) * 1 ≤ (i 0).val ∧ (i 0).val < win4_3.index _ (0 : Fin 2) * 1 + 1
      rw [(idx4 _).2.2.2.2.2.2.1]; omega
    | ⟨1, _⟩ =>
      show win4_3.index _ (1 : Fin 2) * 1024 ≤ (i 1).val ∧ (i 1).val < win4_3.index _ (1 : Fin 2) * 1024 + 1024
      rw [(idx4 _).2.2.2.2.2.2.2.1]; dsimp only; omega

/-- What the last row tile of a column tile writes back of the sums of squares row is that row read through the point's block. -/
theorem flushed4_4_eq (c : Dev nD) (t : Fin cfg4.N) (hf : (cfg4.win 4).flush t = true) :
    (dat4 V c).flushed 4 t = ((cfg4.win 4).blk t).view.read (Elt Ideal) (G4q V c) := by
  have h31 : t.val % 32 = 31 := (flush4_4 t).mp hf
  have ht := lt4 t
  show (cfg4.win 4).cut (grid4.coords t) ((dat4 V c).after 4 t) = _
  rw [after4_4]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt4 V c t.val t.isLt).2.2 : Vec Ideal S1x1024 .f32) (ix2 0 j) = G4q V c (((cfg4.win 4).blk t).view.emb (ix2 0 j))
  have e : ((outsAt4 V c t.val t.isLt).2.2 : Vec Ideal S1x1024 .f32) (ix2 0 j) = acc4q V c j t.val := by
    unfold acc4q; rw [dif_pos t.isLt]
  have hacc := acc4q_last V c j (t.val / 32) (by omega)
  rw [show 32 * (t.val / 32) + 31 = t.val from by omega] at hacc
  rw [e, hacc]
  unfold G4q
  refine tileSq4_col V c j (t.val / 32) (by omega) _ ?_
  show win4_4.index t (1 : Fin 2) * 1024 + 1 * j.val = 1024 * (t.val / 32) + j.val
  rw [(idx4 t).2.2.2.2.2.2.2.2.2]; omega

theorem mem_blk4_4 (t : Fin cfg4.N) (i : S1x4096.Idx) :
    i ∈ ((cfg4.win 4).blk t).view.set ↔ ∀ a : Fin 2, win4_4.index t a * S1x1024.size a ≤ (i a).val ∧ (i a).val < win4_4.index t a * S1x1024.size a + S1x1024.size a := by
  show i ∈ ((View.whole main_v4_2).slice (win4_4.rect t)).set ↔ _
  rw [View.set_slice_whole, Rect.mem_set_unit]
  exact Iff.rfl

/-- The row after the region. -/
theorem final4_4 (c : Dev nD) : (dat4 V c).arrAt 4 cfg4.N = G4q V c :=
  (dat4 V c).arrAt_eq_of_cover 4 (G4q V c) (flushed4_4_eq V c) fun i => by
    have h0 : (i 0).val < 1 := (i 0).isLt
    have h1 : (i 1).val < 4096 := (i 1).isLt
    refine ⟨⟨32 * ((i 1).val / 1024) + 31, by rw [N4]; omega⟩, (flush4_4 _).mpr (by dsimp only; omega), ?_⟩
    rw [mem_blk4_4]
    intro a
    match a with
    | ⟨0, _⟩ =>
      show win4_4.index _ (0 : Fin 2) * 1 ≤ (i 0).val ∧ (i 0).val < win4_4.index _ (0 : Fin 2) * 1 + 1
      rw [(idx4 _).2.2.2.2.2.2.2.2.1]; omega
    | ⟨1, _⟩ =>
      show win4_4.index _ (1 : Fin 2) * 1024 ≤ (i 1).val ∧ (i 1).val < win4_4.index _ (1 : Fin 2) * 1024 + 1024
      rw [(idx4 _).2.2.2.2.2.2.2.2.2]; dsimp only; omega

end Cert.KernelIdeal.KVal
end
-- ==== Proof.KL1a.lean ====
/-
  Layer 1's body, read as values: what each of the two control cases leaves in the three output staging buffers, as
  the body's pure terms of the input blocks — the product block of the normalised, binarised previous activations
  with the weight block, and the two running column sums (from the zero block at the first row tile of a column
  tile, from what the previous row tile left elsewhere).
-/
import proofs.«144054_j58213986730442_2_alg».proof.Proof.Gen.KernelIdeal.Frame
import proofs.«144054_j58213986730442_2_alg».proof.Proof.KL0a
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- Elsewhere than at the first row tile: the product block. -/
theorem out5_B_6_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond5_0 i) (x0 : Vec F S256x4096 .bf16) (x1 x2 x3 x4 : Vec F S1x4096 .f32) (x5 : Vec F S1024x4096 .bf16) (xo7 xo8 : Vec F S1x1024 .f32) :
    out5_B_6 c i a2 h2 a3 h3 a4 h4 a5 h5 a6 h6 a7 h7 a8 h8 a9 h9 a10 h10 hc x0 x1 x2 x3 x4 x5 xo7 xo8 = k5_pay4 (k5_pay7 x1 x2 x0 x3 x4) (k5_pay8 x1 x2 x0 x3 x4) (k5_pay9 x1 x2 x0 x3 x4) k5_pay10 x5 := by
  unfold out5_B_6
  rw [View.read_writes_eq_canon _ _ _ (cover5_B_6 c i a2 h2 a3 h3 a4 h4 a5 h5 a6 h6 a7 h7 a8 h8 a9 h9 a10 h10 hc x0 x1 x2 x3 x4 x5 xo7 xo8)]
  unfold kernelRun5_B
  dsimp only
  rw [View.canon_unit_zero hz2]
  unfold kernelRun5_B.sl.r kernelRun5_B.sl.r_1 kernelRun5_B.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2]

/-- Elsewhere than at the first row tile: the running sum plus this tile's column sums. -/
theorem out5_B_7_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond5_0 i) (x0 : Vec F S256x4096 .bf16) (x1 x2 x3 x4 : Vec F S1x4096 .f32) (x5 : Vec F S1024x4096 .bf16) (xo7 xo8 : Vec F S1x1024 .f32) :
    out5_B_7 c i a2 h2 a3 h3 a4 h4 a5 h5 a6 h6 a7 h7 a8 h8 a9 h9 a10 h10 hc x0 x1 x2 x3 x4 x5 xo7 xo8 = k5_pay2 (k5_pay7 x1 x2 x0 x3 x4) (k5_pay8 x1 x2 x0 x3 x4) (k5_pay9 x1 x2 x0 x3 x4) k5_pay10 x5 xo7 := by
  unfold out5_B_7
  rw [View.read_writes_eq_canon _ _ _ (cover5_B_7 c i a2 h2 a3 h3 a4 h4 a5 h5 a6 h6 a7 h7 a8 h8 a9 h9 a10 h10 hc x0 x1 x2 x3 x4 x5 xo7 xo8)]
  unfold kernelRun5_B
  dsimp only
  rw [View.canon_unit_zero hz2]
  unfold kernelRun5_B.sl.r kernelRun5_B.sl.r_1 kernelRun5_B.sl.r_2
  simp only [View.readAt_eq_ld, h2.read_unread, h3.read_unread, h4.read_unread, h5.read_unread, h6.read_unread, h7.read_unread, h9.read_unread, View.ld_unit_zero (S := S256x4096) hz2, View.ld_unit_zero (S := S1x4096) hz2, View.ld_unit_zero (S := S1024x4096) hz2, View.ld_unit_zero (S := S1x1024) hz2]

/-- Elsewhere than at the first row tile: the running sum of squares plus this tile's. -/
theorem out5_B_8_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond5_0 i) (x0 : Vec F S256x4096 .bf16) (x1 x2 x3 x4 : Vec F S1x4096 .f32) (x5 : Vec F S1024x4096 .bf16) (xo7 xo8 : Vec F S1x1024 .f32) :
    out5_B_8 c i a2 h2 a3 h3 a4 h4 a5 h5 a6 h6 a7 h7 a8 h8 a9 h9 a10 h10 hc x0 x1 x2 x3 x4 x5 xo7 xo8 = k5_pay3 (k5_pay7 x1 x2 x0 x3 x4) (k5_pay8 x1 x2 x0 x3 x4) (k5_pay9 x1 x2 x0 x3 x4) k5_pay10 x5 xo8 := by
  unfold out5_B_8
  rw [View.read_writes_eq_canon _ _ _ (cover5_B_8 c i a2 h2 a3 h3 a4 h4 a5 h5 a6 h6 a7 h7 a8 h8 a9 h9 a10 h10 hc x0 x1 x2 x3 x4 x5 xo7 xo8)]
  unfold kernelRun5_B
  dsimp only
  rw [View.canon_unit_zero hz2]
  unfold kernelRun5_B.sl.r kernelRun5_B.sl.r_1 kernelRun5_B.sl.r_2
  simp only [View.readAt_eq_ld, h2.read_unread, h3.read_unread, h4.read_unread, h5.read_unread, h6.read_unread, h7.read_unread, h10.read_unread, View.ld_unit_zero (S := S256x4096) hz2, View.ld_unit_zero (S := S1x4096) hz2, View.ld_unit_zero (S := S1024x4096) hz2, View.ld_unit_zero (S := S1x1024) hz2]

/-- At the first row tile: the product block. -/
theorem out5_A_6_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond5_0 i) (x0 : Vec F S256x4096 .bf16) (x1 x2 x3 x4 : Vec F S1x4096 .f32) (x5 : Vec F S1024x4096 .bf16) :
    out5_A_6 c i a2 h2 a3 h3 a4 h4 a5 h5 a6 h6 a7 h7 a8 h8 a9 h9 a10 h10 hc x0 x1 x2 x3 x4 x5 = k5_pay4 (k5_pay7 x1 x2 x0 x3 x4) (k5_pay8 x1 x2 x0 x3 x4) (k5_pay9 x1 x2 x0 x3 x4) k5_pay10 x5 := by
  unfold out5_A_6
  rw [View.read_writes_eq_canon _ _ _ (cover5_A_6 c i a2 h2 a3 h3 a4 h4 a5 h5 a6 h6 a7 h7 a8 h8 a9 h9 a10 h10 hc x0 x1 x2 x3 x4 x5)]
  unfold kernelRun5_A
  dsimp only
  rw [View.canon_unit_zero hz2]
  unfold kernelRun5_A.sl.r kernelRun5_A.sl.r_1 kernelRun5_A.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2]

/-- At the first row tile: the zero block is stored, read back, and this tile's column sums added. -/
theorem out5_A_7_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond5_0 i) (x0 : Vec F S256x4096 .bf16) (x1 x2 x3 x4 : Vec F S1x4096 .f32) (x5 : Vec F S1024x4096 .bf16) :
    out5_A_7 c i a2 h2 a3 h3 a4 h4 a5 h5 a6 h6 a7 h7 a8 h8 a9 h9 a10 h10 hc x0 x1 x2 x3 x4 x5 = k5_pay2 (k5_pay7 x1 x2 x0 x3 x4) (k5_pay8 x1 x2 x0 x3 x4) (k5_pay9 x1 x2 x0 x3 x4) k5_pay10 x5 k5_pay5 := by
  unfold out5_A_7
  rw [View.read_writes_eq_canon _ _ _ (cover5_A_7 c i a2 h2 a3 h3 a4 h4 a5 h5 a6 h6 a7 h7 a8 h8 a9 h9 a10 h10 hc x0 x1 x2 x3 x4 x5)]
  unfold kernelRun5_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2, View.ld_unit_zero (S := S1x1024) hz2]

/-- At the first row tile: the same for the sums of squares. -/
theorem out5_A_8_eq (c : Dev nD) (i : grid5.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond5_0 i) (x0 : Vec F S256x4096 .bf16) (x1 x2 x3 x4 : Vec F S1x4096 .f32) (x5 : Vec F S1024x4096 .bf16) :
    out5_A_8 c i a2 h2 a3 h3 a4 h4 a5 h5 a6 h6 a7 h7 a8 h8 a9 h9 a10 h10 hc x0 x1 x2 x3 x4 x5 = k5_pay3 (k5_pay7 x1 x2 x0 x3 x4) (k5_pay8 x1 x2 x0 x3 x4) (k5_pay9 x1 x2 x0 x3 x4) k5_pay10 x5 k5_pay6 := by
  unfold out5_A_8
  rw [View.read_writes_eq_canon _ _ _ (cover5_A_8 c i a2 h2 a3 h3 a4 h4 a5 h5 a6 h6 a7 h7 a8 h8 a9 h9 a10 h10 hc x0 x1 x2 x3 x4 x5)]
  unfold kernelRun5_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2, View.ld_unit_zero (S := S1x1024) hz2]

end Cert.KernelIdeal.KVal
end
-- ==== Proof.KL1b.lean ====
/-
  Layer 1's body at an entry, on the extended reals: the previous product block is normalised from its two running
  column sums, ((y − s·2⁻¹³) · rsqrt(max(q·2⁻¹³ − (s·2⁻¹³)², 0) + ε)) · g + b, and binarised by the order test; the
  product block is the plain sum over the contracted axis of those signs against the weight block; and the two
  running rows are the carried row plus the block's column sums (of the products, of their squares).
-/
import proofs.«144054_j58213986730442_2_alg».proof.Proof.Gen.KernelIdeal.Frame
import proofs.«144054_j58213986730442_2_alg».proof.Proof.Spec
import Idealize.ShloMosaic.Lib.Pipeline.Value
import Idealize.ShloMosaic.Lib.Tactic
import proofs.«144054_j58213986730442_2_alg».proof.Proof.LibDenseRows
import proofs.«144054_j58213986730442_2_alg».proof.Proof.LibColSums
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.KVal.R5

open Cert.KernelIdeal Cert.KernelIdeal.Gen

open Idealize.ShloMosaic.ValueIdx

/-- The normalisation of the previous product block from the two running sums and the scale and shift rows. -/
abbrev nrm (x0 : Vec Ideal S256x4096 .bf16) (x1 x2 x3 x4 : Vec Ideal S1x4096 .f32) : Fin 256 → Fin 4096 → EReal :=
  Cert.Bnn.bnK (fun p k => x0 (ix2 p k)) (fun k => x1 (ix2 0 k)) (fun k => x2 (ix2 0 k)) (fun k => x3 (ix2 0 k))
    (fun k => x4 (ix2 0 k))

/-- The reciprocal square root of a vector, entry by entry. -/
theorem rsqrt_at {s : Shape} {φ : FTy} (a : FVec Ideal s φ) (i : s.Idx) : rsqrt a i = Ideal.rsqrt (a i) := rfl

theorem dot_eq : dot_S256x4096_S1024x4096_S256x1024_1_1_0_0_n_n = DotDims.transposedRhs 256 4096 1024 := rfl

/-- The normalised block at (p, k). -/
theorem pay7_apply (x0 : Vec Ideal S256x4096 .bf16) (x1 x2 x3 x4 : Vec Ideal S1x4096 .f32) (p : Fin 256) (k : Fin 4096) :
    k5_pay7 x1 x2 x0 x3 x4 (ix2 p k) = nrm x0 x1 x2 x3 x4 p k := by
  simp only [k5_pay7, addf_apply, mulf_apply, subf_apply, maximumf_apply, rsqrt_at, broadcast_apply, shapeCast_self, broadcastTo_1b_ab_apply, extf_apply]
  rfl

/-- The binarised block at (p, k): −1 or 1 by the order test where the absolute value exceeds zero, the entry itself
    elsewhere. -/
theorem act_apply (x0 : Vec Ideal S256x4096 .bf16) (x1 x2 x3 x4 : Vec Ideal S1x4096 .f32) (p : Fin 256) (k : Fin 4096) :
    select (cmpf .ogt (k5_pay9 x1 x2 x0 x3 x4) k5_pay10) (k5_pay8 x1 x2 x0 x3 x4) (k5_pay7 x1 x2 x0 x3 x4) (ix2 p k)
      = Cert.Bnn.sgnK (nrm x0 x1 x2 x3 x4 p k) := by
  rw [← pay7_apply]
  rfl

/-- The product block at (p, j): ∑ₖ sign(p,k) · w(j,k). -/
theorem prodL_apply (x0 : Vec Ideal S256x4096 .bf16) (x1 x2 x3 x4 : Vec Ideal S1x4096 .f32) (x5 : Vec Ideal S1024x4096 .bf16) (p : Fin 256) (j : Fin 1024) :
    k5_pay1 (k5_pay7 x1 x2 x0 x3 x4) (k5_pay8 x1 x2 x0 x3 x4) (k5_pay9 x1 x2 x0 x3 x4) k5_pay10 x5 (ix2 p j) = ∑ k : Fin 4096, Cert.Bnn.sgnK (nrm x0 x1 x2 x3 x4 p k) * x5 (ix2 j k) := by
  unfold k5_pay1
  rw [dot_eq, shapeCast_self]
  refine (Cert.DenseRows.matmulT_zero_apply (φ₁ := .bf16) (φ₂ := .bf16) none _ x5 p j).trans ?_
  refine Finset.sum_congr rfl fun k _ => ?_
  rw [truncf_apply, act_apply]

/-- The running row of column sums after the body, at column j: the carried entry plus ∑ₚ of the product block. -/
theorem pay2_apply (x0 : Vec Ideal S256x4096 .bf16) (x1 x2 x3 x4 : Vec Ideal S1x4096 .f32) (x5 : Vec Ideal S1024x4096 .bf16) (xo : Vec Ideal S1x1024 .f32) (j : Fin 1024) :
    k5_pay2 (k5_pay7 x1 x2 x0 x3 x4) (k5_pay8 x1 x2 x0 x3 x4) (k5_pay9 x1 x2 x0 x3 x4) k5_pay10 x5 xo (ix2 0 j) = xo (ix2 0 j) + ∑ p : Fin 256, ∑ k : Fin 4096, Cert.Bnn.sgnK (nrm x0 x1 x2 x3 x4 p k) * x5 (ix2 j k) := by
  unfold k5_pay2
  rw [addf_apply, shapeCast_self]
  refine congrArg (xo (ix2 0 j) + ·) ?_
  refine (Cert.ColSums.keepdimsColSum_apply (k5_pay1 (k5_pay7 x1 x2 x0 x3 x4) (k5_pay8 x1 x2 x0 x3 x4) (k5_pay9 x1 x2 x0 x3 x4) k5_pay10 x5) _ _ _ _ _ 0 j).trans ?_
  exact Finset.sum_congr rfl fun p _ => prodL_apply x0 x1 x2 x3 x4 x5 p j

/-- The running row of column sums of squares after the body, at column j. -/
theorem pay3_apply (x0 : Vec Ideal S256x4096 .bf16) (x1 x2 x3 x4 : Vec Ideal S1x4096 .f32) (x5 : Vec Ideal S1024x4096 .bf16) (xo : Vec Ideal S1x1024 .f32) (j : Fin 1024) :
    k5_pay3 (k5_pay7 x1 x2 x0 x3 x4) (k5_pay8 x1 x2 x0 x3 x4) (k5_pay9 x1 x2 x0 x3 x4) k5_pay10 x5 xo (ix2 0 j) = xo (ix2 0 j) + ∑ p : Fin 256, (∑ k : Fin 4096, Cert.Bnn.sgnK (nrm x0 x1 x2 x3 x4 p k) * x5 (ix2 j k)) * (∑ k : Fin 4096, Cert.Bnn.sgnK (nrm x0 x1 x2 x3 x4 p k) * x5 (ix2 j k)) := by
  unfold k5_pay3
  rw [addf_apply, shapeCast_self]
  refine congrArg (xo (ix2 0 j) + ·) ?_
  refine (Cert.ColSums.keepdimsColSum_apply (mulf (k5_pay1 (k5_pay7 x1 x2 x0 x3 x4) (k5_pay8 x1 x2 x0 x3 x4) (k5_pay9 x1 x2 x0 x3 x4) k5_pay10 x5) (k5_pay1 (k5_pay7 x1 x2 x0 x3 x4) (k5_pay8 x1 x2 x0 x3 x4) (k5_pay9 x1 x2 x0 x3 x4) k5_pay10 x5)) _ _ _ _ _ 0 j).trans ?_
  refine Finset.sum_congr rfl fun p _ => ?_
  rw [mulf_apply, prodL_apply]

/-- The stored product block is the product block (the change of format is the identity here). -/
theorem pay4_apply (x0 : Vec Ideal S256x4096 .bf16) (x1 x2 x3 x4 : Vec Ideal S1x4096 .f32) (x5 : Vec Ideal S1024x4096 .bf16) (p : Fin 256) (j : Fin 1024) :
    k5_pay4 (k5_pay7 x1 x2 x0 x3 x4) (k5_pay8 x1 x2 x0 x3 x4) (k5_pay9 x1 x2 x0 x3 x4) k5_pay10 x5 (ix2 p j) = ∑ k : Fin 4096, Cert.Bnn.sgnK (nrm x0 x1 x2 x3 x4 p k) * x5 (ix2 j k) := by
  unfold k5_pay4
  exact prodL_apply x0 x1 x2 x3 x4 x5 p j

/-- The zero block the first row tile stores is zero. -/
theorem pay5_apply (j : Fin 1024) : (k5_pay5 (F := Ideal)) (ix2 0 j) = 0 := by
  unfold k5_pay5
  exact Ideal.ofBits_zero_f32
theorem pay6_apply (j : Fin 1024) : (k5_pay6 (F := Ideal)) (ix2 0 j) = 0 := by
  unfold k5_pay6
  exact Ideal.ofBits_zero_f32

end Cert.KernelIdeal.KVal.R5
end
-- ==== Proof.KL1c.lean ====
/-
  Layer 1's region, read as values at the contents V it is entered with: a window's block at grid point t
  (column tile t / 32, row tile t % 32) is the array at the block's rows and columns — the previous product's row
  tile, the four whole rows (sums, sums of squares, gain, shift), the weight's column tile; after the body at t the
  product staging buffer holds the products of that row tile's normalised signs by that column tile.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL1a
import proofs.«144054_j58213986730442_2_alg».proof.Proof.KL1b
import proofs.«144054_j58213986730442_2_alg».proof.Proof.LibRegroup
import proofs.«144054_j58213986730442_2_alg».proof.Proof.LibChunkSum
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The printed index maps over the grid: point t is row tile t % 32 of column tile t / 32. -/
theorem idx5_0 : ∀ t : Fin cfg5.N, win5_0.index t (0 : Fin 2) = t.val % 32 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = t.val / 32 ∧ win5_5.index t (1 : Fin 2) = 0 :=
  (by decide +kernel : ∀ t : Fin grid5.N, _)
theorem idx5_6 : ∀ t : Fin cfg5.N, win5_6.index t (0 : Fin 2) = t.val % 32 ∧ win5_6.index t (1 : Fin 2) = t.val / 32 :=
  (by decide +kernel : ∀ t : Fin grid5.N, _)
theorem idx5_7 : ∀ t : Fin cfg5.N, win5_7.index t (0 : Fin 2) = 0 ∧ win5_7.index t (1 : Fin 2) = t.val / 32 :=
  (by decide +kernel : ∀ t : Fin grid5.N, _)
theorem idx5_8 : ∀ t : Fin cfg5.N, win5_8.index t (0 : Fin 2) = 0 ∧ win5_8.index t (1 : Fin 2) = t.val / 32 :=
  (by decide +kernel : ∀ t : Fin grid5.N, _)

/-- The six input blocks at point t, as arrays of the block's literal shape. -/
abbrev blk5y (c : Dev nD) (t : Fin cfg5.N) : Vec Ideal S256x4096 .bf16 := iblk5 V c 0 t
abbrev blk5s (c : Dev nD) (t : Fin cfg5.N) : Vec Ideal S1x4096 .f32 := iblk5 V c 1 t
abbrev blk5q (c : Dev nD) (t : Fin cfg5.N) : Vec Ideal S1x4096 .f32 := iblk5 V c 2 t
abbrev blk5g (c : Dev nD) (t : Fin cfg5.N) : Vec Ideal S1x4096 .f32 := iblk5 V c 3 t
abbrev blk5b (c : Dev nD) (t : Fin cfg5.N) : Vec Ideal S1x4096 .f32 := iblk5 V c 4 t
abbrev blk5w (c : Dev nD) (t : Fin cfg5.N) : Vec Ideal S1024x4096 .bf16 := iblk5 V c 5 t

/-- The previous product's block at point t reads rows 256·(t % 32) + p of the previous product. -/
theorem iblk5_0_apply (c : Dev nD) (t : Fin cfg5.N) (p : Fin 256) (k : Fin 4096) (P : Fin 8192)
    (hP : P.val = 256 * (t.val % 32) + p.val) :
    blk5y V c t (ix2 p k) = V c (Pipeline.arrRef spec5 0) (ix2 P k) := by
  unfold blk5y iblk5
  rw [View.read_apply]
  refine congrArg (V c (Pipeline.arrRef spec5 0)) (funext fun a => Fin.ext ?_)
  match a with
  | ⟨0, _⟩ => show win5_0.index t (0 : Fin 2) * 256 + 1 * p.val = P.val; rw [(idx5_0 t).1, hP]; omega
  | ⟨1, _⟩ => show win5_0.index t (1 : Fin 2) * 4096 + 1 * k.val = k.val; rw [(idx5_0 t).2]; omega

/-- The sums block at point t is the whole row. -/
theorem iblk5_1_apply (c : Dev nD) (t : Fin cfg5.N) (k : Fin 4096) :
    blk5s V c t (ix2 0 k) = V c (Pipeline.arrRef spec5 1) (ix2 0 k) := by
  unfold blk5s iblk5
  rw [View.read_apply]
  refine congrArg (V c (Pipeline.arrRef spec5 1)) (funext fun a => Fin.ext ?_)
  match a with
  | ⟨0, _⟩ => show win5_1.index t (0 : Fin 2) * 1 + 1 * 0 = 0; rw [(idx5_1 t).1]
  | ⟨1, _⟩ => show win5_1.index t (1 : Fin 2) * 4096 + 1 * k.val = k.val; rw [(idx5_1 t).2]; omega

/-- The sums of squares block at point t is the whole row. -/
theorem iblk5_2_apply (c : Dev nD) (t : Fin cfg5.N) (k : Fin 4096) :
    blk5q V c t (ix2 0 k) = V c (Pipeline.arrRef spec5 2) (ix2 0 k) := by
  unfold blk5q iblk5
  rw [View.read_apply]
  refine congrArg (V c (Pipeline.arrRef spec5 2)) (funext fun a => Fin.ext ?_)
  match a with
  | ⟨0, _⟩ => show win5_2.index t (0 : Fin 2) * 1 + 1 * 0 = 0; rw [(idx5_2 t).1]
  | ⟨1, _⟩ => show win5_2.index t (1 : Fin 2) * 4096 + 1 * k.val = k.val; rw [(idx5_2 t).2]; omega

/-- The gain block at point t is the whole row. -/
theorem iblk5_3_apply (c : Dev nD) (t : Fin cfg5.N) (k : Fin 4096) :
    blk5g V c t (ix2 0 k) = V c (Pipeline.arrRef spec5 3) (ix2 0 k) := by
  unfold blk5g iblk5
  rw [View.read_apply]
  refine congrArg (V c (Pipeline.arrRef spec5 3)) (funext fun a => Fin.ext ?_)
  match a with
  | ⟨0, _⟩ => show win5_3.index t (0 : Fin 2) * 1 + 1 * 0 = 0; rw [(idx5_3 t).1]
  | ⟨1, _⟩ => show win5_3.index t (1 : Fin 2) * 4096 + 1 * k.val = k.val; rw [(idx5_3 t).2]; omega

/-- The shift block at point t is the whole row. -/
theorem iblk5_4_apply (c : Dev nD) (t : Fin cfg5.N) (k : Fin 4096) :
    blk5b V c t (ix2 0 k) = V c (Pipeline.arrRef spec5 4) (ix2 0 k) := by
  unfold blk5b iblk5
  rw [View.read_apply]
  refine congrArg (V c (Pipeline.arrRef spec5 4)) (funext fun a => Fin.ext ?_)
  match a with
  | ⟨0, _⟩ => show win5_4.index t (0 : Fin 2) * 1 + 1 * 0 = 0; rw [(idx5_4 t).1]
  | ⟨1, _⟩ => show win5_4.index t (1 : Fin 2) * 4096 + 1 * k.val = k.val; rw [(idx5_4 t).2]; omega

/-- The weight block at point t reads rows 1024·(t / 32) + j of the binarised weights. -/
theorem iblk5_5_apply (c : Dev nD) (t : Fin cfg5.N) (j : Fin 1024) (k : Fin 4096) (J : Fin 4096)
    (hJ : J.val = 1024 * (t.val / 32) + j.val) :
    blk5w V c t (ix2 j k) = V c (Pipeline.arrRef spec5 5) (ix2 J k) := by
  unfold blk5w iblk5
  rw [View.read_apply]
  refine congrArg (V c (Pipeline.arrRef spec5 5)) (funext fun a => Fin.ext ?_)
  match a with
  | ⟨0, _⟩ => show win5_5.index t (0 : Fin 2) * 1024 + 1 * j.val = J.val; rw [(idx5_5 t).1, hJ]; omega
  | ⟨1, _⟩ => show win5_5.index t (1 : Fin 2) * 4096 + 1 * k.val = k.val; rw [(idx5_5 t).2]; omega

/-- The product entry of point t at local (p, j): the signs of the normalised previous-product row p against weight row j. -/
def pe5 (c : Dev nD) (t : Fin cfg5.N) (p : Fin 256) (j : Fin 1024) : EReal :=
  ∑ k : Fin 4096, Cert.Bnn.sgnK (R5.nrm (blk5y V c t) (blk5s V c t) (blk5q V c t) (blk5g V c t) (blk5b V c t) p k)
    * blk5w V c t (ix2 j k)

/-- After the body at point t the product buffer holds that entry at (p, j). -/
theorem outs5_prod (c : Dev nD) (t : Fin cfg5.N) (p : Fin 256) (j : Fin 1024) :
    (outsAt5 V c t.val t.isLt).1 (ix2 p j) = pe5 V c t p j := by
  unfold pe5
  by_cases h0 : t.val % 32 = 0
  · rw [outsAt5_A V c t h0]
    dsimp only
    refine (congrFun (out5_A_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (iblk5 V c 0 t) (iblk5 V c 1 t) (iblk5 V c 2 t) (iblk5 V c 3 t) (iblk5 V c 4 t) (iblk5 V c 5 t)) (ix2 p j)).trans ?_
    exact R5.pay4_apply (iblk5 V c 0 t) (iblk5 V c 1 t) (iblk5 V c 2 t) (iblk5 V c 3 t) (iblk5 V c 4 t) (iblk5 V c 5 t) p j
  · rw [outsAt5_B V c t h0]
    dsimp only
    refine (congrFun (out5_B_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun h => h0 ((hcond5_0 t).mp h)) (iblk5 V c 0 t) (iblk5 V c 1 t) (iblk5 V c 2 t) (iblk5 V c 3 t) (iblk5 V c 4 t) (iblk5 V c 5 t) _ _) (ix2 p j)).trans ?_
    exact R5.pay4_apply (iblk5 V c 0 t) (iblk5 V c 1 t) (iblk5 V c 2 t) (iblk5 V c 3 t) (iblk5 V c 4 t) (iblk5 V c 5 t) p j

end Cert.KernelIdeal.KVal
end
-- ==== Proof.KL1d.lean ====
/-
  Layer 1's two running rows: at local column j, after the body at point n the sum row holds the sum, over the row
  tiles met since the column tile began, of each tile's column sum of products; at the last row tile of a column tile that
  is the sum over all thirty-two row tiles. The same for the squares.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL1c
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

theorem N5 : cfg5.N = 128 := N_5

/-- One row tile's column sum of products (of squared products), at local column j of point n. -/
def tile5 (c : Dev nD) (j : Fin 1024) (n : ℕ) : EReal :=
  if h : n < cfg5.N then ∑ p : Fin 256, pe5 V c ⟨n, h⟩ p j else 0
def tileSq5 (c : Dev nD) (j : Fin 1024) (n : ℕ) : EReal :=
  if h : n < cfg5.N then ∑ p : Fin 256, pe5 V c ⟨n, h⟩ p j * pe5 V c ⟨n, h⟩ p j else 0

/-- The two running rows after the body at point n, at local column j. -/
def acc5s (c : Dev nD) (j : Fin 1024) (n : ℕ) : EReal :=
  if h : n < cfg5.N then ((outsAt5 V c n h).2.1 : Vec Ideal S1x1024 .f32) (ix2 0 j) else 0
def acc5q (c : Dev nD) (j : Fin 1024) (n : ℕ) : EReal :=
  if h : n < cfg5.N then ((outsAt5 V c n h).2.2 : Vec Ideal S1x1024 .f32) (ix2 0 j) else 0

theorem acc5s_zero (c : Dev nD) (j : Fin 1024) (n : ℕ) (hn : n < 128) (h0 : n % 32 = 0) :
    acc5s V c j n = 0 + tile5 V c j n := by
  have hn' : n < cfg5.N := by rw [N5]; exact hn
  unfold acc5s tile5 pe5
  rw [dif_pos hn', dif_pos hn', outsAt5_A V c ⟨n, hn'⟩ h0]
  dsimp only
  refine (congrFun (out5_A_7_eq c (grid5.coords ⟨n, hn'⟩) (ms5_0 ⟨n, hn'⟩) (hs5_0 ⟨n, hn'⟩) (ms5_1 ⟨n, hn'⟩) (hs5_1 ⟨n, hn'⟩) (ms5_2 ⟨n, hn'⟩) (hs5_2 ⟨n, hn'⟩) (ms5_3 ⟨n, hn'⟩) (hs5_3 ⟨n, hn'⟩) (ms5_4 ⟨n, hn'⟩) (hs5_4 ⟨n, hn'⟩) (ms5_5 ⟨n, hn'⟩) (hs5_5 ⟨n, hn'⟩) (ms5_6 ⟨n, hn'⟩) (hs5_6 ⟨n, hn'⟩) (ms5_7 ⟨n, hn'⟩) (hs5_7 ⟨n, hn'⟩) (ms5_8 ⟨n, hn'⟩) (hs5_8 ⟨n, hn'⟩) ((hcond5_0 ⟨n, hn'⟩).mpr h0) (iblk5 V c 0 ⟨n, hn'⟩) (iblk5 V c 1 ⟨n, hn'⟩) (iblk5 V c 2 ⟨n, hn'⟩) (iblk5 V c 3 ⟨n, hn'⟩) (iblk5 V c 4 ⟨n, hn'⟩) (iblk5 V c 5 ⟨n, hn'⟩)) (ix2 0 j)).trans ?_
  refine (R5.pay2_apply (iblk5 V c 0 ⟨n, hn'⟩) (iblk5 V c 1 ⟨n, hn'⟩) (iblk5 V c 2 ⟨n, hn'⟩) (iblk5 V c 3 ⟨n, hn'⟩) (iblk5 V c 4 ⟨n, hn'⟩) (iblk5 V c 5 ⟨n, hn'⟩) (k5_pay5 (F := Ideal)) j).trans ?_
  rw [R5.pay5_apply]

theorem acc5q_zero (c : Dev nD) (j : Fin 1024) (n : ℕ) (hn : n < 128) (h0 : n % 32 = 0) :
    acc5q V c j n = 0 + tileSq5 V c j n := by
  have hn' : n < cfg5.N := by rw [N5]; exact hn
  unfold acc5q tileSq5 pe5
  rw [dif_pos hn', dif_pos hn', outsAt5_A V c ⟨n, hn'⟩ h0]
  dsimp only
  refine (congrFun (out5_A_8_eq c (grid5.coords ⟨n, hn'⟩) (ms5_0 ⟨n, hn'⟩) (hs5_0 ⟨n, hn'⟩) (ms5_1 ⟨n, hn'⟩) (hs5_1 ⟨n, hn'⟩) (ms5_2 ⟨n, hn'⟩) (hs5_2 ⟨n, hn'⟩) (ms5_3 ⟨n, hn'⟩) (hs5_3 ⟨n, hn'⟩) (ms5_4 ⟨n, hn'⟩) (hs5_4 ⟨n, hn'⟩) (ms5_5 ⟨n, hn'⟩) (hs5_5 ⟨n, hn'⟩) (ms5_6 ⟨n, hn'⟩) (hs5_6 ⟨n, hn'⟩) (ms5_7 ⟨n, hn'⟩) (hs5_7 ⟨n, hn'⟩) (ms5_8 ⟨n, hn'⟩) (hs5_8 ⟨n, hn'⟩) ((hcond5_0 ⟨n, hn'⟩).mpr h0) (iblk5 V c 0 ⟨n, hn'⟩) (iblk5 V c 1 ⟨n, hn'⟩) (iblk5 V c 2 ⟨n, hn'⟩) (iblk5 V c 3 ⟨n, hn'⟩) (iblk5 V c 4 ⟨n, hn'⟩) (iblk5 V c 5 ⟨n, hn'⟩)) (ix2 0 j)).trans ?_
  refine (R5.pay3_apply (iblk5 V c 0 ⟨n, hn'⟩) (iblk5 V c 1 ⟨n, hn'⟩) (iblk5 V c 2 ⟨n, hn'⟩) (iblk5 V c 3 ⟨n, hn'⟩) (iblk5 V c 4 ⟨n, hn'⟩) (iblk5 V c 5 ⟨n, hn'⟩) (k5_pay6 (F := Ideal)) j).trans ?_
  rw [R5.pay6_apply]

theorem acc5s_succ (c : Dev nD) (j : Fin 1024) (n : ℕ) (hn : n + 1 < 128) (hne : (n + 1) % 32 ≠ 0) :
    acc5s V c j (n + 1) = acc5s V c j n + tile5 V c j (n + 1) := by
  have hn' : n + 1 < cfg5.N := by rw [N5]; exact hn
  have hn0 : n < cfg5.N := Nat.lt_of_succ_lt hn'
  unfold acc5s tile5 pe5
  rw [dif_pos hn', dif_pos hn0, dif_pos hn', outsAt5_B V c ⟨n + 1, hn'⟩ hne]
  dsimp only
  refine (congrFun (out5_B_7_eq c (grid5.coords ⟨n + 1, hn'⟩) (ms5_0 ⟨n + 1, hn'⟩) (hs5_0 ⟨n + 1, hn'⟩) (ms5_1 ⟨n + 1, hn'⟩) (hs5_1 ⟨n + 1, hn'⟩) (ms5_2 ⟨n + 1, hn'⟩) (hs5_2 ⟨n + 1, hn'⟩) (ms5_3 ⟨n + 1, hn'⟩) (hs5_3 ⟨n + 1, hn'⟩) (ms5_4 ⟨n + 1, hn'⟩) (hs5_4 ⟨n + 1, hn'⟩) (ms5_5 ⟨n + 1, hn'⟩) (hs5_5 ⟨n + 1, hn'⟩) (ms5_6 ⟨n + 1, hn'⟩) (hs5_6 ⟨n + 1, hn'⟩) (ms5_7 ⟨n + 1, hn'⟩) (hs5_7 ⟨n + 1, hn'⟩) (ms5_8 ⟨n + 1, hn'⟩) (hs5_8 ⟨n + 1, hn'⟩) (fun h => hne ((hcond5_0 ⟨n + 1, hn'⟩).mp h)) (iblk5 V c 0 ⟨n + 1, hn'⟩) (iblk5 V c 1 ⟨n + 1, hn'⟩) (iblk5 V c 2 ⟨n + 1, hn'⟩) (iblk5 V c 3 ⟨n + 1, hn'⟩) (iblk5 V c 4 ⟨n + 1, hn'⟩) (iblk5 V c 5 ⟨n + 1, hn'⟩) _ _) (ix2 0 j)).trans ?_
  exact R5.pay2_apply (iblk5 V c 0 ⟨n + 1, hn'⟩) (iblk5 V c 1 ⟨n + 1, hn'⟩) (iblk5 V c 2 ⟨n + 1, hn'⟩) (iblk5 V c 3 ⟨n + 1, hn'⟩) (iblk5 V c 4 ⟨n + 1, hn'⟩) (iblk5 V c 5 ⟨n + 1, hn'⟩) _ j

theorem acc5q_succ (c : Dev nD) (j : Fin 1024) (n : ℕ) (hn : n + 1 < 128) (hne : (n + 1) % 32 ≠ 0) :
    acc5q V c j (n + 1) = acc5q V c j n + tileSq5 V c j (n + 1) := by
  have hn' : n + 1 < cfg5.N := by rw [N5]; exact hn
  have hn0 : n < cfg5.N := Nat.lt_of_succ_lt hn'
  unfold acc5q tileSq5 pe5
  rw [dif_pos hn', dif_pos hn0, dif_pos hn', outsAt5_B V c ⟨n + 1, hn'⟩ hne]
  dsimp only
  refine (congrFun (out5_B_8_eq c (grid5.coords ⟨n + 1, hn'⟩) (ms5_0 ⟨n + 1, hn'⟩) (hs5_0 ⟨n + 1, hn'⟩) (ms5_1 ⟨n + 1, hn'⟩) (hs5_1 ⟨n + 1, hn'⟩) (ms5_2 ⟨n + 1, hn'⟩) (hs5_2 ⟨n + 1, hn'⟩) (ms5_3 ⟨n + 1, hn'⟩) (hs5_3 ⟨n + 1, hn'⟩) (ms5_4 ⟨n + 1, hn'⟩) (hs5_4 ⟨n + 1, hn'⟩) (ms5_5 ⟨n + 1, hn'⟩) (hs5_5 ⟨n + 1, hn'⟩) (ms5_6 ⟨n + 1, hn'⟩) (hs5_6 ⟨n + 1, hn'⟩) (ms5_7 ⟨n + 1, hn'⟩) (hs5_7 ⟨n + 1, hn'⟩) (ms5_8 ⟨n + 1, hn'⟩) (hs5_8 ⟨n + 1, hn'⟩) (fun h => hne ((hcond5_0 ⟨n + 1, hn'⟩).mp h)) (iblk5 V c 0 ⟨n + 1, hn'⟩) (iblk5 V c 1 ⟨n + 1, hn'⟩) (iblk5 V c 2 ⟨n + 1, hn'⟩) (iblk5 V c 3 ⟨n + 1, hn'⟩) (iblk5 V c 4 ⟨n + 1, hn'⟩) (iblk5 V c 5 ⟨n + 1, hn'⟩) _ _) (ix2 0 j)).trans ?_
  exact R5.pay3_apply (iblk5 V c 0 ⟨n + 1, hn'⟩) (iblk5 V c 1 ⟨n + 1, hn'⟩) (iblk5 V c 2 ⟨n + 1, hn'⟩) (iblk5 V c 3 ⟨n + 1, hn'⟩) (iblk5 V c 4 ⟨n + 1, hn'⟩) (iblk5 V c 5 ⟨n + 1, hn'⟩) _ j

/-- At the last row tile of column tile a the rows hold the sums over all thirty-two row tiles. -/
theorem acc5s_last (c : Dev nD) (j : Fin 1024) (a : ℕ) (ha : a < 4) :
    acc5s V c j (32 * a + 31) = ∑ b : Fin 32, tile5 V c j (32 * a + b.val) :=
  Cert.Regroup.acc_last 32 128 (by decide) (tile5 V c j) (acc5s V c j) (acc5s_zero V c j) (acc5s_succ V c j) a (by omega)
theorem acc5q_last (c : Dev nD) (j : Fin 1024) (a : ℕ) (ha : a < 4) :
    acc5q V c j (32 * a + 31) = ∑ b : Fin 32, tileSq5 V c j (32 * a + b.val) :=
  Cert.Regroup.acc_last 32 128 (by decide) (tileSq5 V c j) (acc5q V c j) (acc5q_zero V c j) (acc5q_succ V c j) a (by omega)

end Cert.KernelIdeal.KVal
end
-- ==== Proof.KL1e.lean ====
/-
  Layer 1's region as whole arrays. The previous product is normalised from its two statistics rows and binarised by the
  order test, entry by entry; the product array is those signs times the binarised weights (rows against rows); each
  product block is written back by its own point, and the blocks tile the array.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL1d
import proofs.«144054_j58213986730442_2_alg».proof.Proof.Spec
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The arrays the region finds, by coordinates: the previous product, its sums and sums of squares, the gain and the
    shift, the binarised weights. -/
noncomputable def P5 (c : Dev nD) : Fin 8192 → Fin 4096 → EReal := fun p k => V c (Pipeline.arrRef spec5 0) (ix2 p k)
noncomputable def S5 (c : Dev nD) : Fin 4096 → EReal := fun k => V c (Pipeline.arrRef spec5 1) (ix2 0 k)
noncomputable def Q5 (c : Dev nD) : Fin 4096 → EReal := fun k => V c (Pipeline.arrRef spec5 2) (ix2 0 k)
noncomputable def Ga5 (c : Dev nD) : Fin 4096 → EReal := fun k => V c (Pipeline.arrRef spec5 3) (ix2 0 k)
noncomputable def Be5 (c : Dev nD) : Fin 4096 → EReal := fun k => V c (Pipeline.arrRef spec5 4) (ix2 0 k)
noncomputable def B5 (c : Dev nD) : Fin 4096 → Fin 4096 → EReal := fun j k => V c (Pipeline.arrRef spec5 5) (ix2 j k)

/-- The signs of the normalised previous product, and their product with the weights. -/
noncomputable def A5 (c : Dev nD) : Fin 8192 → Fin 4096 → EReal :=
  fun p k => Cert.Bnn.sgnK (Cert.Bnn.bnK (P5 V c) (S5 V c) (Q5 V c) (Ga5 V c) (Be5 V c) p k)
noncomputable def Y5 (c : Dev nD) : Fin 8192 → Fin 4096 → EReal := Cert.Bnn.mm (A5 V c) (B5 V c)

/-- The three arrays the region leaves. -/
noncomputable def G5y (c : Dev nD) : Buf (Elt Ideal) ((c : Thread nD τ).loc main_v7_0) := fun i => Y5 V c (i 0) (i 1)
noncomputable def G5s (c : Dev nD) : Buf (Elt Ideal) ((c : Thread nD τ).loc main_v7_1) := fun i => Cert.Bnn.colSum (Y5 V c) (i 1)
noncomputable def G5q (c : Dev nD) : Buf (Elt Ideal) ((c : Thread nD τ).loc main_v7_2) := fun i => Cert.Bnn.colSumSq (Y5 V c) (i 1)

theorem lt5 (t : Fin cfg5.N) : t.val < 128 := Nat.lt_of_lt_of_eq t.isLt N5

/-- The normalisation reads its array at one entry and its four rows at that entry's column. -/
theorem bnK_congr {B B' N : ℕ} (y : Fin B → Fin N → EReal) (y' : Fin B' → Fin N → EReal) (s q g b s' q' g' b' : Fin N → EReal)
    (p : Fin B) (p' : Fin B') (k : Fin N) (hy : y p k = y' p' k) (hs : s k = s' k) (hq : q k = q' k) (hg : g k = g' k)
    (hb : b k = b' k) : Cert.Bnn.bnK y s q g b p k = Cert.Bnn.bnK y' s' q' g' b' p' k := by
  unfold Cert.Bnn.bnK
  rw [hy, hs, hq, hg, hb]

/-- The normalised entry of point t at local (p, k) is the whole previous product's normalisation at its own row. -/
theorem nrm5_global (c : Dev nD) (t : Fin cfg5.N) (p : Fin 256) (k : Fin 4096) (P : Fin 8192)
    (hP : P.val = 256 * (t.val % 32) + p.val) :
    R5.nrm (blk5y V c t) (blk5s V c t) (blk5q V c t) (blk5g V c t) (blk5b V c t) p k
      = Cert.Bnn.bnK (P5 V c) (S5 V c) (Q5 V c) (Ga5 V c) (Be5 V c) P k :=
  bnK_congr _ _ _ _ _ _ _ _ _ _ p P k (iblk5_0_apply V c t p k P hP) (iblk5_1_apply V c t k) (iblk5_2_apply V c t k)
    (iblk5_3_apply V c t k) (iblk5_4_apply V c t k)

/-- The products of row tile t % 32 by column tile t / 32, in the arrays' own coordinates. -/
theorem prod5_global (c : Dev nD) (t : Fin cfg5.N) (p : Fin 256) (j : Fin 1024) (P : Fin 8192) (J : Fin 4096)
    (hP : P.val = 256 * (t.val % 32) + p.val) (hJ : J.val = 1024 * (t.val / 32) + j.val) :
    pe5 V c t p j = Y5 V c P J := by
  unfold pe5 Y5 Cert.Bnn.mm A5 B5
  exact Finset.sum_congr rfl fun k _ =>
    congrArg₂ (· * ·) (congrArg Cert.Bnn.sgnK (nrm5_global V c t p k P hP)) (iblk5_5_apply V c t j k J hJ)

/-- What point t writes back of the product array is the product array read through the point's block. -/
theorem flushed5_6_eq (c : Dev nD) (t : Fin cfg5.N) :
    (dat5 V c).flushed 6 t = ((cfg5.win 6).blk t).view.read (Elt Ideal) (G5y V c) := by
  show (cfg5.win 6).cut (grid5.coords t) ((dat5 V c).after 6 t) = _
  rw [after5_6]
  funext y
  obtain ⟨p, j, rfl⟩ : ∃ (p : Fin 256) (j : Fin 1024), y = ix2 p j := ⟨y 0, y 1, eq_ix2 y⟩
  have ht := lt5 t
  have hp := p.isLt
  have hj := j.isLt
  show ((outsAt5 V c t.val t.isLt).1 : Vec Ideal S256x1024 .bf16) (ix2 p j) = G5y V c (((cfg5.win 6).blk t).view.emb (ix2 p j))
  rw [outs5_prod V c t p j]
  refine (prod5_global V c t p j ⟨256 * (t.val % 32) + p.val, by omega⟩ ⟨1024 * (t.val / 32) + j.val, by omega⟩ rfl rfl).trans ?_
  unfold G5y
  congr 1 <;> apply Fin.ext
  · show 256 * (t.val % 32) + p.val = win5_6.index t (0 : Fin 2) * 256 + 1 * p.val
    rw [(idx5_6 t).1]; omega
  · show 1024 * (t.val / 32) + j.val = win5_6.index t (1 : Fin 2) * 1024 + 1 * j.val
    rw [(idx5_6 t).2]; omega

/-- An index of the product array is in point t's block iff each coordinate is in the block's range. -/
theorem mem_blk5_6 (t : Fin cfg5.N) (i : S8192x4096.Idx) :
    i ∈ ((cfg5.win 6).blk t).view.set ↔ ∀ a : Fin 2, win5_6.index t a * S256x1024.size a ≤ (i a).val ∧ (i a).val < win5_6.index t a * S256x1024.size a + S256x1024.size a := by
  show i ∈ ((View.whole main_v7_0).slice (win5_6.rect t)).set ↔ _
  rw [View.set_slice_whole, Rect.mem_set_unit]
  exact Iff.rfl

/-- The product array after the region. -/
theorem final5_y (c : Dev nD) : (dat5 V c).arrAt 6 cfg5.N = G5y V c :=
  (dat5 V c).arrAt_eq_of_cover 6 (G5y V c) (fun t _ => flushed5_6_eq V c t) fun i => by
    have h0 : (i 0).val < 8192 := (i 0).isLt
    have h1 : (i 1).val < 4096 := (i 1).isLt
    refine ⟨⟨32 * ((i 1).val / 1024) + (i 0).val / 256, by rw [N5]; omega⟩, flush5_6 _, ?_⟩
    rw [mem_blk5_6]
    intro a
    match a with
    | ⟨0, _⟩ =>
      show win5_6.index _ (0 : Fin 2) * 256 ≤ (i 0).val ∧ (i 0).val < win5_6.index _ (0 : Fin 2) * 256 + 256
      rw [(idx5_6 _).1]; dsimp only; omega
    | ⟨1, _⟩ =>
      show win5_6.index _ (1 : Fin 2) * 1024 ≤ (i 1).val ∧ (i 1).val < win5_6.index _ (1 : Fin 2) * 1024 + 1024
      rw [(idx5_6 _).2]; dsimp only; omega

end Cert.KernelIdeal.KVal
end
-- ==== Proof.KL1f.lean ====
/-
  Layer 1's two statistics rows as whole arrays: the row a column tile's last row tile writes back is the column sums
  (of products, of their squares) over the whole batch, the thirty-two row tiles' sums regrouped into one sum over the
  8192 rows.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL1e
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- One row tile's column sums in the product array's own coordinates. -/
theorem tile5_global (c : Dev nD) (j : Fin 1024) (a b : ℕ) (ha : a < 4) (hb : b < 32) (J : Fin 4096)
    (hJ : J.val = 1024 * a + j.val) :
    tile5 V c j (32 * a + b) = ∑ p : Fin 256, Y5 V c ⟨256 * b + p.val, by have := p.isLt; omega⟩ J := by
  have hn : 32 * a + b < cfg5.N := by rw [N5]; omega
  unfold tile5
  rw [dif_pos hn]
  refine Finset.sum_congr rfl fun p _ => ?_
  exact prod5_global V c ⟨32 * a + b, hn⟩ p j _ J (by show 256 * b + p.val = 256 * ((32 * a + b) % 32) + p.val; omega)
    (by show J.val = 1024 * ((32 * a + b) / 32) + j.val; omega)
theorem tileSq5_global (c : Dev nD) (j : Fin 1024) (a b : ℕ) (ha : a < 4) (hb : b < 32) (J : Fin 4096)
    (hJ : J.val = 1024 * a + j.val) :
    tileSq5 V c j (32 * a + b) = ∑ p : Fin 256, Y5 V c ⟨256 * b + p.val, by have := p.isLt; omega⟩ J * Y5 V c ⟨256 * b + p.val, by have := p.isLt; omega⟩ J := by
  have hn : 32 * a + b < cfg5.N := by rw [N5]; omega
  unfold tileSq5
  rw [dif_pos hn]
  refine Finset.sum_congr rfl fun p _ => ?_
  rw [prod5_global V c ⟨32 * a + b, hn⟩ p j ⟨256 * b + p.val, by have := p.isLt; omega⟩ J (by show 256 * b + p.val = 256 * ((32 * a + b) % 32) + p.val; omega)
    (by show J.val = 1024 * ((32 * a + b) / 32) + j.val; omega)]

/-- The thirty-two row tiles of a column make up the whole column. -/
theorem tile5_col (c : Dev nD) (j : Fin 1024) (a : ℕ) (ha : a < 4) (J : Fin 4096) (hJ : J.val = 1024 * a + j.val) :
    ∑ b : Fin 32, tile5 V c j (32 * a + b.val) = Cert.Bnn.colSum (Y5 V c) J := by
  unfold Cert.Bnn.colSum
  show _ = ∑ P : Fin (32 * 256), Y5 V c P J
  rw [Cert.LibChunkSum.sum_chunks 32 256 (fun P : Fin (32 * 256) => Y5 V c P J)
    (fun cc jj => ⟨256 * cc.val + jj.val, by have := cc.isLt; have := jj.isLt; omega⟩) (fun _ _ => rfl)]
  exact Finset.sum_congr rfl fun b _ => tile5_global V c j a b.val ha b.isLt J hJ
theorem tileSq5_col (c : Dev nD) (j : Fin 1024) (a : ℕ) (ha : a < 4) (J : Fin 4096) (hJ : J.val = 1024 * a + j.val) :
    ∑ b : Fin 32, tileSq5 V c j (32 * a + b.val) = Cert.Bnn.colSumSq (Y5 V c) J := by
  unfold Cert.Bnn.colSumSq
  show _ = ∑ P : Fin (32 * 256), Y5 V c P J * Y5 V c P J
  rw [Cert.LibChunkSum.sum_chunks 32 256 (fun P : Fin (32 * 256) => Y5 V c P J * Y5 V c P J)
    (fun cc jj => ⟨256 * cc.val + jj.val, by have := cc.isLt; have := jj.isLt; omega⟩) (fun _ _ => rfl)]
  exact Finset.sum_congr rfl fun b _ => tileSq5_global V c j a b.val ha b.isLt J hJ

/-- What the last row tile of a column tile writes back of the sums row is that row read through the point's block. -/
theorem flushed5_7_eq (c : Dev nD) (t : Fin cfg5.N) (hf : (cfg5.win 7).flush t = true) :
    (dat5 V c).flushed 7 t = ((cfg5.win 7).blk t).view.read (Elt Ideal) (G5s V c) := by
  have h31 : t.val % 32 = 31 := (flush5_7 t).mp hf
  have ht := lt5 t
  show (cfg5.win 7).cut (grid5.coords t) ((dat5 V c).after 7 t) = _
  rw [after5_7]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt5 V c t.val t.isLt).2.1 : Vec Ideal S1x1024 .f32) (ix2 0 j) = G5s V c (((cfg5.win 7).blk t).view.emb (ix2 0 j))
  have e : ((outsAt5 V c t.val t.isLt).2.1 : Vec Ideal S1x1024 .f32) (ix2 0 j) = acc5s V c j t.val := by
    unfold acc5s; rw [dif_pos t.isLt]
  have hacc := acc5s_last V c j (t.val / 32) (by omega)
  rw [show 32 * (t.val / 32) + 31 = t.val from by omega] at hacc
  rw [e, hacc]
  unfold G5s
  refine tile5_col V c j (t.val / 32) (by omega) _ ?_
  show win5_7.index t (1 : Fin 2) * 1024 + 1 * j.val = 1024 * (t.val / 32) + j.val
  rw [(idx5_7 t).2]; omega

theorem mem_blk5_7 (t : Fin cfg5.N) (i : S1x4096.Idx) :
    i ∈ ((cfg5.win 7).blk t).view.set ↔ ∀ a : Fin 2, win5_7.index t a * S1x1024.size a ≤ (i a).val ∧ (i a).val < win5_7.index t a * S1x1024.size a + S1x1024.size a := by
  show i ∈ ((View.whole main_v7_1).slice (win5_7.rect t)).set ↔ _
  rw [View.set_slice_whole, Rect.mem_set_unit]
  exact Iff.rfl

/-- The row after the region. -/
theorem final5_7 (c : Dev nD) : (dat5 V c).arrAt 7 cfg5.N = G5s V c :=
  (dat5 V c).arrAt_eq_of_cover 7 (G5s V c) (flushed5_7_eq V c) fun i => by
    have h0 : (i 0).val < 1 := (i 0).isLt
    have h1 : (i 1).val < 4096 := (i 1).isLt
    refine ⟨⟨32 * ((i 1).val / 1024) + 31, by rw [N5]; omega⟩, (flush5_7 _).mpr (by dsimp only; omega), ?_⟩
    rw [mem_blk5_7]
    intro a
    match a with
    | ⟨0, _⟩ =>
      show win5_7.index _ (0 : Fin 2) * 1 ≤ (i 0).val ∧ (i 0).val < win5_7.index _ (0 : Fin 2) * 1 + 1
      rw [(idx5_7 _).1]; omega
    | ⟨1, _⟩ =>
      show win5_7.index _ (1 : Fin 2) * 1024 ≤ (i 1).val ∧ (i 1).val < win5_7.index _ (1 : Fin 2) * 1024 + 1024
      rw [(idx5_7 _).2]; dsimp only; omega

/-- What the last row tile of a column tile writes back of the sums of squares row is that row read through the point's block. -/
theorem flushed5_8_eq (c : Dev nD) (t : Fin cfg5.N) (hf : (cfg5.win 8).flush t = true) :
    (dat5 V c).flushed 8 t = ((cfg5.win 8).blk t).view.read (Elt Ideal) (G5q V c) := by
  have h31 : t.val % 32 = 31 := (flush5_8 t).mp hf
  have ht := lt5 t
  show (cfg5.win 8).cut (grid5.coords t) ((dat5 V c).after 8 t) = _
  rw [after5_8]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt5 V c t.val t.isLt).2.2 : Vec Ideal S1x1024 .f32) (ix2 0 j) = G5q V c (((cfg5.win 8).blk t).view.emb (ix2 0 j))
  have e : ((outsAt5 V c t.val t.isLt).2.2 : Vec Ideal S1x1024 .f32) (ix2 0 j) = acc5q V c j t.val := by
    unfold acc5q; rw [dif_pos t.isLt]
  have hacc := acc5q_last V c j (t.val / 32) (by omega)
  rw [show 32 * (t.val / 32) + 31 = t.val from by omega] at hacc
  rw [e, hacc]
  unfold G5q
  refine tileSq5_col V c j (t.val / 32) (by omega) _ ?_
  show win5_8.index t (1 : Fin 2) * 1024 + 1 * j.val = 1024 * (t.val / 32) + j.val
  rw [(idx5_8 t).2]; omega

theorem mem_blk5_8 (t : Fin cfg5.N) (i : S1x4096.Idx) :
    i ∈ ((cfg5.win 8).blk t).view.set ↔ ∀ a : Fin 2, win5_8.index t a * S1x1024.size a ≤ (i a).val ∧ (i a).val < win5_8.index t a * S1x1024.size a + S1x1024.size a := by
  show i ∈ ((View.whole main_v7_2).slice (win5_8.rect t)).set ↔ _
  rw [View.set_slice_whole, Rect.mem_set_unit]
  exact Iff.rfl

/-- The row after the region. -/
theorem final5_8 (c : Dev nD) : (dat5 V c).arrAt 8 cfg5.N = G5q V c :=
  (dat5 V c).arrAt_eq_of_cover 8 (G5q V c) (flushed5_8_eq V c) fun i => by
    have h0 : (i 0).val < 1 := (i 0).isLt
    have h1 : (i 1).val < 4096 := (i 1).isLt
    refine ⟨⟨32 * ((i 1).val / 1024) + 31, by rw [N5]; omega⟩, (flush5_8 _).mpr (by dsimp only; omega), ?_⟩
    rw [mem_blk5_8]
    intro a
    match a with
    | ⟨0, _⟩ =>
      show win5_8.index _ (0 : Fin 2) * 1 ≤ (i 0).val ∧ (i 0).val < win5_8.index _ (0 : Fin 2) * 1 + 1
      rw [(idx5_8 _).1]; omega
    | ⟨1, _⟩ =>
      show win5_8.index _ (1 : Fin 2) * 1024 ≤ (i 1).val ∧ (i 1).val < win5_8.index _ (1 : Fin 2) * 1024 + 1024
      rw [(idx5_8 _).2]; dsimp only; omega

end Cert.KernelIdeal.KVal
end
-- ==== Proof.KL2a.lean ====
/-
  Layer 2's body, read as values: what each of the two control cases leaves in the three output staging buffers, as
  the body's pure terms of the input blocks — the product block of the normalised, binarised previous activations
  with the weight block, and the two running column sums (from the zero block at the first row tile of a column
  tile, from what the previous row tile left elsewhere).
-/
import proofs.«144054_j58213986730442_2_alg».proof.Proof.Gen.KernelIdeal.Frame
import proofs.«144054_j58213986730442_2_alg».proof.Proof.KL0a
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- Elsewhere than at the first row tile: the product block. -/
theorem out6_B_6_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond6_0 i) (x0 : Vec F S256x4096 .bf16) (x1 x2 x3 x4 : Vec F S1x4096 .f32) (x5 : Vec F S1024x4096 .bf16) (xo7 xo8 : Vec F S1x1024 .f32) :
    out6_B_6 c i a2 h2 a3 h3 a4 h4 a5 h5 a6 h6 a7 h7 a8 h8 a9 h9 a10 h10 hc x0 x1 x2 x3 x4 x5 xo7 xo8 = k6_pay4 (k6_pay7 x1 x2 x0 x3 x4) (k6_pay8 x1 x2 x0 x3 x4) (k6_pay9 x1 x2 x0 x3 x4) k6_pay10 x5 := by
  unfold out6_B_6
  rw [View.read_writes_eq_canon _ _ _ (cover6_B_6 c i a2 h2 a3 h3 a4 h4 a5 h5 a6 h6 a7 h7 a8 h8 a9 h9 a10 h10 hc x0 x1 x2 x3 x4 x5 xo7 xo8)]
  unfold kernelRun6_B
  dsimp only
  rw [View.canon_unit_zero hz2]
  unfold kernelRun6_B.sl.r kernelRun6_B.sl.r_1 kernelRun6_B.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2]

/-- Elsewhere than at the first row tile: the running sum plus this tile's column sums. -/
theorem out6_B_7_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond6_0 i) (x0 : Vec F S256x4096 .bf16) (x1 x2 x3 x4 : Vec F S1x4096 .f32) (x5 : Vec F S1024x4096 .bf16) (xo7 xo8 : Vec F S1x1024 .f32) :
    out6_B_7 c i a2 h2 a3 h3 a4 h4 a5 h5 a6 h6 a7 h7 a8 h8 a9 h9 a10 h10 hc x0 x1 x2 x3 x4 x5 xo7 xo8 = k6_pay2 (k6_pay7 x1 x2 x0 x3 x4) (k6_pay8 x1 x2 x0 x3 x4) (k6_pay9 x1 x2 x0 x3 x4) k6_pay10 x5 xo7 := by
  unfold out6_B_7
  rw [View.read_writes_eq_canon _ _ _ (cover6_B_7 c i a2 h2 a3 h3 a4 h4 a5 h5 a6 h6 a7 h7 a8 h8 a9 h9 a10 h10 hc x0 x1 x2 x3 x4 x5 xo7 xo8)]
  unfold kernelRun6_B
  dsimp only
  rw [View.canon_unit_zero hz2]
  unfold kernelRun6_B.sl.r kernelRun6_B.sl.r_1 kernelRun6_B.sl.r_2
  simp only [View.readAt_eq_ld, h2.read_unread, h3.read_unread, h4.read_unread, h5.read_unread, h6.read_unread, h7.read_unread, h9.read_unread, View.ld_unit_zero (S := S256x4096) hz2, View.ld_unit_zero (S := S1x4096) hz2, View.ld_unit_zero (S := S1024x4096) hz2, View.ld_unit_zero (S := S1x1024) hz2]

/-- Elsewhere than at the first row tile: the running sum of squares plus this tile's. -/
theorem out6_B_8_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : ¬cond6_0 i) (x0 : Vec F S256x4096 .bf16) (x1 x2 x3 x4 : Vec F S1x4096 .f32) (x5 : Vec F S1024x4096 .bf16) (xo7 xo8 : Vec F S1x1024 .f32) :
    out6_B_8 c i a2 h2 a3 h3 a4 h4 a5 h5 a6 h6 a7 h7 a8 h8 a9 h9 a10 h10 hc x0 x1 x2 x3 x4 x5 xo7 xo8 = k6_pay3 (k6_pay7 x1 x2 x0 x3 x4) (k6_pay8 x1 x2 x0 x3 x4) (k6_pay9 x1 x2 x0 x3 x4) k6_pay10 x5 xo8 := by
  unfold out6_B_8
  rw [View.read_writes_eq_canon _ _ _ (cover6_B_8 c i a2 h2 a3 h3 a4 h4 a5 h5 a6 h6 a7 h7 a8 h8 a9 h9 a10 h10 hc x0 x1 x2 x3 x4 x5 xo7 xo8)]
  unfold kernelRun6_B
  dsimp only
  rw [View.canon_unit_zero hz2]
  unfold kernelRun6_B.sl.r kernelRun6_B.sl.r_1 kernelRun6_B.sl.r_2
  simp only [View.readAt_eq_ld, h2.read_unread, h3.read_unread, h4.read_unread, h5.read_unread, h6.read_unread, h7.read_unread, h10.read_unread, View.ld_unit_zero (S := S256x4096) hz2, View.ld_unit_zero (S := S1x4096) hz2, View.ld_unit_zero (S := S1024x4096) hz2, View.ld_unit_zero (S := S1x1024) hz2]

/-- At the first row tile: the product block. -/
theorem out6_A_6_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond6_0 i) (x0 : Vec F S256x4096 .bf16) (x1 x2 x3 x4 : Vec F S1x4096 .f32) (x5 : Vec F S1024x4096 .bf16) :
    out6_A_6 c i a2 h2 a3 h3 a4 h4 a5 h5 a6 h6 a7 h7 a8 h8 a9 h9 a10 h10 hc x0 x1 x2 x3 x4 x5 = k6_pay4 (k6_pay7 x1 x2 x0 x3 x4) (k6_pay8 x1 x2 x0 x3 x4) (k6_pay9 x1 x2 x0 x3 x4) k6_pay10 x5 := by
  unfold out6_A_6
  rw [View.read_writes_eq_canon _ _ _ (cover6_A_6 c i a2 h2 a3 h3 a4 h4 a5 h5 a6 h6 a7 h7 a8 h8 a9 h9 a10 h10 hc x0 x1 x2 x3 x4 x5)]
  unfold kernelRun6_A
  dsimp only
  rw [View.canon_unit_zero hz2]
  unfold kernelRun6_A.sl.r kernelRun6_A.sl.r_1 kernelRun6_A.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2]

/-- At the first row tile: the zero block is stored, read back, and this tile's column sums added. -/
theorem out6_A_7_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond6_0 i) (x0 : Vec F S256x4096 .bf16) (x1 x2 x3 x4 : Vec F S1x4096 .f32) (x5 : Vec F S1024x4096 .bf16) :
    out6_A_7 c i a2 h2 a3 h3 a4 h4 a5 h5 a6 h6 a7 h7 a8 h8 a9 h9 a10 h10 hc x0 x1 x2 x3 x4 x5 = k6_pay2 (k6_pay7 x1 x2 x0 x3 x4) (k6_pay8 x1 x2 x0 x3 x4) (k6_pay9 x1 x2 x0 x3 x4) k6_pay10 x5 k6_pay5 := by
  unfold out6_A_7
  rw [View.read_writes_eq_canon _ _ _ (cover6_A_7 c i a2 h2 a3 h3 a4 h4 a5 h5 a6 h6 a7 h7 a8 h8 a9 h9 a10 h10 hc x0 x1 x2 x3 x4 x5)]
  unfold kernelRun6_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2, View.ld_unit_zero (S := S1x1024) hz2]

/-- At the first row tile: the same for the sums of squares. -/
theorem out6_A_8_eq (c : Dev nD) (i : grid6.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S1024x4096 .bf16) (h7 : a7.IsWhole) (a8 : Memref sig .tc .vmem S256x1024 .bf16) (h8 : a8.IsWhole) (a9 : Memref sig .tc .vmem S1x1024 .f32) (h9 : a9.IsWhole) (a10 : Memref sig .tc .vmem S1x1024 .f32) (h10 : a10.IsWhole) (hc : cond6_0 i) (x0 : Vec F S256x4096 .bf16) (x1 x2 x3 x4 : Vec F S1x4096 .f32) (x5 : Vec F S1024x4096 .bf16) :
    out6_A_8 c i a2 h2 a3 h3 a4 h4 a5 h5 a6 h6 a7 h7 a8 h8 a9 h9 a10 h10 hc x0 x1 x2 x3 x4 x5 = k6_pay3 (k6_pay7 x1 x2 x0 x3 x4) (k6_pay8 x1 x2 x0 x3 x4) (k6_pay9 x1 x2 x0 x3 x4) k6_pay10 x5 k6_pay6 := by
  unfold out6_A_8
  rw [View.read_writes_eq_canon _ _ _ (cover6_A_8 c i a2 h2 a3 h3 a4 h4 a5 h5 a6 h6 a7 h7 a8 h8 a9 h9 a10 h10 hc x0 x1 x2 x3 x4 x5)]
  unfold kernelRun6_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S1024x4096) hz2, View.ld_unit_zero (S := S1x1024) hz2]

end Cert.KernelIdeal.KVal
end
-- ==== Proof.KL2b.lean ====
/-
  Layer 2's body at an entry, on the extended reals: the previous product block is normalised from its two running
  column sums, ((y − s·2⁻¹³) · rsqrt(max(q·2⁻¹³ − (s·2⁻¹³)², 0) + ε)) · g + b, and binarised by the order test; the
  product block is the plain sum over the contracted axis of those signs against the weight block; and the two
  running rows are the carried row plus the block's column sums (of the products, of their squares).
-/
import proofs.«144054_j58213986730442_2_alg».proof.Proof.Gen.KernelIdeal.Frame
import proofs.«144054_j58213986730442_2_alg».proof.Proof.Spec
import Idealize.ShloMosaic.Lib.Pipeline.Value
import Idealize.ShloMosaic.Lib.Tactic
import proofs.«144054_j58213986730442_2_alg».proof.Proof.LibDenseRows
import proofs.«144054_j58213986730442_2_alg».proof.Proof.LibColSums
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.KVal.R6

open Cert.KernelIdeal Cert.KernelIdeal.Gen

open Idealize.ShloMosaic.ValueIdx

/-- The normalisation of the previous product block from the two running sums and the scale and shift rows. -/
abbrev nrm (x0 : Vec Ideal S256x4096 .bf16) (x1 x2 x3 x4 : Vec Ideal S1x4096 .f32) : Fin 256 → Fin 4096 → EReal :=
  Cert.Bnn.bnK (fun p k => x0 (ix2 p k)) (fun k => x1 (ix2 0 k)) (fun k => x2 (ix2 0 k)) (fun k => x3 (ix2 0 k))
    (fun k => x4 (ix2 0 k))

/-- The reciprocal square root of a vector, entry by entry. -/
theorem rsqrt_at {s : Shape} {φ : FTy} (a : FVec Ideal s φ) (i : s.Idx) : rsqrt a i = Ideal.rsqrt (a i) := rfl

theorem dot_eq : dot_S256x4096_S1024x4096_S256x1024_1_1_0_0_n_n = DotDims.transposedRhs 256 4096 1024 := rfl

/-- The normalised block at (p, k). -/
theorem pay7_apply (x0 : Vec Ideal S256x4096 .bf16) (x1 x2 x3 x4 : Vec Ideal S1x4096 .f32) (p : Fin 256) (k : Fin 4096) :
    k6_pay7 x1 x2 x0 x3 x4 (ix2 p k) = nrm x0 x1 x2 x3 x4 p k := by
  simp only [k6_pay7, addf_apply, mulf_apply, subf_apply, maximumf_apply, rsqrt_at, broadcast_apply, shapeCast_self, broadcastTo_1b_ab_apply, extf_apply]
  rfl

/-- The binarised block at (p, k): −1 or 1 by the order test where the absolute value exceeds zero, the entry itself
    elsewhere. -/
theorem act_apply (x0 : Vec Ideal S256x4096 .bf16) (x1 x2 x3 x4 : Vec Ideal S1x4096 .f32) (p : Fin 256) (k : Fin 4096) :
    select (cmpf .ogt (k6_pay9 x1 x2 x0 x3 x4) k6_pay10) (k6_pay8 x1 x2 x0 x3 x4) (k6_pay7 x1 x2 x0 x3 x4) (ix2 p k)
      = Cert.Bnn.sgnK (nrm x0 x1 x2 x3 x4 p k) := by
  rw [← pay7_apply]
  rfl

/-- The product block at (p, j): ∑ₖ sign(p,k) · w(j,k). -/
theorem prodL_apply (x0 : Vec Ideal S256x4096 .bf16) (x1 x2 x3 x4 : Vec Ideal S1x4096 .f32) (x5 : Vec Ideal S1024x4096 .bf16) (p : Fin 256) (j : Fin 1024) :
    k6_pay1 (k6_pay7 x1 x2 x0 x3 x4) (k6_pay8 x1 x2 x0 x3 x4) (k6_pay9 x1 x2 x0 x3 x4) k6_pay10 x5 (ix2 p j) = ∑ k : Fin 4096, Cert.Bnn.sgnK (nrm x0 x1 x2 x3 x4 p k) * x5 (ix2 j k) := by
  unfold k6_pay1
  rw [dot_eq, shapeCast_self]
  refine (Cert.DenseRows.matmulT_zero_apply (φ₁ := .bf16) (φ₂ := .bf16) none _ x5 p j).trans ?_
  refine Finset.sum_congr rfl fun k _ => ?_
  rw [truncf_apply, act_apply]

/-- The running row of column sums after the body, at column j: the carried entry plus ∑ₚ of the product block. -/
theorem pay2_apply (x0 : Vec Ideal S256x4096 .bf16) (x1 x2 x3 x4 : Vec Ideal S1x4096 .f32) (x5 : Vec Ideal S1024x4096 .bf16) (xo : Vec Ideal S1x1024 .f32) (j : Fin 1024) :
    k6_pay2 (k6_pay7 x1 x2 x0 x3 x4) (k6_pay8 x1 x2 x0 x3 x4) (k6_pay9 x1 x2 x0 x3 x4) k6_pay10 x5 xo (ix2 0 j) = xo (ix2 0 j) + ∑ p : Fin 256, ∑ k : Fin 4096, Cert.Bnn.sgnK (nrm x0 x1 x2 x3 x4 p k) * x5 (ix2 j k) := by
  unfold k6_pay2
  rw [addf_apply, shapeCast_self]
  refine congrArg (xo (ix2 0 j) + ·) ?_
  refine (Cert.ColSums.keepdimsColSum_apply (k6_pay1 (k6_pay7 x1 x2 x0 x3 x4) (k6_pay8 x1 x2 x0 x3 x4) (k6_pay9 x1 x2 x0 x3 x4) k6_pay10 x5) _ _ _ _ _ 0 j).trans ?_
  exact Finset.sum_congr rfl fun p _ => prodL_apply x0 x1 x2 x3 x4 x5 p j

/-- The running row of column sums of squares after the body, at column j. -/
theorem pay3_apply (x0 : Vec Ideal S256x4096 .bf16) (x1 x2 x3 x4 : Vec Ideal S1x4096 .f32) (x5 : Vec Ideal S1024x4096 .bf16) (xo : Vec Ideal S1x1024 .f32) (j : Fin 1024) :
    k6_pay3 (k6_pay7 x1 x2 x0 x3 x4) (k6_pay8 x1 x2 x0 x3 x4) (k6_pay9 x1 x2 x0 x3 x4) k6_pay10 x5 xo (ix2 0 j) = xo (ix2 0 j) + ∑ p : Fin 256, (∑ k : Fin 4096, Cert.Bnn.sgnK (nrm x0 x1 x2 x3 x4 p k) * x5 (ix2 j k)) * (∑ k : Fin 4096, Cert.Bnn.sgnK (nrm x0 x1 x2 x3 x4 p k) * x5 (ix2 j k)) := by
  unfold k6_pay3
  rw [addf_apply, shapeCast_self]
  refine congrArg (xo (ix2 0 j) + ·) ?_
  refine (Cert.ColSums.keepdimsColSum_apply (mulf (k6_pay1 (k6_pay7 x1 x2 x0 x3 x4) (k6_pay8 x1 x2 x0 x3 x4) (k6_pay9 x1 x2 x0 x3 x4) k6_pay10 x5) (k6_pay1 (k6_pay7 x1 x2 x0 x3 x4) (k6_pay8 x1 x2 x0 x3 x4) (k6_pay9 x1 x2 x0 x3 x4) k6_pay10 x5)) _ _ _ _ _ 0 j).trans ?_
  refine Finset.sum_congr rfl fun p _ => ?_
  rw [mulf_apply, prodL_apply]

/-- The stored product block is the product block (the change of format is the identity here). -/
theorem pay4_apply (x0 : Vec Ideal S256x4096 .bf16) (x1 x2 x3 x4 : Vec Ideal S1x4096 .f32) (x5 : Vec Ideal S1024x4096 .bf16) (p : Fin 256) (j : Fin 1024) :
    k6_pay4 (k6_pay7 x1 x2 x0 x3 x4) (k6_pay8 x1 x2 x0 x3 x4) (k6_pay9 x1 x2 x0 x3 x4) k6_pay10 x5 (ix2 p j) = ∑ k : Fin 4096, Cert.Bnn.sgnK (nrm x0 x1 x2 x3 x4 p k) * x5 (ix2 j k) := by
  unfold k6_pay4
  exact prodL_apply x0 x1 x2 x3 x4 x5 p j

/-- The zero block the first row tile stores is zero. -/
theorem pay5_apply (j : Fin 1024) : (k6_pay5 (F := Ideal)) (ix2 0 j) = 0 := by
  unfold k6_pay5
  exact Ideal.ofBits_zero_f32
theorem pay6_apply (j : Fin 1024) : (k6_pay6 (F := Ideal)) (ix2 0 j) = 0 := by
  unfold k6_pay6
  exact Ideal.ofBits_zero_f32

end Cert.KernelIdeal.KVal.R6
end
-- ==== Proof.KL2c.lean ====
/-
  Layer 2's region, read as values at the contents V it is entered with: a window's block at grid point t
  (column tile t / 32, row tile t % 32) is the array at the block's rows and columns; after the body at t the product
  staging buffer holds the products of that row tile's normalised, binarised previous activations by that column
  tile's weights.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL2a
import proofs.«144054_j58213986730442_2_alg».proof.Proof.KL2b
import proofs.«144054_j58213986730442_2_alg».proof.Proof.LibRegroup
import proofs.«144054_j58213986730442_2_alg».proof.Proof.LibChunkSum
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The printed index maps over the grid: point t is row tile t % 32 of column tile t / 32. -/
theorem idx6 : ∀ t : Fin cfg6.N,
    win6_0.index t (0 : Fin 2) = t.val % 32 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val / 32 ∧ win6_5.index t (1 : Fin 2) = 0
    ∧ win6_6.index t (0 : Fin 2) = t.val % 32 ∧ win6_6.index t (1 : Fin 2) = t.val / 32
    ∧ win6_7.index t (0 : Fin 2) = 0 ∧ win6_7.index t (1 : Fin 2) = t.val / 32
    ∧ win6_8.index t (0 : Fin 2) = 0 ∧ win6_8.index t (1 : Fin 2) = t.val / 32 :=
  (by decide +kernel : ∀ t : Fin grid6.N, _)

theorem idx6_0 (t : Fin cfg6.N) : win6_0.index t (0 : Fin 2) = t.val % 32 ∧ win6_0.index t (1 : Fin 2) = 0 := ⟨(idx6 t).1, (idx6 t).2.1⟩
theorem idx6_1 (t : Fin cfg6.N) : win6_1.index t (0 : Fin 2) = 0 ∧ win6_1.index t (1 : Fin 2) = 0 := ⟨(idx6 t).2.2.1, (idx6 t).2.2.2.1⟩
theorem idx6_2 (t : Fin cfg6.N) : win6_2.index t (0 : Fin 2) = 0 ∧ win6_2.index t (1 : Fin 2) = 0 := ⟨(idx6 t).2.2.2.2.1, (idx6 t).2.2.2.2.2.1⟩
theorem idx6_3 (t : Fin cfg6.N) : win6_3.index t (0 : Fin 2) = 0 ∧ win6_3.index t (1 : Fin 2) = 0 := ⟨(idx6 t).2.2.2.2.2.2.1, (idx6 t).2.2.2.2.2.2.2.1⟩
theorem idx6_4 (t : Fin cfg6.N) : win6_4.index t (0 : Fin 2) = 0 ∧ win6_4.index t (1 : Fin 2) = 0 := ⟨(idx6 t).2.2.2.2.2.2.2.2.1, (idx6 t).2.2.2.2.2.2.2.2.2.1⟩
theorem idx6_5 (t : Fin cfg6.N) : win6_5.index t (0 : Fin 2) = t.val / 32 ∧ win6_5.index t (1 : Fin 2) = 0 := ⟨(idx6 t).2.2.2.2.2.2.2.2.2.2.1, (idx6 t).2.2.2.2.2.2.2.2.2.2.2.1⟩
theorem idx6_6 (t : Fin cfg6.N) : win6_6.index t (0 : Fin 2) = t.val % 32 ∧ win6_6.index t (1 : Fin 2) = t.val / 32 := ⟨(idx6 t).2.2.2.2.2.2.2.2.2.2.2.2.1, (idx6 t).2.2.2.2.2.2.2.2.2.2.2.2.2.1⟩
theorem idx6_7 (t : Fin cfg6.N) : win6_7.index t (0 : Fin 2) = 0 ∧ win6_7.index t (1 : Fin 2) = t.val / 32 := ⟨(idx6 t).2.2.2.2.2.2.2.2.2.2.2.2.2.2.1, (idx6 t).2.2.2.2.2.2.2.2.2.2.2.2.2.2.2.1⟩
theorem idx6_8 (t : Fin cfg6.N) : win6_8.index t (0 : Fin 2) = 0 ∧ win6_8.index t (1 : Fin 2) = t.val / 32 := ⟨(idx6 t).2.2.2.2.2.2.2.2.2.2.2.2.2.2.2.2.1, (idx6 t).2.2.2.2.2.2.2.2.2.2.2.2.2.2.2.2.2⟩

/-- The six input blocks at point t, as arrays of the block's literal shape: the previous product block, its two
    running sums rows, the scale and shift rows, the weight block. -/
abbrev blk6p (c : Dev nD) (t : Fin cfg6.N) : Vec Ideal S256x4096 .bf16 := iblk6 V c 0 t
abbrev blk6s (c : Dev nD) (t : Fin cfg6.N) : Vec Ideal S1x4096 .f32 := iblk6 V c 1 t
abbrev blk6q (c : Dev nD) (t : Fin cfg6.N) : Vec Ideal S1x4096 .f32 := iblk6 V c 2 t
abbrev blk6g (c : Dev nD) (t : Fin cfg6.N) : Vec Ideal S1x4096 .f32 := iblk6 V c 3 t
abbrev blk6b (c : Dev nD) (t : Fin cfg6.N) : Vec Ideal S1x4096 .f32 := iblk6 V c 4 t
abbrev blk6w (c : Dev nD) (t : Fin cfg6.N) : Vec Ideal S1024x4096 .bf16 := iblk6 V c 5 t

/-- The previous product block at point t reads rows 256·(t % 32) + p of the previous product. -/
theorem iblk6_0_apply (c : Dev nD) (t : Fin cfg6.N) (p : Fin 256) (k : Fin 4096) (P : Fin 8192)
    (hP : P.val = 256 * (t.val % 32) + p.val) :
    blk6p V c t (ix2 p k) = V c (Pipeline.arrRef spec6 0) (ix2 P k) := by
  unfold blk6p iblk6
  rw [View.read_apply]
  refine congrArg (V c (Pipeline.arrRef spec6 0)) (funext fun a => Fin.ext ?_)
  match a with
  | ⟨0, _⟩ => show win6_0.index t (0 : Fin 2) * 256 + 1 * p.val = P.val; rw [(idx6_0 t).1, hP]; omega
  | ⟨1, _⟩ => show win6_0.index t (1 : Fin 2) * 4096 + 1 * k.val = k.val; rw [(idx6_0 t).2]; omega

/-- The four rows at point t are the whole rows. -/
theorem iblk6_1_apply (c : Dev nD) (t : Fin cfg6.N) (k : Fin 4096) :
    blk6s V c t (ix2 0 k) = V c (Pipeline.arrRef spec6 1) (ix2 0 k) := by
  unfold blk6s iblk6
  rw [View.read_apply]
  refine congrArg (V c (Pipeline.arrRef spec6 1)) (funext fun a => Fin.ext ?_)
  match a with
  | ⟨0, _⟩ => show win6_1.index t (0 : Fin 2) * 1 + 1 * 0 = 0; rw [(idx6_1 t).1]
  | ⟨1, _⟩ => show win6_1.index t (1 : Fin 2) * 4096 + 1 * k.val = k.val; rw [(idx6_1 t).2]; omega
theorem iblk6_2_apply (c : Dev nD) (t : Fin cfg6.N) (k : Fin 4096) :
    blk6q V c t (ix2 0 k) = V c (Pipeline.arrRef spec6 2) (ix2 0 k) := by
  unfold blk6q iblk6
  rw [View.read_apply]
  refine congrArg (V c (Pipeline.arrRef spec6 2)) (funext fun a => Fin.ext ?_)
  match a with
  | ⟨0, _⟩ => show win6_2.index t (0 : Fin 2) * 1 + 1 * 0 = 0; rw [(idx6_2 t).1]
  | ⟨1, _⟩ => show win6_2.index t (1 : Fin 2) * 4096 + 1 * k.val = k.val; rw [(idx6_2 t).2]; omega
theorem iblk6_3_apply (c : Dev nD) (t : Fin cfg6.N) (k : Fin 4096) :
    blk6g V c t (ix2 0 k) = V c (Pipeline.arrRef spec6 3) (ix2 0 k) := by
  unfold blk6g iblk6
  rw [View.read_apply]
  refine congrArg (V c (Pipeline.arrRef spec6 3)) (funext fun a => Fin.ext ?_)
  match a with
  | ⟨0, _⟩ => show win6_3.index t (0 : Fin 2) * 1 + 1 * 0 = 0; rw [(idx6_3 t).1]
  | ⟨1, _⟩ => show win6_3.index t (1 : Fin 2) * 4096 + 1 * k.val = k.val; rw [(idx6_3 t).2]; omega
theorem iblk6_4_apply (c : Dev nD) (t : Fin cfg6.N) (k : Fin 4096) :
    blk6b V c t (ix2 0 k) = V c (Pipeline.arrRef spec6 4) (ix2 0 k) := by
  unfold blk6b iblk6
  rw [View.read_apply]
  refine congrArg (V c (Pipeline.arrRef spec6 4)) (funext fun a => Fin.ext ?_)
  match a with
  | ⟨0, _⟩ => show win6_4.index t (0 : Fin 2) * 1 + 1 * 0 = 0; rw [(idx6_4 t).1]
  | ⟨1, _⟩ => show win6_4.index t (1 : Fin 2) * 4096 + 1 * k.val = k.val; rw [(idx6_4 t).2]; omega

/-- The weight block at point t reads rows 1024·(t / 32) + j of the binarised weights. -/
theorem iblk6_5_apply (c : Dev nD) (t : Fin cfg6.N) (j : Fin 1024) (k : Fin 4096) (J : Fin 4096)
    (hJ : J.val = 1024 * (t.val / 32) + j.val) :
    blk6w V c t (ix2 j k) = V c (Pipeline.arrRef spec6 5) (ix2 J k) := by
  unfold blk6w iblk6
  rw [View.read_apply]
  refine congrArg (V c (Pipeline.arrRef spec6 5)) (funext fun a => Fin.ext ?_)
  match a with
  | ⟨0, _⟩ => show win6_5.index t (0 : Fin 2) * 1024 + 1 * j.val = J.val; rw [(idx6_5 t).1, hJ]; omega
  | ⟨1, _⟩ => show win6_5.index t (1 : Fin 2) * 4096 + 1 * k.val = k.val; rw [(idx6_5 t).2]; omega

/-- The product of point t's blocks at local (p, j): the normalised previous product's signs along row p against
    weight row j. -/
abbrev lp6 (c : Dev nD) (t : Fin cfg6.N) (p : Fin 256) (j : Fin 1024) : EReal :=
  ∑ k : Fin 4096, Cert.Bnn.sgnK (R6.nrm (blk6p V c t) (blk6s V c t) (blk6q V c t) (blk6g V c t) (blk6b V c t) p k) * blk6w V c t (ix2 j k)

/-- After the body at point t the product buffer holds that product at (p, j). -/
theorem outs6_prod (c : Dev nD) (t : Fin cfg6.N) (p : Fin 256) (j : Fin 1024) :
    (outsAt6 V c t.val t.isLt).1 (ix2 p j) = lp6 V c t p j := by
  by_cases h0 : t.val % 32 = 0
  · rw [outsAt6_A V c t h0]
    dsimp only
    refine (congrFun (out6_A_6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) (ix2 p j)).trans ?_
    exact R6.pay4_apply (iblk6 V c 0 t) (iblk6 V c 1 t) (iblk6 V c 2 t) (iblk6 V c 3 t) (iblk6 V c 4 t) (iblk6 V c 5 t) p j
  · rw [outsAt6_B V c t h0]
    dsimp only
    refine (congrFun (out6_B_6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) _ _) (ix2 p j)).trans ?_
    exact R6.pay4_apply (iblk6 V c 0 t) (iblk6 V c 1 t) (iblk6 V c 2 t) (iblk6 V c 3 t) (iblk6 V c 4 t) (iblk6 V c 5 t) p j

end Cert.KernelIdeal.KVal
end
-- ==== Proof.KL2d.lean ====
/-
  Layer 2's two running rows: at local column j, after the body at point n the sum row holds the sum, over the row
  tiles met since the column tile began, of each tile's column sum of products; at the last row tile of a column tile
  that is the whole column's sum over the batch. The same for the squares.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL2c
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

theorem N6 : cfg6.N = 128 := N_6

/-- One row tile's column sum of products (of squared products), at local column j of point n. -/
def tile6 (c : Dev nD) (j : Fin 1024) (n : ℕ) : EReal :=
  if h : n < cfg6.N then ∑ p : Fin 256, lp6 V c ⟨n, h⟩ p j else 0
def tileSq6 (c : Dev nD) (j : Fin 1024) (n : ℕ) : EReal :=
  if h : n < cfg6.N then ∑ p : Fin 256, lp6 V c ⟨n, h⟩ p j * lp6 V c ⟨n, h⟩ p j else 0

/-- The two running rows after the body at point n, at local column j. -/
def acc6s (c : Dev nD) (j : Fin 1024) (n : ℕ) : EReal :=
  if h : n < cfg6.N then ((outsAt6 V c n h).2.1 : Vec Ideal S1x1024 .f32) (ix2 0 j) else 0
def acc6q (c : Dev nD) (j : Fin 1024) (n : ℕ) : EReal :=
  if h : n < cfg6.N then ((outsAt6 V c n h).2.2 : Vec Ideal S1x1024 .f32) (ix2 0 j) else 0

theorem acc6s_zero (c : Dev nD) (j : Fin 1024) (n : ℕ) (hn : n < 128) (h0 : n % 32 = 0) :
    acc6s V c j n = 0 + tile6 V c j n := by
  have hn' : n < cfg6.N := by rw [N6]; exact hn
  unfold acc6s tile6
  rw [dif_pos hn', dif_pos hn', outsAt6_A V c ⟨n, hn'⟩ h0]
  dsimp only
  refine (congrFun (out6_A_7_eq c (grid6.coords ⟨n, hn'⟩) (ms6_0 ⟨n, hn'⟩) (hs6_0 ⟨n, hn'⟩) (ms6_1 ⟨n, hn'⟩) (hs6_1 ⟨n, hn'⟩) (ms6_2 ⟨n, hn'⟩) (hs6_2 ⟨n, hn'⟩) (ms6_3 ⟨n, hn'⟩) (hs6_3 ⟨n, hn'⟩) (ms6_4 ⟨n, hn'⟩) (hs6_4 ⟨n, hn'⟩) (ms6_5 ⟨n, hn'⟩) (hs6_5 ⟨n, hn'⟩) (ms6_6 ⟨n, hn'⟩) (hs6_6 ⟨n, hn'⟩) (ms6_7 ⟨n, hn'⟩) (hs6_7 ⟨n, hn'⟩) (ms6_8 ⟨n, hn'⟩) (hs6_8 ⟨n, hn'⟩) ((hcond6_0 ⟨n, hn'⟩).mpr h0) (iblk6 V c 0 ⟨n, hn'⟩) (iblk6 V c 1 ⟨n, hn'⟩) (iblk6 V c 2 ⟨n, hn'⟩) (iblk6 V c 3 ⟨n, hn'⟩) (iblk6 V c 4 ⟨n, hn'⟩) (iblk6 V c 5 ⟨n, hn'⟩)) (ix2 0 j)).trans ?_
  refine (R6.pay2_apply (iblk6 V c 0 ⟨n, hn'⟩) (iblk6 V c 1 ⟨n, hn'⟩) (iblk6 V c 2 ⟨n, hn'⟩) (iblk6 V c 3 ⟨n, hn'⟩) (iblk6 V c 4 ⟨n, hn'⟩) (iblk6 V c 5 ⟨n, hn'⟩) (k6_pay5 (F := Ideal)) j).trans ?_
  rw [R6.pay5_apply]

theorem acc6q_zero (c : Dev nD) (j : Fin 1024) (n : ℕ) (hn : n < 128) (h0 : n % 32 = 0) :
    acc6q V c j n = 0 + tileSq6 V c j n := by
  have hn' : n < cfg6.N := by rw [N6]; exact hn
  unfold acc6q tileSq6
  rw [dif_pos hn', dif_pos hn', outsAt6_A V c ⟨n, hn'⟩ h0]
  dsimp only
  refine (congrFun (out6_A_8_eq c (grid6.coords ⟨n, hn'⟩) (ms6_0 ⟨n, hn'⟩) (hs6_0 ⟨n, hn'⟩) (ms6_1 ⟨n, hn'⟩) (hs6_1 ⟨n, hn'⟩) (ms6_2 ⟨n, hn'⟩) (hs6_2 ⟨n, hn'⟩) (ms6_3 ⟨n, hn'⟩) (hs6_3 ⟨n, hn'⟩) (ms6_4 ⟨n, hn'⟩) (hs6_4 ⟨n, hn'⟩) (ms6_5 ⟨n, hn'⟩) (hs6_5 ⟨n, hn'⟩) (ms6_6 ⟨n, hn'⟩) (hs6_6 ⟨n, hn'⟩) (ms6_7 ⟨n, hn'⟩) (hs6_7 ⟨n, hn'⟩) (ms6_8 ⟨n, hn'⟩) (hs6_8 ⟨n, hn'⟩) ((hcond6_0 ⟨n, hn'⟩).mpr h0) (iblk6 V c 0 ⟨n, hn'⟩) (iblk6 V c 1 ⟨n, hn'⟩) (iblk6 V c 2 ⟨n, hn'⟩) (iblk6 V c 3 ⟨n, hn'⟩) (iblk6 V c 4 ⟨n, hn'⟩) (iblk6 V c 5 ⟨n, hn'⟩)) (ix2 0 j)).trans ?_
  refine (R6.pay3_apply (iblk6 V c 0 ⟨n, hn'⟩) (iblk6 V c 1 ⟨n, hn'⟩) (iblk6 V c 2 ⟨n, hn'⟩) (iblk6 V c 3 ⟨n, hn'⟩) (iblk6 V c 4 ⟨n, hn'⟩) (iblk6 V c 5 ⟨n, hn'⟩) (k6_pay6 (F := Ideal)) j).trans ?_
  rw [R6.pay6_apply]

theorem acc6s_succ (c : Dev nD) (j : Fin 1024) (n : ℕ) (hn : n + 1 < 128) (hne : (n + 1) % 32 ≠ 0) :
    acc6s V c j (n + 1) = acc6s V c j n + tile6 V c j (n + 1) := by
  have hn' : n + 1 < cfg6.N := by rw [N6]; exact hn
  have hn0 : n < cfg6.N := Nat.lt_of_succ_lt hn'
  unfold acc6s tile6
  rw [dif_pos hn', dif_pos hn0, dif_pos hn', outsAt6_B V c ⟨n + 1, hn'⟩ hne]
  dsimp only
  refine (congrFun (out6_B_7_eq c (grid6.coords ⟨n + 1, hn'⟩) (ms6_0 ⟨n + 1, hn'⟩) (hs6_0 ⟨n + 1, hn'⟩) (ms6_1 ⟨n + 1, hn'⟩) (hs6_1 ⟨n + 1, hn'⟩) (ms6_2 ⟨n + 1, hn'⟩) (hs6_2 ⟨n + 1, hn'⟩) (ms6_3 ⟨n + 1, hn'⟩) (hs6_3 ⟨n + 1, hn'⟩) (ms6_4 ⟨n + 1, hn'⟩) (hs6_4 ⟨n + 1, hn'⟩) (ms6_5 ⟨n + 1, hn'⟩) (hs6_5 ⟨n + 1, hn'⟩) (ms6_6 ⟨n + 1, hn'⟩) (hs6_6 ⟨n + 1, hn'⟩) (ms6_7 ⟨n + 1, hn'⟩) (hs6_7 ⟨n + 1, hn'⟩) (ms6_8 ⟨n + 1, hn'⟩) (hs6_8 ⟨n + 1, hn'⟩) (fun h => hne ((hcond6_0 ⟨n + 1, hn'⟩).mp h)) (iblk6 V c 0 ⟨n + 1, hn'⟩) (iblk6 V c 1 ⟨n + 1, hn'⟩) (iblk6 V c 2 ⟨n + 1, hn'⟩) (iblk6 V c 3 ⟨n + 1, hn'⟩) (iblk6 V c 4 ⟨n + 1, hn'⟩) (iblk6 V c 5 ⟨n + 1, hn'⟩) _ _) (ix2 0 j)).trans ?_
  exact R6.pay2_apply (iblk6 V c 0 ⟨n + 1, hn'⟩) (iblk6 V c 1 ⟨n + 1, hn'⟩) (iblk6 V c 2 ⟨n + 1, hn'⟩) (iblk6 V c 3 ⟨n + 1, hn'⟩) (iblk6 V c 4 ⟨n + 1, hn'⟩) (iblk6 V c 5 ⟨n + 1, hn'⟩) _ j

theorem acc6q_succ (c : Dev nD) (j : Fin 1024) (n : ℕ) (hn : n + 1 < 128) (hne : (n + 1) % 32 ≠ 0) :
    acc6q V c j (n + 1) = acc6q V c j n + tileSq6 V c j (n + 1) := by
  have hn' : n + 1 < cfg6.N := by rw [N6]; exact hn
  have hn0 : n < cfg6.N := Nat.lt_of_succ_lt hn'
  unfold acc6q tileSq6
  rw [dif_pos hn', dif_pos hn0, dif_pos hn', outsAt6_B V c ⟨n + 1, hn'⟩ hne]
  dsimp only
  refine (congrFun (out6_B_8_eq c (grid6.coords ⟨n + 1, hn'⟩) (ms6_0 ⟨n + 1, hn'⟩) (hs6_0 ⟨n + 1, hn'⟩) (ms6_1 ⟨n + 1, hn'⟩) (hs6_1 ⟨n + 1, hn'⟩) (ms6_2 ⟨n + 1, hn'⟩) (hs6_2 ⟨n + 1, hn'⟩) (ms6_3 ⟨n + 1, hn'⟩) (hs6_3 ⟨n + 1, hn'⟩) (ms6_4 ⟨n + 1, hn'⟩) (hs6_4 ⟨n + 1, hn'⟩) (ms6_5 ⟨n + 1, hn'⟩) (hs6_5 ⟨n + 1, hn'⟩) (ms6_6 ⟨n + 1, hn'⟩) (hs6_6 ⟨n + 1, hn'⟩) (ms6_7 ⟨n + 1, hn'⟩) (hs6_7 ⟨n + 1, hn'⟩) (ms6_8 ⟨n + 1, hn'⟩) (hs6_8 ⟨n + 1, hn'⟩) (fun h => hne ((hcond6_0 ⟨n + 1, hn'⟩).mp h)) (iblk6 V c 0 ⟨n + 1, hn'⟩) (iblk6 V c 1 ⟨n + 1, hn'⟩) (iblk6 V c 2 ⟨n + 1, hn'⟩) (iblk6 V c 3 ⟨n + 1, hn'⟩) (iblk6 V c 4 ⟨n + 1, hn'⟩) (iblk6 V c 5 ⟨n + 1, hn'⟩) _ _) (ix2 0 j)).trans ?_
  exact R6.pay3_apply (iblk6 V c 0 ⟨n + 1, hn'⟩) (iblk6 V c 1 ⟨n + 1, hn'⟩) (iblk6 V c 2 ⟨n + 1, hn'⟩) (iblk6 V c 3 ⟨n + 1, hn'⟩) (iblk6 V c 4 ⟨n + 1, hn'⟩) (iblk6 V c 5 ⟨n + 1, hn'⟩) _ j

/-- At the last row tile of column tile a the rows hold the sums over all thirty-two row tiles. -/
theorem acc6s_last (c : Dev nD) (j : Fin 1024) (a : ℕ) (ha : a < 4) :
    acc6s V c j (32 * a + 31) = ∑ b : Fin 32, tile6 V c j (32 * a + b.val) :=
  Cert.Regroup.acc_last 32 128 (by decide) (tile6 V c j) (acc6s V c j) (acc6s_zero V c j) (acc6s_succ V c j) a (by omega)
theorem acc6q_last (c : Dev nD) (j : Fin 1024) (a : ℕ) (ha : a < 4) :
    acc6q V c j (32 * a + 31) = ∑ b : Fin 32, tileSq6 V c j (32 * a + b.val) :=
  Cert.Regroup.acc_last 32 128 (by decide) (tileSq6 V c j) (acc6q V c j) (acc6q_zero V c j) (acc6q_succ V c j) a (by omega)

end Cert.KernelIdeal.KVal
end
-- ==== Proof.KL2e.lean ====
/-
  Layer 2's region as whole arrays: the product array is the signs of the normalised previous product times the
  binarised weights (rows against rows), and the two statistics rows are its column sums and column sums of squares
  over the whole batch — each output block is written back by exactly the points the schedule says, and those blocks
  tile the arrays.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL2d
import proofs.«144054_j58213986730442_2_alg».proof.Proof.Spec
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- What the region finds, by coordinates: the previous product, its two statistics rows, the scale and shift rows,
    the binarised weights. -/
def P6 (c : Dev nD) : Fin 8192 → Fin 4096 → EReal := fun p k => V c (Pipeline.arrRef spec6 0) (ix2 p k)
def S6 (c : Dev nD) : Fin 4096 → EReal := fun k => V c (Pipeline.arrRef spec6 1) (ix2 0 k)
def Q6 (c : Dev nD) : Fin 4096 → EReal := fun k => V c (Pipeline.arrRef spec6 2) (ix2 0 k)
def Ga6 (c : Dev nD) : Fin 4096 → EReal := fun k => V c (Pipeline.arrRef spec6 3) (ix2 0 k)
def Be6 (c : Dev nD) : Fin 4096 → EReal := fun k => V c (Pipeline.arrRef spec6 4) (ix2 0 k)
def B6 (c : Dev nD) : Fin 4096 → Fin 4096 → EReal := fun j k => V c (Pipeline.arrRef spec6 5) (ix2 j k)
/-- The signs of the normalised previous product, and their product with the weights. -/
def A6 (c : Dev nD) : Fin 8192 → Fin 4096 → EReal := fun p k =>
  Cert.Bnn.sgnK (Cert.Bnn.bnK (P6 V c) (S6 V c) (Q6 V c) (Ga6 V c) (Be6 V c) p k)
def Y6 (c : Dev nD) : Fin 8192 → Fin 4096 → EReal := Cert.Bnn.mm (A6 V c) (B6 V c)

/-- The three arrays the region leaves. -/
def G6y (c : Dev nD) : Buf (Elt Ideal) ((c : Thread nD τ).loc main_v10_0) := fun i => Y6 V c (i 0) (i 1)
def G6s (c : Dev nD) : Buf (Elt Ideal) ((c : Thread nD τ).loc main_v10_1) := fun i => Cert.Bnn.colSum (Y6 V c) (i 1)
def G6q (c : Dev nD) : Buf (Elt Ideal) ((c : Thread nD τ).loc main_v10_2) := fun i => Cert.Bnn.colSumSq (Y6 V c) (i 1)

theorem lt6 (t : Fin cfg6.N) : t.val < 128 := Nat.lt_of_lt_of_eq t.isLt N6

/-- The normalisation reads the previous product at one entry and the four rows at that entry's column: at local
    (p, k) of point t it is the whole arrays' at row 256·(t % 32) + p. -/
theorem nrm6_global (c : Dev nD) (t : Fin cfg6.N) (p : Fin 256) (k : Fin 4096) (P : Fin 8192)
    (hP : P.val = 256 * (t.val % 32) + p.val) :
    R6.nrm (blk6p V c t) (blk6s V c t) (blk6q V c t) (blk6g V c t) (blk6b V c t) p k
      = Cert.Bnn.bnK (P6 V c) (S6 V c) (Q6 V c) (Ga6 V c) (Be6 V c) P k := by
  simp only [R6.nrm, Cert.Bnn.bnK, P6, S6, Q6, Ga6, Be6]
  rw [iblk6_0_apply V c t p k P hP, iblk6_1_apply V c t k, iblk6_2_apply V c t k, iblk6_3_apply V c t k, iblk6_4_apply V c t k]

/-- The products of row tile t % 32 by column tile t / 32, in the arrays' own coordinates. -/
theorem prod6_global (c : Dev nD) (t : Fin cfg6.N) (p : Fin 256) (j : Fin 1024) (P : Fin 8192) (J : Fin 4096)
    (hP : P.val = 256 * (t.val % 32) + p.val) (hJ : J.val = 1024 * (t.val / 32) + j.val) :
    lp6 V c t p j = Y6 V c P J := by
  unfold Y6 Cert.Bnn.mm A6 B6
  exact Finset.sum_congr rfl fun k _ => by rw [nrm6_global V c t p k P hP, iblk6_5_apply V c t j k J hJ]

/-- What point t writes back of the product array is the product array read through the point's block. -/
theorem flushed6_6_eq (c : Dev nD) (t : Fin cfg6.N) :
    (dat6 V c).flushed 6 t = ((cfg6.win 6).blk t).view.read (Elt Ideal) (G6y V c) := by
  show (cfg6.win 6).cut (grid6.coords t) ((dat6 V c).after 6 t) = _
  rw [after6_6]
  funext y
  obtain ⟨p, j, rfl⟩ : ∃ (p : Fin 256) (j : Fin 1024), y = ix2 p j := ⟨y 0, y 1, eq_ix2 y⟩
  have ht := lt6 t
  have hp := p.isLt
  have hj := j.isLt
  show ((outsAt6 V c t.val t.isLt).1 : Vec Ideal S256x1024 .bf16) (ix2 p j) = G6y V c (((cfg6.win 6).blk t).view.emb (ix2 p j))
  rw [outs6_prod V c t p j]
  refine (prod6_global V c t p j ⟨256 * (t.val % 32) + p.val, by omega⟩ ⟨1024 * (t.val / 32) + j.val, by omega⟩ rfl rfl).trans ?_
  unfold G6y
  congr 1 <;> apply Fin.ext
  · show 256 * (t.val % 32) + p.val = win6_6.index t (0 : Fin 2) * 256 + 1 * p.val
    rw [(idx6_6 t).1]; omega
  · show 1024 * (t.val / 32) + j.val = win6_6.index t (1 : Fin 2) * 1024 + 1 * j.val
    rw [(idx6_6 t).2]; omega

/-- An index of the product array is in point t's block iff each coordinate is in the block's range. -/
theorem mem_blk6_6 (t : Fin cfg6.N) (i : S8192x4096.Idx) :
    i ∈ ((cfg6.win 6).blk t).view.set ↔ ∀ a : Fin 2, win6_6.index t a * S256x1024.size a ≤ (i a).val ∧ (i a).val < win6_6.index t a * S256x1024.size a + S256x1024.size a := by
  show i ∈ ((View.whole main_v10_0).slice (win6_6.rect t)).set ↔ _
  rw [View.set_slice_whole, Rect.mem_set_unit]
  exact Iff.rfl

/-- The product array after the region. -/
theorem final6_y (c : Dev nD) : (dat6 V c).arrAt 6 cfg6.N = G6y V c :=
  (dat6 V c).arrAt_eq_of_cover 6 (G6y V c) (fun t _ => flushed6_6_eq V c t) fun i => by
    have h0 : (i 0).val < 8192 := (i 0).isLt
    have h1 : (i 1).val < 4096 := (i 1).isLt
    refine ⟨⟨32 * ((i 1).val / 1024) + (i 0).val / 256, by rw [N6]; omega⟩, flush6_6 _, ?_⟩
    rw [mem_blk6_6]
    intro a
    match a with
    | ⟨0, _⟩ =>
      show win6_6.index _ (0 : Fin 2) * 256 ≤ (i 0).val ∧ (i 0).val < win6_6.index _ (0 : Fin 2) * 256 + 256
      rw [(idx6_6 _).1]; dsimp only; omega
    | ⟨1, _⟩ =>
      show win6_6.index _ (1 : Fin 2) * 1024 ≤ (i 1).val ∧ (i 1).val < win6_6.index _ (1 : Fin 2) * 1024 + 1024
      rw [(idx6_6 _).2]; dsimp only; omega

end Cert.KernelIdeal.KVal
end
-- ==== Proof.KL2f.lean ====
/-
  Layer 2's two statistics rows as whole arrays: the row a column tile's last row tile writes back is the column
  sums (of products, of their squares) over the whole batch, the thirty-two row tiles' sums regrouped into one sum
  over the 8192 rows.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL2e
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- One row tile's column sums in the product array's own coordinates. -/
theorem tile6_global (c : Dev nD) (j : Fin 1024) (a b : ℕ) (ha : a < 4) (hb : b < 32) (J : Fin 4096)
    (hJ : J.val = 1024 * a + j.val) :
    tile6 V c j (32 * a + b) = ∑ p : Fin 256, Y6 V c ⟨256 * b + p.val, by have := p.isLt; omega⟩ J := by
  have hn : 32 * a + b < cfg6.N := by rw [N6]; omega
  unfold tile6
  rw [dif_pos hn]
  refine Finset.sum_congr rfl fun p _ => ?_
  exact prod6_global V c ⟨32 * a + b, hn⟩ p j ⟨256 * b + p.val, by have := p.isLt; omega⟩ J (by show 256 * b + p.val = 256 * ((32 * a + b) % 32) + p.val; omega)
    (by show J.val = 1024 * ((32 * a + b) / 32) + j.val; omega)
theorem tileSq6_global (c : Dev nD) (j : Fin 1024) (a b : ℕ) (ha : a < 4) (hb : b < 32) (J : Fin 4096)
    (hJ : J.val = 1024 * a + j.val) :
    tileSq6 V c j (32 * a + b) = ∑ p : Fin 256, Y6 V c ⟨256 * b + p.val, by have := p.isLt; omega⟩ J * Y6 V c ⟨256 * b + p.val, by have := p.isLt; omega⟩ J := by
  have hn : 32 * a + b < cfg6.N := by rw [N6]; omega
  unfold tileSq6
  rw [dif_pos hn]
  refine Finset.sum_congr rfl fun p _ => ?_
  rw [prod6_global V c ⟨32 * a + b, hn⟩ p j ⟨256 * b + p.val, by have := p.isLt; omega⟩ J (by show 256 * b + p.val = 256 * ((32 * a + b) % 32) + p.val; omega)
    (by show J.val = 1024 * ((32 * a + b) / 32) + j.val; omega)]

/-- The thirty-two row tiles of a column make up the whole column. -/
theorem tile6_col (c : Dev nD) (j : Fin 1024) (a : ℕ) (ha : a < 4) (J : Fin 4096) (hJ : J.val = 1024 * a + j.val) :
    ∑ b : Fin 32, tile6 V c j (32 * a + b.val) = Cert.Bnn.colSum (Y6 V c) J := by
  unfold Cert.Bnn.colSum
  show _ = ∑ P : Fin (32 * 256), Y6 V c P J
  rw [Cert.LibChunkSum.sum_chunks 32 256 (fun P : Fin (32 * 256) => Y6 V c P J)
    (fun cc jj => ⟨256 * cc.val + jj.val, by have := cc.isLt; have := jj.isLt; omega⟩) (fun _ _ => rfl)]
  exact Finset.sum_congr rfl fun b _ => tile6_global V c j a b.val ha b.isLt J hJ
theorem tileSq6_col (c : Dev nD) (j : Fin 1024) (a : ℕ) (ha : a < 4) (J : Fin 4096) (hJ : J.val = 1024 * a + j.val) :
    ∑ b : Fin 32, tileSq6 V c j (32 * a + b.val) = Cert.Bnn.colSumSq (Y6 V c) J := by
  unfold Cert.Bnn.colSumSq
  show _ = ∑ P : Fin (32 * 256), Y6 V c P J * Y6 V c P J
  rw [Cert.LibChunkSum.sum_chunks 32 256 (fun P : Fin (32 * 256) => Y6 V c P J * Y6 V c P J)
    (fun cc jj => ⟨256 * cc.val + jj.val, by have := cc.isLt; have := jj.isLt; omega⟩) (fun _ _ => rfl)]
  exact Finset.sum_congr rfl fun b _ => tileSq6_global V c j a b.val ha b.isLt J hJ

/-- What the last row tile of a column tile writes back of the row is that row read through the point's block. -/
theorem flushed6_7_eq (c : Dev nD) (t : Fin cfg6.N) (hf : (cfg6.win 7).flush t = true) :
    (dat6 V c).flushed 7 t = ((cfg6.win 7).blk t).view.read (Elt Ideal) (G6s V c) := by
  have h31 : t.val % 32 = 31 := (flush6_7 t).mp hf
  have ht := lt6 t
  show (cfg6.win 7).cut (grid6.coords t) ((dat6 V c).after 7 t) = _
  rw [after6_7]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt6 V c t.val t.isLt).2.1 : Vec Ideal S1x1024 .f32) (ix2 0 j) = G6s V c (((cfg6.win 7).blk t).view.emb (ix2 0 j))
  have e : ((outsAt6 V c t.val t.isLt).2.1 : Vec Ideal S1x1024 .f32) (ix2 0 j) = acc6s V c j t.val := by
    unfold acc6s; rw [dif_pos t.isLt]
  have hacc := acc6s_last V c j (t.val / 32) (by omega)
  rw [show 32 * (t.val / 32) + 31 = t.val from by omega] at hacc
  rw [e, hacc]
  unfold G6s
  refine tile6_col V c j (t.val / 32) (by omega) _ ?_
  show win6_7.index t (1 : Fin 2) * 1024 + 1 * j.val = 1024 * (t.val / 32) + j.val
  rw [(idx6_7 t).2]; omega

theorem mem_blk6_7 (t : Fin cfg6.N) (i : S1x4096.Idx) :
    i ∈ ((cfg6.win 7).blk t).view.set ↔ ∀ a : Fin 2, win6_7.index t a * S1x1024.size a ≤ (i a).val ∧ (i a).val < win6_7.index t a * S1x1024.size a + S1x1024.size a := by
  show i ∈ ((View.whole main_v10_1).slice (win6_7.rect t)).set ↔ _
  rw [View.set_slice_whole, Rect.mem_set_unit]
  exact Iff.rfl

/-- The row after the region. -/
theorem final6_7 (c : Dev nD) : (dat6 V c).arrAt 7 cfg6.N = G6s V c :=
  (dat6 V c).arrAt_eq_of_cover 7 (G6s V c) (flushed6_7_eq V c) fun i => by
    have h0 : (i 0).val < 1 := (i 0).isLt
    have h1 : (i 1).val < 4096 := (i 1).isLt
    refine ⟨⟨32 * ((i 1).val / 1024) + 31, by rw [N6]; omega⟩, (flush6_7 _).mpr (by dsimp only; omega), ?_⟩
    rw [mem_blk6_7]
    intro a
    match a with
    | ⟨0, _⟩ =>
      show win6_7.index _ (0 : Fin 2) * 1 ≤ (i 0).val ∧ (i 0).val < win6_7.index _ (0 : Fin 2) * 1 + 1
      rw [(idx6_7 _).1]; omega
    | ⟨1, _⟩ =>
      show win6_7.index _ (1 : Fin 2) * 1024 ≤ (i 1).val ∧ (i 1).val < win6_7.index _ (1 : Fin 2) * 1024 + 1024
      rw [(idx6_7 _).2]; dsimp only; omega

/-- What the last row tile of a column tile writes back of the row is that row read through the point's block. -/
theorem flushed6_8_eq (c : Dev nD) (t : Fin cfg6.N) (hf : (cfg6.win 8).flush t = true) :
    (dat6 V c).flushed 8 t = ((cfg6.win 8).blk t).view.read (Elt Ideal) (G6q V c) := by
  have h31 : t.val % 32 = 31 := (flush6_8 t).mp hf
  have ht := lt6 t
  show (cfg6.win 8).cut (grid6.coords t) ((dat6 V c).after 8 t) = _
  rw [after6_8]
  funext y
  obtain ⟨u, j, rfl⟩ : ∃ (u : Fin 1) (j : Fin 1024), y = ix2 u j := ⟨y 0, y 1, eq_ix2 y⟩
  obtain rfl : u = 0 := Subsingleton.elim _ _
  have hj := j.isLt
  show ((outsAt6 V c t.val t.isLt).2.2 : Vec Ideal S1x1024 .f32) (ix2 0 j) = G6q V c (((cfg6.win 8).blk t).view.emb (ix2 0 j))
  have e : ((outsAt6 V c t.val t.isLt).2.2 : Vec Ideal S1x1024 .f32) (ix2 0 j) = acc6q V c j t.val := by
    unfold acc6q; rw [dif_pos t.isLt]
  have hacc := acc6q_last V c j (t.val / 32) (by omega)
  rw [show 32 * (t.val / 32) + 31 = t.val from by omega] at hacc
  rw [e, hacc]
  unfold G6q
  refine tileSq6_col V c j (t.val / 32) (by omega) _ ?_
  show win6_8.index t (1 : Fin 2) * 1024 + 1 * j.val = 1024 * (t.val / 32) + j.val
  rw [(idx6_8 t).2]; omega

theorem mem_blk6_8 (t : Fin cfg6.N) (i : S1x4096.Idx) :
    i ∈ ((cfg6.win 8).blk t).view.set ↔ ∀ a : Fin 2, win6_8.index t a * S1x1024.size a ≤ (i a).val ∧ (i a).val < win6_8.index t a * S1x1024.size a + S1x1024.size a := by
  show i ∈ ((View.whole main_v10_2).slice (win6_8.rect t)).set ↔ _
  rw [View.set_slice_whole, Rect.mem_set_unit]
  exact Iff.rfl

/-- The row after the region. -/
theorem final6_8 (c : Dev nD) : (dat6 V c).arrAt 8 cfg6.N = G6q V c :=
  (dat6 V c).arrAt_eq_of_cover 8 (G6q V c) (flushed6_8_eq V c) fun i => by
    have h0 : (i 0).val < 1 := (i 0).isLt
    have h1 : (i 1).val < 4096 := (i 1).isLt
    refine ⟨⟨32 * ((i 1).val / 1024) + 31, by rw [N6]; omega⟩, (flush6_8 _).mpr (by dsimp only; omega), ?_⟩
    rw [mem_blk6_8]
    intro a
    match a with
    | ⟨0, _⟩ =>
      show win6_8.index _ (0 : Fin 2) * 1 ≤ (i 0).val ∧ (i 0).val < win6_8.index _ (0 : Fin 2) * 1 + 1
      rw [(idx6_8 _).1]; omega
    | ⟨1, _⟩ =>
      show win6_8.index _ (1 : Fin 2) * 1024 ≤ (i 1).val ∧ (i 1).val < win6_8.index _ (1 : Fin 2) * 1024 + 1024
      rw [(idx6_8 _).2]; dsimp only; omega

end Cert.KernelIdeal.KVal
end
-- ==== Proof.KL3a.lean ====
/-
  Layer 3's body, read as values: what each of the two control cases leaves in the three output staging buffers, as
  the body's pure terms of the input blocks — the product block of the normalised, binarised previous activations
  with the weight block, and the two running column sums (from the zero block at the first row tile of a column
  tile, from what the previous row tile left elsewhere).
-/
import proofs.«144054_j58213986730442_2_alg».proof.Proof.Gen.KernelIdeal.Frame
import proofs.«144054_j58213986730442_2_alg».proof.Proof.KL0a
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- Elsewhere than at the first row tile: the product block. -/
theorem out7_B_6_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : ¬cond7_0 i) (x0 : Vec F S256x4096 .bf16) (x1 x2 x3 x4 : Vec F S1x4096 .f32) (x5 : Vec F S10x4096 .bf16) (xo7 xo8 : Vec F S1x10 .f32) :
    out7_B_6 c i a2 h2 a3 h3 a4 h4 a5 h5 a6 h6 a7 h7 a8 h8 a9 h9 a10 h10 hc x0 x1 x2 x3 x4 x5 xo7 xo8 = k7_pay1 (k7_pay6 x1 x2 x0 x3 x4) (k7_pay7 x1 x2 x0 x3 x4) (k7_pay8 x1 x2 x0 x3 x4) k7_pay9 x5 := by
  unfold out7_B_6
  rw [View.read_writes_eq_canon _ _ _ (cover7_B_6 c i a2 h2 a3 h3 a4 h4 a5 h5 a6 h6 a7 h7 a8 h8 a9 h9 a10 h10 hc x0 x1 x2 x3 x4 x5 xo7 xo8)]
  unfold kernelRun7_B
  dsimp only
  rw [View.canon_unit_zero hz2]
  unfold kernelRun7_B.sl.r kernelRun7_B.sl.r_1 kernelRun7_B.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S10x4096) hz2]

/-- Elsewhere than at the first row tile: the running sum plus this tile's column sums. -/
theorem out7_B_7_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : ¬cond7_0 i) (x0 : Vec F S256x4096 .bf16) (x1 x2 x3 x4 : Vec F S1x4096 .f32) (x5 : Vec F S10x4096 .bf16) (xo7 xo8 : Vec F S1x10 .f32) :
    out7_B_7 c i a2 h2 a3 h3 a4 h4 a5 h5 a6 h6 a7 h7 a8 h8 a9 h9 a10 h10 hc x0 x1 x2 x3 x4 x5 xo7 xo8 = k7_pay2 (k7_pay6 x1 x2 x0 x3 x4) (k7_pay7 x1 x2 x0 x3 x4) (k7_pay8 x1 x2 x0 x3 x4) k7_pay9 x5 xo7 := by
  unfold out7_B_7
  rw [View.read_writes_eq_canon _ _ _ (cover7_B_7 c i a2 h2 a3 h3 a4 h4 a5 h5 a6 h6 a7 h7 a8 h8 a9 h9 a10 h10 hc x0 x1 x2 x3 x4 x5 xo7 xo8)]
  unfold kernelRun7_B
  dsimp only
  rw [View.canon_unit_zero hz2]
  unfold kernelRun7_B.sl.r kernelRun7_B.sl.r_1 kernelRun7_B.sl.r_2
  simp only [View.readAt_eq_ld, h2.read_unread, h3.read_unread, h4.read_unread, h5.read_unread, h6.read_unread, h7.read_unread, h9.read_unread, View.ld_unit_zero (S := S256x4096) hz2, View.ld_unit_zero (S := S1x4096) hz2, View.ld_unit_zero (S := S10x4096) hz2, View.ld_unit_zero (S := S1x10) hz2]

/-- Elsewhere than at the first row tile: the running sum of squares plus this tile's. -/
theorem out7_B_8_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : ¬cond7_0 i) (x0 : Vec F S256x4096 .bf16) (x1 x2 x3 x4 : Vec F S1x4096 .f32) (x5 : Vec F S10x4096 .bf16) (xo7 xo8 : Vec F S1x10 .f32) :
    out7_B_8 c i a2 h2 a3 h3 a4 h4 a5 h5 a6 h6 a7 h7 a8 h8 a9 h9 a10 h10 hc x0 x1 x2 x3 x4 x5 xo7 xo8 = k7_pay3 (k7_pay6 x1 x2 x0 x3 x4) (k7_pay7 x1 x2 x0 x3 x4) (k7_pay8 x1 x2 x0 x3 x4) k7_pay9 x5 xo8 := by
  unfold out7_B_8
  rw [View.read_writes_eq_canon _ _ _ (cover7_B_8 c i a2 h2 a3 h3 a4 h4 a5 h5 a6 h6 a7 h7 a8 h8 a9 h9 a10 h10 hc x0 x1 x2 x3 x4 x5 xo7 xo8)]
  unfold kernelRun7_B
  dsimp only
  rw [View.canon_unit_zero hz2]
  unfold kernelRun7_B.sl.r kernelRun7_B.sl.r_1 kernelRun7_B.sl.r_2
  simp only [View.readAt_eq_ld, h2.read_unread, h3.read_unread, h4.read_unread, h5.read_unread, h6.read_unread, h7.read_unread, h10.read_unread, View.ld_unit_zero (S := S256x4096) hz2, View.ld_unit_zero (S := S1x4096) hz2, View.ld_unit_zero (S := S10x4096) hz2, View.ld_unit_zero (S := S1x10) hz2]

/-- At the first row tile: the product block. -/
theorem out7_A_6_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : cond7_0 i) (x0 : Vec F S256x4096 .bf16) (x1 x2 x3 x4 : Vec F S1x4096 .f32) (x5 : Vec F S10x4096 .bf16) :
    out7_A_6 c i a2 h2 a3 h3 a4 h4 a5 h5 a6 h6 a7 h7 a8 h8 a9 h9 a10 h10 hc x0 x1 x2 x3 x4 x5 = k7_pay1 (k7_pay6 x1 x2 x0 x3 x4) (k7_pay7 x1 x2 x0 x3 x4) (k7_pay8 x1 x2 x0 x3 x4) k7_pay9 x5 := by
  unfold out7_A_6
  rw [View.read_writes_eq_canon _ _ _ (cover7_A_6 c i a2 h2 a3 h3 a4 h4 a5 h5 a6 h6 a7 h7 a8 h8 a9 h9 a10 h10 hc x0 x1 x2 x3 x4 x5)]
  unfold kernelRun7_A
  dsimp only
  rw [View.canon_unit_zero hz2]
  unfold kernelRun7_A.sl.r kernelRun7_A.sl.r_1 kernelRun7_A.sl.r_2
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S10x4096) hz2]

/-- At the first row tile: the zero block is stored, read back, and this tile's column sums added. -/
theorem out7_A_7_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : cond7_0 i) (x0 : Vec F S256x4096 .bf16) (x1 x2 x3 x4 : Vec F S1x4096 .f32) (x5 : Vec F S10x4096 .bf16) :
    out7_A_7 c i a2 h2 a3 h3 a4 h4 a5 h5 a6 h6 a7 h7 a8 h8 a9 h9 a10 h10 hc x0 x1 x2 x3 x4 x5 = k7_pay2 (k7_pay6 x1 x2 x0 x3 x4) (k7_pay7 x1 x2 x0 x3 x4) (k7_pay8 x1 x2 x0 x3 x4) k7_pay9 x5 k7_pay4 := by
  unfold out7_A_7
  rw [View.read_writes_eq_canon _ _ _ (cover7_A_7 c i a2 h2 a3 h3 a4 h4 a5 h5 a6 h6 a7 h7 a8 h8 a9 h9 a10 h10 hc x0 x1 x2 x3 x4 x5)]
  unfold kernelRun7_A
  dsimp only
  sl_unfold_words
  rw [View.canon_cons_unit_zero (S := S1x10) hz2, View.readCov_unit_zero (S := S1x10) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S10x4096) hz2, View.ld_unit_zero (S := S1x10) hz2]

/-- At the first row tile: the same for the sums of squares. -/
theorem out7_A_8_eq (c : Dev nD) (i : grid7.Coords) (a2 : Memref sig .tc .vmem S256x4096 .bf16) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (a7 : Memref sig .tc .vmem S10x4096 .bf16) (h7 : a7.IsWhole) (a8 : Memref sig .tc .vmem S256x10 .f32) (h8 : a8.IsWhole) (a9 : Memref sig .tc .vmem S1x10 .f32) (h9 : a9.IsWhole) (a10 : Memref sig .tc .vmem S1x10 .f32) (h10 : a10.IsWhole) (hc : cond7_0 i) (x0 : Vec F S256x4096 .bf16) (x1 x2 x3 x4 : Vec F S1x4096 .f32) (x5 : Vec F S10x4096 .bf16) :
    out7_A_8 c i a2 h2 a3 h3 a4 h4 a5 h5 a6 h6 a7 h7 a8 h8 a9 h9 a10 h10 hc x0 x1 x2 x3 x4 x5 = k7_pay3 (k7_pay6 x1 x2 x0 x3 x4) (k7_pay7 x1 x2 x0 x3 x4) (k7_pay8 x1 x2 x0 x3 x4) k7_pay9 x5 k7_pay5 := by
  unfold out7_A_8
  rw [View.read_writes_eq_canon _ _ _ (cover7_A_8 c i a2 h2 a3 h3 a4 h4 a5 h5 a6 h6 a7 h7 a8 h8 a9 h9 a10 h10 hc x0 x1 x2 x3 x4 x5)]
  unfold kernelRun7_A
  dsimp only
  sl_unfold_words
  rw [View.canon_cons_unit_zero (S := S1x10) hz2, View.readCov_unit_zero (S := S1x10) _ hz2]
  simp only [View.readAt_eq_ld, h2.read_unread, h3.read_unread, h4.read_unread, h5.read_unread, h6.read_unread, h7.read_unread, View.ld_unit_zero (S := S256x4096) hz2, View.ld_unit_zero (S := S1x4096) hz2, View.ld_unit_zero (S := S10x4096) hz2, View.ld_unit_zero (S := S1x10) hz2]

end Cert.KernelIdeal.KVal
end
-- ==== Proof.KL3b.lean ====
/-
  Layer 3's body at an entry, on the extended reals: the previous product block is normalised from its two running
  column sums, ((y − s·2⁻¹³) · rsqrt(max(q·2⁻¹³ − (s·2⁻¹³)², 0) + ε)) · g + b, and binarised by the order test; the
  product block is the plain sum over the contracted axis of those signs against the weight block; and the two
  running rows are the carried row plus the block's column sums (of the products, of their squares).
-/
import proofs.«144054_j58213986730442_2_alg».proof.Proof.Gen.KernelIdeal.Frame
import proofs.«144054_j58213986730442_2_alg».proof.Proof.Spec
import Idealize.ShloMosaic.Lib.Pipeline.Value
import Idealize.ShloMosaic.Lib.Tactic
import proofs.«144054_j58213986730442_2_alg».proof.Proof.LibDenseRows
import proofs.«144054_j58213986730442_2_alg».proof.Proof.LibColSums
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.KVal.R7

open Cert.KernelIdeal Cert.KernelIdeal.Gen

open Idealize.ShloMosaic.ValueIdx

/-- The normalisation of the previous product block from the two running sums and the scale and shift rows. -/
abbrev nrm (x0 : Vec Ideal S256x4096 .bf16) (x1 x2 x3 x4 : Vec Ideal S1x4096 .f32) : Fin 256 → Fin 4096 → EReal :=
  Cert.Bnn.bnK (fun p k => x0 (ix2 p k)) (fun k => x1 (ix2 0 k)) (fun k => x2 (ix2 0 k)) (fun k => x3 (ix2 0 k))
    (fun k => x4 (ix2 0 k))

/-- The reciprocal square root of a vector, entry by entry. -/
theorem rsqrt_at {s : Shape} {φ : FTy} (a : FVec Ideal s φ) (i : s.Idx) : rsqrt a i = Ideal.rsqrt (a i) := rfl

theorem dot_eq : dot_S256x4096_S10x4096_S256x10_1_1_0_0_n_n = DotDims.transposedRhs 256 4096 10 := rfl

/-- The normalised block at (p, k). -/
theorem pay6_apply (x0 : Vec Ideal S256x4096 .bf16) (x1 x2 x3 x4 : Vec Ideal S1x4096 .f32) (p : Fin 256) (k : Fin 4096) :
    k7_pay6 x1 x2 x0 x3 x4 (ix2 p k) = nrm x0 x1 x2 x3 x4 p k := by
  simp only [k7_pay6, addf_apply, mulf_apply, subf_apply, maximumf_apply, rsqrt_at, broadcast_apply, shapeCast_self, broadcastTo_1b_ab_apply, extf_apply]
  rfl

/-- The binarised block at (p, k): −1 or 1 by the order test where the absolute value exceeds zero, the entry itself
    elsewhere. -/
theorem act_apply (x0 : Vec Ideal S256x4096 .bf16) (x1 x2 x3 x4 : Vec Ideal S1x4096 .f32) (p : Fin 256) (k : Fin 4096) :
    select (cmpf .ogt (k7_pay8 x1 x2 x0 x3 x4) k7_pay9) (k7_pay7 x1 x2 x0 x3 x4) (k7_pay6 x1 x2 x0 x3 x4) (ix2 p k)
      = Cert.Bnn.sgnK (nrm x0 x1 x2 x3 x4 p k) := by
  rw [← pay6_apply]
  rfl

/-- The product block at (p, j): ∑ₖ sign(p,k) · w(j,k). -/
theorem prodL_apply (x0 : Vec Ideal S256x4096 .bf16) (x1 x2 x3 x4 : Vec Ideal S1x4096 .f32) (x5 : Vec Ideal S10x4096 .bf16) (p : Fin 256) (j : Fin 10) :
    k7_pay1 (k7_pay6 x1 x2 x0 x3 x4) (k7_pay7 x1 x2 x0 x3 x4) (k7_pay8 x1 x2 x0 x3 x4) k7_pay9 x5 (ix2 p j) = ∑ k : Fin 4096, Cert.Bnn.sgnK (nrm x0 x1 x2 x3 x4 p k) * x5 (ix2 j k) := by
  unfold k7_pay1
  rw [dot_eq, shapeCast_self]
  refine (Cert.DenseRows.matmulT_zero_apply (φ₁ := .bf16) (φ₂ := .bf16) none _ x5 p j).trans ?_
  refine Finset.sum_congr rfl fun k _ => ?_
  rw [truncf_apply, act_apply]

/-- The running row of column sums after the body, at column j: the carried entry plus ∑ₚ of the product block. -/
theorem pay2_apply (x0 : Vec Ideal S256x4096 .bf16) (x1 x2 x3 x4 : Vec Ideal S1x4096 .f32) (x5 : Vec Ideal S10x4096 .bf16) (xo : Vec Ideal S1x10 .f32) (j : Fin 10) :
    k7_pay2 (k7_pay6 x1 x2 x0 x3 x4) (k7_pay7 x1 x2 x0 x3 x4) (k7_pay8 x1 x2 x0 x3 x4) k7_pay9 x5 xo (ix2 0 j) = xo (ix2 0 j) + ∑ p : Fin 256, ∑ k : Fin 4096, Cert.Bnn.sgnK (nrm x0 x1 x2 x3 x4 p k) * x5 (ix2 j k) := by
  unfold k7_pay2
  rw [addf_apply, shapeCast_self]
  refine congrArg (xo (ix2 0 j) + ·) ?_
  refine (Cert.ColSums.keepdimsColSum_apply (k7_pay1 (k7_pay6 x1 x2 x0 x3 x4) (k7_pay7 x1 x2 x0 x3 x4) (k7_pay8 x1 x2 x0 x3 x4) k7_pay9 x5) _ _ _ _ _ 0 j).trans ?_
  exact Finset.sum_congr rfl fun p _ => prodL_apply x0 x1 x2 x3 x4 x5 p j

/-- The running row of column sums of squares after the body, at column j. -/
theorem pay3_apply (x0 : Vec Ideal S256x4096 .bf16) (x1 x2 x3 x4 : Vec Ideal S1x4096 .f32) (x5 : Vec Ideal S10x4096 .bf16) (xo : Vec Ideal S1x10 .f32) (j : Fin 10) :
    k7_pay3 (k7_pay6 x1 x2 x0 x3 x4) (k7_pay7 x1 x2 x0 x3 x4) (k7_pay8 x1 x2 x0 x3 x4) k7_pay9 x5 xo (ix2 0 j) = xo (ix2 0 j) + ∑ p : Fin 256, (∑ k : Fin 4096, Cert.Bnn.sgnK (nrm x0 x1 x2 x3 x4 p k) * x5 (ix2 j k)) * (∑ k : Fin 4096, Cert.Bnn.sgnK (nrm x0 x1 x2 x3 x4 p k) * x5 (ix2 j k)) := by
  unfold k7_pay3
  rw [addf_apply, shapeCast_self]
  refine congrArg (xo (ix2 0 j) + ·) ?_
  refine (Cert.ColSums.keepdimsColSum_apply (mulf (k7_pay1 (k7_pay6 x1 x2 x0 x3 x4) (k7_pay7 x1 x2 x0 x3 x4) (k7_pay8 x1 x2 x0 x3 x4) k7_pay9 x5) (k7_pay1 (k7_pay6 x1 x2 x0 x3 x4) (k7_pay7 x1 x2 x0 x3 x4) (k7_pay8 x1 x2 x0 x3 x4) k7_pay9 x5)) _ _ _ _ _ 0 j).trans ?_
  refine Finset.sum_congr rfl fun p _ => ?_
  rw [mulf_apply, prodL_apply]

/-- The zero block the first row tile stores is zero. -/
theorem pay4_apply (j : Fin 10) : (k7_pay4 (F := Ideal)) (ix2 0 j) = 0 := by
  unfold k7_pay4
  exact Ideal.ofBits_zero_f32
theorem pay5_apply (j : Fin 10) : (k7_pay5 (F := Ideal)) (ix2 0 j) = 0 := by
  unfold k7_pay5
  exact Ideal.ofBits_zero_f32

end Cert.KernelIdeal.KVal.R7
end
-- ==== Proof.KL3c.lean ====
/-
  Layer 3's region, read as values at the contents V it is entered with: a window's block at grid point t (row tile
  t % 32 of the one column tile) is the array at the block's rows and columns; after the body at t the product staging
  buffer holds the products of that row tile's normalised, binarised activations by the weight block.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL3a
import proofs.«144054_j58213986730442_2_alg».proof.Proof.KL3b
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

theorem N7 : cfg7.N = 32 := N_7
theorem lt7 (t : Fin cfg7.N) : t.val < 32 := Nat.lt_of_lt_of_eq t.isLt N7

/-- The printed index maps over the grid: point t is row tile t % 32 of column tile t / 32. -/
theorem idx7_0 : ∀ t : Fin cfg7.N, win7_0.index t (0 : Fin 2) = t.val % 32 ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = t.val / 32 ∧ win7_5.index t (1 : Fin 2) = 0 :=
  (by decide +kernel : ∀ t : Fin grid7.N, _)
theorem idx7_6 : ∀ t : Fin cfg7.N, win7_6.index t (0 : Fin 2) = t.val % 32 ∧ win7_6.index t (1 : Fin 2) = t.val / 32 :=
  (by decide +kernel : ∀ t : Fin grid7.N, _)
theorem idx7_7 : ∀ t : Fin cfg7.N, win7_7.index t (0 : Fin 2) = 0 ∧ win7_7.index t (1 : Fin 2) = t.val / 32 :=
  (by decide +kernel : ∀ t : Fin grid7.N, _)
theorem idx7_8 : ∀ t : Fin cfg7.N, win7_8.index t (0 : Fin 2) = 0 ∧ win7_8.index t (1 : Fin 2) = t.val / 32 :=
  (by decide +kernel : ∀ t : Fin grid7.N, _)

/-- The six input blocks at point t, as arrays of the block's literal shape: the previous product block, the rows
    of its column sums, of its column sums of squares, of the scale and of the shift, and the weight block. -/
abbrev blk7y (c : Dev nD) (t : Fin cfg7.N) : Vec Ideal S256x4096 .bf16 := iblk7 V c 0 t
abbrev blk7s (c : Dev nD) (t : Fin cfg7.N) : Vec Ideal S1x4096 .f32 := iblk7 V c 1 t
abbrev blk7q (c : Dev nD) (t : Fin cfg7.N) : Vec Ideal S1x4096 .f32 := iblk7 V c 2 t
abbrev blk7g (c : Dev nD) (t : Fin cfg7.N) : Vec Ideal S1x4096 .f32 := iblk7 V c 3 t
abbrev blk7b (c : Dev nD) (t : Fin cfg7.N) : Vec Ideal S1x4096 .f32 := iblk7 V c 4 t
abbrev blk7w (c : Dev nD) (t : Fin cfg7.N) : Vec Ideal S10x4096 .bf16 := iblk7 V c 5 t

/-- The previous product block at point t reads rows 256·(t % 32) + p of the previous products. -/
theorem iblk7_0_apply (c : Dev nD) (t : Fin cfg7.N) (p : Fin 256) (k : Fin 4096) (P : Fin 8192)
    (hP : P.val = 256 * (t.val % 32) + p.val) :
    blk7y V c t (ix2 p k) = V c (Pipeline.arrRef spec7 0) (ix2 P k) := by
  unfold blk7y iblk7
  rw [View.read_apply]
  refine congrArg (V c (Pipeline.arrRef spec7 0)) (funext fun a => Fin.ext ?_)
  match a with
  | ⟨0, _⟩ => show win7_0.index t (0 : Fin 2) * 256 + 1 * p.val = P.val; rw [(idx7_0 t).1, hP]; omega
  | ⟨1, _⟩ => show win7_0.index t (1 : Fin 2) * 4096 + 1 * k.val = k.val; rw [(idx7_0 t).2]; omega

/-- The column sums row's block at point t is the whole row. -/
theorem iblk7_1_apply (c : Dev nD) (t : Fin cfg7.N) (k : Fin 4096) :
    blk7s V c t (ix2 0 k) = V c (Pipeline.arrRef spec7 1) (ix2 0 k) := by
  unfold blk7s iblk7
  rw [View.read_apply]
  refine congrArg (V c (Pipeline.arrRef spec7 1)) (funext fun a => Fin.ext ?_)
  match a with
  | ⟨0, _⟩ => show win7_1.index t (0 : Fin 2) * 1 + 1 * 0 = 0; rw [(idx7_1 t).1]
  | ⟨1, _⟩ => show win7_1.index t (1 : Fin 2) * 4096 + 1 * k.val = k.val; rw [(idx7_1 t).2]; omega

/-- The column sums of squares row's block at point t is the whole row. -/
theorem iblk7_2_apply (c : Dev nD) (t : Fin cfg7.N) (k : Fin 4096) :
    blk7q V c t (ix2 0 k) = V c (Pipeline.arrRef spec7 2) (ix2 0 k) := by
  unfold blk7q iblk7
  rw [View.read_apply]
  refine congrArg (V c (Pipeline.arrRef spec7 2)) (funext fun a => Fin.ext ?_)
  match a with
  | ⟨0, _⟩ => show win7_2.index t (0 : Fin 2) * 1 + 1 * 0 = 0; rw [(idx7_2 t).1]
  | ⟨1, _⟩ => show win7_2.index t (1 : Fin 2) * 4096 + 1 * k.val = k.val; rw [(idx7_2 t).2]; omega

/-- The scale row's block at point t is the whole row. -/
theorem iblk7_3_apply (c : Dev nD) (t : Fin cfg7.N) (k : Fin 4096) :
    blk7g V c t (ix2 0 k) = V c (Pipeline.arrRef spec7 3) (ix2 0 k) := by
  unfold blk7g iblk7
  rw [View.read_apply]
  refine congrArg (V c (Pipeline.arrRef spec7 3)) (funext fun a => Fin.ext ?_)
  match a with
  | ⟨0, _⟩ => show win7_3.index t (0 : Fin 2) * 1 + 1 * 0 = 0; rw [(idx7_3 t).1]
  | ⟨1, _⟩ => show win7_3.index t (1 : Fin 2) * 4096 + 1 * k.val = k.val; rw [(idx7_3 t).2]; omega

/-- The shift row's block at point t is the whole row. -/
theorem iblk7_4_apply (c : Dev nD) (t : Fin cfg7.N) (k : Fin 4096) :
    blk7b V c t (ix2 0 k) = V c (Pipeline.arrRef spec7 4) (ix2 0 k) := by
  unfold blk7b iblk7
  rw [View.read_apply]
  refine congrArg (V c (Pipeline.arrRef spec7 4)) (funext fun a => Fin.ext ?_)
  match a with
  | ⟨0, _⟩ => show win7_4.index t (0 : Fin 2) * 1 + 1 * 0 = 0; rw [(idx7_4 t).1]
  | ⟨1, _⟩ => show win7_4.index t (1 : Fin 2) * 4096 + 1 * k.val = k.val; rw [(idx7_4 t).2]; omega

/-- The weight block at point t is the whole binarised weight array (one column tile). -/
theorem iblk7_5_apply (c : Dev nD) (t : Fin cfg7.N) (j : Fin 10) (k : Fin 4096) :
    blk7w V c t (ix2 j k) = V c (Pipeline.arrRef spec7 5) (ix2 j k) := by
  have ht := lt7 t
  unfold blk7w iblk7
  rw [View.read_apply]
  refine congrArg (V c (Pipeline.arrRef spec7 5)) (funext fun a => Fin.ext ?_)
  match a with
  | ⟨0, _⟩ => show win7_5.index t (0 : Fin 2) * 10 + 1 * j.val = j.val; rw [(idx7_5 t).1]; omega
  | ⟨1, _⟩ => show win7_5.index t (1 : Fin 2) * 4096 + 1 * k.val = k.val; rw [(idx7_5 t).2]; omega

/-- After the body at point t the product buffer holds, at (p, j), the product of the binarised normalised row p of
    the point's block with weight row j. -/
theorem outs7_prod (c : Dev nD) (t : Fin cfg7.N) (p : Fin 256) (j : Fin 10) :
    (outsAt7 V c t.val t.isLt).1 (ix2 p j)
      = ∑ k : Fin 4096, Cert.Bnn.sgnK (R7.nrm (blk7y V c t) (blk7s V c t) (blk7q V c t) (blk7g V c t) (blk7b V c t) p k) * blk7w V c t (ix2 j k) := by
  by_cases h0 : t.val % 32 = 0
  · rw [outsAt7_A V c t h0]
    dsimp only
    refine (congrFun (out7_A_6_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) ((hcond7_0 t).mpr h0) (iblk7 V c 0 t) (iblk7 V c 1 t) (iblk7 V c 2 t) (iblk7 V c 3 t) (iblk7 V c 4 t) (iblk7 V c 5 t)) (ix2 p j)).trans ?_
    exact R7.prodL_apply (iblk7 V c 0 t) (iblk7 V c 1 t) (iblk7 V c 2 t) (iblk7 V c 3 t) (iblk7 V c 4 t) (iblk7 V c 5 t) p j
  · rw [outsAt7_B V c t h0]
    dsimp only
    refine (congrFun (out7_B_6_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (fun h => h0 ((hcond7_0 t).mp h)) (iblk7 V c 0 t) (iblk7 V c 1 t) (iblk7 V c 2 t) (iblk7 V c 3 t) (iblk7 V c 4 t) (iblk7 V c 5 t) _ _) (ix2 p j)).trans ?_
    exact R7.prodL_apply (iblk7 V c 0 t) (iblk7 V c 1 t) (iblk7 V c 2 t) (iblk7 V c 3 t) (iblk7 V c 4 t) (iblk7 V c 5 t) p j

end Cert.KernelIdeal.KVal
end
-- ==== Proof.KL3d.lean ====
/-
  Layer 3's two running rows: at column j, after the body at point n the sum row holds the sum, over the row tiles
  met since the column tile began, of each tile's column sum; at the last row tile that is the whole column's sum
  over the batch. The same for the squares.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL3c
import proofs.«144054_j58213986730442_2_alg».proof.Proof.LibRegroup
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- One row tile's column sum of products (of squared products), at column j of point n. -/
def tile7 (c : Dev nD) (j : Fin 10) (n : ℕ) : EReal :=
  if h : n < cfg7.N then ∑ p : Fin 256, ∑ k : Fin 4096, Cert.Bnn.sgnK (R7.nrm (blk7y V c ⟨n, h⟩) (blk7s V c ⟨n, h⟩) (blk7q V c ⟨n, h⟩) (blk7g V c ⟨n, h⟩) (blk7b V c ⟨n, h⟩) p k) * blk7w V c ⟨n, h⟩ (ix2 j k) else 0
def tileSq7 (c : Dev nD) (j : Fin 10) (n : ℕ) : EReal :=
  if h : n < cfg7.N then ∑ p : Fin 256, (∑ k : Fin 4096, Cert.Bnn.sgnK (R7.nrm (blk7y V c ⟨n, h⟩) (blk7s V c ⟨n, h⟩) (blk7q V c ⟨n, h⟩) (blk7g V c ⟨n, h⟩) (blk7b V c ⟨n, h⟩) p k) * blk7w V c ⟨n, h⟩ (ix2 j k)) * (∑ k : Fin 4096, Cert.Bnn.sgnK (R7.nrm (blk7y V c ⟨n, h⟩) (blk7s V c ⟨n, h⟩) (blk7q V c ⟨n, h⟩) (blk7g V c ⟨n, h⟩) (blk7b V c ⟨n, h⟩) p k) * blk7w V c ⟨n, h⟩ (ix2 j k)) else 0

/-- The two running rows after the body at point n, at column j. -/
def acc7s (c : Dev nD) (j : Fin 10) (n : ℕ) : EReal :=
  if h : n < cfg7.N then ((outsAt7 V c n h).2.1 : Vec Ideal S1x10 .f32) (ix2 0 j) else 0
def acc7q (c : Dev nD) (j : Fin 10) (n : ℕ) : EReal :=
  if h : n < cfg7.N then ((outsAt7 V c n h).2.2 : Vec Ideal S1x10 .f32) (ix2 0 j) else 0

theorem acc7s_zero (c : Dev nD) (j : Fin 10) (n : ℕ) (hn : n < 32) (h0 : n % 32 = 0) :
    acc7s V c j n = 0 + tile7 V c j n := by
  have hn' : n < cfg7.N := by rw [N7]; exact hn
  unfold acc7s tile7
  rw [dif_pos hn', dif_pos hn', outsAt7_A V c ⟨n, hn'⟩ h0]
  dsimp only
  refine (congrFun (out7_A_7_eq c (grid7.coords ⟨n, hn'⟩) (ms7_0 ⟨n, hn'⟩) (hs7_0 ⟨n, hn'⟩) (ms7_1 ⟨n, hn'⟩) (hs7_1 ⟨n, hn'⟩) (ms7_2 ⟨n, hn'⟩) (hs7_2 ⟨n, hn'⟩) (ms7_3 ⟨n, hn'⟩) (hs7_3 ⟨n, hn'⟩) (ms7_4 ⟨n, hn'⟩) (hs7_4 ⟨n, hn'⟩) (ms7_5 ⟨n, hn'⟩) (hs7_5 ⟨n, hn'⟩) (ms7_6 ⟨n, hn'⟩) (hs7_6 ⟨n, hn'⟩) (ms7_7 ⟨n, hn'⟩) (hs7_7 ⟨n, hn'⟩) (ms7_8 ⟨n, hn'⟩) (hs7_8 ⟨n, hn'⟩) ((hcond7_0 ⟨n, hn'⟩).mpr h0) (iblk7 V c 0 ⟨n, hn'⟩) (iblk7 V c 1 ⟨n, hn'⟩) (iblk7 V c 2 ⟨n, hn'⟩) (iblk7 V c 3 ⟨n, hn'⟩) (iblk7 V c 4 ⟨n, hn'⟩) (iblk7 V c 5 ⟨n, hn'⟩)) (ix2 0 j)).trans ?_
  refine (R7.pay2_apply (iblk7 V c 0 ⟨n, hn'⟩) (iblk7 V c 1 ⟨n, hn'⟩) (iblk7 V c 2 ⟨n, hn'⟩) (iblk7 V c 3 ⟨n, hn'⟩) (iblk7 V c 4 ⟨n, hn'⟩) (iblk7 V c 5 ⟨n, hn'⟩) (k7_pay4 (F := Ideal)) j).trans ?_
  rw [R7.pay4_apply]

theorem acc7s_succ (c : Dev nD) (j : Fin 10) (n : ℕ) (hn : n + 1 < 32) (hne : (n + 1) % 32 ≠ 0) :
    acc7s V c j (n + 1) = acc7s V c j n + tile7 V c j (n + 1) := by
  have hn' : n + 1 < cfg7.N := by rw [N7]; exact hn
  have hn0 : n < cfg7.N := Nat.lt_of_succ_lt hn'
  unfold acc7s tile7
  rw [dif_pos hn', dif_pos hn0, dif_pos hn', outsAt7_B V c ⟨n + 1, hn'⟩ hne]
  dsimp only
  refine (congrFun (out7_B_7_eq c (grid7.coords ⟨n + 1, hn'⟩) (ms7_0 ⟨n + 1, hn'⟩) (hs7_0 ⟨n + 1, hn'⟩) (ms7_1 ⟨n + 1, hn'⟩) (hs7_1 ⟨n + 1, hn'⟩) (ms7_2 ⟨n + 1, hn'⟩) (hs7_2 ⟨n + 1, hn'⟩) (ms7_3 ⟨n + 1, hn'⟩) (hs7_3 ⟨n + 1, hn'⟩) (ms7_4 ⟨n + 1, hn'⟩) (hs7_4 ⟨n + 1, hn'⟩) (ms7_5 ⟨n + 1, hn'⟩) (hs7_5 ⟨n + 1, hn'⟩) (ms7_6 ⟨n + 1, hn'⟩) (hs7_6 ⟨n + 1, hn'⟩) (ms7_7 ⟨n + 1, hn'⟩) (hs7_7 ⟨n + 1, hn'⟩) (ms7_8 ⟨n + 1, hn'⟩) (hs7_8 ⟨n + 1, hn'⟩) (fun h => hne ((hcond7_0 ⟨n + 1, hn'⟩).mp h)) (iblk7 V c 0 ⟨n + 1, hn'⟩) (iblk7 V c 1 ⟨n + 1, hn'⟩) (iblk7 V c 2 ⟨n + 1, hn'⟩) (iblk7 V c 3 ⟨n + 1, hn'⟩) (iblk7 V c 4 ⟨n + 1, hn'⟩) (iblk7 V c 5 ⟨n + 1, hn'⟩) _ _) (ix2 0 j)).trans ?_
  exact R7.pay2_apply (iblk7 V c 0 ⟨n + 1, hn'⟩) (iblk7 V c 1 ⟨n + 1, hn'⟩) (iblk7 V c 2 ⟨n + 1, hn'⟩) (iblk7 V c 3 ⟨n + 1, hn'⟩) (iblk7 V c 4 ⟨n + 1, hn'⟩) (iblk7 V c 5 ⟨n + 1, hn'⟩) _ j

theorem acc7q_zero (c : Dev nD) (j : Fin 10) (n : ℕ) (hn : n < 32) (h0 : n % 32 = 0) :
    acc7q V c j n = 0 + tileSq7 V c j n := by
  have hn' : n < cfg7.N := by rw [N7]; exact hn
  unfold acc7q tileSq7
  rw [dif_pos hn', dif_pos hn', outsAt7_A V c ⟨n, hn'⟩ h0]
  dsimp only
  refine (congrFun (out7_A_8_eq c (grid7.coords ⟨n, hn'⟩) (ms7_0 ⟨n, hn'⟩) (hs7_0 ⟨n, hn'⟩) (ms7_1 ⟨n, hn'⟩) (hs7_1 ⟨n, hn'⟩) (ms7_2 ⟨n, hn'⟩) (hs7_2 ⟨n, hn'⟩) (ms7_3 ⟨n, hn'⟩) (hs7_3 ⟨n, hn'⟩) (ms7_4 ⟨n, hn'⟩) (hs7_4 ⟨n, hn'⟩) (ms7_5 ⟨n, hn'⟩) (hs7_5 ⟨n, hn'⟩) (ms7_6 ⟨n, hn'⟩) (hs7_6 ⟨n, hn'⟩) (ms7_7 ⟨n, hn'⟩) (hs7_7 ⟨n, hn'⟩) (ms7_8 ⟨n, hn'⟩) (hs7_8 ⟨n, hn'⟩) ((hcond7_0 ⟨n, hn'⟩).mpr h0) (iblk7 V c 0 ⟨n, hn'⟩) (iblk7 V c 1 ⟨n, hn'⟩) (iblk7 V c 2 ⟨n, hn'⟩) (iblk7 V c 3 ⟨n, hn'⟩) (iblk7 V c 4 ⟨n, hn'⟩) (iblk7 V c 5 ⟨n, hn'⟩)) (ix2 0 j)).trans ?_
  refine (R7.pay3_apply (iblk7 V c 0 ⟨n, hn'⟩) (iblk7 V c 1 ⟨n, hn'⟩) (iblk7 V c 2 ⟨n, hn'⟩) (iblk7 V c 3 ⟨n, hn'⟩) (iblk7 V c 4 ⟨n, hn'⟩) (iblk7 V c 5 ⟨n, hn'⟩) (k7_pay5 (F := Ideal)) j).trans ?_
  rw [R7.pay5_apply]

theorem acc7q_succ (c : Dev nD) (j : Fin 10) (n : ℕ) (hn : n + 1 < 32) (hne : (n + 1) % 32 ≠ 0) :
    acc7q V c j (n + 1) = acc7q V c j n + tileSq7 V c j (n + 1) := by
  have hn' : n + 1 < cfg7.N := by rw [N7]; exact hn
  have hn0 : n < cfg7.N := Nat.lt_of_succ_lt hn'
  unfold acc7q tileSq7
  rw [dif_pos hn', dif_pos hn0, dif_pos hn', outsAt7_B V c ⟨n + 1, hn'⟩ hne]
  dsimp only
  refine (congrFun (out7_B_8_eq c (grid7.coords ⟨n + 1, hn'⟩) (ms7_0 ⟨n + 1, hn'⟩) (hs7_0 ⟨n + 1, hn'⟩) (ms7_1 ⟨n + 1, hn'⟩) (hs7_1 ⟨n + 1, hn'⟩) (ms7_2 ⟨n + 1, hn'⟩) (hs7_2 ⟨n + 1, hn'⟩) (ms7_3 ⟨n + 1, hn'⟩) (hs7_3 ⟨n + 1, hn'⟩) (ms7_4 ⟨n + 1, hn'⟩) (hs7_4 ⟨n + 1, hn'⟩) (ms7_5 ⟨n + 1, hn'⟩) (hs7_5 ⟨n + 1, hn'⟩) (ms7_6 ⟨n + 1, hn'⟩) (hs7_6 ⟨n + 1, hn'⟩) (ms7_7 ⟨n + 1, hn'⟩) (hs7_7 ⟨n + 1, hn'⟩) (ms7_8 ⟨n + 1, hn'⟩) (hs7_8 ⟨n + 1, hn'⟩) (fun h => hne ((hcond7_0 ⟨n + 1, hn'⟩).mp h)) (iblk7 V c 0 ⟨n + 1, hn'⟩) (iblk7 V c 1 ⟨n + 1, hn'⟩) (iblk7 V c 2 ⟨n + 1, hn'⟩) (iblk7 V c 3 ⟨n + 1, hn'⟩) (iblk7 V c 4 ⟨n + 1, hn'⟩) (iblk7 V c 5 ⟨n + 1, hn'⟩) _ _) (ix2 0 j)).trans ?_
  exact R7.pay3_apply (iblk7 V c 0 ⟨n + 1, hn'⟩) (iblk7 V c 1 ⟨n + 1, hn'⟩) (iblk7 V c 2 ⟨n + 1, hn'⟩) (iblk7 V c 3 ⟨n + 1, hn'⟩) (iblk7 V c 4 ⟨n + 1, hn'⟩) (iblk7 V c 5 ⟨n + 1, hn'⟩) _ j

/-- At the last row tile of column tile a the rows hold the sums over all thirty-two row tiles. -/
theorem acc7s_last (c : Dev nD) (j : Fin 10) (a : ℕ) (ha : a < 1) :
    acc7s V c j (32 * a + 31) = ∑ b : Fin 32, tile7 V c j (32 * a + b.val) :=
  Cert.Regroup.acc_last 32 32 (by decide) (tile7 V c j) (acc7s V c j) (acc7s_zero V c j) (acc7s_succ V c j) a (by omega)
theorem acc7q_last (c : Dev nD) (j : Fin 10) (a : ℕ) (ha : a < 1) :
    acc7q V c j (32 * a + 31) = ∑ b : Fin 32, tileSq7 V c j (32 * a + b.val) :=
  Cert.Regroup.acc_last 32 32 (by decide) (tileSq7 V c j) (acc7q V c j) (acc7q_zero V c j) (acc7q_succ V c j) a (by omega)

end Cert.KernelIdeal.KVal
end
-- ==== Proof.KL3e.lean ====
/-
  Layer 3's region as whole arrays: the product array is the binarised, normalised previous products times the
  binarised weights (rows against rows) — each output block is written back by exactly the points the schedule says,
  and those blocks tile the array.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL3d
import proofs.«144054_j58213986730442_2_alg».proof.Proof.Spec
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The arrays the region finds, by coordinates: the previous products, the rows of their column sums, of their
    column sums of squares, of the scale and of the shift, and the binarised weights. -/
def P7 (c : Dev nD) : Fin 8192 → Fin 4096 → EReal := fun p k => V c (Pipeline.arrRef spec7 0) (ix2 p k)
def S7 (c : Dev nD) : Fin 4096 → EReal := fun k => V c (Pipeline.arrRef spec7 1) (ix2 0 k)
def Q7 (c : Dev nD) : Fin 4096 → EReal := fun k => V c (Pipeline.arrRef spec7 2) (ix2 0 k)
def Ga7 (c : Dev nD) : Fin 4096 → EReal := fun k => V c (Pipeline.arrRef spec7 3) (ix2 0 k)
def Be7 (c : Dev nD) : Fin 4096 → EReal := fun k => V c (Pipeline.arrRef spec7 4) (ix2 0 k)
def B7 (c : Dev nD) : Fin 10 → Fin 4096 → EReal := fun j k => V c (Pipeline.arrRef spec7 5) (ix2 j k)

/-- The binarised normalised activations, and their product with the weights. -/
def A7 (c : Dev nD) : Fin 8192 → Fin 4096 → EReal := fun p k =>
  Cert.Bnn.sgnK (Cert.Bnn.bnK (P7 V c) (S7 V c) (Q7 V c) (Ga7 V c) (Be7 V c) p k)
def Y7 (c : Dev nD) : Fin 8192 → Fin 10 → EReal := Cert.Bnn.mm (A7 V c) (B7 V c)

/-- The three arrays the region leaves. -/
def G7y (c : Dev nD) : Buf (Elt Ideal) ((c : Thread nD τ).loc main_v13_0) := fun i => Y7 V c (i 0) (i 1)
def G7s (c : Dev nD) : Buf (Elt Ideal) ((c : Thread nD τ).loc main_v13_1) := fun i => Cert.Bnn.colSum (Y7 V c) (i 1)
def G7q (c : Dev nD) : Buf (Elt Ideal) ((c : Thread nD τ).loc main_v13_2) := fun i => Cert.Bnn.colSumSq (Y7 V c) (i 1)

/-- The normalised entry at local (p, k) of point t is the whole arrays' normalisation at row 256·(t % 32) + p: the
    normalisation reads the products only at that entry and the four rows only at column k. -/
theorem nrm7_global (c : Dev nD) (t : Fin cfg7.N) (p : Fin 256) (k : Fin 4096) (P : Fin 8192)
    (hP : P.val = 256 * (t.val % 32) + p.val) :
    R7.nrm (blk7y V c t) (blk7s V c t) (blk7q V c t) (blk7g V c t) (blk7b V c t) p k = Cert.Bnn.bnK (P7 V c) (S7 V c) (Q7 V c) (Ga7 V c) (Be7 V c) P k := by
  unfold R7.nrm Cert.Bnn.bnK P7 S7 Q7 Ga7 Be7
  dsimp only
  rw [iblk7_0_apply V c t p k P hP, iblk7_1_apply V c t k, iblk7_2_apply V c t k, iblk7_3_apply V c t k, iblk7_4_apply V c t k]

/-- The products of row tile t % 32, in the arrays' own coordinates. -/
theorem prod7_global (c : Dev nD) (t : Fin cfg7.N) (p : Fin 256) (j : Fin 10) (P : Fin 8192)
    (hP : P.val = 256 * (t.val % 32) + p.val) :
    (∑ k : Fin 4096, Cert.Bnn.sgnK (R7.nrm (blk7y V c t) (blk7s V c t) (blk7q V c t) (blk7g V c t) (blk7b V c t) p k) * blk7w V c t (ix2 j k)) = Y7 V c P j := by
  unfold Y7 Cert.Bnn.mm A7 B7
  exact Finset.sum_congr rfl fun k _ => by rw [nrm7_global V c t p k P hP, iblk7_5_apply V c t j k]

/-- What point t writes back of the product array is the product array read through the point's block. -/
theorem flushed7_6_eq (c : Dev nD) (t : Fin cfg7.N) :
    (dat7 V c).flushed 6 t = ((cfg7.win 6).blk t).view.read (Elt Ideal) (G7y V c) := by
  show (cfg7.win 6).cut (grid7.coords t) ((dat7 V c).after 6 t) = _
  rw [after7_6]
  funext y
  obtain ⟨p, j, rfl⟩ : ∃ (p : Fin 256) (j : Fin 10), y = ix2 p j := ⟨y 0, y 1, eq_ix2 y⟩
  have ht := lt7 t
  have hp := p.isLt
  have hj := j.isLt
  show ((outsAt7 V c t.val t.isLt).1 : Vec Ideal S256x10 .f32) (ix2 p j) = G7y V c (((cfg7.win 6).blk t).view.emb (ix2 p j))
  rw [outs7_prod V c t p j]
  refine (prod7_global V c t p j ⟨256 * (t.val % 32) + p.val, by omega⟩ rfl).trans ?_
  unfold G7y
  congr 1 <;> apply Fin.ext
  · show 256 * (t.val % 32) + p.val = win7_6.index t (0 : Fin 2) * 256 + 1 * p.val
    rw [(idx7_6 t).1]; omega
  · show j.val = win7_6.index t (1 : Fin 2) * 10 + 1 * j.val
    rw [(idx7_6 t).2]; omega

/-- An index of the product array is in point t's block iff each coordinate is in the block's range. -/
theorem mem_blk7_6 (t : Fin cfg7.N) (i : S8192x10.Idx) :
    i ∈ ((cfg7.win 6).blk t).view.set ↔ ∀ a : Fin 2, win7_6.index t a * S256x10.size a ≤ (i a).val ∧ (i a).val < win7_6.index t a * S256x10.size a + S256x10.size a := by
  show i ∈ ((View.whole main_v13_0).slice (win7_6.rect t)).set ↔ _
  rw [View.set_slice_whole, Rect.mem_set_unit]
  exact Iff.rfl

/-- The product array after the region. -/
theorem final7_y (c : Dev nD) : (dat7 V c).arrAt 6 cfg7.N = G7y V c :=
  (dat7 V c).arrAt_eq_of_cover 6 (G7y V c) (fun t _ => flushed7_6_eq V c t) fun i => by
    have h0 : (i 0).val < 8192 := (i 0).isLt
    have h1 : (i 1).val < 10 := (i 1).isLt
    refine ⟨⟨(i 0).val / 256, by rw [N7]; omega⟩, flush7_6 _, ?_⟩
    rw [mem_blk7_6]
    intro a
    match a with
    | ⟨0, _⟩ =>
      show win7_6.index _ (0 : Fin 2) * 256 ≤ (i 0).val ∧ (i 0).val < win7_6.index _ (0 : Fin 2) * 256 + 256
      rw [(idx7_6 _).1]; dsimp only; omega
    | ⟨1, _⟩ =>
      show win7_6.index _ (1 : Fin 2) * 10 ≤ (i 1).val ∧ (i 1).val < win7_6.index _ (1 : Fin 2) * 10 + 10
      rw [(idx7_6 _).2]; dsimp only; omega

end Cert.KernelIdeal.KVal
end
-- ==== Proof.KL3f.lean ====
/-
  Layer 3's two statistics rows as whole arrays: the row the last row tile writes back is the column sums (of
  products, of their squares) over the whole batch, the thirty-two row tiles' sums regrouped into one sum over the
  8192 rows.
-/
import proofs.«144054_j58213986730442_2_alg».proof.Proof.Gen.KernelIdeal.Frame
import Idealize.ShloMosaic.Lib.Pipeline.Value
import Idealize.ShloMosaic.Lib.Tactic
import proofs.«144054_j58213986730442_2_alg».proof.Proof.KL3e
import proofs.«144054_j58213986730442_2_alg».proof.Proof.LibChunkSum
set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- One row tile's column sums in the product array's own coordinates. -/
theorem tile7_global (c : Dev nD) (j : Fin 10) (a b : ℕ) (ha : a < 1) (hb : b < 32) (J : Fin 10)
    (hJ : J.val = 10 * a + j.val) :
    tile7 V c j (32 * a + b) = ∑ p : Fin 256, Y7 V c ⟨256 * b + p.val, by have := p.isLt; omega⟩ J := by
  have hn : 32 * a + b < cfg7.N := by rw [N7]; omega
  obtain rfl : J = j := Fin.ext (by omega)
  unfold tile7
  rw [dif_pos hn]
  refine Finset.sum_congr rfl fun p _ => ?_
  exact prod7_global V c ⟨32 * a + b, hn⟩ p J _ (by show 256 * b + p.val = 256 * ((32 * a + b) % 32) + p.val; omega)
theorem tileSq7_global (c : Dev nD) (j : Fin 10) (a b : ℕ) (ha : a < 1) (hb : b < 32) (J : Fin 10)
    (hJ : J.val = 10 * a + j.val) :
    tileSq7 V c j (32 * a + b) = ∑ p : Fin 256, Y7 V c ⟨256 * b + p.val, by have := p.isLt; omega⟩ J * Y7 V c ⟨256 * b + p.val, by have := p.isLt; omega⟩ J := by
  have hn : 32 * a + b < cfg7.N := by rw [N7]; omega
  obtain rfl : J = j := Fin.ext (by omega)
  unfold tileSq7
  rw [dif_pos hn]
  refine Finset.sum_congr rfl fun p _ => ?_
  rw [prod7_global V c ⟨32 * a + b, hn⟩ p J ⟨256 * b + p.val, by have := p.isLt; omega⟩ (by show 256 * b + p.val = 256 * ((32 * a + b) % 32) + p.val; omega)]

/-- The thirty-two row tiles of a column make up the whole column. -/
theorem tile7_col (c : Dev nD) (j : Fin 10) (a : ℕ) (ha : a < 1) (J : Fin 10) (hJ : J.val = 10 * a + j.val) :
    ∑ b : Fin 32, tile7 V c j (32 * a + b.val) = Cert.Bnn.colSum (Y7 V c) J := by
  unfold Cert.Bnn.colSum
  show _ = ∑ P : Fin (32 * 256), Y7 V c P J
  rw [Cert.LibChunkSum.sum_chunks 32 256 (fun P : Fin (32 * 256) => Y7 V c P J)
    (fun cc jj => ⟨256 * cc.val + jj.val, by have := cc.isLt; have := jj.isLt; omega⟩) (fun _ _ => rfl)]
  exact Finset.sum_congr rfl fun b _ => tile7_global V c j a b.val ha b.isLt J hJ
theorem tileSq7_col (c : Dev nD) (j : Fin 10) (a : ℕ) (ha : a < 1) (J : Fin 10) (hJ : J.val = 10 * a + j.val) :
    ∑ b : Fin 32, tileSq7 V c j (32 * a + b.val) = Cert.Bnn.colSumSq (Y7 V c) J := by
  unfold Cert.Bnn.colSumSq
  show _ = ∑ P : Fin (32 * 256), Y7 V c P J * Y7 V c P J
  rw [Cert.LibChunkSum.sum_chunks 32 256 (fun P : Fin (32 * 256) => Y7 V c P J * Y7 V c P J)
    (fun cc jj => ⟨256 * cc.val + jj.val, by have := cc.isLt; have := jj.isLt; omega⟩) (fun _ _ => rfl)]
  exact Finset.sum_congr rfl fun b _ => tileSq7_global V c j a b.val ha b.isLt J hJ

/-- What the last row tile writes back of the sums row is that row read through the point's block. -/
theorem flushed7_7_eq (c : Dev nD) (t : Fin cfg7.N) (hf : (cfg7.win 7).flush t = true) :
    (dat7 V c).flushed 7 t = ((cfg7.win 7).blk t).view.read (Elt Ideal) (G7s V c) := by
  have h31 : t.val % 32 = 31 := (flush7_7 t).mp hf
  have ht := lt7 t
  show (cfg7.win 7).cut (grid7.coords t) ((dat7 V c).after 7 t) = _
  rw [after7_7]
  funext y
  obtain ⟨u, j, rfl⟩ : ∃ (u : Fin 1) (j : Fin 10), y = ix2 u j := ⟨y 0, y 1, eq_ix2 y⟩
  obtain rfl : u = 0 := Subsingleton.elim _ _
  have hj := j.isLt
  show ((outsAt7 V c t.val t.isLt).2.1 : Vec Ideal S1x10 .f32) (ix2 0 j) = G7s V c (((cfg7.win 7).blk t).view.emb (ix2 0 j))
  have e : ((outsAt7 V c t.val t.isLt).2.1 : Vec Ideal S1x10 .f32) (ix2 0 j) = acc7s V c j t.val := by
    unfold acc7s; rw [dif_pos t.isLt]
  have hacc := acc7s_last V c j (t.val / 32) (by omega)
  rw [show 32 * (t.val / 32) + 31 = t.val from by omega] at hacc
  rw [e, hacc]
  unfold G7s
  refine tile7_col V c j (t.val / 32) (by omega) _ ?_
  show win7_7.index t (1 : Fin 2) * 10 + 1 * j.val = 10 * (t.val / 32) + j.val
  rw [(idx7_7 t).2]; omega

theorem mem_blk7_7 (t : Fin cfg7.N) (i : S1x10.Idx) :
    i ∈ ((cfg7.win 7).blk t).view.set ↔ ∀ a : Fin 2, win7_7.index t a * S1x10.size a ≤ (i a).val ∧ (i a).val < win7_7.index t a * S1x10.size a + S1x10.size a := by
  show i ∈ ((View.whole main_v13_1).slice (win7_7.rect t)).set ↔ _
  rw [View.set_slice_whole, Rect.mem_set_unit]
  exact Iff.rfl

/-- The row after the region. -/
theorem final7_7 (c : Dev nD) : (dat7 V c).arrAt 7 cfg7.N = G7s V c :=
  (dat7 V c).arrAt_eq_of_cover 7 (G7s V c) (flushed7_7_eq V c) fun i => by
    have h0 : (i 0).val < 1 := (i 0).isLt
    have h1 : (i 1).val < 10 := (i 1).isLt
    refine ⟨⟨31, by rw [N7]; omega⟩, (flush7_7 _).mpr (by dsimp only), ?_⟩
    rw [mem_blk7_7]
    intro a
    match a with
    | ⟨0, _⟩ =>
      show win7_7.index _ (0 : Fin 2) * 1 ≤ (i 0).val ∧ (i 0).val < win7_7.index _ (0 : Fin 2) * 1 + 1
      rw [(idx7_7 _).1]; omega
    | ⟨1, _⟩ =>
      show win7_7.index _ (1 : Fin 2) * 10 ≤ (i 1).val ∧ (i 1).val < win7_7.index _ (1 : Fin 2) * 10 + 10
      rw [(idx7_7 _).2]; dsimp only; omega

/-- What the last row tile writes back of the sums of squares row is that row read through the point's block. -/
theorem flushed7_8_eq (c : Dev nD) (t : Fin cfg7.N) (hf : (cfg7.win 8).flush t = true) :
    (dat7 V c).flushed 8 t = ((cfg7.win 8).blk t).view.read (Elt Ideal) (G7q V c) := by
  have h31 : t.val % 32 = 31 := (flush7_8 t).mp hf
  have ht := lt7 t
  show (cfg7.win 8).cut (grid7.coords t) ((dat7 V c).after 8 t) = _
  rw [after7_8]
  funext y
  obtain ⟨u, j, rfl⟩ : ∃ (u : Fin 1) (j : Fin 10), y = ix2 u j := ⟨y 0, y 1, eq_ix2 y⟩
  obtain rfl : u = 0 := Subsingleton.elim _ _
  have hj := j.isLt
  show ((outsAt7 V c t.val t.isLt).2.2 : Vec Ideal S1x10 .f32) (ix2 0 j) = G7q V c (((cfg7.win 8).blk t).view.emb (ix2 0 j))
  have e : ((outsAt7 V c t.val t.isLt).2.2 : Vec Ideal S1x10 .f32) (ix2 0 j) = acc7q V c j t.val := by
    unfold acc7q; rw [dif_pos t.isLt]
  have hacc := acc7q_last V c j (t.val / 32) (by omega)
  rw [show 32 * (t.val / 32) + 31 = t.val from by omega] at hacc
  rw [e, hacc]
  unfold G7q
  refine tileSq7_col V c j (t.val / 32) (by omega) _ ?_
  show win7_8.index t (1 : Fin 2) * 10 + 1 * j.val = 10 * (t.val / 32) + j.val
  rw [(idx7_8 t).2]; omega

theorem mem_blk7_8 (t : Fin cfg7.N) (i : S1x10.Idx) :
    i ∈ ((cfg7.win 8).blk t).view.set ↔ ∀ a : Fin 2, win7_8.index t a * S1x10.size a ≤ (i a).val ∧ (i a).val < win7_8.index t a * S1x10.size a + S1x10.size a := by
  show i ∈ ((View.whole main_v13_2).slice (win7_8.rect t)).set ↔ _
  rw [View.set_slice_whole, Rect.mem_set_unit]
  exact Iff.rfl

/-- The row after the region. -/
theorem final7_8 (c : Dev nD) : (dat7 V c).arrAt 8 cfg7.N = G7q V c :=
  (dat7 V c).arrAt_eq_of_cover 8 (G7q V c) (flushed7_8_eq V c) fun i => by
    have h0 : (i 0).val < 1 := (i 0).isLt
    have h1 : (i 1).val < 10 := (i 1).isLt
    refine ⟨⟨31, by rw [N7]; omega⟩, (flush7_8 _).mpr (by dsimp only), ?_⟩
    rw [mem_blk7_8]
    intro a
    match a with
    | ⟨0, _⟩ =>
      show win7_8.index _ (0 : Fin 2) * 1 ≤ (i 0).val ∧ (i 0).val < win7_8.index _ (0 : Fin 2) * 1 + 1
      rw [(idx7_8 _).1]; omega
    | ⟨1, _⟩ =>
      show win7_8.index _ (1 : Fin 2) * 10 ≤ (i 1).val ∧ (i 1).val < win7_8.index _ (1 : Fin 2) * 10 + 10
      rw [(idx7_8 _).2]; dsimp only; omega

end Cert.KernelIdeal.KVal
end
-- ==== Proof.KAssemble.lean ====
/-
  The idealized kernel's result array as one function of the thirteen argument arrays: region by region, each
  region's input arrays are an earlier region's outputs or argument arrays (through the fold of boundary contents),
  so the products, their column statistics and the normalised signs compose into the network the specification
  writes the kernel's way.
-/
import proofs.«144054_j58213986730442_2_alg».proof.Proof.KRun
import proofs.«144054_j58213986730442_2_alg».proof.Proof.KChain
import proofs.«144054_j58213986730442_2_alg».proof.Proof.KBin
import proofs.«144054_j58213986730442_2_alg».proof.Proof.KFinal
import proofs.«144054_j58213986730442_2_alg».proof.Proof.KL0f
import proofs.«144054_j58213986730442_2_alg».proof.Proof.KL1f
import proofs.«144054_j58213986730442_2_alg».proof.Proof.KL2f
import proofs.«144054_j58213986730442_2_alg».proof.Proof.KL3f
import proofs.«144054_j58213986730442_2_alg».proof.Proof.Spec

set_option maxRecDepth 16384

noncomputable section

open Idealize.ShloMosaic Idealize.ShloMosaic.TcCoe Idealize.SL.Sem
open Idealize.ShloMosaic.ValueIdx

namespace Cert.KernelIdeal.KVal

open Cert.KernelIdeal Cert.KernelIdeal.Gen

variable (m : (ℓ : Loc nD τ sig) → Buf (Elt Ideal) ℓ) (ρ : Dev nD → PrngReg)

/-- The argument arrays by coordinates. -/
def aX (c : Dev nD) : Fin 8192 → Fin 784 → EReal := fun p k => m ((c : Thread nD τ).loc main_arg0) (ix2 p k)
def aW1 (c : Dev nD) : Fin 4096 → Fin 784 → EReal := fun j k => m ((c : Thread nD τ).loc main_arg1) (ix2 j k)
def aW2 (c : Dev nD) : Fin 4096 → Fin 4096 → EReal := fun j k => m ((c : Thread nD τ).loc main_arg2) (ix2 j k)
def aW3 (c : Dev nD) : Fin 4096 → Fin 4096 → EReal := fun j k => m ((c : Thread nD τ).loc main_arg3) (ix2 j k)
def aW4 (c : Dev nD) : Fin 10 → Fin 4096 → EReal := fun j k => m ((c : Thread nD τ).loc main_arg4) (ix2 j k)
def ag1 (c : Dev nD) : Fin 4096 → EReal := fun k => m ((c : Thread nD τ).loc main_arg5) (ix1 k)
def ab1 (c : Dev nD) : Fin 4096 → EReal := fun k => m ((c : Thread nD τ).loc main_arg6) (ix1 k)
def ag2 (c : Dev nD) : Fin 4096 → EReal := fun k => m ((c : Thread nD τ).loc main_arg7) (ix1 k)
def ab2 (c : Dev nD) : Fin 4096 → EReal := fun k => m ((c : Thread nD τ).loc main_arg8) (ix1 k)
def ag3 (c : Dev nD) : Fin 4096 → EReal := fun k => m ((c : Thread nD τ).loc main_arg9) (ix1 k)
def ab3 (c : Dev nD) : Fin 4096 → EReal := fun k => m ((c : Thread nD τ).loc main_arg10) (ix1 k)
def ag4 (c : Dev nD) : Fin 10 → EReal := fun k => m ((c : Thread nD τ).loc main_arg11) (ix1 k)
def ab4 (c : Dev nD) : Fin 10 → EReal := fun k => m ((c : Thread nD τ).loc main_arg12) (ix1 k)

/-- The four products, the kernel's way. -/
def y0 (c : Dev nD) := Cert.Bnn.mm (aX m c) (fun j k => Cert.Bnn.sgnK (aW1 m c j k))
def y1 (c : Dev nD) := Cert.Bnn.mm (Cert.Bnn.actK (y0 m c) (ag1 m c) (ab1 m c)) (fun j k => Cert.Bnn.sgnK (aW2 m c j k))
def y2 (c : Dev nD) := Cert.Bnn.mm (Cert.Bnn.actK (y1 m c) (ag2 m c) (ab2 m c)) (fun j k => Cert.Bnn.sgnK (aW3 m c j k))
def y3 (c : Dev nD) := Cert.Bnn.mm (Cert.Bnn.actK (y2 m c) (ag3 m c) (ab3 m c)) (fun j k => Cert.Bnn.sgnK (aW4 m c j k))

/-- Region 4's product is the first product. -/
theorem Y4_eq (c : Dev nD) : Y4 (V4 m ρ) c = y0 m c := by
  have hX : X4 (V4 m ρ) c = aX m c := by
    funext p k; unfold X4 aX; rw [in4_0 m ρ c]
  have hB : B4 (V4 m ρ) c = fun j k => Cert.Bnn.sgnK (aW1 m c j k) := by
    funext j k; unfold B4 aW1; rw [in4_1 m ρ c, bin0_val (V0 m ρ) c j k, in0_0 m ρ c]
  unfold Y4 y0
  rw [hX, hB]

/-- Region 5's product is the second product. -/
theorem Y5_eq (c : Dev nD) : Y5 (V6 m ρ) c = y1 m c := by
  have hP : P5 (V6 m ρ) c = y0 m c := by
    funext p k; unfold P5; rw [in5_0 m ρ c, final4_y (V4 m ρ) c]; unfold G4y; rw [Y4_eq]; rfl
  have hS : S5 (V6 m ρ) c = Cert.Bnn.colSum (y0 m c) := by
    funext k; unfold S5; rw [in5_1 m ρ c, final4_3 (V4 m ρ) c]; unfold G4s; rw [Y4_eq]; rfl
  have hQ : Q5 (V6 m ρ) c = Cert.Bnn.colSumSq (y0 m c) := by
    funext k; unfold Q5; rw [in5_2 m ρ c, final4_4 (V4 m ρ) c]; unfold G4q; rw [Y4_eq]; rfl
  have hG : Ga5 (V6 m ρ) c = ag1 m c := by
    funext k; unfold Ga5 ag1; exact in5_3 m ρ c k
  have hBe : Be5 (V6 m ρ) c = ab1 m c := by
    funext k; unfold Be5 ab1; exact in5_4 m ρ c k
  have hB : B5 (V6 m ρ) c = fun j k => Cert.Bnn.sgnK (aW2 m c j k) := by
    funext j k; unfold B5 aW2; rw [in5_5 m ρ c, bin1_val (V1 m ρ) c j k, in1_0 m ρ c]
  unfold Y5 y1 A5 Cert.Bnn.actK
  rw [hP, hS, hQ, hG, hBe, hB]

/-- Region 6's product is the third product. -/
theorem Y6_eq (c : Dev nD) : Y6 (V8 m ρ) c = y2 m c := by
  have hP : P6 (V8 m ρ) c = y1 m c := by
    funext p k; unfold P6; rw [in6_0 m ρ c, final5_y (V6 m ρ) c]; unfold G5y; rw [Y5_eq]; rfl
  have hS : S6 (V8 m ρ) c = Cert.Bnn.colSum (y1 m c) := by
    funext k; unfold S6; rw [in6_1 m ρ c, final5_7 (V6 m ρ) c]; unfold G5s; rw [Y5_eq]; rfl
  have hQ : Q6 (V8 m ρ) c = Cert.Bnn.colSumSq (y1 m c) := by
    funext k; unfold Q6; rw [in6_2 m ρ c, final5_8 (V6 m ρ) c]; unfold G5q; rw [Y5_eq]; rfl
  have hG : Ga6 (V8 m ρ) c = ag2 m c := by
    funext k; unfold Ga6 ag2; exact in6_3 m ρ c k
  have hBe : Be6 (V8 m ρ) c = ab2 m c := by
    funext k; unfold Be6 ab2; exact in6_4 m ρ c k
  have hB : B6 (V8 m ρ) c = fun j k => Cert.Bnn.sgnK (aW3 m c j k) := by
    funext j k; unfold B6 aW3; rw [in6_5 m ρ c, bin2_val (V2 m ρ) c j k, in2_0 m ρ c]
  unfold Y6 y2 A6 Cert.Bnn.actK
  rw [hP, hS, hQ, hG, hBe, hB]

/-- Region 7's product is the last product. -/
theorem Y7_eq (c : Dev nD) : Y7 (V10 m ρ) c = y3 m c := by
  have hP : P7 (V10 m ρ) c = y2 m c := by
    funext p k; unfold P7; rw [in7_0 m ρ c, final6_y (V8 m ρ) c]; unfold G6y; rw [Y6_eq]; rfl
  have hS : S7 (V10 m ρ) c = Cert.Bnn.colSum (y2 m c) := by
    funext k; unfold S7; rw [in7_1 m ρ c, final6_7 (V8 m ρ) c]; unfold G6s; rw [Y6_eq]; rfl
  have hQ : Q7 (V10 m ρ) c = Cert.Bnn.colSumSq (y2 m c) := by
    funext k; unfold Q7; rw [in7_2 m ρ c, final6_8 (V8 m ρ) c]; unfold G6q; rw [Y6_eq]; rfl
  have hG : Ga7 (V10 m ρ) c = ag3 m c := by
    funext k; unfold Ga7 ag3; exact in7_3 m ρ c k
  have hBe : Be7 (V10 m ρ) c = ab3 m c := by
    funext k; unfold Be7 ab3; exact in7_4 m ρ c k
  have hB : B7 (V10 m ρ) c = fun j k => Cert.Bnn.sgnK (aW4 m c j k) := by
    funext j k; unfold B7 aW4; rw [in7_5 m ρ c, bin3_val (V3 m ρ) c j k, in3_0 m ρ c]
  unfold Y7 y3 A7 Cert.Bnn.actK
  rw [hP, hS, hQ, hG, hBe, hB]

/-- The result array, entry by entry, is the specification's network written the kernel's way. -/
theorem result_apply (c : Dev nD) (p : Fin 8192) (j : Fin 10) :
    W13 m ρ c (Proc.devRef .tc main_v16) (ix2 p j)
      = Cert.Bnn.kernelOut (aX m c) (aW1 m c) (aW2 m c) (aW3 m c) (aW4 m c) (ag1 m c) (ab1 m c) (ag2 m c) (ab2 m c)
          (ag3 m c) (ab3 m c) (ag4 m c) (ab4 m c) p j := by
  have hP : (fun p j => V12 m ρ c (Pipeline.arrRef spec8 0) (ix2 p j)) = y3 m c := by
    funext p j; rw [in8_0 m ρ c, final7_y (V10 m ρ) c]; unfold G7y; rw [Y7_eq]; rfl
  have hS : (fun j => V12 m ρ c (Pipeline.arrRef spec8 1) (ix2 0 j)) = Cert.Bnn.colSum (y3 m c) := by
    funext j; rw [in8_1 m ρ c, final7_7 (V10 m ρ) c]; unfold G7s; rw [Y7_eq]; rfl
  have hQ : (fun j => V12 m ρ c (Pipeline.arrRef spec8 2) (ix2 0 j)) = Cert.Bnn.colSumSq (y3 m c) := by
    funext j; rw [in8_2 m ρ c, final7_8 (V10 m ρ) c]; unfold G7q; rw [Y7_eq]; rfl
  have hG : (fun j => V12 m ρ c (Pipeline.arrRef spec8 3) (ix2 0 j)) = ag4 m c := by
    funext j; unfold ag4; exact in8_3 m ρ c j
  have hB : (fun j => V12 m ρ c (Pipeline.arrRef spec8 4) (ix2 0 j)) = ab4 m c := by
    funext j; unfold ab4; exact in8_4 m ρ c j
  rw [out_v16 m ρ c, final_val (V12 m ρ) c p j, hP, hS, hQ, hG, hB]
  rfl

end Cert.KernelIdeal.KVal

end
-- ==== Proof.RefRun.lean ====
/-
  The reference program's @main as a list of its 208 host operations, each call of an outlined function replaced by
  the callee's operations over that call's buffers, and its run read back: every weakly fair execution terminates
  with the result buffer at a composed pure term of the thirteen argument arrays, the arguments unchanged.

  The network has four layers of one pattern: a matrix product of the (binarised) activations with the binarised,
  transposed weights; the column mean and the column variance of that product over the batch axis; the product
  normalised, scaled and shifted; and, between layers, the sign of that. The composed term is stated over named
  pieces of this pattern, once at width 4096 (layers one to three) and once at width 10 (the last layer).
-/
import proofs.«144054_j58213986730442_2_alg».proof.Proof.Gen.ReferenceIdeal
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Layer one: the first weights binarised and transposed, the product with the input, its column mean and variance, the normalised, scaled and shifted product, its sign. -/
abbrev opsA : List (HloOp τ sig (Elt F)) :=
  [ StableHlo.unary main_arg1 main_v0 (Host.sign : (⟨S4096x784, .f32⟩ : BufTy).Contents (Elt F) → (⟨S4096x784, .f32⟩ : BufTy).Contents (Elt F)),
    StableHlo.binary main_v0 main_arg1 main_v1 (subf : (⟨S4096x784, .f32⟩ : BufTy).Contents (Elt F) → (⟨S4096x784, .f32⟩ : BufTy).Contents (Elt F) → (⟨S4096x784, .f32⟩ : BufTy).Contents (Elt F)),
    StableHlo.binary main_arg1 main_v1 main_v2 (addf : (⟨S4096x784, .f32⟩ : BufTy).Contents (Elt F) → (⟨S4096x784, .f32⟩ : BufTy).Contents (Elt F) → (⟨S4096x784, .f32⟩ : BufTy).Contents (Elt F)),
    StableHlo.unary main_v2 main_v3 ((transpose S784x4096 [1, 0] · transposes_S4096x784_S784x4096_1_0) : (⟨S4096x784, .f32⟩ : BufTy).Contents (Elt F) → (⟨S784x4096, .f32⟩ : BufTy).Contents (Elt F)),
    StableHlo.binary main_arg0 main_v3 main_v4 ((fun l r => Host.dotGeneral dot_S8192x784_S784x4096_S8192x4096_1_0_0_1_n_n none l r) : (⟨S8192x784, .f32⟩ : BufTy).Contents (Elt F) → (⟨S784x4096, .f32⟩ : BufTy).Contents (Elt F) → (⟨S8192x4096, .f32⟩ : BufTy).Contents (Elt F)),
    StableHlo.nullary main_cst (constant S_ .f32 0x00000000#32),
    StableHlo.binary main_v4 main_cst main_v5 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_0 (constant S_ .f32 0x46000000#32),
    StableHlo.unary main_cst_0 main_v6 (broadcastInDim S4096 ![] bcast_S_S4096 : (⟨S_, .f32⟩ : BufTy).Contents (Elt F) → (⟨S4096, .f32⟩ : BufTy).Contents (Elt F)),
    StableHlo.binary main_v5 main_v6 main_v7 (Host.divf : (⟨S4096, .f32⟩ : BufTy).Contents (Elt F) → (⟨S4096, .f32⟩ : BufTy).Contents (Elt F) → (⟨S4096, .f32⟩ : BufTy).Contents (Elt F)),
    StableHlo.nullary main_c (constantI S_ 32 0#32),
    StableHlo.TRef.nullary main_call0.cst (constant S_ .f32 0x00000000#32),
    StableHlo.TRef.binary (TRef.of main_v4 : StableHlo.TRef sig ⟨S8192x4096, .f32⟩) main_call0.cst main_call0.v0 (fun x v => Host.reduceAdd x v reducesTo_S8192x4096_S4096_d0 h_S_),
    StableHlo.TRef.unary main_call0.v0 main_call0.v1 (broadcastInDim S1x4096 ![1] bcast_S4096_S1x4096_1),
    StableHlo.TRef.nullary main_call0.cst_0 (constant S_ .f32 0x46000000#32),
    StableHlo.TRef.unary main_call0.cst_0 main_call0.v2 (broadcastInDim S1x4096 ![] bcast_S_S1x4096),
    StableHlo.TRef.binary main_call0.v1 main_call0.v2 main_call0.v3 Host.divf,
    StableHlo.TRef.unary main_call0.v3 main_call0.v4 (broadcastInDim S8192x4096 ![0, 1] bcast_S1x4096_S8192x4096_0_1),
    StableHlo.TRef.binary (TRef.of main_v4 : StableHlo.TRef sig ⟨S8192x4096, .f32⟩) main_call0.v4 main_call0.v5 subf,
    StableHlo.TRef.binary main_call0.v5 main_call0.v5 main_call0.v6 mulf,
    StableHlo.TRef.unary (TRef.of main_c : StableHlo.TRef sig ⟨S_, .i32⟩) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x4096_S4096_d0 h_S_),
    StableHlo.TRef.unary main_call0.v8 main_call0.v10 (broadcastInDim S4096 ![] bcast_S_S4096),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4096 ![] bcast_S_S4096),
    StableHlo.TRef.ternary main_call0.v12 main_call0.v11 main_call0.call0.v1 main_call0.call0.v2 (fun p a b => select (broadcastInDim S4096 ![] bcast_S_S4096 p) a b),
    StableHlo.unary main_v7 main_v9 (broadcastInDim S1x4096 ![1] bcast_S4096_S1x4096_1 : (⟨S4096, .f32⟩ : BufTy).Contents (Elt F) → (⟨S1x4096, .f32⟩ : BufTy).Contents (Elt F)),
    StableHlo.unary main_v9 main_v10 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v4 main_v10 main_v11 (subf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3727C5AC#32),
    StableHlo.unary main_cst_1 main_v12 (broadcastInDim S4096 ![] bcast_S_S4096 : (⟨S_, .f32⟩ : BufTy).Contents (Elt F) → (⟨S4096, .f32⟩ : BufTy).Contents (Elt F)),
    StableHlo.binary main_v8 main_v12 main_v13 (addf : (⟨S4096, .f32⟩ : BufTy).Contents (Elt F) → (⟨S4096, .f32⟩ : BufTy).Contents (Elt F) → (⟨S4096, .f32⟩ : BufTy).Contents (Elt F)),
    StableHlo.unary main_v13 main_v14 (Host.rsqrt : (⟨S4096, .f32⟩ : BufTy).Contents (Elt F) → (⟨S4096, .f32⟩ : BufTy).Contents (Elt F)),
    StableHlo.unary main_v14 main_v15 (broadcastInDim S1x4096 ![1] bcast_S4096_S1x4096_1 : (⟨S4096, .f32⟩ : BufTy).Contents (Elt F) → (⟨S1x4096, .f32⟩ : BufTy).Contents (Elt F)),
    StableHlo.unary main_v15 main_v16 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v11 main_v16 main_v17 (mulf : (⟨S8192x4096, .f32⟩ : BufTy).Contents (Elt F) → (⟨S8192x4096, .f32⟩ : BufTy).Contents (Elt F) → (⟨S8192x4096, .f32⟩ : BufTy).Contents (Elt F)),
    StableHlo.unary main_arg5 main_v18 (broadcastInDim S1x4096 ![1] bcast_S4096_S1x4096_1 : (⟨S4096, .f32⟩ : BufTy).Contents (Elt F) → (⟨S1x4096, .f32⟩ : BufTy).Contents (Elt F)),
    StableHlo.unary main_v18 main_v19 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v17 main_v19 main_v20 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v21 (broadcastInDim S1x4096 ![1] bcast_S4096_S1x4096_1 : (⟨S4096, .f32⟩ : BufTy).Contents (Elt F) → (⟨S1x4096, .f32⟩ : BufTy).Contents (Elt F)),
    StableHlo.unary main_v21 main_v22 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v20 main_v22 main_v23 (addf : (⟨S8192x4096, .f32⟩ : BufTy).Contents (Elt F) → (⟨S8192x4096, .f32⟩ : BufTy).Contents (Elt F) → (⟨S8192x4096, .f32⟩ : BufTy).Contents (Elt F)),
    StableHlo.unary main_v23 main_v24 (Host.sign : (⟨S8192x4096, .f32⟩ : BufTy).Contents (Elt F) → (⟨S8192x4096, .f32⟩ : BufTy).Contents (Elt F)) ]

/-- Layer two up to its normalised product: the activations and the second weights binarised, the product, its column mean and variance, the normalisation, scale and shift. -/
abbrev opsB1 : List (HloOp τ sig (Elt F)) :=
  [ StableHlo.unary main_v24 main_v25 (Host.sign : (⟨S8192x4096, .f32⟩ : BufTy).Contents (Elt F) → (⟨S8192x4096, .f32⟩ : BufTy).Contents (Elt F)),
    StableHlo.binary main_v25 main_v24 main_v26 (subf : (⟨S8192x4096, .f32⟩ : BufTy).Contents (Elt F) → (⟨S8192x4096, .f32⟩ : BufTy).Contents (Elt F) → (⟨S8192x4096, .f32⟩ : BufTy).Contents (Elt F)),
    StableHlo.binary main_v24 main_v26 main_v27 (addf : (⟨S8192x4096, .f32⟩ : BufTy).Contents (Elt F) → (⟨S8192x4096, .f32⟩ : BufTy).Contents (Elt F) → (⟨S8192x4096, .f32⟩ : BufTy).Contents (Elt F)),
    StableHlo.unary main_arg2 main_v28 (Host.sign : (⟨S4096x4096, .f32⟩ : BufTy).Contents (Elt F) → (⟨S4096x4096, .f32⟩ : BufTy).Contents (Elt F)),
    StableHlo.binary main_v28 main_arg2 main_v29 (subf : (⟨S4096x4096, .f32⟩ : BufTy).Contents (Elt F) → (⟨S4096x4096, .f32⟩ : BufTy).Contents (Elt F) → (⟨S4096x4096, .f32⟩ : BufTy).Contents (Elt F)),
    StableHlo.binary main_arg2 main_v29 main_v30 (addf : (⟨S4096x4096, .f32⟩ : BufTy).Contents (Elt F) → (⟨S4096x4096, .f32⟩ : BufTy).Contents (Elt F) → (⟨S4096x4096, .f32⟩ : BufTy).Contents (Elt F)),
    StableHlo.unary main_v30 main_v31 ((transpose S4096x4096 [1, 0] · transposes_S4096x4096_S4096x4096_1_0) : (⟨S4096x4096, .f32⟩ : BufTy).Contents (Elt F) → (⟨S4096x4096, .f32⟩ : BufTy).Contents (Elt F)),
    StableHlo.binary main_v27 main_v31 main_v32 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_2 (constant S_ .f32 0x00000000#32),
    StableHlo.binary main_v32 main_cst_2 main_v33 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_3 (constant S_ .f32 0x46000000#32),
    StableHlo.unary main_cst_3 main_v34 (broadcastInDim S4096 ![] bcast_S_S4096 : (⟨S_, .f32⟩ : BufTy).Contents (Elt F) → (⟨S4096, .f32⟩ : BufTy).Contents (Elt F)),
    StableHlo.binary main_v33 main_v34 main_v35 (Host.divf : (⟨S4096, .f32⟩ : BufTy).Contents (Elt F) → (⟨S4096, .f32⟩ : BufTy).Contents (Elt F) → (⟨S4096, .f32⟩ : BufTy).Contents (Elt F)),
    StableHlo.nullary main_c_4 (constantI S_ 32 0#32),
    StableHlo.TRef.nullary main_call1.cst (constant S_ .f32 0x00000000#32),
    StableHlo.TRef.binary (TRef.of main_v32 : StableHlo.TRef sig ⟨S8192x4096, .f32⟩) main_call1.cst main_call1.v0 (fun x v => Host.reduceAdd x v reducesTo_S8192x4096_S4096_d0 h_S_),
    StableHlo.TRef.unary main_call1.v0 main_call1.v1 (broadcastInDim S1x4096 ![1] bcast_S4096_S1x4096_1),
    StableHlo.TRef.nullary main_call1.cst_0 (constant S_ .f32 0x46000000#32),
    StableHlo.TRef.unary main_call1.cst_0 main_call1.v2 (broadcastInDim S1x4096 ![] bcast_S_S1x4096),
    StableHlo.TRef.binary main_call1.v1 main_call1.v2 main_call1.v3 Host.divf,
    StableHlo.TRef.unary main_call1.v3 main_call1.v4 (broadcastInDim S8192x4096 ![0, 1] bcast_S1x4096_S8192x4096_0_1),
    StableHlo.TRef.binary (TRef.of main_v32 : StableHlo.TRef sig ⟨S8192x4096, .f32⟩) main_call1.v4 main_call1.v5 subf,
    StableHlo.TRef.binary main_call1.v5 main_call1.v5 main_call1.v6 mulf,
    StableHlo.TRef.unary (TRef.of main_c_4 : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x4096_S4096_d0 h_S_),
    StableHlo.TRef.unary main_call1.v8 main_call1.v10 (broadcastInDim S4096 ![] bcast_S_S4096),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S4096 ![] bcast_S_S4096),
    StableHlo.TRef.ternary main_call1.v12 main_call1.v11 main_call1.call0.v1 main_call1.call0.v2 (fun p a b => select (broadcastInDim S4096 ![] bcast_S_S4096 p) a b),
    StableHlo.unary main_v35 main_v37 (broadcastInDim S1x4096 ![1] bcast_S4096_S1x4096_1 : (⟨S4096, .f32⟩ : BufTy).Contents (Elt F) → (⟨S1x4096, .f32⟩ : BufTy).Contents (Elt F)),
    StableHlo.unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v32 main_v38 main_v39 (subf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v40 (broadcastInDim S4096 ![] bcast_S_S4096 : (⟨S_, .f32⟩ : BufTy).Contents (Elt F) → (⟨S4096, .f32⟩ : BufTy).Contents (Elt F)),
    StableHlo.binary main_v36 main_v40 main_v41 (addf : (⟨S4096, .f32⟩ : BufTy).Contents (Elt F) → (⟨S4096, .f32⟩ : BufTy).Contents (Elt F) → (⟨S4096, .f32⟩ : BufTy).Contents (Elt F)),
    StableHlo.unary main_v41 main_v42 (Host.rsqrt : (⟨S4096, .f32⟩ : BufTy).Contents (Elt F) → (⟨S4096, .f32⟩ : BufTy).Contents (Elt F)),
    StableHlo.unary main_v42 main_v43 (broadcastInDim S1x4096 ![1] bcast_S4096_S1x4096_1 : (⟨S4096, .f32⟩ : BufTy).Contents (Elt F) → (⟨S1x4096, .f32⟩ : BufTy).Contents (Elt F)),
    StableHlo.unary main_v43 main_v44 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v39 main_v44 main_v45 (mulf : (⟨S8192x4096, .f32⟩ : BufTy).Contents (Elt F) → (⟨S8192x4096, .f32⟩ : BufTy).Contents (Elt F) → (⟨S8192x4096, .f32⟩ : BufTy).Contents (Elt F)),
    StableHlo.unary main_arg7 main_v46 (broadcastInDim S1x4096 ![1] bcast_S4096_S1x4096_1 : (⟨S4096, .f32⟩ : BufTy).Contents (Elt F) → (⟨S1x4096, .f32⟩ : BufTy).Contents (Elt F)),
    StableHlo.unary main_v46 main_v47 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v45 main_v47 main_v48 (mulf : (⟨S8192x4096, .f32⟩ : BufTy).Contents (Elt F) → (⟨S8192x4096, .f32⟩ : BufTy).Contents (Elt F) → (⟨S8192x4096, .f32⟩ : BufTy).Contents (Elt F)),
    StableHlo.unary main_arg8 main_v49 (broadcastInDim S1x4096 ![1] bcast_S4096_S1x4096_1 : (⟨S4096, .f32⟩ : BufTy).Contents (Elt F) → (⟨S1x4096, .f32⟩ : BufTy).Contents (Elt F)),
    StableHlo.unary main_v49 main_v50 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v48 main_v50 main_v51 (addf : (⟨S8192x4096, .f32⟩ : BufTy).Contents (Elt F) → (⟨S8192x4096, .f32⟩ : BufTy).Contents (Elt F) → (⟨S8192x4096, .f32⟩ : BufTy).Contents (Elt F)) ]

/-- The sign of layer two's normalised product. -/
abbrev opsB2 : List (HloOp τ sig (Elt F)) :=
  [ StableHlo.unary main_v51 main_v52 (Host.sign : (⟨S8192x4096, .f32⟩ : BufTy).Contents (Elt F) → (⟨S8192x4096, .f32⟩ : BufTy).Contents (Elt F)) ]

/-- Layer three: as layer two, with its sign. -/
abbrev opsC : List (HloOp τ sig (Elt F)) :=
  [ StableHlo.unary main_v52 main_v53 (Host.sign : (⟨S8192x4096, .f32⟩ : BufTy).Contents (Elt F) → (⟨S8192x4096, .f32⟩ : BufTy).Contents (Elt F)),
    StableHlo.binary main_v53 main_v52 main_v54 (subf : (⟨S8192x4096, .f32⟩ : BufTy).Contents (Elt F) → (⟨S8192x4096, .f32⟩ : BufTy).Contents (Elt F) → (⟨S8192x4096, .f32⟩ : BufTy).Contents (Elt F)),
    StableHlo.binary main_v52 main_v54 main_v55 (addf : (⟨S8192x4096, .f32⟩ : BufTy).Contents (Elt F) → (⟨S8192x4096, .f32⟩ : BufTy).Contents (Elt F) → (⟨S8192x4096, .f32⟩ : BufTy).Contents (Elt F)),
    StableHlo.unary main_arg3 main_v56 (Host.sign : (⟨S4096x4096, .f32⟩ : BufTy).Contents (Elt F) → (⟨S4096x4096, .f32⟩ : BufTy).Contents (Elt F)),
    StableHlo.binary main_v56 main_arg3 main_v57 (subf : (⟨S4096x4096, .f32⟩ : BufTy).Contents (Elt F) → (⟨S4096x4096, .f32⟩ : BufTy).Contents (Elt F) → (⟨S4096x4096, .f32⟩ : BufTy).Contents (Elt F)),
    StableHlo.binary main_arg3 main_v57 main_v58 (addf : (⟨S4096x4096, .f32⟩ : BufTy).Contents (Elt F) → (⟨S4096x4096, .f32⟩ : BufTy).Contents (Elt F) → (⟨S4096x4096, .f32⟩ : BufTy).Contents (Elt F)),
    StableHlo.unary main_v58 main_v59 ((transpose S4096x4096 [1, 0] · transposes_S4096x4096_S4096x4096_1_0) : (⟨S4096x4096, .f32⟩ : BufTy).Contents (Elt F) → (⟨S4096x4096, .f32⟩ : BufTy).Contents (Elt F)),
    StableHlo.binary main_v55 main_v59 main_v60 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_6 (constant S_ .f32 0x00000000#32),
    StableHlo.binary main_v60 main_cst_6 main_v61 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    StableHlo.nullary main_cst_7 (constant S_ .f32 0x46000000#32),
    StableHlo.unary main_cst_7 main_v62 (broadcastInDim S4096 ![] bcast_S_S4096 : (⟨S_, .f32⟩ : BufTy).Contents (Elt F) → (⟨S4096, .f32⟩ : BufTy).Contents (Elt F)),
    StableHlo.binary main_v61 main_v62 main_v63 (Host.divf : (⟨S4096, .f32⟩ : BufTy).Contents (Elt F) → (⟨S4096, .f32⟩ : BufTy).Contents (Elt F) → (⟨S4096, .f32⟩ : BufTy).Contents (Elt F)),
    StableHlo.nullary main_c_8 (constantI S_ 32 0#32),
    StableHlo.TRef.nullary main_call2.cst (constant S_ .f32 0x00000000#32),
    StableHlo.TRef.binary (TRef.of main_v60 : StableHlo.TRef sig ⟨S8192x4096, .f32⟩) main_call2.cst main_call2.v0 (fun x v => Host.reduceAdd x v reducesTo_S8192x4096_S4096_d0 h_S_),
    StableHlo.TRef.unary main_call2.v0 main_call2.v1 (broadcastInDim S1x4096 ![1] bcast_S4096_S1x4096_1),
    StableHlo.TRef.nullary main_call2.cst_0 (constant S_ .f32 0x46000000#32),
    StableHlo.TRef.unary main_call2.cst_0 main_call2.v2 (broadcastInDim S1x4096 ![] bcast_S_S1x4096),
    StableHlo.TRef.binary main_call2.v1 main_call2.v2 main_call2.v3 Host.divf,
    StableHlo.TRef.unary main_call2.v3 main_call2.v4 (broadcastInDim S8192x4096 ![0, 1] bcast_S1x4096_S8192x4096_0_1),
    StableHlo.TRef.binary (TRef.of main_v60 : StableHlo.TRef sig ⟨S8192x4096, .f32⟩) main_call2.v4 main_call2.v5 subf,
    StableHlo.TRef.binary main_call2.v5 main_call2.v5 main_call2.v6 mulf,
    StableHlo.TRef.unary (TRef.of main_c_8 : StableHlo.TRef sig ⟨S_, .i32⟩) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x4096_S4096_d0 h_S_),
    StableHlo.TRef.unary main_call2.v8 main_call2.v10 (broadcastInDim S4096 ![] bcast_S_S4096),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096 ![] bcast_S_S4096),
    StableHlo.TRef.ternary main_call2.v12 main_call2.v11 main_call2.call0.v1 main_call2.call0.v2 (fun p a b => select (broadcastInDim S4096 ![] bcast_S_S4096 p) a b),
    StableHlo.unary main_v63 main_v65 (broadcastInDim S1x4096 ![1] bcast_S4096_S1x4096_1 : (⟨S4096, .f32⟩ : BufTy).Contents (Elt F) → (⟨S1x4096, .f32⟩ : BufTy).Contents (Elt F)),
    StableHlo.unary main_v65 main_v66 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v60 main_v66 main_v67 (subf : (⟨S8192x4096, .f32⟩ : BufTy).Contents (Elt F) → (⟨S8192x4096, .f32⟩ : BufTy).Contents (Elt F) → (⟨S8192x4096, .f32⟩ : BufTy).Contents (Elt F)),
    StableHlo.nullary main_cst_9 (constant S_ .f32 0x3727C5AC#32),
    StableHlo.unary main_cst_9 main_v68 (broadcastInDim S4096 ![] bcast_S_S4096 : (⟨S_, .f32⟩ : BufTy).Contents (Elt F) → (⟨S4096, .f32⟩ : BufTy).Contents (Elt F)),
    StableHlo.binary main_v64 main_v68 main_v69 (addf : (⟨S4096, .f32⟩ : BufTy).Contents (Elt F) → (⟨S4096, .f32⟩ : BufTy).Contents (Elt F) → (⟨S4096, .f32⟩ : BufTy).Contents (Elt F)),
    StableHlo.unary main_v69 main_v70 (Host.rsqrt : (⟨S4096, .f32⟩ : BufTy).Contents (Elt F) → (⟨S4096, .f32⟩ : BufTy).Contents (Elt F)),
    StableHlo.unary main_v70 main_v71 (broadcastInDim S1x4096 ![1] bcast_S4096_S1x4096_1 : (⟨S4096, .f32⟩ : BufTy).Contents (Elt F) → (⟨S1x4096, .f32⟩ : BufTy).Contents (Elt F)),
    StableHlo.unary main_v71 main_v72 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v67 main_v72 main_v73 (mulf : (⟨S8192x4096, .f32⟩ : BufTy).Contents (Elt F) → (⟨S8192x4096, .f32⟩ : BufTy).Contents (Elt F) → (⟨S8192x4096, .f32⟩ : BufTy).Contents (Elt F)),
    StableHlo.unary main_arg9 main_v74 (broadcastInDim S1x4096 ![1] bcast_S4096_S1x4096_1 : (⟨S4096, .f32⟩ : BufTy).Contents (Elt F) → (⟨S1x4096, .f32⟩ : BufTy).Contents (Elt F)),
    StableHlo.unary main_v74 main_v75 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v73 main_v75 main_v76 (mulf : (⟨S8192x4096, .f32⟩ : BufTy).Contents (Elt F) → (⟨S8192x4096, .f32⟩ : BufTy).Contents (Elt F) → (⟨S8192x4096, .f32⟩ : BufTy).Contents (Elt F)),
    StableHlo.unary main_arg10 main_v77 (broadcastInDim S1x4096 ![1] bcast_S4096_S1x4096_1 : (⟨S4096, .f32⟩ : BufTy).Contents (Elt F) → (⟨S1x4096, .f32⟩ : BufTy).Contents (Elt F)),
    StableHlo.unary main_v77 main_v78 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v76 main_v78 main_v79 (addf : (⟨S8192x4096, .f32⟩ : BufTy).Contents (Elt F) → (⟨S8192x4096, .f32⟩ : BufTy).Contents (Elt F) → (⟨S8192x4096, .f32⟩ : BufTy).Contents (Elt F)),
    StableHlo.unary main_v79 main_v80 (Host.sign : (⟨S8192x4096, .f32⟩ : BufTy).Contents (Elt F) → (⟨S8192x4096, .f32⟩ : BufTy).Contents (Elt F)) ]

/-- Layer four up to the normalised product and the broadcast scale: the activations and the last weights binarised, the product, its column mean and variance, the normalisation. -/
abbrev opsD1 : List (HloOp τ sig (Elt F)) :=
  [ StableHlo.unary main_v80 main_v81 (Host.sign : (⟨S8192x4096, .f32⟩ : BufTy).Contents (Elt F) → (⟨S8192x4096, .f32⟩ : BufTy).Contents (Elt F)),
    StableHlo.binary main_v81 main_v80 main_v82 (subf : (⟨S8192x4096, .f32⟩ : BufTy).Contents (Elt F) → (⟨S8192x4096, .f32⟩ : BufTy).Contents (Elt F) → (⟨S8192x4096, .f32⟩ : BufTy).Contents (Elt F)),
    StableHlo.binary main_v80 main_v82 main_v83 (addf : (⟨S8192x4096, .f32⟩ : BufTy).Contents (Elt F) → (⟨S8192x4096, .f32⟩ : BufTy).Contents (Elt F) → (⟨S8192x4096, .f32⟩ : BufTy).Contents (Elt F)),
    StableHlo.unary main_arg4 main_v84 (Host.sign : (⟨S10x4096, .f32⟩ : BufTy).Contents (Elt F) → (⟨S10x4096, .f32⟩ : BufTy).Contents (Elt F)),
    StableHlo.binary main_v84 main_arg4 main_v85 (subf : (⟨S10x4096, .f32⟩ : BufTy).Contents (Elt F) → (⟨S10x4096, .f32⟩ : BufTy).Contents (Elt F) → (⟨S10x4096, .f32⟩ : BufTy).Contents (Elt F)),
    StableHlo.binary main_arg4 main_v85 main_v86 (addf : (⟨S10x4096, .f32⟩ : BufTy).Contents (Elt F) → (⟨S10x4096, .f32⟩ : BufTy).Contents (Elt F) → (⟨S10x4096, .f32⟩ : BufTy).Contents (Elt F)),
    StableHlo.unary main_v86 main_v87 ((transpose S4096x10 [1, 0] · transposes_S10x4096_S4096x10_1_0) : (⟨S10x4096, .f32⟩ : BufTy).Contents (Elt F) → (⟨S4096x10, .f32⟩ : BufTy).Contents (Elt F)),
    StableHlo.binary main_v83 main_v87 main_v88 ((fun l r => Host.dotGeneral dot_S8192x4096_S4096x10_S8192x10_1_0_0_1_n_n none l r) : (⟨S8192x4096, .f32⟩ : BufTy).Contents (Elt F) → (⟨S4096x10, .f32⟩ : BufTy).Contents (Elt F) → (⟨S8192x10, .f32⟩ : BufTy).Contents (Elt F)),
    StableHlo.nullary main_cst_10 (constant S_ .f32 0x00000000#32),
    StableHlo.binary main_v88 main_cst_10 main_v89 ((fun x v => Host.reduceAdd x v reducesTo_S8192x10_S10_d0 h_S_) : (⟨S8192x10, .f32⟩ : BufTy).Contents (Elt F) → (⟨S_, .f32⟩ : BufTy).Contents (Elt F) → (⟨S10, .f32⟩ : BufTy).Contents (Elt F)),
    StableHlo.nullary main_cst_11 (constant S_ .f32 0x46000000#32),
    StableHlo.unary main_cst_11 main_v90 (broadcastInDim S10 ![] bcast_S_S10 : (⟨S_, .f32⟩ : BufTy).Contents (Elt F) → (⟨S10, .f32⟩ : BufTy).Contents (Elt F)),
    StableHlo.binary main_v89 main_v90 main_v91 (Host.divf : (⟨S10, .f32⟩ : BufTy).Contents (Elt F) → (⟨S10, .f32⟩ : BufTy).Contents (Elt F) → (⟨S10, .f32⟩ : BufTy).Contents (Elt F)),
    StableHlo.nullary main_c_12 (constantI S_ 32 0#32),
    StableHlo.TRef.nullary main_call3.cst (constant S_ .f32 0x00000000#32),
    StableHlo.TRef.binary (TRef.of main_v88 : StableHlo.TRef sig ⟨S8192x10, .f32⟩) main_call3.cst main_call3.v0 (fun x v => Host.reduceAdd x v reducesTo_S8192x10_S10_d0 h_S_),
    StableHlo.TRef.unary main_call3.v0 main_call3.v1 (broadcastInDim S1x10 ![1] bcast_S10_S1x10_1),
    StableHlo.TRef.nullary main_call3.cst_0 (constant S_ .f32 0x46000000#32),
    StableHlo.TRef.unary main_call3.cst_0 main_call3.v2 (broadcastInDim S1x10 ![] bcast_S_S1x10),
    StableHlo.TRef.binary main_call3.v1 main_call3.v2 main_call3.v3 Host.divf,
    StableHlo.TRef.unary main_call3.v3 main_call3.v4 (broadcastInDim S8192x10 ![0, 1] bcast_S1x10_S8192x10_0_1),
    StableHlo.TRef.binary (TRef.of main_v88 : StableHlo.TRef sig ⟨S8192x10, .f32⟩) main_call3.v4 main_call3.v5 subf,
    StableHlo.TRef.binary main_call3.v5 main_call3.v5 main_call3.v6 mulf,
    StableHlo.TRef.unary (TRef.of main_c_12 : StableHlo.TRef sig ⟨S_, .i32⟩) main_call3.v7 (sitofp .f32),
    StableHlo.TRef.nullary main_call3.cst_1 (constant S_ .f32 0x46000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S8192x10_S10_d0 h_S_),
    StableHlo.TRef.unary main_call3.v8 main_call3.v10 (broadcastInDim S10 ![] bcast_S_S10),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S10 ![] bcast_S_S10),
    StableHlo.TRef.ternary main_call3.v12 main_call3.v11 main_call3.call0.v1 main_call3.call0.v2 (fun p a b => select (broadcastInDim S10 ![] bcast_S_S10 p) a b),
    StableHlo.unary main_v91 main_v93 (broadcastInDim S1x10 ![1] bcast_S10_S1x10_1 : (⟨S10, .f32⟩ : BufTy).Contents (Elt F) → (⟨S1x10, .f32⟩ : BufTy).Contents (Elt F)),
    StableHlo.unary main_v93 main_v94 (broadcastInDim S8192x10 ![0, 1] bcast_S1x10_S8192x10_0_1 : (⟨S1x10, .f32⟩ : BufTy).Contents (Elt F) → (⟨S8192x10, .f32⟩ : BufTy).Contents (Elt F)),
    StableHlo.binary main_v88 main_v94 main_v95 (subf : (⟨S8192x10, .f32⟩ : BufTy).Contents (Elt F) → (⟨S8192x10, .f32⟩ : BufTy).Contents (Elt F) → (⟨S8192x10, .f32⟩ : BufTy).Contents (Elt F)),
    StableHlo.nullary main_cst_13 (constant S_ .f32 0x3727C5AC#32),
    StableHlo.unary main_cst_13 main_v96 (broadcastInDim S10 ![] bcast_S_S10 : (⟨S_, .f32⟩ : BufTy).Contents (Elt F) → (⟨S10, .f32⟩ : BufTy).Contents (Elt F)),
    StableHlo.binary main_v92 main_v96 main_v97 (addf : (⟨S10, .f32⟩ : BufTy).Contents (Elt F) → (⟨S10, .f32⟩ : BufTy).Contents (Elt F) → (⟨S10, .f32⟩ : BufTy).Contents (Elt F)),
    StableHlo.unary main_v97 main_v98 (Host.rsqrt : (⟨S10, .f32⟩ : BufTy).Contents (Elt F) → (⟨S10, .f32⟩ : BufTy).Contents (Elt F)),
    StableHlo.unary main_v98 main_v99 (broadcastInDim S1x10 ![1] bcast_S10_S1x10_1 : (⟨S10, .f32⟩ : BufTy).Contents (Elt F) → (⟨S1x10, .f32⟩ : BufTy).Contents (Elt F)),
    StableHlo.unary main_v99 main_v100 (broadcastInDim S8192x10 ![0, 1] bcast_S1x10_S8192x10_0_1 : (⟨S1x10, .f32⟩ : BufTy).Contents (Elt F) → (⟨S8192x10, .f32⟩ : BufTy).Contents (Elt F)),
    StableHlo.binary main_v95 main_v100 main_v101 (mulf : (⟨S8192x10, .f32⟩ : BufTy).Contents (Elt F) → (⟨S8192x10, .f32⟩ : BufTy).Contents (Elt F) → (⟨S8192x10, .f32⟩ : BufTy).Contents (Elt F)),
    StableHlo.unary main_arg11 main_v102 (broadcastInDim S1x10 ![1] bcast_S10_S1x10_1 : (⟨S10, .f32⟩ : BufTy).Contents (Elt F) → (⟨S1x10, .f32⟩ : BufTy).Contents (Elt F)),
    StableHlo.unary main_v102 main_v103 (broadcastInDim S8192x10 ![0, 1] bcast_S1x10_S8192x10_0_1 : (⟨S1x10, .f32⟩ : BufTy).Contents (Elt F) → (⟨S8192x10, .f32⟩ : BufTy).Contents (Elt F)) ]

/-- Layer four's scale and shift: the result. -/
abbrev opsD2 : List (HloOp τ sig (Elt F)) :=
  [ StableHlo.binary main_v101 main_v103 main_v104 (mulf : (⟨S8192x10, .f32⟩ : BufTy).Contents (Elt F) → (⟨S8192x10, .f32⟩ : BufTy).Contents (Elt F) → (⟨S8192x10, .f32⟩ : BufTy).Contents (Elt F)),
    StableHlo.unary main_arg12 main_v105 (broadcastInDim S1x10 ![1] bcast_S10_S1x10_1 : (⟨S10, .f32⟩ : BufTy).Contents (Elt F) → (⟨S1x10, .f32⟩ : BufTy).Contents (Elt F)),
    StableHlo.unary main_v105 main_v106 (broadcastInDim S8192x10 ![0, 1] bcast_S1x10_S8192x10_0_1 : (⟨S1x10, .f32⟩ : BufTy).Contents (Elt F) → (⟨S8192x10, .f32⟩ : BufTy).Contents (Elt F)),
    StableHlo.binary main_v104 main_v106 main_v107 (addf : (⟨S8192x10, .f32⟩ : BufTy).Contents (Elt F) → (⟨S8192x10, .f32⟩ : BufTy).Contents (Elt F) → (⟨S8192x10, .f32⟩ : BufTy).Contents (Elt F)) ]

/-- The operations of @main's first sixty statements, of its next sixty, and of its last five. -/
def opsP0 : List (HloOp τ sig (Elt F)) := opsA ++ opsB1
@[inherit_doc opsP0] def opsP1 : List (HloOp τ sig (Elt F)) := opsB2 ++ (opsC ++ opsD1)
@[inherit_doc opsP0] def opsP2 : List (HloOp τ sig (Elt F)) := opsD2
/-- @main's 208 operations, in order. -/
def ops : List (HloOp τ sig (Elt F)) := opsP0 ++ (opsP1 ++ opsP2)

set_option maxRecDepth 8192 in
set_option maxHeartbeats 4000000 in
theorem main_part0_eq (c : Dev nD) : main_part0 (F := F) c = seq opsP0 := rfl
set_option maxRecDepth 8192 in
set_option maxHeartbeats 4000000 in
theorem main_part1_eq (c : Dev nD) : main_part1 (F := F) c = seq opsP1 := rfl
theorem main_part2_eq (c : Dev nD) : main_part2 (F := F) c = seq opsP2 := rfl

/-- @main is the straight line of its operations: its three windows in order. -/
theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., binary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsB1_sub : (opsB1 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsB2_sub : (opsB2 : List (HloOp τ sig (Elt F))).Forall fun op => op.bufs ⊆ tcRefs τ sig :=
  unary_bufs_sub ..
set_option maxRecDepth 8192 in
theorem opsB2_fresh : (opsB2 : List (HloOp τ sig (Elt F))).Forall fun op => op.fresh = ∅ :=
  rfl
set_option maxRecDepth 8192 in
theorem opsC_sub : (opsC : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
set_option maxRecDepth 8192 in
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsD1_sub : (opsD1 : List (HloOp τ sig (Elt F))).Forall fun op => op.bufs ⊆ tcRefs τ sig :=
  ⟨unary_bufs_sub .., binary_bufs_sub .., binary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxRecDepth 8192 in
theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsD2_sub : (opsD2 : List (HloOp τ sig (Elt F))).Forall fun op => op.bufs ⊆ tcRefs τ sig :=
  ⟨binary_bufs_sub .., unary_bufs_sub .., unary_bufs_sub .., binary_bufs_sub ..⟩
set_option maxRecDepth 8192 in
theorem opsD2_fresh : (opsD2 : List (HloOp τ sig (Elt F))).Forall fun op => op.fresh = ∅ :=
  ⟨rfl, rfl, rfl, rfl⟩

/-- Membership in the whole line is membership in one of its six stretches. -/
theorem mem_ops {op : HloOp τ sig (Elt F)} (h : op ∈ (ops : List (HloOp τ sig (Elt F)))) :
    op ∈ (opsA : List (HloOp τ sig (Elt F))) ∨ op ∈ (opsB1 : List (HloOp τ sig (Elt F))) ∨ op ∈ (opsB2 : List (HloOp τ sig (Elt F))) ∨ op ∈ (opsC : List (HloOp τ sig (Elt F))) ∨ op ∈ (opsD1 : List (HloOp τ sig (Elt F))) ∨ op ∈ (opsD2 : List (HloOp τ sig (Elt F))) := by
  simp only [ops, opsP0, opsP1, opsP2, List.mem_append] at h
  tauto

theorem ops_sub : (ops : List (HloOp τ sig (Elt F))).Forall fun op => op.bufs ⊆ tcRefs τ sig :=
  List.forall_iff_forall_mem.mpr fun op h => by
    rcases mem_ops h with h | h | h | h | h | h
    exacts [List.forall_iff_forall_mem.mp opsA_sub op h, List.forall_iff_forall_mem.mp opsB1_sub op h, List.forall_iff_forall_mem.mp opsB2_sub op h, List.forall_iff_forall_mem.mp opsC_sub op h, List.forall_iff_forall_mem.mp opsD1_sub op h, List.forall_iff_forall_mem.mp opsD2_sub op h]

theorem ops_fresh : ∀ op ∈ (ops : List (HloOp τ sig (Elt F))), op.fresh = ∅ := fun op h => by
  rcases mem_ops h with h | h | h | h | h | h
  exacts [List.forall_iff_forall_mem.mp opsA_fresh op h, List.forall_iff_forall_mem.mp opsB1_fresh op h, List.forall_iff_forall_mem.mp opsB2_fresh op h, List.forall_iff_forall_mem.mp opsC_fresh op h, List.forall_iff_forall_mem.mp opsD1_fresh op h, List.forall_iff_forall_mem.mp opsD2_fresh op h]

/-- The whole line's contents are the six stretches' in turn. -/
theorem after_ops (V : Valuation τ sig (Elt F)) :
    after ops V = after opsD2 (after opsD1 (after opsC (after opsB2 (after opsB1 (after opsA V))))) := by
  simp only [ops, opsP0, opsP1, opsP2, after_append]

/-- The buffers the stretch writes. -/
abbrev opsA_W : List (Ref sig .tc) := [main_v0, main_v1, main_v2, main_v3, main_v4, main_cst, main_v5, main_cst_0, main_v6, main_v7, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8, main_v9, main_v10, main_v11, main_cst_1, main_v12, main_v13, main_v14, main_v15, main_v16, main_v17, main_v18, main_v19, main_v20, main_v21, main_v22, main_v23, main_v24]
set_option maxRecDepth 8192 in
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- The buffers the stretch writes. -/
abbrev opsB1_W : List (Ref sig .tc) := [main_v25, main_v26, main_v27, main_v28, main_v29, main_v30, main_v31, main_v32, main_cst_2, main_v33, main_cst_3, main_v34, main_v35, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v36, main_v37, main_v38, main_v39, main_cst_5, main_v40, main_v41, main_v42, main_v43, main_v44, main_v45, main_v46, main_v47, main_v48, main_v49, main_v50, main_v51]
set_option maxRecDepth 8192 in
theorem opsB1_writes : (opsB1 : List (HloOp τ sig (Elt F))).Forall fun op => op.writes ⊆ (opsB1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem keepB1 (V : Valuation τ sig (Elt F)) (r : Ref sig .tc) (h : r ∉ opsB1_W) :
    after opsB1 V (Proc.devRef .tc r) = V (Proc.devRef .tc r) :=
  after_of_writes_sub opsB1 V opsB1_writes h

/-- The buffers the stretch writes. -/
abbrev opsB2_W : List (Ref sig .tc) := [main_v52]
set_option maxRecDepth 8192 in
theorem opsB2_writes : (opsB2 : List (HloOp τ sig (Elt F))).Forall fun op => op.writes ⊆ (opsB2_W.map (Proc.devRef (τ := τ) .tc)).toFinset := by
  simp only [List.Forall]
  exact (by simp only [nullary_writes, unary_writes, binary_writes, ternary_writes, Finset.singleton_subset_iff, List.mem_toFinset]; exact List.mem_map_of_mem (by decide))
/-- A buffer the stretch does not write keeps its contents through it. -/
theorem keepB2 (V : Valuation τ sig (Elt F)) (r : Ref sig .tc) (h : r ∉ opsB2_W) :
    after opsB2 V (Proc.devRef .tc r) = V (Proc.devRef .tc r) :=
  after_of_writes_sub opsB2 V opsB2_writes h

/-- The buffers the stretch writes. -/
abbrev opsC_W : List (Ref sig .tc) := [main_v53, main_v54, main_v55, main_v56, main_v57, main_v58, main_v59, main_v60, main_cst_6, main_v61, main_cst_7, main_v62, main_v63, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v64, main_v65, main_v66, main_v67, main_cst_9, main_v68, main_v69, main_v70, main_v71, main_v72, main_v73, main_v74, main_v75, main_v76, main_v77, main_v78, main_v79, main_v80]
set_option maxRecDepth 8192 in
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- The buffers the stretch writes. -/
abbrev opsD1_W : List (Ref sig .tc) := [main_v81, main_v82, main_v83, main_v84, main_v85, main_v86, main_v87, main_v88, main_cst_10, main_v89, main_cst_11, main_v90, main_v91, main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v92, main_v93, main_v94, main_v95, main_cst_13, main_v96, main_v97, main_v98, main_v99, main_v100, main_v101, main_v102, main_v103]
set_option maxRecDepth 8192 in
theorem opsD1_writes : (opsD1 : List (HloOp τ sig (Elt F))).Forall fun op => op.writes ⊆ (opsD1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem keepD1 (V : Valuation τ sig (Elt F)) (r : Ref sig .tc) (h : r ∉ opsD1_W) :
    after opsD1 V (Proc.devRef .tc r) = V (Proc.devRef .tc r) :=
  after_of_writes_sub opsD1 V opsD1_writes h

/-- The buffers the stretch writes. -/
abbrev opsD2_W : List (Ref sig .tc) := [main_v104, main_v105, main_v106, main_v107]
set_option maxRecDepth 8192 in
theorem opsD2_writes : (opsD2 : List (HloOp τ sig (Elt F))).Forall fun op => op.writes ⊆ (opsD2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem keepD2 (V : Valuation τ sig (Elt F)) (r : Ref sig .tc) (h : r ∉ opsD2_W) :
    after opsD2 V (Proc.devRef .tc r) = V (Proc.devRef .tc r) :=
  after_of_writes_sub opsD2 V opsD2_writes h

/-! ## The pieces of one layer -/

/-- An f32 array of shape `s`. -/
abbrev Arr (F : FTy → Type) (s : Shape) : Type := (⟨s, .f32⟩ : BufTy).Contents (Elt F)

/-- The straight-through binarisation h + (sign h − h). -/
def ste4096 (h : Arr F S8192x4096) : Arr F S8192x4096 :=
  addf h (subf (Host.sign h) h)

/-- The weights binarised the same way, then transposed. -/
def binT1 (w : Arr F S4096x784) : Arr F S784x4096 :=
  transpose S784x4096 [1, 0] (addf w (subf (Host.sign w) w)) transposes_S4096x784_S784x4096_1_0
@[inherit_doc binT1] def binT23 (w : Arr F S4096x4096) : Arr F S4096x4096 :=
  transpose S4096x4096 [1, 0] (addf w (subf (Host.sign w) w)) transposes_S4096x4096_S4096x4096_1_0
@[inherit_doc binT1] def binT4 (w : Arr F S10x4096) : Arr F S4096x10 :=
  transpose S4096x10 [1, 0] (addf w (subf (Host.sign w) w)) transposes_S10x4096_S4096x10_1_0

/-- The first layer's product: the input against the binarised, transposed weights. -/
def lin1 (x : Arr F S8192x784) (w : Arr F S4096x784) : Arr F S8192x4096 :=
  Host.dotGeneral dot_S8192x784_S784x4096_S8192x4096_1_0_0_1_n_n none x (binT1 w)
/-- A later layer's product: the binarised activations against the binarised, transposed weights. -/
def lin23 (a : Arr F S8192x4096) (w : Arr F S4096x4096) : Arr F S8192x4096 :=
  Host.dotGeneral dot_S8192x4096_S4096x4096_S8192x4096_1_0_0_1_n_n none (ste4096 a) (binT23 w)
@[inherit_doc lin23] def lin4 (a : Arr F S8192x4096) (w : Arr F S10x4096) : Arr F S8192x10 :=
  Host.dotGeneral dot_S8192x4096_S4096x10_S8192x10_1_0_0_1_n_n none (ste4096 a) (binT4 w)

/-- The count the variance divides by: 8192 less the converted integer word 0. -/
def cnt (F : FTy → Type) [FloatOps F] : Arr F S_ :=
  subf (constant S_ .f32 0x46000000#32) (sitofp .f32 (constantI S_ 32 0#32))

/-- A row broadcast down the batch axis. -/
def rowB4096 (g : Arr F S4096) : Arr F S8192x4096 :=
  broadcastInDim S8192x4096 ![0, 1] bcast_S1x4096_S8192x4096_0_1 (broadcastInDim S1x4096 ![1] bcast_S4096_S1x4096_1 g)
/-- The column mean: the column sum from 0, over 8192. -/
def mean4096 (y : Arr F S8192x4096) : Arr F S4096 :=
  Host.divf (Host.reduceAdd y (constant S_ .f32 0x00000000#32) reducesTo_S8192x4096_S4096_d0 h_S_) (broadcastInDim S4096 ![] bcast_S_S4096 (constant S_ .f32 0x46000000#32))
/-- The deviations from the column mean (that mean formed as a one-row array and broadcast). -/
def dev4096 (y : Arr F S8192x4096) : Arr F S8192x4096 :=
  subf y (broadcastInDim S8192x4096 ![0, 1] bcast_S1x4096_S8192x4096_0_1 (Host.divf (broadcastInDim S1x4096 ![1] bcast_S4096_S1x4096_1 (Host.reduceAdd y (constant S_ .f32 0x00000000#32) reducesTo_S8192x4096_S4096_d0 h_S_)) (broadcastInDim S1x4096 ![] bcast_S_S1x4096 (constant S_ .f32 0x46000000#32))))
/-- The column variance: the column sum of squared deviations over the count, kept where the count is positive, the
    filler word elsewhere. -/
def var4096 (y : Arr F S8192x4096) : Arr F S4096 :=
  select (broadcastInDim S4096 ![] bcast_S_S4096 (cmpf .ogt (cnt F) (constant S_ .f32 0x00000000#32))) (Host.divf (Host.reduceAdd (mulf (dev4096 y) (dev4096 y)) (constant S_ .f32 0x00000000#32) reducesTo_S8192x4096_S4096_d0 h_S_) (broadcastInDim S4096 ![] bcast_S_S4096 (cnt F))) (broadcastInDim S4096 ![] bcast_S_S4096 (constant S_ .f32 0x7FC00000#32))
/-- (y − mean) · rsqrt(var + ε), the row statistics broadcast down the batch axis. -/
def norm4096 (y : Arr F S8192x4096) : Arr F S8192x4096 :=
  mulf (subf y (rowB4096 (mean4096 y))) (rowB4096 (Host.rsqrt (addf (var4096 y) (broadcastInDim S4096 ![] bcast_S_S4096 (constant S_ .f32 0x3727C5AC#32)))))
/-- The batch normalisation: the normalised product scaled by g and shifted by b. -/
def bn4096 (y : Arr F S8192x4096) (g b : Arr F S4096) : Arr F S8192x4096 :=
  addf (mulf (norm4096 y) (rowB4096 g)) (rowB4096 b)

@[inherit_doc rowB4096] def rowB10 (g : Arr F S10) : Arr F S8192x10 :=
  broadcastInDim S8192x10 ![0, 1] bcast_S1x10_S8192x10_0_1 (broadcastInDim S1x10 ![1] bcast_S10_S1x10_1 g)
@[inherit_doc mean4096] def mean10 (y : Arr F S8192x10) : Arr F S10 :=
  Host.divf (Host.reduceAdd y (constant S_ .f32 0x00000000#32) reducesTo_S8192x10_S10_d0 h_S_) (broadcastInDim S10 ![] bcast_S_S10 (constant S_ .f32 0x46000000#32))
@[inherit_doc dev4096] def dev10 (y : Arr F S8192x10) : Arr F S8192x10 :=
  subf y (broadcastInDim S8192x10 ![0, 1] bcast_S1x10_S8192x10_0_1 (Host.divf (broadcastInDim S1x10 ![1] bcast_S10_S1x10_1 (Host.reduceAdd y (constant S_ .f32 0x00000000#32) reducesTo_S8192x10_S10_d0 h_S_)) (broadcastInDim S1x10 ![] bcast_S_S1x10 (constant S_ .f32 0x46000000#32))))
@[inherit_doc var4096] def var10 (y : Arr F S8192x10) : Arr F S10 :=
  select (broadcastInDim S10 ![] bcast_S_S10 (cmpf .ogt (cnt F) (constant S_ .f32 0x00000000#32))) (Host.divf (Host.reduceAdd (mulf (dev10 y) (dev10 y)) (constant S_ .f32 0x00000000#32) reducesTo_S8192x10_S10_d0 h_S_) (broadcastInDim S10 ![] bcast_S_S10 (cnt F))) (broadcastInDim S10 ![] bcast_S_S10 (constant S_ .f32 0x7FC00000#32))
@[inherit_doc norm4096] def norm10 (y : Arr F S8192x10) : Arr F S8192x10 :=
  mulf (subf y (rowB10 (mean10 y))) (rowB10 (Host.rsqrt (addf (var10 y) (broadcastInDim S10 ![] bcast_S_S10 (constant S_ .f32 0x3727C5AC#32)))))
@[inherit_doc bn4096] def bn10 (y : Arr F S8192x10) (g b : Arr F S10) : Arr F S8192x10 :=
  addf (mulf (norm10 y) (rowB10 g)) (rowB10 b)

/-! ## What each stretch leaves in the buffers later stretches read -/

set_option maxRecDepth 8192 in
set_option maxHeartbeats 4000000 in
theorem A_v24 (V : Valuation τ sig (Elt F)) :
    after opsA V (Proc.devRef .tc main_v24) = Host.sign (bn4096 (lin1 (V (Proc.devRef .tc main_arg0)) (V (Proc.devRef .tc main_arg1))) (V (Proc.devRef .tc main_arg5)) (V (Proc.devRef .tc main_arg6))) := by
  simp only [opsA]
  after_results_simp
  rfl
set_option maxRecDepth 8192 in
set_option maxHeartbeats 4000000 in
theorem B1_v51 (V : Valuation τ sig (Elt F)) :
    after opsB1 V (Proc.devRef .tc main_v51) = bn4096 (lin23 (V (Proc.devRef .tc main_v24)) (V (Proc.devRef .tc main_arg2))) (V (Proc.devRef .tc main_arg7)) (V (Proc.devRef .tc main_arg8)) := by
  simp only [opsB1]
  after_results_simp
  rfl
set_option maxRecDepth 8192 in
set_option maxHeartbeats 4000000 in
theorem B2_v52 (V : Valuation τ sig (Elt F)) :
    after opsB2 V (Proc.devRef .tc main_v52) = Host.sign (V (Proc.devRef .tc main_v51) : Arr F S8192x4096) := by
  simp only [opsB2]
  after_results_simp
set_option maxRecDepth 8192 in
set_option maxHeartbeats 4000000 in
theorem C_v80 (V : Valuation τ sig (Elt F)) :
    after opsC V (Proc.devRef .tc main_v80) = Host.sign (bn4096 (lin23 (V (Proc.devRef .tc main_v52)) (V (Proc.devRef .tc main_arg3))) (V (Proc.devRef .tc main_arg9)) (V (Proc.devRef .tc main_arg10))) := by
  simp only [opsC]
  after_results_simp
  rfl
set_option maxRecDepth 8192 in
set_option maxHeartbeats 4000000 in
theorem D1_v101 (V : Valuation τ sig (Elt F)) :
    after opsD1 V (Proc.devRef .tc main_v101) = norm10 (lin4 (V (Proc.devRef .tc main_v80)) (V (Proc.devRef .tc main_arg4))) := by
  simp only [opsD1]
  after_results_simp
  rfl
set_option maxRecDepth 8192 in
set_option maxHeartbeats 4000000 in
theorem D1_v103 (V : Valuation τ sig (Elt F)) :
    after opsD1 V (Proc.devRef .tc main_v103) = rowB10 (V (Proc.devRef .tc main_arg11)) := by
  simp only [opsD1]
  after_results_simp
  rfl
set_option maxRecDepth 8192 in
set_option maxHeartbeats 4000000 in
theorem D2_v107 (V : Valuation τ sig (Elt F)) :
    after opsD2 V (Proc.devRef .tc main_v107) = addf (mulf (V (Proc.devRef .tc main_v101) : Arr F S8192x10) (V (Proc.devRef .tc main_v103) : Arr F S8192x10)) (rowB10 (V (Proc.devRef .tc main_arg12))) := by
  simp only [opsD2]
  after_results_simp
  rfl

/-! ## The whole network -/

/-- The first hidden layer: the sign of the normalised first product. -/
def hid1 (x : Arr F S8192x784) (w : Arr F S4096x784) (g b : Arr F S4096) : Arr F S8192x4096 :=
  Host.sign (bn4096 (lin1 x w) g b)
/-- A later hidden layer, from the previous layer's signs. -/
def hid (a : Arr F S8192x4096) (w : Arr F S4096x4096) (g b : Arr F S4096) : Arr F S8192x4096 :=
  Host.sign (bn4096 (lin23 a w) g b)
/-- The last layer: the normalised last product, no sign. -/
def out (a : Arr F S8192x4096) (w : Arr F S10x4096) (g b : Arr F S10) : Arr F S8192x10 :=
  bn10 (lin4 a w) g b
/-- The operations' composed term of the thirteen argument arrays. -/
def resOf (x : Arr F S8192x784) (w1 : Arr F S4096x784) (w2 : Arr F S4096x4096) (w3 : Arr F S4096x4096) (w4 : Arr F S10x4096) (g1 : Arr F S4096) (b1 : Arr F S4096) (g2 : Arr F S4096) (b2 : Arr F S4096) (g3 : Arr F S4096) (b3 : Arr F S4096) (g4 : Arr F S10) (b4 : Arr F S10) : Arr F S8192x10 :=
  out (hid (hid (hid1 x w1 g1 b1) w2 g2 b2) w3 g3 b3) w4 g4 b4

/-- An argument buffer, written by no operation, keeps its contents through the whole line. -/
theorem keep_ops (V : Valuation τ sig (Elt F)) (r : Ref sig .tc) (hA : r ∉ opsA_W) (hB1 : r ∉ opsB1_W) (hB2 : r ∉ opsB2_W)
    (hC : r ∉ opsC_W) (hD1 : r ∉ opsD1_W) (hD2 : r ∉ opsD2_W) :
    after ops V (Proc.devRef .tc r) = V (Proc.devRef .tc r) := by
  rw [after_ops, keepD2 _ r hD2, keepD1 _ r hD1, keepC _ r hC, keepB2 _ r hB2, keepB1 _ r hB1, keepA _ r hA]

/-- The result buffer after the whole line: the composed term of the arguments' contents. -/
theorem after_ops_v107 (V : Valuation τ sig (Elt F)) :
    after ops V (Proc.devRef .tc main_v107) = resOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops,
    D2_v107,
    D1_v101,
    D1_v103,
    keepD1 _ main_arg12 (by decide),
    C_v80,
    keepC _ main_arg4 (by decide),
    keepC _ main_arg11 (by decide),
    keepC _ main_arg12 (by decide),
    B2_v52,
    keepB2 _ main_arg3 (by decide),
    keepB2 _ main_arg9 (by decide),
    keepB2 _ main_arg10 (by decide),
    keepB2 _ main_arg4 (by decide),
    keepB2 _ main_arg11 (by decide),
    keepB2 _ main_arg12 (by decide),
    B1_v51,
    keepB1 _ main_arg3 (by decide),
    keepB1 _ main_arg9 (by decide),
    keepB1 _ main_arg10 (by decide),
    keepB1 _ main_arg4 (by decide),
    keepB1 _ main_arg11 (by decide),
    keepB1 _ main_arg12 (by decide),
    A_v24,
    keepA _ main_arg2 (by decide),
    keepA _ main_arg7 (by decide),
    keepA _ main_arg8 (by decide),
    keepA _ main_arg3 (by decide),
    keepA _ main_arg9 (by decide),
    keepA _ main_arg10 (by decide),
    keepA _ main_arg4 (by decide),
    keepA _ main_arg11 (by decide),
    keepA _ main_arg12 (by decide)]
  rfl

end Cert.ReferenceIdeal.RefValue

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«144054_j58213986730442_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«144054_j58213986730442_2_alg».proof.Proof.LibDenseRows
import proofs.«144054_j58213986730442_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«144054_j58213986730442_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.RefRead.lean ====
/-
  The reference network's operations, read one entry at a time over the extended reals, for any batch size B and widths K, N.

  A weight w is replaced by w + (sign w − w). A product of an [B, K] array with the transposed [N, K] binarised weight is, at (p, j),
  the sum over k of h (p, k) · (w (j, k) + (sign w (j, k) − w (j, k))). The column mean is (0 + ∑ₚ y (p, j)) / 8192. The column
  variance is the sum of squared deviations from that mean, from zero, over the count 8192 − d, kept where the count is positive.
  The normalisation subtracts the mean, multiplies by the reciprocal square root of variance plus the floor offset, by the gain,
  and adds the shift, each laid along the rows. A hidden layer ends with sign s followed by s + (sign s − s).
-/
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import proofs.«144054_j58213986730442_2_alg».proof.Proof.Spec
import proofs.«144054_j58213986730442_2_alg».proof.Proof.LibGraphConv

noncomputable section

open scoped BigOperators

namespace Cert.ReferenceIdeal.RefRead

open Idealize.ShloMosaic Idealize.ShloMosaic.ValueIdx

variable {B K N : ℕ}

/-! ## The shape relations one layer of width N over a batch of B rows uses -/

/-- The column reduction of an [B, N] array, the scalar laid over [N] and over [1, N], an [N] vector laid as one row, one row laid
    down B rows. -/
structure LayerFacts (B N : ℕ) : Prop where
  hr : (⟨2, ![B, N]⟩ : Shape).ReducesTo [0] ⟨1, ![N]⟩
  h0 : 0 < (⟨0, ![]⟩ : Shape).numel
  hb : (⟨0, ![]⟩ : Shape).BroadcastsInDim ⟨1, ![N]⟩ ![]
  h1 : (⟨1, ![N]⟩ : Shape).BroadcastsInDim ⟨2, ![1, N]⟩ ![1]
  h01 : (⟨0, ![]⟩ : Shape).BroadcastsInDim ⟨2, ![1, N]⟩ ![]
  h2 : (⟨2, ![1, N]⟩ : Shape).BroadcastsInDim ⟨2, ![B, N]⟩ ![0, 1]

/-! ## Binarisation -/

/-- w + (sign w − w), entry by entry. -/
def bin {s : Shape} (W : FVec Ideal s .f32) : FVec Ideal s .f32 := addf W (subf (Host.sign W) W)

theorem bin_apply {s : Shape} (W : FVec Ideal s .f32) (i : s.Idx) : bin W i = Cert.Bnn.ste (W i) := rfl

/-- The binarised [N, K] weight transposed to [K, N]. -/
def binT (ht : (⟨2, ![N, K]⟩ : Shape).Transposes [1, 0] ⟨2, ![K, N]⟩) (W : FVec Ideal ⟨2, ![N, K]⟩ .f32) :
    FVec Ideal ⟨2, ![K, N]⟩ .f32 :=
  transpose ⟨2, ![K, N]⟩ [1, 0] (bin W) ht

theorem binT_apply (ht : (⟨2, ![N, K]⟩ : Shape).Transposes [1, 0] ⟨2, ![K, N]⟩) (W : FVec Ideal ⟨2, ![N, K]⟩ .f32)
    (k : Fin K) (j : Fin N) : binT ht W (ix2 k j) = Cert.Bnn.ste (W (ix2 j k)) :=
  transpose_ix2_apply (bin W) ht k j

/-! ## The product with the binarised weight -/

/-- The rows of h against the rows of the binarised weight. -/
def prod (D : DotDims ⟨2, ![B, K]⟩ ⟨2, ![K, N]⟩ ⟨2, ![B, N]⟩) (ht : (⟨2, ![N, K]⟩ : Shape).Transposes [1, 0] ⟨2, ![K, N]⟩)
    (h : FVec Ideal ⟨2, ![B, K]⟩ .f32) (W : FVec Ideal ⟨2, ![N, K]⟩ .f32) : FVec Ideal ⟨2, ![B, N]⟩ .f32 :=
  Host.dotGeneral D none h (binT ht W)

/-- At (p, j): ∑ₖ h (p, k) · ste (w (j, k)). -/
theorem prod_apply (D : DotDims ⟨2, ![B, K]⟩ ⟨2, ![K, N]⟩ ⟨2, ![B, N]⟩) (hD : D = DotDims.plain B K N)
    (ht : (⟨2, ![N, K]⟩ : Shape).Transposes [1, 0] ⟨2, ![K, N]⟩)
    (h : FVec Ideal ⟨2, ![B, K]⟩ .f32) (W : FVec Ideal ⟨2, ![N, K]⟩ .f32) (p : Fin B) (j : Fin N) :
    prod D ht h W (ix2 p j)
      = Cert.Bnn.mm (fun p k => h (ix2 p k)) (fun j k => Cert.Bnn.ste (W (ix2 j k))) p j := by
  refine (Cert.GraphConv.hostMM_apply D hD none h (binT ht W) p j).trans ?_
  exact Finset.sum_congr rfl fun k _ => congrArg (h (ix2 p k) * ·) (binT_apply ht W k j)

theorem prod_fun (D : DotDims ⟨2, ![B, K]⟩ ⟨2, ![K, N]⟩ ⟨2, ![B, N]⟩) (hD : D = DotDims.plain B K N)
    (ht : (⟨2, ![N, K]⟩ : Shape).Transposes [1, 0] ⟨2, ![K, N]⟩)
    (h : FVec Ideal ⟨2, ![B, K]⟩ .f32) (W : FVec Ideal ⟨2, ![N, K]⟩ .f32) :
    (fun (p : Fin B) (j : Fin N) => prod D ht h W (ix2 p j))
      = Cert.Bnn.mm (fun p k => h (ix2 p k)) (fun j k => Cert.Bnn.ste (W (ix2 j k))) :=
  funext fun p => funext fun j => prod_apply D hD ht h W p j

/-! ## Sums down the columns, and arrays laid along the rows -/

/-- The sum of an [B, N] array over its first axis, from an initial value, at j. -/
theorem colSum_apply {u : Shape} (y : FVec Ideal ⟨2, ![B, N]⟩ .f32) (init : u.Idx → Ideal .f32)
    (hr : (⟨2, ![B, N]⟩ : Shape).ReducesTo [0] ⟨1, ![N]⟩) (hu : 0 < u.numel) (j : Fin N) :
    Host.reduceAdd y init hr hu (ix1 j) = init (Shape.Idx.first hu) + ∑ p : Fin B, y (ix2 p j) := by
  have hr' : (⟨2, ![B, N]⟩ : Shape).Reduces [0] ⟨1, ![N]⟩ := ⟨hr.1, Nat.one_pos, hr.2⟩
  refine (hostReduceAdd_apply y init hr hu (ix1 j)).trans ?_
  refine (Ideal.hostReduceAdd_single hr hr' y _ (ix1 j)).trans ?_
  refine congrArg (fun s => init (Shape.Idx.first hu) + s) ?_
  refine Finset.sum_congr rfl fun k _ => congrArg y (funext fun c => Fin.ext ?_)
  rw [hr'.lift_val]
  match c with
  | ⟨0, _⟩ => rfl
  | ⟨1, _⟩ => rfl

/-- An [N] vector laid as one row reads, at (u, j), the vector at j. -/
theorem oneRow_apply {α : Type} (h1 : (⟨1, ![N]⟩ : Shape).BroadcastsInDim ⟨2, ![1, N]⟩ ![1])
    (v : (⟨1, ![N]⟩ : Shape).Idx → α) (u : Fin 1) (j : Fin N) :
    broadcastInDim ⟨2, ![1, N]⟩ ![1] h1 v (ix2 u j) = v (ix1 j) := by
  refine broadcastInDim_apply ![1] h1 v (ix2 u j) (ix1 j) fun a => ?_
  match a with
  | ⟨0, _⟩ =>
    show j.val = if N = 1 then 0 else j.val
    split
    · have := j.isLt; omega
    · rfl

/-- An [N] vector laid along every row of an [B, N] array. -/
def rowB (f : LayerFacts B N) (v : FVec Ideal ⟨1, ![N]⟩ .f32) : FVec Ideal ⟨2, ![B, N]⟩ .f32 :=
  broadcastInDim ⟨2, ![B, N]⟩ ![0, 1] f.h2 (broadcastInDim ⟨2, ![1, N]⟩ ![1] f.h1 v)

theorem rowB_apply (f : LayerFacts B N) (v : FVec Ideal ⟨1, ![N]⟩ .f32) (p : Fin B) (j : Fin N) :
    rowB f v (ix2 p j) = v (ix1 j) :=
  (broadcastInDim_oneRow_apply f.h2 _ p j).trans (oneRow_apply f.h1 v 0 j)

/-! ## The column mean -/

/-- (0 + the column sum) / 8192, as an [N] vector. -/
def mean (f : LayerFacts B N) (y : FVec Ideal ⟨2, ![B, N]⟩ .f32) : FVec Ideal ⟨1, ![N]⟩ .f32 :=
  Host.divf (Host.reduceAdd y (constant (F := Ideal) ⟨0, ![]⟩ .f32 0x00000000#32) f.hr f.h0)
    (broadcastInDim ⟨1, ![N]⟩ ![] f.hb (constant (F := Ideal) ⟨0, ![]⟩ .f32 0x46000000#32))

theorem mean_apply (f : LayerFacts B N) (y : FVec Ideal ⟨2, ![B, N]⟩ .f32) (j : Fin N) :
    mean f y (ix1 j) = Cert.Bnn.meanR (fun p j => y (ix2 p j)) j :=
  congrArg₂ Ideal.div (colSum_apply y _ f.hr f.h0 j) (broadcastInDim_scalar_apply f.hb _ (ix1 j))

/-! ## The column variance -/

/-- The mean as the variance computes it: the column sum laid as one row, divided by 8192 there, then laid down the rows. -/
def varMean (f : LayerFacts B N) (y : FVec Ideal ⟨2, ![B, N]⟩ .f32) : FVec Ideal ⟨2, ![B, N]⟩ .f32 :=
  broadcastInDim ⟨2, ![B, N]⟩ ![0, 1] f.h2
    (Host.divf
      (broadcastInDim ⟨2, ![1, N]⟩ ![1] f.h1 (Host.reduceAdd y (constant (F := Ideal) ⟨0, ![]⟩ .f32 0x00000000#32) f.hr f.h0))
      (broadcastInDim ⟨2, ![1, N]⟩ ![] f.h01 (constant (F := Ideal) ⟨0, ![]⟩ .f32 0x46000000#32)))

theorem varMean_apply (f : LayerFacts B N) (y : FVec Ideal ⟨2, ![B, N]⟩ .f32) (p : Fin B) (j : Fin N) :
    varMean f y (ix2 p j) = Cert.Bnn.meanR (fun p j => y (ix2 p j)) j :=
  (broadcastInDim_oneRow_apply f.h2 _ p j).trans
    (congrArg₂ Ideal.div ((oneRow_apply f.h1 _ 0 j).trans (colSum_apply y _ f.hr f.h0 j))
      (broadcastInDim_scalar_apply f.h01 _ (ix2 (0 : Fin 1) j)))

/-- The count 8192 − (the converted degrees-of-freedom word), a scalar. -/
def cnt (c : IVec ⟨0, ![]⟩ 32) : FVec Ideal ⟨0, ![]⟩ .f32 :=
  subf (constant (F := Ideal) ⟨0, ![]⟩ .f32 0x46000000#32) (sitofp .f32 c)

theorem cnt_apply (c : IVec ⟨0, ![]⟩ 32) :
    cnt c ix0 = Cert.Bnn.wN - FloatOps.sitofp (F := Ideal) .f32 (c ix0) := rfl

/-- The squared deviations summed down the columns from zero, over the count, kept where the count is positive. -/
def var (f : LayerFacts B N) (y : FVec Ideal ⟨2, ![B, N]⟩ .f32) (c : IVec ⟨0, ![]⟩ 32) : FVec Ideal ⟨1, ![N]⟩ .f32 :=
  select (broadcastInDim ⟨1, ![N]⟩ ![] f.hb (cmpf .ogt (cnt c) (constant (F := Ideal) ⟨0, ![]⟩ .f32 0x00000000#32)))
    (Host.divf
      (Host.reduceAdd (mulf (subf y (varMean f y)) (subf y (varMean f y)))
        (constant (F := Ideal) ⟨0, ![]⟩ .f32 0x00000000#32) f.hr f.h0)
      (broadcastInDim ⟨1, ![N]⟩ ![] f.hb (cnt c)))
    (broadcastInDim ⟨1, ![N]⟩ ![] f.hb (constant (F := Ideal) ⟨0, ![]⟩ .f32 0x7FC00000#32))

theorem var_apply (f : LayerFacts B N) (y : FVec Ideal ⟨2, ![B, N]⟩ .f32) (c : IVec ⟨0, ![]⟩ 32) (j : Fin N) :
    var f y c (ix1 j) = Cert.Bnn.varR (FloatOps.sitofp (F := Ideal) .f32 (c ix0)) (fun p j => y (ix2 p j)) j := by
  have hsq : ∀ p : Fin B, mulf (subf y (varMean f y)) (subf y (varMean f y)) (ix2 p j)
      = (y (ix2 p j) - Cert.Bnn.meanR (fun p j => y (ix2 p j)) j) * (y (ix2 p j) - Cert.Bnn.meanR (fun p j => y (ix2 p j)) j) :=
    fun p => congrArg (fun t => (y (ix2 p j) - t) * (y (ix2 p j) - t)) (varMean_apply f y p j)
  have hsum : Host.reduceAdd (mulf (subf y (varMean f y)) (subf y (varMean f y)))
        (constant (F := Ideal) ⟨0, ![]⟩ .f32 0x00000000#32) f.hr f.h0 (ix1 j)
      = Cert.Bnn.w0 + ∑ p : Fin B, (y (ix2 p j) - Cert.Bnn.meanR (fun p j => y (ix2 p j)) j)
          * (y (ix2 p j) - Cert.Bnn.meanR (fun p j => y (ix2 p j)) j) :=
    (colSum_apply _ _ f.hr f.h0 j).trans (congrArg (Cert.Bnn.w0 + ·) (Finset.sum_congr rfl fun p _ => hsq p))
  show Scalar.select
      (broadcastInDim ⟨1, ![N]⟩ ![] f.hb (cmpf .ogt (cnt c) (constant (F := Ideal) ⟨0, ![]⟩ .f32 0x00000000#32)) (ix1 j))
      (Ideal.div
        (Host.reduceAdd (mulf (subf y (varMean f y)) (subf y (varMean f y)))
          (constant (F := Ideal) ⟨0, ![]⟩ .f32 0x00000000#32) f.hr f.h0 (ix1 j))
        (broadcastInDim ⟨1, ![N]⟩ ![] f.hb (cnt c) (ix1 j)))
      (broadcastInDim ⟨1, ![N]⟩ ![] f.hb (constant (F := Ideal) ⟨0, ![]⟩ .f32 0x7FC00000#32) (ix1 j)) = _
  rw [hsum, broadcastInDim_scalar_apply f.hb (cnt c), broadcastInDim_scalar_apply f.hb (cmpf .ogt _ _),
    broadcastInDim_scalar_apply f.hb (constant (F := Ideal) ⟨0, ![]⟩ .f32 0x7FC00000#32)]
  rfl

/-! ## Normalisation and activation -/

/-- (y − mean) · rsqrt (var + floor offset), the mean and the factor laid along the rows. -/
def nrm (f : LayerFacts B N) (y : FVec Ideal ⟨2, ![B, N]⟩ .f32) (c : IVec ⟨0, ![]⟩ 32) : FVec Ideal ⟨2, ![B, N]⟩ .f32 :=
  mulf (subf y (rowB f (mean f y)))
    (rowB f (Host.rsqrt (addf (var f y c)
      (broadcastInDim ⟨1, ![N]⟩ ![] f.hb (constant (F := Ideal) ⟨0, ![]⟩ .f32 0x3727C5AC#32)))))

/-- z · gain + shift, both laid along the rows. -/
def aff (f : LayerFacts B N) (z : FVec Ideal ⟨2, ![B, N]⟩ .f32) (g b : FVec Ideal ⟨1, ![N]⟩ .f32) :
    FVec Ideal ⟨2, ![B, N]⟩ .f32 :=
  addf (mulf z (rowB f g)) (rowB f b)

/-- The whole batch normalisation. -/
def norm (f : LayerFacts B N) (y : FVec Ideal ⟨2, ![B, N]⟩ .f32) (c : IVec ⟨0, ![]⟩ 32) (g b : FVec Ideal ⟨1, ![N]⟩ .f32) :
    FVec Ideal ⟨2, ![B, N]⟩ .f32 :=
  aff f (nrm f y c) g b

theorem norm_apply (f : LayerFacts B N) (y : FVec Ideal ⟨2, ![B, N]⟩ .f32) (c : IVec ⟨0, ![]⟩ 32)
    (g b : FVec Ideal ⟨1, ![N]⟩ .f32) (p : Fin B) (j : Fin N) :
    norm f y c g b (ix2 p j)
      = Cert.Bnn.bnR (FloatOps.sitofp (F := Ideal) .f32 (c ix0)) (fun p j => y (ix2 p j)) (fun j => g (ix1 j))
          (fun j => b (ix1 j)) p j := by
  show (y (ix2 p j) - rowB f (mean f y) (ix2 p j))
        * rowB f (Host.rsqrt (addf (var f y c)
            (broadcastInDim ⟨1, ![N]⟩ ![] f.hb (constant (F := Ideal) ⟨0, ![]⟩ .f32 0x3727C5AC#32)))) (ix2 p j)
        * rowB f g (ix2 p j) + rowB f b (ix2 p j) = _
  rw [rowB_apply, rowB_apply, rowB_apply, rowB_apply, mean_apply]
  show (y (ix2 p j) - Cert.Bnn.meanR (fun p j => y (ix2 p j)) j)
        * Ideal.rsqrt (var f y c (ix1 j)
            + broadcastInDim ⟨1, ![N]⟩ ![] f.hb (constant (F := Ideal) ⟨0, ![]⟩ .f32 0x3727C5AC#32) (ix1 j))
        * g (ix1 j) + b (ix1 j) = _
  rw [var_apply, broadcastInDim_scalar_apply]
  rfl

theorem norm_fun (f : LayerFacts B N) (y : FVec Ideal ⟨2, ![B, N]⟩ .f32) (c : IVec ⟨0, ![]⟩ 32)
    (g b : FVec Ideal ⟨1, ![N]⟩ .f32) :
    (fun (p : Fin B) (j : Fin N) => norm f y c g b (ix2 p j))
      = Cert.Bnn.bnR (FloatOps.sitofp (F := Ideal) .f32 (c ix0)) (fun p j => y (ix2 p j)) (fun j => g (ix1 j))
          (fun j => b (ix1 j)) :=
  funext fun p => funext fun j => norm_apply f y c g b p j

/-- The sign s of z, then s + (sign s − s). -/
def act {s : Shape} (z : FVec Ideal s .f32) : FVec Ideal s .f32 := bin (Host.sign z)

theorem act_apply {s : Shape} (z : FVec Ideal s .f32) (i : s.Idx) : act z i = Cert.Bnn.ste (Ideal.sign (z i)) := rfl

theorem act_norm_fun (f : LayerFacts B N) (y : FVec Ideal ⟨2, ![B, N]⟩ .f32) (c : IVec ⟨0, ![]⟩ 32)
    (g b : FVec Ideal ⟨1, ![N]⟩ .f32) :
    (fun (p : Fin B) (j : Fin N) => act (norm f y c g b) (ix2 p j))
      = Cert.Bnn.actR (FloatOps.sitofp (F := Ideal) .f32 (c ix0)) (fun p j => y (ix2 p j)) (fun j => g (ix1 j))
          (fun j => b (ix1 j)) :=
  funext fun p => funext fun j => congrArg (fun t => Cert.Bnn.ste (Ideal.sign t)) (norm_apply f y c g b p j)

end Cert.ReferenceIdeal.RefRead

end
-- ==== Proof.RefRead2.lean ====
/-
  The reference network at its own sizes: a batch of 8192 rows through widths 784, 4096, 4096, 4096, 10.

  Each hidden layer multiplies by the binarised weight, normalises over the batch and binarises the sign; the last layer multiplies and
  normalises. Entry by entry the composed array is the network of the specification, the degrees-of-freedom word being the integer 0.
-/
import proofs.«144054_j58213986730442_2_alg».proof.ReferenceIdeal
import proofs.«144054_j58213986730442_2_alg».proof.Proof.RefRead

noncomputable section

open scoped BigOperators

namespace Cert.ReferenceIdeal.RefRead

open Idealize.ShloMosaic Idealize.ShloMosaic.ValueIdx
open Cert.ReferenceIdeal.Facts₀

variable [Facts]

/-! ## The shape relations of the two widths -/

theorem f4096 : LayerFacts 8192 4096 :=
  ⟨reducesTo_S8192x4096_S4096_d0, h_S_, bcast_S_S4096, bcast_S4096_S1x4096_1, bcast_S_S1x4096, bcast_S1x4096_S8192x4096_0_1⟩

theorem f10 : LayerFacts 8192 10 :=
  ⟨reducesTo_S8192x10_S10_d0, h_S_, bcast_S_S10, bcast_S10_S1x10_1, bcast_S_S1x10, bcast_S1x10_S8192x10_0_1⟩

/-! ## The degrees-of-freedom word -/

/-- The integer 0 as a 32-bit scalar. -/
abbrev dofI : IVec S_ 32 := constantI S_ 32 0#32

/-- Its conversion to a float, read over the extended reals. -/
def dof : EReal := FloatOps.sitofp (F := Ideal) .f32 (dofI ix0)

theorem dof_eq_zero : dof = 0 := by
  show (((0#32 : BitVec 32).toInt : ℝ) : EReal) = 0
  simp

/-! ## The three products are plain row-by-column products -/

theorem dot784_plain : dot_S8192x784_S784x4096_S8192x4096_1_0_0_1_n_n = DotDims.plain 8192 784 4096 := rfl
theorem dot4096_plain : dot_S8192x4096_S4096x4096_S8192x4096_1_0_0_1_n_n = DotDims.plain 8192 4096 4096 := rfl
theorem dot10_plain : dot_S8192x4096_S4096x10_S8192x10_1_0_0_1_n_n = DotDims.plain 8192 4096 10 := rfl

/-! ## The layers -/

/-- The first layer's product. -/
def y0 (X : FVec Ideal S8192x784 .f32) (W1 : FVec Ideal S4096x784 .f32) : FVec Ideal S8192x4096 .f32 :=
  prod dot_S8192x784_S784x4096_S8192x4096_1_0_0_1_n_n transposes_S4096x784_S784x4096_1_0 X W1

/-- The first hidden layer: product, normalisation, binarised sign. -/
def first (X : FVec Ideal S8192x784 .f32) (W1 : FVec Ideal S4096x784 .f32) (g1 b1 : FVec Ideal S4096 .f32) :
    FVec Ideal S8192x4096 .f32 :=
  act (norm f4096 (y0 X W1) dofI g1 b1)

/-- A product of width 4096 by 4096. -/
def ymid (h : FVec Ideal S8192x4096 .f32) (W : FVec Ideal S4096x4096 .f32) : FVec Ideal S8192x4096 .f32 :=
  prod dot_S8192x4096_S4096x4096_S8192x4096_1_0_0_1_n_n transposes_S4096x4096_S4096x4096_1_0 h W

/-- A middle hidden layer. -/
def mid (h : FVec Ideal S8192x4096 .f32) (W : FVec Ideal S4096x4096 .f32) (g b : FVec Ideal S4096 .f32) :
    FVec Ideal S8192x4096 .f32 :=
  act (norm f4096 (ymid h W) dofI g b)

/-- The last product, into width 10. -/
def ylast (h : FVec Ideal S8192x4096 .f32) (W4 : FVec Ideal S10x4096 .f32) : FVec Ideal S8192x10 .f32 :=
  prod dot_S8192x4096_S4096x10_S8192x10_1_0_0_1_n_n transposes_S10x4096_S4096x10_1_0 h W4

/-- The last layer: product and normalisation. -/
def last (h : FVec Ideal S8192x4096 .f32) (W4 : FVec Ideal S10x4096 .f32) (g4 b4 : FVec Ideal S10 .f32) :
    FVec Ideal S8192x10 .f32 :=
  norm f10 (ylast h W4) dofI g4 b4

/-- The whole network as the reference's operations compose it. -/
def refTerm (X : FVec Ideal S8192x784 .f32) (W1 : FVec Ideal S4096x784 .f32) (W2 W3 : FVec Ideal S4096x4096 .f32)
    (W4 : FVec Ideal S10x4096 .f32) (g1 b1 g2 b2 g3 b3 : FVec Ideal S4096 .f32) (g4 b4 : FVec Ideal S10 .f32) :
    FVec Ideal S8192x10 .f32 :=
  last (mid (mid (first X W1 g1 b1) W2 g2 b2) W3 g3 b3) W4 g4 b4

/-! ## Each layer, entry by entry -/

theorem first_fun (X : FVec Ideal S8192x784 .f32) (W1 : FVec Ideal S4096x784 .f32) (g1 b1 : FVec Ideal S4096 .f32) :
    (fun (p : Fin 8192) (k : Fin 4096) => first X W1 g1 b1 (ix2 p k))
      = Cert.Bnn.actR dof (Cert.Bnn.mm (fun p k => X (ix2 p k)) (fun j k => Cert.Bnn.ste (W1 (ix2 j k))))
          (fun j => g1 (ix1 j)) (fun j => b1 (ix1 j)) :=
  (act_norm_fun f4096 (y0 X W1) dofI g1 b1).trans
    (congrArg (fun y => Cert.Bnn.actR dof y (fun j => g1 (ix1 j)) (fun j => b1 (ix1 j)))
      (prod_fun _ dot784_plain transposes_S4096x784_S784x4096_1_0 X W1))

theorem mid_fun (h : FVec Ideal S8192x4096 .f32) (W : FVec Ideal S4096x4096 .f32) (g b : FVec Ideal S4096 .f32) :
    (fun (p : Fin 8192) (k : Fin 4096) => mid h W g b (ix2 p k))
      = Cert.Bnn.actR dof (Cert.Bnn.mm (fun p k => h (ix2 p k)) (fun j k => Cert.Bnn.ste (W (ix2 j k))))
          (fun j => g (ix1 j)) (fun j => b (ix1 j)) :=
  (act_norm_fun f4096 (ymid h W) dofI g b).trans
    (congrArg (fun y => Cert.Bnn.actR dof y (fun j => g (ix1 j)) (fun j => b (ix1 j)))
      (prod_fun _ dot4096_plain transposes_S4096x4096_S4096x4096_1_0 h W))

theorem last_fun (h : FVec Ideal S8192x4096 .f32) (W4 : FVec Ideal S10x4096 .f32) (g4 b4 : FVec Ideal S10 .f32) :
    (fun (p : Fin 8192) (j : Fin 10) => last h W4 g4 b4 (ix2 p j))
      = Cert.Bnn.bnR dof (Cert.Bnn.mm (fun p k => h (ix2 p k)) (fun j k => Cert.Bnn.ste (W4 (ix2 j k))))
          (fun j => g4 (ix1 j)) (fun j => b4 (ix1 j)) :=
  (norm_fun f10 (ylast h W4) dofI g4 b4).trans
    (congrArg (fun y => Cert.Bnn.bnR dof y (fun j => g4 (ix1 j)) (fun j => b4 (ix1 j)))
      (prod_fun _ dot10_plain transposes_S10x4096_S4096x10_1_0 h W4))

/-! ## The whole network -/

/-- The composed array is the specification's network of the argument arrays read by coordinates. -/
theorem refTerm_fun (X : FVec Ideal S8192x784 .f32) (W1 : FVec Ideal S4096x784 .f32) (W2 W3 : FVec Ideal S4096x4096 .f32)
    (W4 : FVec Ideal S10x4096 .f32) (g1 b1 g2 b2 g3 b3 : FVec Ideal S4096 .f32) (g4 b4 : FVec Ideal S10 .f32) :
    (fun (p : Fin 8192) (j : Fin 10) => refTerm X W1 W2 W3 W4 g1 b1 g2 b2 g3 b3 g4 b4 (ix2 p j))
      = Cert.Bnn.refOut dof (fun p k => X (ix2 p k)) (fun j k => W1 (ix2 j k)) (fun j k => W2 (ix2 j k))
          (fun j k => W3 (ix2 j k)) (fun j k => W4 (ix2 j k)) (fun j => g1 (ix1 j)) (fun j => b1 (ix1 j))
          (fun j => g2 (ix1 j)) (fun j => b2 (ix1 j)) (fun j => g3 (ix1 j)) (fun j => b3 (ix1 j))
          (fun j => g4 (ix1 j)) (fun j => b4 (ix1 j)) := by
  unfold refTerm
  rw [last_fun, mid_fun, mid_fun, first_fun]
  rfl

theorem refTerm_apply (X : FVec Ideal S8192x784 .f32) (W1 : FVec Ideal S4096x784 .f32) (W2 W3 : FVec Ideal S4096x4096 .f32)
    (W4 : FVec Ideal S10x4096 .f32) (g1 b1 g2 b2 g3 b3 : FVec Ideal S4096 .f32) (g4 b4 : FVec Ideal S10 .f32)
    (p : Fin 8192) (j : Fin 10) :
    refTerm X W1 W2 W3 W4 g1 b1 g2 b2 g3 b3 g4 b4 (ix2 p j)
      = Cert.Bnn.refOut dof (fun p k => X (ix2 p k)) (fun j k => W1 (ix2 j k)) (fun j k => W2 (ix2 j k))
          (fun j k => W3 (ix2 j k)) (fun j k => W4 (ix2 j k)) (fun j => g1 (ix1 j)) (fun j => b1 (ix1 j))
          (fun j => g2 (ix1 j)) (fun j => b2 (ix1 j)) (fun j => g3 (ix1 j)) (fun j => b3 (ix1 j))
          (fun j => g4 (ix1 j)) (fun j => b4 (ix1 j)) p j :=
  congrFun (congrFun (refTerm_fun X W1 W2 W3 W4 g1 b1 g2 b2 g3 b3 g4 b4) p) j

/-- The same as one equation between arrays. -/
theorem refTerm_eq (X : FVec Ideal S8192x784 .f32) (W1 : FVec Ideal S4096x784 .f32) (W2 W3 : FVec Ideal S4096x4096 .f32)
    (W4 : FVec Ideal S10x4096 .f32) (g1 b1 g2 b2 g3 b3 : FVec Ideal S4096 .f32) (g4 b4 : FVec Ideal S10 .f32) :
    refTerm X W1 W2 W3 W4 g1 b1 g2 b2 g3 b3 g4 b4
      = fun i : S8192x10.Idx =>
        Cert.Bnn.refOut dof (fun p k => X (ix2 p k)) (fun j k => W1 (ix2 j k)) (fun j k => W2 (ix2 j k))
          (fun j k => W3 (ix2 j k)) (fun j k => W4 (ix2 j k)) (fun j => g1 (ix1 j)) (fun j => b1 (ix1 j))
          (fun j => g2 (ix1 j)) (fun j => b2 (ix1 j)) (fun j => g3 (ix1 j)) (fun j => b3 (ix1 j))
          (fun j => g4 (ix1 j)) (fun j => b4 (ix1 j)) (i 0) (i 1) :=
  funext fun i => by
    obtain ⟨p, j, rfl⟩ : ∃ (p : Fin 8192) (j : Fin 10), i = ix2 p j := ⟨i 0, i 1, eq_ix2 i⟩
    exact refTerm_apply X W1 W2 W3 W4 g1 b1 g2 b2 g3 b3 g4 b4 p j

end Cert.ReferenceIdeal.RefRead

end
-- ==== Proof.RefRun2.lean ====
/-
  The reference's run stated at the extended reals, its result the composed term as the layer-by-layer reading of the
  operations names it: every weakly fair execution of the reference terminates with the result buffer at that term of
  the thirteen argument arrays and the arguments unchanged.
-/
import proofs.«144054_j58213986730442_2_alg».proof.Proof.RefRun
import proofs.«144054_j58213986730442_2_alg».proof.Proof.RefRead2

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- The composed term is the layer-by-layer term: both unfold to the same operations in the same order (the
    binarisation of a hidden layer's signs is read here with the product that consumes it, there with the layer that
    produces it). -/
theorem resOf_eq_refTerm (x : Arr Ideal S8192x784) (w1 : Arr Ideal S4096x784) (w2 : Arr Ideal S4096x4096) (w3 : Arr Ideal S4096x4096) (w4 : Arr Ideal S10x4096) (g1 : Arr Ideal S4096) (b1 : Arr Ideal S4096) (g2 : Arr Ideal S4096) (b2 : Arr Ideal S4096) (g3 : Arr Ideal S4096) (b3 : Arr Ideal S4096) (g4 : Arr Ideal S10) (b4 : Arr Ideal S10) :
    resOf (F := Ideal) x w1 w2 w3 w4 g1 b1 g2 b2 g3 b3 g4 b4 = Cert.ReferenceIdeal.RefRead.refTerm x w1 w2 w3 w4 g1 b1 g2 b2 g3 b3 g4 b4 := rfl

/-- The result: the layer-by-layer term of the thirteen argument arrays at launch. -/
def res (m : (ℓ : Loc nD τ sig) → Buf (Elt Ideal) ℓ) (c : Dev nD) : Buf (Elt Ideal) ((c.tc : Thread nD τ).loc main_v107) :=
  Cert.ReferenceIdeal.RefRead.refTerm (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))

/-- On the device, from any memory with zero counters: every weakly fair execution of the reference's @main
    terminates with the result at `res` and the thirteen arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v107) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v107).trans ((after_ops_v107 (launchContents m c)).trans (resOf_eq_refTerm ..)),
      (h c main_arg0).trans (keep_ops _ main_arg0 (by decide) (by decide) (by decide) (by decide) (by decide) (by decide)),
      (h c main_arg1).trans (keep_ops _ main_arg1 (by decide) (by decide) (by decide) (by decide) (by decide) (by decide)),
      (h c main_arg2).trans (keep_ops _ main_arg2 (by decide) (by decide) (by decide) (by decide) (by decide) (by decide)),
      (h c main_arg3).trans (keep_ops _ main_arg3 (by decide) (by decide) (by decide) (by decide) (by decide) (by decide)),
      (h c main_arg4).trans (keep_ops _ main_arg4 (by decide) (by decide) (by decide) (by decide) (by decide) (by decide)),
      (h c main_arg5).trans (keep_ops _ main_arg5 (by decide) (by decide) (by decide) (by decide) (by decide) (by decide)),
      (h c main_arg6).trans (keep_ops _ main_arg6 (by decide) (by decide) (by decide) (by decide) (by decide) (by decide)),
      (h c main_arg7).trans (keep_ops _ main_arg7 (by decide) (by decide) (by decide) (by decide) (by decide) (by decide)),
      (h c main_arg8).trans (keep_ops _ main_arg8 (by decide) (by decide) (by decide) (by decide) (by decide) (by decide)),
      (h c main_arg9).trans (keep_ops _ main_arg9 (by decide) (by decide) (by decide) (by decide) (by decide) (by decide)),
      (h c main_arg10).trans (keep_ops _ main_arg10 (by decide) (by decide) (by decide) (by decide) (by decide) (by decide)),
      (h c main_arg11).trans (keep_ops _ main_arg11 (by decide) (by decide) (by decide) (by decide) (by decide) (by decide)),
      (h c main_arg12).trans (keep_ops _ main_arg12 (by decide) (by decide) (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.Algebra.lean ====
/-
  The two arrangements of the network in the shared specification agree on real-valued inputs at batch size 8192:
  the straight-through binarisation of a real is its sign, the sign of a sign is that sign, a column mean over
  8192 rows is the column sum times 2⁻¹³, and the mean of squared deviations is the mean of squares minus the
  square of the mean, which is never negative.
-/
import proofs.«144054_j58213986730442_2_alg».proof.Proof.Spec
import Idealize.ShloMosaic.PureOps.Ideal.Laws

noncomputable section

namespace Cert.Bnn

open Idealize.ShloMosaic

/-! ### The words -/

theorem w0_eq : w0 = 0 := Ideal.ofBits_zero_f32

theorem w1_eq : w1 = 1 := by
  simp [w1, Ideal.ofBits, Ideal.ieee, -EReal.coe_mul]; norm_num

theorem wm1_eq : wm1 = -1 := by
  simp [wm1, Ideal.ofBits, Ideal.ieee, -EReal.coe_mul]; norm_num

theorem wN_eq : wN = ((8192 : ℝ) : EReal) := by
  simp [wN, Ideal.ofBits, Ideal.ieee, -EReal.coe_mul]; norm_num

theorem wInvN_eq : wInvN = ((1 / 8192 : ℝ) : EReal) := by
  simp [wInvN, Ideal.ofBits, Ideal.ieee, -EReal.coe_mul]; norm_num

/-! ### Signs -/

/-- The order-test sign is the sign function, at every extended real. -/
theorem sgnK_eq_sign (z : EReal) : sgnK z = Ideal.sign z := Ideal.jnp_sign_eq_sign_f32 z

/-- A sign is a real number. -/
theorem sign_real (z : EReal) : ∃ r : ℝ, Ideal.sign z = (r : EReal) := by
  induction z using EReal.rec with
  | bot => exact ⟨-1, by simp⟩
  | top => exact ⟨1, by simp⟩
  | coe r => exact ⟨(SignType.sign r : ℝ), rfl⟩

/-- The sign of a sign is that sign. -/
theorem sign_sign (z : EReal) : Ideal.sign (Ideal.sign z) = Ideal.sign z := by
  rcases lt_trichotomy z 0 with h | h | h
  · rw [Ideal.sign_of_neg h]; exact Ideal.sign_of_neg (by norm_num)
  · rw [h, Ideal.sign_zero, Ideal.sign_zero]
  · rw [Ideal.sign_of_pos h]; exact Ideal.sign_of_pos (by norm_num)

/-- On a real the straight-through binarisation h + (sign h − h) is the sign. -/
theorem ste_coe (r : ℝ) : ste (r : EReal) = Ideal.sign (r : EReal) := by
  unfold ste
  rw [Ideal.sign_coe, ← EReal.coe_sub, ← EReal.coe_add]
  congr 1
  ring

theorem ste_eq_sgnK_of_real {w : EReal} (hw : ∃ r : ℝ, w = (r : EReal)) : ste w = sgnK w := by
  obtain ⟨r, rfl⟩ := hw
  rw [ste_coe, sgnK_eq_sign]

/-- The straight-through binarisation of a sign is the order-test sign, at every extended real. -/
theorem ste_sign (z : EReal) : ste (Ideal.sign z) = sgnK z := by
  obtain ⟨r, hr⟩ := sign_real z
  rw [hr, ste_coe, ← hr, sign_sign, sgnK_eq_sign]

theorem sgnK_real (z : EReal) : ∃ r : ℝ, sgnK z = (r : EReal) := by
  rw [sgnK_eq_sign]; exact sign_real z

/-! ### Finite sums of reals -/

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A product of real-valued matrices is real-valued. -/
theorem mm_real {B K N : Nat} (a : Fin B → Fin K → EReal) (w : Fin N → Fin K → EReal)
    (ha : ∀ p k, ∃ r : ℝ, a p k = (r : EReal)) (hw : ∀ j k, ∃ r : ℝ, w j k = (r : EReal)) :
    ∀ p j, ∃ r : ℝ, mm a w p j = (r : EReal) := by
  choose a' ha' using ha
  choose w' hw' using hw
  intro p j
  refine ⟨∑ k, a' p k * w' j k, ?_⟩
  unfold mm
  simp only [ha', hw', ← EReal.coe_mul, coe_sum]

/-! ### The batch statistics over 8192 rows -/

/-- The count test of the reference's variance holds. -/
theorem cmp_count : Ideal.cmp .ogt (wN - 0) w0 = 1#1 := by
  rw [sub_zero, wN_eq, w0_eq]
  simp [Ideal.cmp]

/-- The reference's mean is the column sum times 2⁻¹³. -/
theorem meanR_eq {N : Nat} (y : Fin 8192 → Fin N → EReal) (j : Fin N) : meanR y j = colSum y j * wInvN := by
  unfold meanR colSum
  rw [w0_eq, zero_add, wN_eq, wInvN_eq, Ideal.div_coe (by norm_num)]

/-- Over the reals: the mean of squared deviations is the mean of squares minus the square of the mean. -/
theorem var_identity (n : ℕ) (c : ℝ) (hc : (n : ℝ) * c = 1) (y : Fin n → ℝ) :
    (∑ p, (y p - (∑ p, y p) * c) * (y p - (∑ p, y p) * c)) * c
      = (∑ p, y p * y p) * c - ((∑ p, y p) * c) * ((∑ p, y p) * c) := by
  have h : ∀ m : ℝ, (∑ p, (y p - m) * (y p - m)) = (∑ p, y p * y p) - 2 * m * (∑ p, y p) + (n : ℝ) * (m * m) := by
    intro m
    have : ∀ p, (y p - m) * (y p - m) = y p * y p - 2 * m * y p + m * m := fun p => by ring
    simp only [this, Finset.sum_add_distrib, Finset.sum_sub_distrib, ← Finset.mul_sum, Finset.sum_const,
      Finset.card_univ, Fintype.card_fin, nsmul_eq_mul]
    ring
  rw [h]
  linear_combination ((∑ p, y p) * c * ((∑ p, y p) * c)) * hc

/-- The reference's variance at a real-valued product: mean of squares minus square of mean, cut at zero. -/
theorem varR_eq {N : Nat} (y : Fin 8192 → Fin N → EReal) (hy : ∀ p j, ∃ r : ℝ, y p j = (r : EReal)) (j : Fin N) :
    varR 0 y j = max (colSumSq y j * wInvN - (colSum y j * wInvN) * (colSum y j * wInvN)) w0 := by
  choose y' hy' using hy
  have hc : ((8192 : ℕ) : ℝ) * (1 / 8192 : ℝ) = 1 := by norm_num
  have hid := var_identity 8192 (1 / 8192) hc (fun p => y' p j)
  have hnn : 0 ≤ (∑ p, (y' p j - (∑ p, y' p j) * (1 / 8192)) * (y' p j - (∑ p, y' p j) * (1 / 8192))) * (1 / 8192 : ℝ) :=
    mul_nonneg (Finset.sum_nonneg fun p _ => mul_self_nonneg _) (by norm_num)
  unfold varR
  rw [cmp_count, Scalar.select, if_pos (by decide), sub_zero, meanR_eq]
  unfold colSum colSumSq
  rw [w0_eq, zero_add, wN_eq, wInvN_eq, Ideal.div_coe (by norm_num)]
  simp only [hy', ← EReal.coe_mul, ← EReal.coe_sub, coe_sum]
  rw [← EReal.coe_zero, ← EReal.coe_strictMono.monotone.map_max, ← hid, max_eq_left hnn]

/-- On a real-valued product over 8192 rows the two batch normalisations agree, whatever the scale and shift. -/
theorem bnR_eq_bnK {N : Nat} (y : Fin 8192 → Fin N → EReal) (hy : ∀ p j, ∃ r : ℝ, y p j = (r : EReal))
    (g b : Fin N → EReal) : bnR 0 y g b = bnK y (colSum y) (colSumSq y) g b := by
  funext p j
  unfold bnR bnK
  rw [meanR_eq, varR_eq y hy]

/-- One hidden transition: the two arrangements agree on a real-valued product. -/
theorem actR_eq_actK {N : Nat} (y : Fin 8192 → Fin N → EReal) (hy : ∀ p j, ∃ r : ℝ, y p j = (r : EReal))
    (g b : Fin N → EReal) : actR 0 y g b = actK y g b := by
  funext p j
  unfold actR actK
  rw [ste_sign, bnR_eq_bnK y hy]

theorem actK_real {B N : Nat} (y : Fin B → Fin N → EReal) (g b : Fin N → EReal) :
    ∀ p j, ∃ r : ℝ, actK y g b p j = (r : EReal) := fun _ _ => sgnK_real _

theorem ste_weights {N K : Nat} (W : Fin N → Fin K → EReal) (hW : ∀ j k, ∃ r : ℝ, W j k = (r : EReal)) :
    (fun j k => ste (W j k)) = fun j k => sgnK (W j k) := by
  funext j k
  exact ste_eq_sgnK_of_real (hW j k)

/-- The next product after a hidden transition is real-valued, whatever came before. -/
theorem layer_real {B N M : Nat} (y : Fin B → Fin N → EReal) (g b : Fin N → EReal) (W : Fin M → Fin N → EReal) :
    ∀ p j, ∃ r : ℝ, mm (actK y g b) (fun j k => sgnK (W j k)) p j = (r : EReal) :=
  mm_real _ _ (actK_real y g b) (fun _ _ => sgnK_real _)

/-! ### The network -/

theorem refOut_eq_kernelOut {D0 D1 D2 D3 D4 : Nat}
    (x : Fin 8192 → Fin D0 → EReal) (W1 : Fin D1 → Fin D0 → EReal) (W2 : Fin D2 → Fin D1 → EReal)
    (W3 : Fin D3 → Fin D2 → EReal) (W4 : Fin D4 → Fin D3 → EReal)
    (g1 b1 : Fin D1 → EReal) (g2 b2 : Fin D2 → EReal) (g3 b3 : Fin D3 → EReal) (g4 b4 : Fin D4 → EReal)
    (hx : ∀ p k, ∃ r : ℝ, x p k = (r : EReal)) (hW1 : ∀ j k, ∃ r : ℝ, W1 j k = (r : EReal))
    (hW2 : ∀ j k, ∃ r : ℝ, W2 j k = (r : EReal)) (hW3 : ∀ j k, ∃ r : ℝ, W3 j k = (r : EReal))
    (hW4 : ∀ j k, ∃ r : ℝ, W4 j k = (r : EReal)) :
    refOut (0 : EReal) x W1 W2 W3 W4 g1 b1 g2 b2 g3 b3 g4 b4 = kernelOut x W1 W2 W3 W4 g1 b1 g2 b2 g3 b3 g4 b4 := by
  unfold refOut kernelOut
  simp only [ste_weights W1 hW1, ste_weights W2 hW2, ste_weights W3 hW3, ste_weights W4 hW4]
  have h0 := mm_real x (fun j k => sgnK (W1 j k)) hx (fun _ _ => sgnK_real _)
  rw [actR_eq_actK _ h0]
  have h1 := layer_real (mm x fun j k => sgnK (W1 j k)) g1 b1 W2
  rw [actR_eq_actK _ h1]
  have h2 := layer_real (mm (actK (mm x fun j k => sgnK (W1 j k)) g1 b1) fun j k => sgnK (W2 j k)) g2 b2 W3
  rw [actR_eq_actK _ h2]
  exact bnR_eq_bnK _ (layer_real _ g3 b3 W4) g4 b4

end Cert.Bnn

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.Finite.lean ====
/-
  From the finiteness precondition to real entries. The precondition is the conjunction, over the thirteen input
  arrays, of "every entry a has |a| < +∞"; on the extended reals |a| = max a (−a) is +∞ exactly at the two
  infinities, so each conjunct says every entry of that array is a real number.
-/
import proofs.«144054_j58213986730442_2_alg».proof.Defs
import proofs.«144054_j58213986730442_2_alg».proof.Proof.Gen.Pre_finite_inputs
import proofs.«144054_j58213986730442_2_alg».proof.Proof.LibRealEntries
import Idealize.ShloMosaic.Lib.ReduceAll
import Idealize.ShloMosaic.Lib.ValueIdx

noncomputable section

namespace Cert.Finite

open Idealize.ShloMosaic Idealize.SL.Sem Cert.Pre_finite_inputs

instance : Subsingleton S_.Idx := ⟨fun a b => funext fun d => d.elim0⟩

/-- One conjunct: if the conjunction over all entries of |a| < +∞ is true, every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) :
    ∀ i, ∃ r : ℝ, a i = (r : EReal) := fun i =>
  Cert.RealEntries.real_of_abs_lt (a i) (Host.reduce_andi_all _ _ hr hu _ e i)

variable [Facts]

/-- The printed precondition, read back: all thirteen arrays are real-valued. -/
theorem fn_real (a0 : FVec Ideal S8192x784 .f32) (a1 : FVec Ideal S4096x784 .f32) (a2 : FVec Ideal S4096x4096 .f32) (a3 : FVec Ideal S4096x4096 .f32) (a4 : FVec Ideal S10x4096 .f32) (a5 : FVec Ideal S4096 .f32) (a6 : FVec Ideal S4096 .f32) (a7 : FVec Ideal S4096 .f32) (a8 : FVec Ideal S4096 .f32) (a9 : FVec Ideal S4096 .f32) (a10 : FVec Ideal S4096 .f32) (a11 : FVec Ideal S10 .f32) (a12 : FVec Ideal S10 .f32)
    (h : fn (F := Ideal) a0 a1 a2 a3 a4 a5 a6 a7 a8 a9 a10 a11 a12 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal)) := by
  have h0 := congrFun h ValueIdx.ix0
  dsimp only [fn, fn_part1, fn_part2, fn_part3, andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨all_real a0 _ _ _ e0,
    all_real a1 _ _ _ e1,
    all_real a2 _ _ _ e2,
    all_real a3 _ _ _ e3,
    all_real a4 _ _ _ e4,
    all_real a5 _ _ _ e5,
    all_real a6 _ _ _ e6,
    all_real a7 _ _ _ e7,
    all_real a8 _ _ _ e8,
    all_real a9 _ _ _ e9,
    all_real a10 _ _ _ e10,
    all_real a11 _ _ _ e11,
    all_real a12 _ _ _ e12⟩

end Cert.Finite

namespace Cert.Finite

open Idealize.ShloMosaic Idealize.SL.Sem

/-- Under the certificate's precondition every entry of every input array is a real number, on every device. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, ((m ((c.tc : Thread Cert.KernelIdeal.nD Cert.KernelIdeal.τ).loc Cert.KernelIdeal.main_arg0)) : FVec Ideal Cert.Pre_finite_inputs.S8192x784 .f32) i = (r : EReal))
      ∧ (∀ i, ∃ r : ℝ, ((m ((c.tc : Thread Cert.KernelIdeal.nD Cert.KernelIdeal.τ).loc Cert.KernelIdeal.main_arg1)) : FVec Ideal Cert.Pre_finite_inputs.S4096x784 .f32) i = (r : EReal))
      ∧ (∀ i, ∃ r : ℝ, ((m ((c.tc : Thread Cert.KernelIdeal.nD Cert.KernelIdeal.τ).loc Cert.KernelIdeal.main_arg2)) : FVec Ideal Cert.Pre_finite_inputs.S4096x4096 .f32) i = (r : EReal))
      ∧ (∀ i, ∃ r : ℝ, ((m ((c.tc : Thread Cert.KernelIdeal.nD Cert.KernelIdeal.τ).loc Cert.KernelIdeal.main_arg3)) : FVec Ideal Cert.Pre_finite_inputs.S4096x4096 .f32) i = (r : EReal))
      ∧ (∀ i, ∃ r : ℝ, ((m ((c.tc : Thread Cert.KernelIdeal.nD Cert.KernelIdeal.τ).loc Cert.KernelIdeal.main_arg4)) : FVec Ideal Cert.Pre_finite_inputs.S10x4096 .f32) i = (r : EReal))
      ∧ (∀ i, ∃ r : ℝ, ((m ((c.tc : Thread Cert.KernelIdeal.nD Cert.KernelIdeal.τ).loc Cert.KernelIdeal.main_arg5)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg6)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg7)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg8)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg9)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg10)) : FVec Ideal Cert.Pre_finite_inputs.S4096 .f32) i = (r : EReal))
      ∧ (∀ i, ∃ r : ℝ, ((m ((c.tc : Thread Cert.KernelIdeal.nD Cert.KernelIdeal.τ).loc Cert.KernelIdeal.main_arg11)) : FVec Ideal Cert.Pre_finite_inputs.S10 .f32) i = (r : EReal))
      ∧ (∀ i, ∃ r : ℝ, ((m ((c.tc : Thread Cert.KernelIdeal.nD Cert.KernelIdeal.τ).loc Cert.KernelIdeal.main_arg12)) : FVec Ideal Cert.Pre_finite_inputs.S10 .f32) i = (r : EReal)) :=
  fn_real _ _ _ _ _ _ _ _ _ _ _ _ _ (h c)

/-! Each array on its own. -/

theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (inputs_real m h c).1

theorem arg1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (inputs_real m h c).2.1

theorem arg2_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (inputs_real m h c).2.2.1

theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (inputs_real m h c).2.2.2.1

theorem arg4_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (inputs_real m h c).2.2.2.2.1

theorem arg5_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (inputs_real m h c).2.2.2.2.2.1

theorem arg6_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (inputs_real m h c).2.2.2.2.2.2.1

theorem arg7_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (inputs_real m h c).2.2.2.2.2.2.2.1

theorem arg8_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (inputs_real m h c).2.2.2.2.2.2.2.2.1

theorem arg9_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (inputs_real m h c).2.2.2.2.2.2.2.2.2.1

theorem arg10_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (inputs_real m h c).2.2.2.2.2.2.2.2.2.2.1

theorem arg11_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (inputs_real m h c).2.2.2.2.2.2.2.2.2.2.2.1

theorem arg12_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (inputs_real m h c).2.2.2.2.2.2.2.2.2.2.2.2

end Cert.Finite

end
-- ==== Proof.lean ====
/-
  Two programs for one binarised perceptron with batch normalisation, equal on the extended reals.

  The kernel binarises each weight matrix by an order test (−1, 1, or the entry itself at zero), multiplies the
  activations by the binarised weights tile by tile while accumulating each column's sum and sum of squares over the
  batch, normalises the next layer's input from those two sums — mean s·2⁻¹³, variance max(q·2⁻¹³ − mean², 0) — and
  takes signs by the same order test. The reference binarises through h + (sign h − h), takes the variance as the
  mean of squared deviations over a count it checks to be positive, and normalises with the same expression. Over
  the extended reals, for real inputs: h + (sign h − h) is sign h, which is the order test; every product is real,
  so the mean of squared deviations is the mean of squares minus the squared mean, never negative, and the count
  8192 − 0 is positive; 2⁻¹³ is exactly 1/8192. Layer by layer the two networks are then one function of the
  thirteen arguments. The precondition is used exactly there: the activations and the four weight matrices are real.

  The three frames: the two kernels' are their frame proofs, region by region over the fold of boundary contents;
  the reference's is its run with the result dropped. The seven idealisation steps are all the sign-bit rule's
  statement at the shape of each site.
-/
import proofs.«144054_j58213986730442_2_alg».proof.Defs
import proofs.«144054_j58213986730442_2_alg».proof.Proof.Gen.Kernel
import proofs.«144054_j58213986730442_2_alg».proof.Proof.Gen.Kernel.Frame
import proofs.«144054_j58213986730442_2_alg».proof.Proof.Gen.KernelIdeal
import proofs.«144054_j58213986730442_2_alg».proof.Proof.Gen.KernelIdeal.Frame
import proofs.«144054_j58213986730442_2_alg».proof.Proof.Gen.ReferenceIdeal
import proofs.«144054_j58213986730442_2_alg».proof.Proof.Gen.Pre_finite_inputs
import proofs.«144054_j58213986730442_2_alg».proof.Proof.KAssemble
import proofs.«144054_j58213986730442_2_alg».proof.Proof.RefRun2
import proofs.«144054_j58213986730442_2_alg».proof.Proof.Algebra
import proofs.«144054_j58213986730442_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Each of the seven sites replaces "1.0 with the operand's sign bit" by the choice between −1 and 1 on the test
    operand < 0: the rule's statement at the site's shape. -/
theorem preserves : Cert.preserves_Kernel_KernelIdeal :=
  ⟨IdealRules.sign_bit.statement Cert.KernelIdeal.S256x784 .f32,
   IdealRules.sign_bit.statement Cert.KernelIdeal.S256x4096 .f32,
   IdealRules.sign_bit.statement Cert.KernelIdeal.S256x4096 .f32,
   IdealRules.sign_bit.statement Cert.KernelIdeal.S10x4096 .f32,
   IdealRules.sign_bit.statement Cert.KernelIdeal.S256x4096 .f32,
   IdealRules.sign_bit.statement Cert.KernelIdeal.S256x4096 .f32,
   IdealRules.sign_bit.statement Cert.KernelIdeal.S256x4096 .f32⟩

/-- Both runs end; the kernel's result array is the network written its way, the reference's the network written
    the reference's way, of arguments that agree; for real activations and weights these are one function. -/
theorem algebraic : Cert.algebraic_KernelIdeal_ReferenceIdeal := by
  intro m ρ m' ρ' hpre hagree
  refine ⟨fun c => Cert.KernelIdeal.Gen.W13 m ρ c (Proc.devRef .tc Cert.KernelIdeal.main_v16),
    Cert.KernelIdeal.KVal.run_named (F := Ideal) m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12⟩ := hagree c
  obtain ⟨r0, r1, r2, r3, r4, -⟩ := Cert.Finite.inputs_real m hpre c
  unfold Cert.ReferenceIdeal.RefValue.res
  rw [e0, e1, e2, e3, e4, e5, e6, e7, e8, e9, e10, e11, e12]
  funext i
  obtain ⟨p, j, rfl⟩ : ∃ (p : Fin 8192) (j : Fin 10), i = ix2 p j := ⟨i 0, i 1, eq_ix2 i⟩
  refine (Cert.ReferenceIdeal.RefRead.refTerm_apply _ _ _ _ _ _ _ _ _ _ _ _ _ p j).trans ?_
  rw [Cert.ReferenceIdeal.RefRead.dof_eq_zero]
  refine Eq.trans ?_ (Cert.KernelIdeal.KVal.result_apply m ρ c p j).symm
  exact congrFun (congrFun (Cert.Bnn.refOut_eq_kernelOut _ _ _ _ _ _ _ _ _ _ _ _ _
    (fun p k => r0 (ix2 p k)) (fun j k => r1 (ix2 j k)) (fun j k => r2 (ix2 j k)) (fun j k => r3 (ix2 j k))
    (fun j k => r4 (ix2 j k))) p) j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
